-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.named_const.Statement Cert.KernelIdeal.κ "c_2_3" .f32 0x3F2AAAAB#32 ((2 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v357) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000x256 : Shape := ⟨2, ![5000, 256]⟩
abbrev S5000x5000 : Shape := ⟨2, ![5000, 5000]⟩
abbrev S4x256x32 : Shape := ⟨3, ![4, 256, 32]⟩
abbrev S4x64x1 : Shape := ⟨3, ![4, 64, 1]⟩
abbrev S256 : Shape := ⟨1, ![256]⟩
abbrev S32 : Shape := ⟨1, ![32]⟩
abbrev S128x10 : Shape := ⟨2, ![128, 10]⟩
abbrev S10 : Shape := ⟨1, ![10]⟩
abbrev S_ : Shape := ⟨0, ![]⟩

class Facts : Prop where
  bcast_S_S5000x256 : S_.BroadcastsInDim S5000x256 (![] : Fin 0 → Fin S5000x256.rank)
  reducesTo_S5000x256_S_d0_1 : S5000x256.ReducesTo [0, 1] S_
  h_S_ : 0 < S_.numel
  bcast_S_S5000x5000 : S_.BroadcastsInDim S5000x5000 (![] : Fin 0 → Fin S5000x5000.rank)
  reducesTo_S5000x5000_S_d0_1 : S5000x5000.ReducesTo [0, 1] S_
  bcast_S_S4x256x32 : S_.BroadcastsInDim S4x256x32 (![] : Fin 0 → Fin S4x256x32.rank)
  reducesTo_S4x256x32_S_d0_1_2 : S4x256x32.ReducesTo [0, 1, 2] S_
  bcast_S_S4x64x1 : S_.BroadcastsInDim S4x64x1 (![] : Fin 0 → Fin S4x64x1.rank)
  reducesTo_S4x64x1_S_d0_1_2 : S4x64x1.ReducesTo [0, 1, 2] S_
  bcast_S_S256 : S_.BroadcastsInDim S256 (![] : Fin 0 → Fin S256.rank)
  reducesTo_S256_S_d0 : S256.ReducesTo [0] S_
  bcast_S_S32 : S_.BroadcastsInDim S32 (![] : Fin 0 → Fin S32.rank)
  reducesTo_S32_S_d0 : S32.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S32 .f32) (main_arg12 : FVec F S128x10 .f32) (main_arg13 : FVec F S10 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S128x10 .f32 := Host.absf main_arg12
  let main_cst_22 : FVec F S_ .f32 := constant S_ .f32 0x7F800000#32
  let main_v60 : FVec F S128x10 .f32 := broadcastInDim S128x10 ![] bcast_S_S128x10 main_cst_22
  let main_v61 : IVec S128x10 1 := cmpf .olt main_v59 main_v60
  let main_c_23 : IVec S_ 1 := constantI S_ 1 1#1
  let main_v62 : IVec S_ 1 := (fun x v => Host.reduce IntOp.andi x v reducesTo_S128x10_S_d0_1 h_S_) main_v61 main_c_23
  let main_v63 : IVec S_ 1 := andi main_v58 main_v62
  let main_v64 : FVec F S10 .f32 := Host.absf main_arg13
  let main_cst_24 : FVec F S_ .f32 := constant S_ .f32 0x7F800000#32
  let main_v65 : FVec F S10 .f32 := broadcastInDim S10 ![] bcast_S_S10 main_cst_24
  let main_v66 : IVec S10 1 := cmpf .olt main_v64 main_v65
  let main_c_25 : IVec S_ 1 := constantI S_ 1 1#1
  let main_v67 : IVec S_ 1 := (fun x v => Host.reduce IntOp.andi x v reducesTo_S10_S_d0 h_S_) main_v66 main_c_25
  fn_part4 (F := F) main_v63 main_v67

def fn_part2 {F : FTy → Type} [FloatOps F] (main_arg7 : FVec F S4x64x1 .f32) (main_arg8 : FVec F S256 .f32) (main_arg9 : FVec F S256 .f32) (main_arg10 : FVec F S32 .f32) (main_arg11 : FVec F S32 .f32) (main_arg12 : FVec F S128x10 .f32) (main_arg13 : FVec F S10 .f32) (main_v33 : IVec S_ 1) : IVec S_ 1 :=
  let main_v34 : FVec F S4x64x1 .f32 := Host.absf main_arg7
  let main_cst_12 : FVec F S_ .f32 := constant S_ .f32 0x7F800000#32
  let main_v35 : FVec F S4x64x1 .f32 := broadcastInDim S4x64x1 ![] bcast_S_S4x64x1 main_cst_12
  let main_v36 : IVec S4x64x1 1 := cmpf .olt main_v34 main_v35
  let main_c_13 : IVec S_ 1 := constantI S_ 1 1#1
  let main_v37 : IVec S_ 1 := (fun x v => Host.reduce IntOp.andi x v reducesTo_S4x64x1_S_d0_1_2 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_arg12 main_arg13 main_v48 main_v49 main_v50

def fn_part1 {F : FTy → Type} [FloatOps F] (main_arg4 : FVec F S5000x5000 .f32) (main_arg5 : FVec F S5000x5000 .f32) (main_arg6 : FVec F S4x256x32 .f32) (main_arg7 : FVec F S4x64x1 .f32) (main_arg8 : FVec F S256 .f32) (main_arg9 : FVec F S256 .f32) (main_arg10 : FVec F S32 .f32) (main_arg11 : FVec F S32 .f32) (main_arg12 : FVec F S128x10 .f32) (main_arg13 : FVec F S10 .f32) (main_v13 : IVec S_ 1) (main_v16 : IVec S5000x5000 1) : IVec S_ 1 :=
  let main_c_5 : IVec S_ 1 := constantI S_ 1 1#1
  let main_v17 : IVec S_ 1 := (fun x v => Host.reduce IntOp.andi x v reducesTo_S5000x5000_S_d0_1 h_S_) main_v16 main_c_5
  let main_v18 : IVec S_ 1 := andi main_v13 main_v17
  let main_v19 : FVec F S5000x5000 .f32 := Host.absf main_arg4
  let main_cst_6 : FVec F S_ .f32 := constant S_ .f32 0x7F800000#32
  let main_v20 : FVec F S5000x5000 .f32 := broadcastInDim S5000x5000 ![] bcast_S_S5000x5000 main_cst_6
  let main_v21 : IVec S5000x5000 1 := cmpf .olt main_v19 main_v20
  let main_c_7 : IVec S_ 1 := constantI S_ 1 1#1
  let main_v22 : IVec S_ 1 := (fun x v => Host.reduce IntOp.andi x v reducesTo_S5000x5000_S_d0_1 h_S_) main_v21 main_c_7
  let main_v23 : IVec S_ 1 := andi main_v18 main_v22
  let main_v24 : FVec F S5000x5000 .f32 := Host.absf main_arg5
  let main_cst_8 : FVec F S_ .f32 := constant S_ .f32 0x7F800000#32
  let main_v25 : FVec F S5000x5000 .f32 := broadcastInDim S5000x5000 ![] bcast_S_S5000x5000 main_cst_8
  let main_v26 : IVec S5000x5000 1 := cmpf .olt main_v24 main_v25
  let main_c_9 : IVec S_ 1 := constantI S_ 1 1#1
  let main_v27 : IVec S_ 1 := (fun x v => Host.reduce IntOp.andi x v reducesTo_S5000x5000_S_d0_1 h_S_) main_v26 main_c_9
  let main_v28 : IVec S_ 1 := andi main_v23 main_v27
  let main_v29 : FVec F S4x256x32 .f32 := Host.absf main_arg6
  let main_cst_10 : FVec F S_ .f32 := constant S_ .f32 0x7F800000#32
  let main_v30 : FVec F S4x256x32 .f32 := broadcastInDim S4x256x32 ![] bcast_S_S4x256x32 main_cst_10
  let main_v31 : IVec S4x256x32 1 := cmpf .olt main_v29 main_v30
  let main_c_11 : IVec S_ 1 := constantI S_ 1 1#1
  let main_v32 : IVec S_ 1 := (fun x v => Host.reduce IntOp.andi x v reducesTo_S4x256x32_S_d0_1_2 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S5000x256 .f32) (main_arg1 : FVec F S5000x5000 .f32) (main_arg2 : FVec F S5000x5000 .f32) (main_arg3 : FVec F S5000x5000 .f32) (main_arg4 : FVec F S5000x5000 .f32) (main_arg5 : FVec F S5000x5000 .f32) (main_arg6 : FVec F S4x256x32 .f32) (main_arg7 : FVec F S4x64x1 .f32) (main_arg8 : FVec F S256 .f32) (main_arg9 : FVec F S256 .f32) (main_arg10 : FVec F S32 .f32) (main_arg11 : FVec F S32 .f32) (main_arg12 : FVec F S128x10 .f32) (main_arg13 : FVec F S10 .f32) : IVec S_ 1 :=
  let main_v0 : FVec F S5000x256 .f32 := Host.absf main_arg0
  let main_cst : FVec F S_ .f32 := constant S_ .f32 0x7F800000#32
  let main_v1 : FVec F S5000x256 .f32 := broadcastInDim S5000x256 ![] bcast_S_S5000x256 main_cst
  let main_v2 : IVec S5000x256 1 := cmpf .olt main_v0 main_v1
  let main_c : IVec S_ 1 := constantI S_ 1 1#1
  let main_v3 : IVec S_ 1 := (fun x v => Host.reduce IntOp.andi x v reducesTo_S5000x256_S_d0_1 h_S_) main_v2 main_c
  let main_v4 : FVec F S5000x5000 .f32 := Host.absf main_arg1
  let main_cst_0 : FVec F S_ .f32 := constant S_ .f32 0x7F800000#32
  let main_v5 : FVec F S5000x5000 .f32 := broadcastInDim S5000x5000 ![] bcast_S_S5000x5000 main_cst_0
  let main_v6 : IVec S5000x5000 1 := cmpf .olt main_v4 main_v5
  let main_c_1 : IVec S_ 1 := constantI S_ 1 1#1
  let main_v7 : IVec S_ 1 := (fun x v => Host.reduce IntOp.andi x v reducesTo_S5000x5000_S_d0_1 h_S_) main_v6 main_c_1
  let main_v8 : IVec S_ 1 := andi main_v3 main_v7
  let main_v9 : FVec F S5000x5000 .f32 := Host.absf main_arg2
  let main_cst_2 : FVec F S_ .f32 := constant S_ .f32 0x7F800000#32
  let main_v10 : FVec F S5000x5000 .f32 := broadcastInDim S5000x5000 ![] bcast_S_S5000x5000 main_cst_2
  let main_v11 : IVec S5000x5000 1 := cmpf .olt main_v9 main_v10
  let main_c_3 : IVec S_ 1 := constantI S_ 1 1#1
  let main_v12 : IVec S_ 1 := (fun x v => Host.reduce IntOp.andi x v reducesTo_S5000x5000_S_d0_1 h_S_) main_v11 main_c_3
  let main_v13 : IVec S_ 1 := andi main_v8 main_v12
  let main_v14 : FVec F S5000x5000 .f32 := Host.absf main_arg3
  let main_cst_4 : FVec F S_ .f32 := constant S_ .f32 0x7F800000#32
  let main_v15 : FVec F S5000x5000 .f32 := broadcastInDim S5000x5000 ![] bcast_S_S5000x5000 main_cst_4
  let main_v16 : IVec S5000x5000 1 := cmpf .olt main_v14 main_v15
  fn_part1 (F := F) main_arg4 main_arg5 main_arg6 main_arg7 main_arg8 main_arg9 main_arg10 main_arg11 main_arg12 main_arg13 main_v13 main_v16
-- ==== Kernel.lean ====
abbrev S5000x256 : Shape := ⟨2, ![5000, 256]⟩
abbrev S5000x5000 : Shape := ⟨2, ![5000, 5000]⟩
abbrev S4x256x32 : Shape := ⟨3, ![4, 256, 32]⟩
abbrev S4x64x1 : Shape := ⟨3, ![4, 64, 1]⟩
abbrev S256 : Shape := ⟨1, ![256]⟩
abbrev S32 : Shape := ⟨1, ![32]⟩
abbrev S128x10 : Shape := ⟨2, ![128, 10]⟩
abbrev S10 : Shape := ⟨1, ![10]⟩
abbrev S256x4x32 : Shape := ⟨3, ![256, 4, 32]⟩
abbrev S256x128 : Shape := ⟨2, ![256, 128]⟩
abbrev S4x32x1 : Shape := ⟨3, ![4, 32, 1]⟩
abbrev S4x32 : Shape := ⟨2, ![4, 32]⟩
abbrev S1x128 : Shape := ⟨2, ![1, 128]⟩
abbrev S1x256 : Shape := ⟨2, ![1, 256]⟩
abbrev S1x32 : Shape := ⟨2, ![1, 32]⟩
abbrev S128 : Shape := ⟨1, ![128]⟩
abbrev S1x10 : Shape := ⟨2, ![1, 10]⟩
abbrev S5000x128 : Shape := ⟨2, ![5000, 128]⟩
abbrev S200x5000 : Shape := ⟨2, ![200, 5000]⟩
abbrev S200x128 : Shape := ⟨2, ![200, 128]⟩
abbrev S128x4 : Shape := ⟨2, ![128, 4]⟩
abbrev S4x128 : Shape := ⟨2, ![4, 128]⟩
abbrev S200x4 : Shape := ⟨2, ![200, 4]⟩
abbrev S5000x10 : Shape := ⟨2, ![5000, 10]⟩
abbrev S1000x5000 : Shape := ⟨2, ![1000, 5000]⟩
abbrev S1000x10 : Shape := ⟨2, ![1000, 10]⟩
abbrev S1000 : Shape := ⟨1, ![1000]⟩
abbrev S1000x1 : Shape := ⟨2, ![1000, 1]⟩

abbrev nBuf : Space → Nat
  | .hbm => 35
  | .vmem => 27
  | .smem => 0
  | _ => 0

abbrev bufTy : (tb : Table) → Fin (tcTables nBuf tb) → BufTy
  | .hbm, ⟨0, _⟩ => ⟨S5000x256, .f32⟩
  | .hbm, ⟨1, _⟩ => ⟨S5000x5000, .f32⟩
  | .hbm, ⟨2, _⟩ => ⟨S5000x5000, .f32⟩
  | .hbm, ⟨3, _⟩ => ⟨S5000x5000, .f32⟩
  | .hbm, ⟨4, _⟩ => ⟨S5000x5000, .f32⟩
  | .hbm, ⟨5, _⟩ => ⟨S5000x5000, .f32⟩
  | .hbm, ⟨6, _⟩ => ⟨S4x256x32, .f32⟩
  | .hbm, ⟨7, _⟩ => ⟨S4x64x1, .f32⟩
  | .hbm, ⟨8, _⟩ => ⟨S256, .f32⟩
  | .hbm, ⟨9, _⟩ => ⟨S256, .f32⟩
  | .hbm, ⟨10, _⟩ => ⟨S32, .f32⟩
  | .hbm, ⟨11, _⟩ => ⟨S32, .f32⟩
  | .hbm, ⟨12, _⟩ => ⟨S128x10, .f32⟩
  | .hbm, ⟨13, _⟩ => ⟨S10, .f32⟩
  | .hbm, ⟨14, _⟩ => ⟨S256x4x32, .f32⟩
  | .hbm, ⟨15, _⟩ => ⟨S256x128, .f32⟩
  | .hbm, ⟨16, _⟩ => ⟨S4x32x1, .f32⟩
  | .hbm, ⟨17, _⟩ => ⟨S4x32, .f32⟩
  | .hbm, ⟨18, _⟩ => ⟨S1x128, .f32⟩
  | .hbm, ⟨19, _⟩ => ⟨S4x32x1, .f32⟩
  | .hbm, ⟨20, _⟩ => ⟨S4x32, .f32⟩
  | .hbm, ⟨21, _⟩ => ⟨S1x128, .f32⟩
  | .hbm, ⟨22, _⟩ => ⟨S1x256, .f32⟩
  | .hbm, ⟨23, _⟩ => ⟨S1x256, .f32⟩
  | .hbm, ⟨24, _⟩ => ⟨S1x32, .f32⟩
  | .hbm, ⟨25, _⟩ => ⟨S4x32, .f32⟩
  | .hbm, ⟨26, _⟩ => ⟨S128, .f32⟩
  | .hbm, ⟨27, _⟩ => ⟨S1x128, .f32⟩
  | .hbm, ⟨28, _⟩ => ⟨S1x32, .f32⟩
  | .hbm, ⟨29, _⟩ => ⟨S4x32, .f32⟩
  | .hbm, ⟨30, _⟩ => ⟨S128, .f32⟩
  | .hbm, ⟨31, _⟩ => ⟨S1x128, .f32⟩
  | .hbm, ⟨32, _⟩ => ⟨S1x10, .f32⟩
  | .hbm, ⟨33, _⟩ => ⟨S5000x128, .f32⟩
  | .hbm, ⟨34, _⟩ => ⟨S5000x10, .f32⟩
  | .local _ .vmem, ⟨0, _⟩ => ⟨S5000x256, .f32⟩
  | .local _ .vmem, ⟨1, _⟩ => ⟨S1x256, .f32⟩
  | .local _ .vmem, ⟨2, _⟩ => ⟨S1x256, .f32⟩
  | .local _ .vmem, ⟨3, _⟩ => ⟨S256x128, .f32⟩
  | .local _ .vmem, ⟨4, _⟩ => ⟨S1x128, .f32⟩
  | .local _ .vmem, ⟨5, _⟩ => ⟨S1x128, .f32⟩
  | .local _ .vmem, ⟨6, _⟩ => ⟨S200x5000, .f32⟩
  | .local _ .vmem, ⟨7, _⟩ => ⟨S200x5000, .f32⟩
  | .local _ .vmem, ⟨8, _⟩ => ⟨S200x5000, .f32⟩
  | .local _ .vmem, ⟨9, _⟩ => ⟨S200x5000, .f32⟩
  | .local _ .vmem, ⟨10, _⟩ => ⟨S200x5000, .f32⟩
  | .local _ .vmem, ⟨11, _⟩ => ⟨S200x5000, .f32⟩
  | .local _ .vmem, ⟨12, _⟩ => ⟨S200x5000, .f32⟩
  | .local _ .vmem, ⟨13, _⟩ => ⟨S200x5000, .f32⟩
  | .local _ .vmem, ⟨14, _⟩ => ⟨S200x128, .f32⟩
  | .local _ .vmem, ⟨15, _⟩ => ⟨S200x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S128x10, .f32⟩
  | .local _ .vmem, ⟨21, _⟩ => ⟨S1x10, .f32⟩
  | .local _ .vmem, ⟨22, _⟩ => ⟨S1000x5000, .f32⟩
  | .local _ .vmem, ⟨23, _⟩ => ⟨S1000x5000, .f32⟩
  | .local _ .vmem, ⟨24, _⟩ => ⟨S1000x10, .f32⟩
  | .local _ .vmem, ⟨25, _⟩ => ⟨S1000x10, .f32⟩
  | .local _ .vmem, ⟨26, _⟩ => ⟨S5000x10, .f32⟩
  | _, _ => ⟨S5000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_scratch0 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22
abbrev cc1_sem6_0 : DmaSem sig := 23
abbrev cc1_sem6_1 : DmaSem sig := 24

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c200_i32 : BitVec 32 := 200#32
  let v3 : BitVec 32 := Scalar.muli arg0 c200_i32
  let v4 : Index := Scalar.indexCast v3
  let c0 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S5000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S200x5000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S200x5000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S200x5000 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S200x5000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S200x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![5], ![false]⟩

def k1_off1 (i : grid1.Coords) : Fin 2 → Nat :=
  let arg0 : BitVec 32 := BitVec.ofNat 32 (i 0).val
  let c1000_i32 : BitVec 32 := 1000#32
  let v3 : BitVec 32 := Scalar.muli arg0 c1000_i32
  let v4 : Index := Scalar.indexCast v3
  let c0 : Index := 0#32
  ![v4.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S5000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x5000 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1000x10 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  transposes_S4x256x32_S256x4x32_1_0_2 : S4x256x32.Transposes [1, 0, 2] S256x4x32
  shapeCasts_S256x4x32_S256x128 : S256x4x32.ShapeCasts S256x128
  slices_S4x64x1_S4x32x1_0_0_0 : S4x64x1.Slices ![0, 0, 0] S4x32x1
  shapeCasts_S4x32x1_S4x32 : S4x32x1.ShapeCasts S4x32
  shapeCasts_S4x32_S1x128 : S4x32.ShapeCasts S1x128
  slices_S4x64x1_S4x32x1_0_32_0 : S4x64x1.Slices ![0, 32, 0] S4x32x1
  shapeCasts_S256_S1x256 : S256.ShapeCasts S1x256
  shapeCasts_S32_S1x32 : S32.ShapeCasts S1x32
  bcast_S1x32_S4x32_0_1 : S1x32.BroadcastsInDim S4x32 (![0, 1] : Fin 2 → Fin S4x32.rank)
  shapeCasts_S4x32_S128 : S4x32.ShapeCasts S128
  shapeCasts_S128_S1x128 : S128.ShapeCasts S1x128
  shapeCasts_S10_S1x10 : S10.ShapeCasts S1x10
  inb_S5000x256_S5000x256_0_0 : ∀ a, (![0, 0] : Fin 2 → Nat) a + S5000x256.size a ≤ S5000x256.size a
  h_S5000x256 : 0 < S5000x256.numel
  reduces_S5000x256_S256 : S5000x256.Reduces [0] S256
  broadcasts_S1x256_S5000x256 : S1x256.Broadcasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  h_S200x128 : 0 < S200x128.numel
  iota_S128x4_d0_w32 : S128x4.Iotas .tc 32 [0]
  iota_S128x4_d1_w32 : S128x4.Iotas .tc 32 [1]
  natLt_1_32 : 1 < 32
  iota_S4x128_d0_w32 : S4x128.Iotas .tc 32 [0]
  iota_S4x128_d1_w32 : S4x128.Iotas .tc 32 [1]
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S200x5000_S200x5000_0_0 : ∀ a, (![0, 0] : Fin 2 → Nat) a + S200x5000.size a ≤ S200x5000.size a
  h_S200x5000 : 0 < S200x5000.numel
  broadcasts_S1x128_S200x128 : S1x128.Broadcasts S200x128
  inb_S200x128_S200x128_0_0 : ∀ a, (![0, 0] : Fin 2 → Nat) a + S200x128.size a ≤ S200x128.size a
  reduces_S5000x128_S128 : S5000x128.Reduces [0] S128
  broadcasts_S1x128_S5000x128 : S1x128.Broadcasts S5000x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  inb_S5000x10_S5000x10_0_0 : ∀ a, (![0, 0] : Fin 2 → Nat) a + S5000x10.size a ≤ S5000x10.size a
  h_S5000x10 : 0 < S5000x10.numel
  shapeCasts_S5000x10_S5000x10 : S5000x10.ShapeCasts S5000x10
  h_S1000x10 : 0 < S1000x10.numel
  inb_S1000x5000_S1000x5000_0_0 : ∀ a, (![0, 0] : Fin 2 → Nat) a + S1000x5000.size a ≤ S1000x5000.size a
  h_S1000x5000 : 0 < S1000x5000.numel
  reduces_S1000x10_S1000 : S1000x10.Reduces [1] S1000
  shapeCasts_S1000_S1000x1 : S1000.ShapeCasts S1000x1
  broadcasts_S1000x1_S1000x10 : S1000x1.Broadcasts S1000x10
  inb_S1000x10_S1000x10_0_0 : ∀ a, (![0, 0] : Fin 2 → Nat) a + S1000x10.size a ≤ S1000x10.size a
  dot_S5000x256_S256x128_S5000x128_1_0_0_1_n_n_wf : DotDims.WF S5000x256 S256x128 S5000x128 [1] [0] [0] [1] [] []
  dot_S200x5000_S5000x128_S200x128_1_0_0_1_n_n_wf : DotDims.WF S200x5000 S5000x128 S200x128 [1] [0] [0] [1] [] []
  dot_S200x128_S128x4_S200x4_1_0_0_1_n_n_wf : DotDims.WF S200x128 S128x4 S200x4 [1] [0] [0] [1] [] []
  dot_S200x4_S4x128_S200x128_1_0_0_1_n_n_wf : DotDims.WF S200x4 S4x128 S200x128 [1] [0] [0] [1] [] []
  dot_S5000x128_S128x10_S5000x10_1_0_0_1_n_n_wf : DotDims.WF S5000x128 S128x10 S5000x10 [1] [0] [0] [1] [] []
  dot_S1000x5000_S5000x10_S1000x10_1_0_0_1_n_n_wf : DotDims.WF S1000x5000 S5000x10 S1000x10 [1] [0] [0] [1] [] []
  hrank0 : 0 < grid0.rank
  k0_off1_inb : ∀ i : grid0.Coords, ∀ a, (k0_off1 i) a + S200x128.size a ≤ S5000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S5000x256.size a
  hwx0_0 : ∀ i : grid0.Coords, EltTy.bits .f32 = 32 ∨ (Rect.block (s := S5000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x5000.size a ≤ S5000x5000.size a
  hwx0_6 : ∀ i : grid0.Coords, EltTy.bits .f32 = 32 ∨ (Rect.block (s := S5000x5000) S200x5000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S200x5000.size a ≤ S5000x5000.size a
  hwx0_7 : ∀ i : grid0.Coords, EltTy.bits .f32 = 32 ∨ (Rect.block (s := S5000x5000) S200x5000.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S200x5000.size a ≤ S5000x5000.size a
  hwx0_8 : ∀ i : grid0.Coords, EltTy.bits .f32 = 32 ∨ (Rect.block (s := S5000x5000) S200x5000.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S200x5000.size a ≤ S5000x5000.size a
  hwx0_9 : ∀ i : grid0.Coords, EltTy.bits .f32 = 32 ∨ (Rect.block (s := S5000x5000) S200x5000.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S200x128.size a ≤ S5000x128.size a
  hwx0_10 : ∀ i : grid0.Coords, EltTy.bits .f32 = 32 ∨ (Rect.block (s := S5000x128) S200x128.size (cc0_transform_10 i) (hinb0_10 i)).WholeWords (EltTy.packing .f32)
  hrank1 : 0 < grid1.rank
  k1_off1_inb : ∀ i : grid1.Coords, ∀ a, (k1_off1 i) a + S1000x10.size a ≤ S5000x10.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S5000x128.size a
  hwx1_0 : ∀ i : grid1.Coords, EltTy.bits .f32 = 32 ∨ (Rect.block (s := S5000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x10.size a ≤ S128x10.size a
  hwx1_3 : ∀ i : grid1.Coords, EltTy.bits .f32 = 32 ∨ (Rect.block (s := S128x10) S128x10.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x10.size a ≤ S1x10.size a
  hwx1_4 : ∀ i : grid1.Coords, EltTy.bits .f32 = 32 ∨ (Rect.block (s := S1x10) S1x10.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x5000.size a ≤ S5000x5000.size a
  hwx1_5 : ∀ i : grid1.Coords, EltTy.bits .f32 = 32 ∨ (Rect.block (s := S5000x5000) S1000x5000.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x10.size a ≤ S5000x10.size a
  hwx1_6 : ∀ i : grid1.Coords, EltTy.bits .f32 = 32 ∨ (Rect.block (s := S5000x10) S1000x10.size (cc1_transform_6 i) (hinb1_6 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S200x5000_S5000x128_S200x128_1_0_0_1_n_n : DotDims S200x5000 S5000x128 S200x128 where
  lhsContracting := [1]
  rhsContracting := [0]
  lhsNonContracting := [0]
  rhsNonContracting := [1]
  lhsBatch := []
  rhsBatch := []
  wf := dot_S200x5000_S5000x128_S200x128_1_0_0_1_n_n_wf
def dot_S200x128_S128x4_S200x4_1_0_0_1_n_n : DotDims S200x128 S128x4 S200x4 where
  lhsContracting := [1]
  rhsContracting := [0]
  lhsNonContracting := [0]
  rhsNonContracting := [1]
  lhsBatch := []
  rhsBatch := []
  wf := dot_S200x128_S128x4_S200x4_1_0_0_1_n_n_wf
def dot_S200x4_S4x128_S200x128_1_0_0_1_n_n : DotDims S200x4 S4x128 S200x128 where
  lhsContracting := [1]
  rhsContracting := [0]
  lhsNonContracting := [0]
  rhsNonContracting := [1]
  lhsBatch := []
  rhsBatch := []
  wf := dot_S200x4_S4x128_S200x128_1_0_0_1_n_n_wf
def dot_S5000x128_S128x10_S5000x10_1_0_0_1_n_n : DotDims S5000x128 S128x10 S5000x10 where
  lhsContracting := [1]
  rhsContracting := [0]
  lhsNonContracting := [0]
  rhsNonContracting := [1]
  lhsBatch := []
  rhsBatch := []
  wf := dot_S5000x128_S128x10_S5000x10_1_0_0_1_n_n_wf
def dot_S1000x5000_S5000x10_S1000x10_1_0_0_1_n_n : DotDims S1000x5000 S5000x10 S1000x10 where
  lhsContracting := [1]
  rhsContracting := [0]
  lhsNonContracting := [0]
  rhsNonContracting := [1]
  lhsBatch := []
  rhsBatch := []
  wf := dot_S1000x5000_S5000x10_S1000x10_1_0_0_1_n_n_wf

abbrev win0_0 : Pipeline.Window sig grid0 :=
  Pipeline.Window.ofSpec (Memref.whole main_arg0) S5000x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S200x5000.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg3) S200x5000.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg4) S200x5000.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg5) S200x5000.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v19) S200x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v19) S5000x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S128x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x10.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg1) S1000x5000.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v20) S1000x10.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S5000x256 : Shape := ⟨2, ![5000, 256]⟩
abbrev S5000x5000 : Shape := ⟨2, ![5000, 5000]⟩
abbrev S4x256x32 : Shape := ⟨3, ![4, 256, 32]⟩
abbrev S4x64x1 : Shape := ⟨3, ![4, 64, 1]⟩
abbrev S256 : Shape := ⟨1, ![256]⟩
abbrev S32 : Shape := ⟨1, ![32]⟩
abbrev S128x10 : Shape := ⟨2, ![128, 10]⟩
abbrev S10 : Shape := ⟨1, ![10]⟩
abbrev S_ : Shape := ⟨0, ![]⟩
abbrev S1x256 : Shape := ⟨2, ![1, 256]⟩
abbrev S1x256x32 : Shape := ⟨3, ![1, 256, 32]⟩
abbrev S256x32 : Shape := ⟨2, ![256, 32]⟩
abbrev S1x64x1 : Shape := ⟨3, ![1, 64, 1]⟩
abbrev S64x1 : Shape := ⟨2, ![64, 1]⟩
abbrev S5000x32 : Shape := ⟨2, ![5000, 32]⟩
abbrev S32x1 : Shape := ⟨2, ![32, 1]⟩
abbrev S5000x1 : Shape := ⟨2, ![5000, 1]⟩
abbrev S5000x4 : Shape := ⟨2, ![5000, 4]⟩
abbrev S5000 : Shape := ⟨1, ![5000]⟩
abbrev S1x32 : Shape := ⟨2, ![1, 32]⟩
abbrev S5000x128 : Shape := ⟨2, ![5000, 128]⟩
abbrev S5000x10 : Shape := ⟨2, ![5000, 10]⟩
abbrev S1x10 : Shape := ⟨2, ![1, 10]⟩

abbrev nBuf : Space → Nat
  | .hbm => 650
  | .vmem => 0
  | .smem => 0
  | _ => 0

abbrev hbmTy0_0 (i : Nat) : BufTy := match i % 128 with
  | 0 => ⟨S5000x256, .f32⟩
  | 1 => ⟨S5000x5000, .f32⟩
  | 2 => ⟨S5000x5000, .f32⟩
  | 3 => ⟨S5000x5000, .f32⟩
  | 4 => ⟨S5000x5000, .f32⟩
  | 5 => ⟨S5000x5000, .f32⟩
  | 6 => ⟨S4x256x32, .f32⟩
  | 7 => ⟨S4x64x1, .f32⟩
  | 8 => ⟨S256, .f32⟩
  | 9 => ⟨S256, .f32⟩
  | 10 => ⟨S32, .f32⟩
  | 11 => ⟨S32, .f32⟩
  | 12 => ⟨S128x10, .f32⟩
  | 13 => ⟨S10, .f32⟩
  | 14 => ⟨S_, .f32⟩
  | 15 => ⟨S256, .f32⟩
  | 16 => ⟨S1x256, .f32⟩
  | 17 => ⟨S_, .f32⟩
  | 18 => ⟨S1x256, .f32⟩
  | 19 => ⟨S1x256, .f32⟩
  | 20 => ⟨S_, .i32⟩
  | 21 => ⟨S_, .f32⟩
  | 22 => ⟨S256, .f32⟩
  | 23 => ⟨S1x256, .f32⟩
  | 24 => ⟨S_, .f32⟩
  | 25 => ⟨S1x256, .f32⟩
  | 26 => ⟨S1x256, .f32⟩
  | 27 => ⟨S5000x256, .f32⟩
  | 28 => ⟨S5000x256, .f32⟩
  | 29 => ⟨S5000x256, .f32⟩
  | 30 => ⟨S_, .f32⟩
  | 31 => ⟨S_, .f32⟩
  | 32 => ⟨S_, .f32⟩
  | 33 => ⟨S_, .f32⟩
  | 34 => ⟨S256, .f32⟩
  | 35 => ⟨S1x256, .f32⟩
  | 36 => ⟨S1x256, .f32⟩
  | 37 => ⟨S1x256, .f32⟩
  | 38 => ⟨S_, .f32⟩
  | 39 => ⟨S_, .i1⟩
  | 40 => ⟨S_, .f32⟩
  | 41 => ⟨S_, .f32⟩
  | 42 => ⟨S1x256, .f32⟩
  | 43 => ⟨S1x256, .f32⟩
  | 44 => ⟨S5000x256, .f32⟩
  | 45 => ⟨S5000x256, .f32⟩
  | 46 => ⟨S1x256, .f32⟩
  | 47 => ⟨S5000x256, .f32⟩
  | 48 => ⟨S5000x256, .f32⟩
  | 49 => ⟨S_, .f32⟩
  | 50 => ⟨S1x256, .f32⟩
  | 51 => ⟨S1x256, .f32⟩
  | 52 => ⟨S1x256, .f32⟩
  | 53 => ⟨S5000x256, .f32⟩
  | 54 => ⟨S5000x256, .f32⟩
  | 55 => ⟨S1x256, .f32⟩
  | 56 => ⟨S5000x256, .f32⟩
  | 57 => ⟨S5000x256, .f32⟩
  | 58 => ⟨S1x256x32, .f32⟩
  | 59 => ⟨S256x32, .f32⟩
  | 60 => ⟨S1x64x1, .f32⟩
  | 61 => ⟨S64x1, .f32⟩
  | 62 => ⟨S5000x32, .f32⟩
  | 63 => ⟨S5000x32, .f32⟩
  | 64 => ⟨S5000x32, .f32⟩
  | 65 => ⟨S5000x32, .f32⟩
  | 66 => ⟨S5000x32, .f32⟩
  | 67 => ⟨S5000x32, .f32⟩
  | 68 => ⟨S5000x32, .f32⟩
  | 69 => ⟨S5000x32, .f32⟩
  | 70 => ⟨S5000x32, .f32⟩
  | 71 => ⟨S5000x32, .f32⟩
  | 72 => ⟨S5000x32, .f32⟩
  | 73 => ⟨S5000x32, .f32⟩
  | 74 => ⟨S5000x32, .f32⟩
  | 75 => ⟨S5000x32, .f32⟩
  | 76 => ⟨S32x1, .f32⟩
  | 77 => ⟨S5000x1, .f32⟩
  | 78 => ⟨S32x1, .f32⟩
  | 79 => ⟨S5000x1, .f32⟩
  | 80 => ⟨S5000x1, .f32⟩
  | 81 => ⟨S_, .f32⟩
  | 82 => ⟨S_, .f32⟩
  | 83 => ⟨S5000x1, .f32⟩
  | 84 => ⟨S5000x1, .i1⟩
  | 85 => ⟨S_, .f32⟩
  | 86 => ⟨S5000x1, .f32⟩
  | 87 => ⟨S5000x1, .f32⟩
  | 88 => ⟨S5000x1, .f32⟩
  | 89 => ⟨S32x1, .f32⟩
  | 90 => ⟨S5000x1, .f32⟩
  | 91 => ⟨S5000x1, .f32⟩
  | 92 => ⟨S_, .f32⟩
  | 93 => ⟨S_, .f32⟩
  | 94 => ⟨S5000x1, .f32⟩
  | 95 => ⟨S5000x1, .i1⟩
  | 96 => ⟨S_, .f32⟩
  | 97 => ⟨S5000x1, .f32⟩
  | 98 => ⟨S5000x1, .f32⟩
  | 99 => ⟨S5000x1, .f32⟩
  | 100 => ⟨S32x1, .f32⟩
  | 101 => ⟨S5000x1, .f32⟩
  | 102 => ⟨S5000x1, .f32⟩
  | 103 => ⟨S_, .f32⟩
  | 104 => ⟨S_, .f32⟩
  | 105 => ⟨S5000x1, .f32⟩
  | 106 => ⟨S5000x1, .i1⟩
  | 107 => ⟨S_, .f32⟩
  | 108 => ⟨S5000x1, .f32⟩
  | 109 => ⟨S5000x1, .f32⟩
  | 110 => ⟨S5000x1, .f32⟩
  | 111 => ⟨S32x1, .f32⟩
  | 112 => ⟨S5000x1, .f32⟩
  | 113 => ⟨S5000x1, .f32⟩
  | 114 => ⟨S_, .f32⟩
  | 115 => ⟨S_, .f32⟩
  | 116 => ⟨S5000x1, .f32⟩
  | 117 => ⟨S5000x1, .i1⟩
  | 118 => ⟨S_, .f32⟩
  | 119 => ⟨S5000x1, .f32⟩
  | 120 => ⟨S5000x1, .f32⟩
  | 121 => ⟨S5000x1, .f32⟩
  | 122 => ⟨S5000x4, .f32⟩
  | 123 => ⟨S_, .f32⟩
  | 124 => ⟨S5000, .f32⟩
  | 125 => ⟨S_, .f32⟩
  | 126 => ⟨S5000, .f32⟩
  | 127 => ⟨S5000, .f32⟩
  | _ => ⟨S5000x256, .f32⟩

abbrev hbmTy0_1 (i : Nat) : BufTy := match i % 128 with
  | 0 => ⟨S5000x1, .f32⟩
  | 1 => ⟨S5000x4, .f32⟩
  | 2 => ⟨S5000x4, .f32⟩
  | 3 => ⟨S5000x4, .f32⟩
  | 4 => ⟨S_, .f32⟩
  | 5 => ⟨S5000, .f32⟩
  | 6 => ⟨S5000x1, .f32⟩
  | 7 => ⟨S5000x4, .f32⟩
  | 8 => ⟨S5000x4, .f32⟩
  | 9 => ⟨S5000x1, .f32⟩
  | 10 => ⟨S5000x32, .f32⟩
  | 11 => ⟨S5000x32, .f32⟩
  | 12 => ⟨S5000x1, .f32⟩
  | 13 => ⟨S5000x32, .f32⟩
  | 14 => ⟨S5000x32, .f32⟩
  | 15 => ⟨S5000x32, .f32⟩
  | 16 => ⟨S5000x1, .f32⟩
  | 17 => ⟨S5000x32, .f32⟩
  | 18 => ⟨S5000x32, .f32⟩
  | 19 => ⟨S5000x32, .f32⟩
  | 20 => ⟨S5000x1, .f32⟩
  | 21 => ⟨S5000x32, .f32⟩
  | 22 => ⟨S5000x32, .f32⟩
  | 23 => ⟨S5000x32, .f32⟩
  | 24 => ⟨S_, .f32⟩
  | 25 => ⟨S32, .f32⟩
  | 26 => ⟨S1x32, .f32⟩
  | 27 => ⟨S_, .f32⟩
  | 28 => ⟨S1x32, .f32⟩
  | 29 => ⟨S1x32, .f32⟩
  | 30 => ⟨S_, .i32⟩
  | 31 => ⟨S_, .f32⟩
  | 32 => ⟨S32, .f32⟩
  | 33 => ⟨S1x32, .f32⟩
  | 34 => ⟨S_, .f32⟩
  | 35 => ⟨S1x32, .f32⟩
  | 36 => ⟨S1x32, .f32⟩
  | 37 => ⟨S5000x32, .f32⟩
  | 38 => ⟨S5000x32, .f32⟩
  | 39 => ⟨S5000x32, .f32⟩
  | 40 => ⟨S_, .f32⟩
  | 41 => ⟨S_, .f32⟩
  | 42 => ⟨S_, .f32⟩
  | 43 => ⟨S_, .f32⟩
  | 44 => ⟨S32, .f32⟩
  | 45 => ⟨S1x32, .f32⟩
  | 46 => ⟨S1x32, .f32⟩
  | 47 => ⟨S1x32, .f32⟩
  | 48 => ⟨S_, .f32⟩
  | 49 => ⟨S_, .i1⟩
  | 50 => ⟨S_, .f32⟩
  | 51 => ⟨S_, .f32⟩
  | 52 => ⟨S1x32, .f32⟩
  | 53 => ⟨S1x32, .f32⟩
  | 54 => ⟨S5000x32, .f32⟩
  | 55 => ⟨S5000x32, .f32⟩
  | 56 => ⟨S1x32, .f32⟩
  | 57 => ⟨S5000x32, .f32⟩
  | 58 => ⟨S5000x32, .f32⟩
  | 59 => ⟨S_, .f32⟩
  | 60 => ⟨S1x32, .f32⟩
  | 61 => ⟨S1x32, .f32⟩
  | 62 => ⟨S1x32, .f32⟩
  | 63 => ⟨S5000x32, .f32⟩
  | 64 => ⟨S5000x32, .f32⟩
  | 65 => ⟨S1x32, .f32⟩
  | 66 => ⟨S5000x32, .f32⟩
  | 67 => ⟨S5000x32, .f32⟩
  | 68 => ⟨S_, .f32⟩
  | 69 => ⟨S5000x32, .f32⟩
  | 70 => ⟨S5000x32, .f32⟩
  | 71 => ⟨S1x256x32, .f32⟩
  | 72 => ⟨S256x32, .f32⟩
  | 73 => ⟨S1x64x1, .f32⟩
  | 74 => ⟨S64x1, .f32⟩
  | 75 => ⟨S5000x32, .f32⟩
  | 76 => ⟨S5000x32, .f32⟩
  | 77 => ⟨S5000x32, .f32⟩
  | 78 => ⟨S5000x32, .f32⟩
  | 79 => ⟨S5000x32, .f32⟩
  | 80 => ⟨S5000x32, .f32⟩
  | 81 => ⟨S5000x32, .f32⟩
  | 82 => ⟨S5000x32, .f32⟩
  | 83 => ⟨S5000x32, .f32⟩
  | 84 => ⟨S5000x32, .f32⟩
  | 85 => ⟨S5000x32, .f32⟩
  | 86 => ⟨S5000x32, .f32⟩
  | 87 => ⟨S5000x32, .f32⟩
  | 88 => ⟨S5000x32, .f32⟩
  | 89 => ⟨S32x1, .f32⟩
  | 90 => ⟨S5000x1, .f32⟩
  | 91 => ⟨S32x1, .f32⟩
  | 92 => ⟨S5000x1, .f32⟩
  | 93 => ⟨S5000x1, .f32⟩
  | 94 => ⟨S_, .f32⟩
  | 95 => ⟨S_, .f32⟩
  | 96 => ⟨S5000x1, .f32⟩
  | 97 => ⟨S5000x1, .i1⟩
  | 98 => ⟨S_, .f32⟩
  | 99 => ⟨S5000x1, .f32⟩
  | 100 => ⟨S5000x1, .f32⟩
  | 101 => ⟨S5000x1, .f32⟩
  | 102 => ⟨S32x1, .f32⟩
  | 103 => ⟨S5000x1, .f32⟩
  | 104 => ⟨S5000x1, .f32⟩
  | 105 => ⟨S_, .f32⟩
  | 106 => ⟨S_, .f32⟩
  | 107 => ⟨S5000x1, .f32⟩
  | 108 => ⟨S5000x1, .i1⟩
  | 109 => ⟨S_, .f32⟩
  | 110 => ⟨S5000x1, .f32⟩
  | 111 => ⟨S5000x1, .f32⟩
  | 112 => ⟨S5000x1, .f32⟩
  | 113 => ⟨S32x1, .f32⟩
  | 114 => ⟨S5000x1, .f32⟩
  | 115 => ⟨S5000x1, .f32⟩
  | 116 => ⟨S_, .f32⟩
  | 117 => ⟨S_, .f32⟩
  | 118 => ⟨S5000x1, .f32⟩
  | 119 => ⟨S5000x1, .i1⟩
  | 120 => ⟨S_, .f32⟩
  | 121 => ⟨S5000x1, .f32⟩
  | 122 => ⟨S5000x1, .f32⟩
  | 123 => ⟨S5000x1, .f32⟩
  | 124 => ⟨S32x1, .f32⟩
  | 125 => ⟨S5000x1, .f32⟩
  | 126 => ⟨S5000x1, .f32⟩
  | 127 => ⟨S_, .f32⟩
  | _ => ⟨S5000x256, .f32⟩

abbrev hbmTy0_2 (i : Nat) : BufTy := match i % 128 with
  | 0 => ⟨S_, .f32⟩
  | 1 => ⟨S5000x1, .f32⟩
  | 2 => ⟨S5000x1, .i1⟩
  | 3 => ⟨S_, .f32⟩
  | 4 => ⟨S5000x1, .f32⟩
  | 5 => ⟨S5000x1, .f32⟩
  | 6 => ⟨S5000x1, .f32⟩
  | 7 => ⟨S5000x4, .f32⟩
  | 8 => ⟨S_, .f32⟩
  | 9 => ⟨S5000, .f32⟩
  | 10 => ⟨S_, .f32⟩
  | 11 => ⟨S5000, .f32⟩
  | 12 => ⟨S5000, .f32⟩
  | 13 => ⟨S5000x1, .f32⟩
  | 14 => ⟨S5000x4, .f32⟩
  | 15 => ⟨S5000x4, .f32⟩
  | 16 => ⟨S5000x4, .f32⟩
  | 17 => ⟨S_, .f32⟩
  | 18 => ⟨S5000, .f32⟩
  | 19 => ⟨S5000x1, .f32⟩
  | 20 => ⟨S5000x4, .f32⟩
  | 21 => ⟨S5000x4, .f32⟩
  | 22 => ⟨S5000x1, .f32⟩
  | 23 => ⟨S5000x32, .f32⟩
  | 24 => ⟨S5000x32, .f32⟩
  | 25 => ⟨S5000x1, .f32⟩
  | 26 => ⟨S5000x32, .f32⟩
  | 27 => ⟨S5000x32, .f32⟩
  | 28 => ⟨S5000x32, .f32⟩
  | 29 => ⟨S5000x1, .f32⟩
  | 30 => ⟨S5000x32, .f32⟩
  | 31 => ⟨S5000x32, .f32⟩
  | 32 => ⟨S5000x32, .f32⟩
  | 33 => ⟨S5000x1, .f32⟩
  | 34 => ⟨S5000x32, .f32⟩
  | 35 => ⟨S5000x32, .f32⟩
  | 36 => ⟨S5000x32, .f32⟩
  | 37 => ⟨S_, .f32⟩
  | 38 => ⟨S32, .f32⟩
  | 39 => ⟨S1x32, .f32⟩
  | 40 => ⟨S_, .f32⟩
  | 41 => ⟨S1x32, .f32⟩
  | 42 => ⟨S1x32, .f32⟩
  | 43 => ⟨S_, .i32⟩
  | 44 => ⟨S_, .f32⟩
  | 45 => ⟨S32, .f32⟩
  | 46 => ⟨S1x32, .f32⟩
  | 47 => ⟨S_, .f32⟩
  | 48 => ⟨S1x32, .f32⟩
  | 49 => ⟨S1x32, .f32⟩
  | 50 => ⟨S5000x32, .f32⟩
  | 51 => ⟨S5000x32, .f32⟩
  | 52 => ⟨S5000x32, .f32⟩
  | 53 => ⟨S_, .f32⟩
  | 54 => ⟨S_, .f32⟩
  | 55 => ⟨S_, .f32⟩
  | 56 => ⟨S_, .f32⟩
  | 57 => ⟨S32, .f32⟩
  | 58 => ⟨S1x32, .f32⟩
  | 59 => ⟨S1x32, .f32⟩
  | 60 => ⟨S1x32, .f32⟩
  | 61 => ⟨S_, .f32⟩
  | 62 => ⟨S_, .i1⟩
  | 63 => ⟨S_, .f32⟩
  | 64 => ⟨S_, .f32⟩
  | 65 => ⟨S1x32, .f32⟩
  | 66 => ⟨S1x32, .f32⟩
  | 67 => ⟨S5000x32, .f32⟩
  | 68 => ⟨S5000x32, .f32⟩
  | 69 => ⟨S1x32, .f32⟩
  | 70 => ⟨S5000x32, .f32⟩
  | 71 => ⟨S5000x32, .f32⟩
  | 72 => ⟨S_, .f32⟩
  | 73 => ⟨S1x32, .f32⟩
  | 74 => ⟨S1x32, .f32⟩
  | 75 => ⟨S1x32, .f32⟩
  | 76 => ⟨S5000x32, .f32⟩
  | 77 => ⟨S5000x32, .f32⟩
  | 78 => ⟨S1x32, .f32⟩
  | 79 => ⟨S5000x32, .f32⟩
  | 80 => ⟨S5000x32, .f32⟩
  | 81 => ⟨S_, .f32⟩
  | 82 => ⟨S5000x32, .f32⟩
  | 83 => ⟨S5000x32, .f32⟩
  | 84 => ⟨S1x256x32, .f32⟩
  | 85 => ⟨S256x32, .f32⟩
  | 86 => ⟨S1x64x1, .f32⟩
  | 87 => ⟨S64x1, .f32⟩
  | 88 => ⟨S5000x32, .f32⟩
  | 89 => ⟨S5000x32, .f32⟩
  | 90 => ⟨S5000x32, .f32⟩
  | 91 => ⟨S5000x32, .f32⟩
  | 92 => ⟨S5000x32, .f32⟩
  | 93 => ⟨S5000x32, .f32⟩
  | 94 => ⟨S5000x32, .f32⟩
  | 95 => ⟨S5000x32, .f32⟩
  | 96 => ⟨S5000x32, .f32⟩
  | 97 => ⟨S5000x32, .f32⟩
  | 98 => ⟨S5000x32, .f32⟩
  | 99 => ⟨S5000x32, .f32⟩
  | 100 => ⟨S5000x32, .f32⟩
  | 101 => ⟨S5000x32, .f32⟩
  | 102 => ⟨S32x1, .f32⟩
  | 103 => ⟨S5000x1, .f32⟩
  | 104 => ⟨S32x1, .f32⟩
  | 105 => ⟨S5000x1, .f32⟩
  | 106 => ⟨S5000x1, .f32⟩
  | 107 => ⟨S_, .f32⟩
  | 108 => ⟨S_, .f32⟩
  | 109 => ⟨S5000x1, .f32⟩
  | 110 => ⟨S5000x1, .i1⟩
  | 111 => ⟨S_, .f32⟩
  | 112 => ⟨S5000x1, .f32⟩
  | 113 => ⟨S5000x1, .f32⟩
  | 114 => ⟨S5000x1, .f32⟩
  | 115 => ⟨S32x1, .f32⟩
  | 116 => ⟨S5000x1, .f32⟩
  | 117 => ⟨S5000x1, .f32⟩
  | 118 => ⟨S_, .f32⟩
  | 119 => ⟨S_, .f32⟩
  | 120 => ⟨S5000x1, .f32⟩
  | 121 => ⟨S5000x1, .i1⟩
  | 122 => ⟨S_, .f32⟩
  | 123 => ⟨S5000x1, .f32⟩
  | 124 => ⟨S5000x1, .f32⟩
  | 125 => ⟨S5000x1, .f32⟩
  | 126 => ⟨S32x1, .f32⟩
  | 127 => ⟨S5000x1, .f32⟩
  | _ => ⟨S5000x256, .f32⟩

abbrev hbmTy0_3 (i : Nat) : BufTy := match i % 128 with
  | 0 => ⟨S5000x1, .f32⟩
  | 1 => ⟨S_, .f32⟩
  | 2 => ⟨S_, .f32⟩
  | 3 => ⟨S5000x1, .f32⟩
  | 4 => ⟨S5000x1, .i1⟩
  | 5 => ⟨S_, .f32⟩
  | 6 => ⟨S5000x1, .f32⟩
  | 7 => ⟨S5000x1, .f32⟩
  | 8 => ⟨S5000x1, .f32⟩
  | 9 => ⟨S32x1, .f32⟩
  | 10 => ⟨S5000x1, .f32⟩
  | 11 => ⟨S5000x1, .f32⟩
  | 12 => ⟨S_, .f32⟩
  | 13 => ⟨S_, .f32⟩
  | 14 => ⟨S5000x1, .f32⟩
  | 15 => ⟨S5000x1, .i1⟩
  | 16 => ⟨S_, .f32⟩
  | 17 => ⟨S5000x1, .f32⟩
  | 18 => ⟨S5000x1, .f32⟩
  | 19 => ⟨S5000x1, .f32⟩
  | 20 => ⟨S5000x4, .f32⟩
  | 21 => ⟨S_, .f32⟩
  | 22 => ⟨S5000, .f32⟩
  | 23 => ⟨S_, .f32⟩
  | 24 => ⟨S5000, .f32⟩
  | 25 => ⟨S5000, .f32⟩
  | 26 => ⟨S5000x1, .f32⟩
  | 27 => ⟨S5000x4, .f32⟩
  | 28 => ⟨S5000x4, .f32⟩
  | 29 => ⟨S5000x4, .f32⟩
  | 30 => ⟨S_, .f32⟩
  | 31 => ⟨S5000, .f32⟩
  | 32 => ⟨S5000x1, .f32⟩
  | 33 => ⟨S5000x4, .f32⟩
  | 34 => ⟨S5000x4, .f32⟩
  | 35 => ⟨S5000x1, .f32⟩
  | 36 => ⟨S5000x32, .f32⟩
  | 37 => ⟨S5000x32, .f32⟩
  | 38 => ⟨S5000x1, .f32⟩
  | 39 => ⟨S5000x32, .f32⟩
  | 40 => ⟨S5000x32, .f32⟩
  | 41 => ⟨S5000x32, .f32⟩
  | 42 => ⟨S5000x1, .f32⟩
  | 43 => ⟨S5000x32, .f32⟩
  | 44 => ⟨S5000x32, .f32⟩
  | 45 => ⟨S5000x32, .f32⟩
  | 46 => ⟨S5000x1, .f32⟩
  | 47 => ⟨S5000x32, .f32⟩
  | 48 => ⟨S5000x32, .f32⟩
  | 49 => ⟨S5000x32, .f32⟩
  | 50 => ⟨S_, .f32⟩
  | 51 => ⟨S32, .f32⟩
  | 52 => ⟨S1x32, .f32⟩
  | 53 => ⟨S_, .f32⟩
  | 54 => ⟨S1x32, .f32⟩
  | 55 => ⟨S1x32, .f32⟩
  | 56 => ⟨S_, .i32⟩
  | 57 => ⟨S_, .f32⟩
  | 58 => ⟨S32, .f32⟩
  | 59 => ⟨S1x32, .f32⟩
  | 60 => ⟨S_, .f32⟩
  | 61 => ⟨S1x32, .f32⟩
  | 62 => ⟨S1x32, .f32⟩
  | 63 => ⟨S5000x32, .f32⟩
  | 64 => ⟨S5000x32, .f32⟩
  | 65 => ⟨S5000x32, .f32⟩
  | 66 => ⟨S_, .f32⟩
  | 67 => ⟨S_, .f32⟩
  | 68 => ⟨S_, .f32⟩
  | 69 => ⟨S_, .f32⟩
  | 70 => ⟨S32, .f32⟩
  | 71 => ⟨S1x32, .f32⟩
  | 72 => ⟨S1x32, .f32⟩
  | 73 => ⟨S1x32, .f32⟩
  | 74 => ⟨S_, .f32⟩
  | 75 => ⟨S_, .i1⟩
  | 76 => ⟨S_, .f32⟩
  | 77 => ⟨S_, .f32⟩
  | 78 => ⟨S1x32, .f32⟩
  | 79 => ⟨S1x32, .f32⟩
  | 80 => ⟨S5000x32, .f32⟩
  | 81 => ⟨S5000x32, .f32⟩
  | 82 => ⟨S1x32, .f32⟩
  | 83 => ⟨S5000x32, .f32⟩
  | 84 => ⟨S5000x32, .f32⟩
  | 85 => ⟨S_, .f32⟩
  | 86 => ⟨S1x32, .f32⟩
  | 87 => ⟨S1x32, .f32⟩
  | 88 => ⟨S1x32, .f32⟩
  | 89 => ⟨S5000x32, .f32⟩
  | 90 => ⟨S5000x32, .f32⟩
  | 91 => ⟨S1x32, .f32⟩
  | 92 => ⟨S5000x32, .f32⟩
  | 93 => ⟨S5000x32, .f32⟩
  | 94 => ⟨S_, .f32⟩
  | 95 => ⟨S5000x32, .f32⟩
  | 96 => ⟨S5000x32, .f32⟩
  | 97 => ⟨S1x256x32, .f32⟩
  | 98 => ⟨S256x32, .f32⟩
  | 99 => ⟨S1x64x1, .f32⟩
  | 100 => ⟨S64x1, .f32⟩
  | 101 => ⟨S5000x32, .f32⟩
  | 102 => ⟨S5000x32, .f32⟩
  | 103 => ⟨S5000x32, .f32⟩
  | 104 => ⟨S5000x32, .f32⟩
  | 105 => ⟨S5000x32, .f32⟩
  | 106 => ⟨S5000x32, .f32⟩
  | 107 => ⟨S5000x32, .f32⟩
  | 108 => ⟨S5000x32, .f32⟩
  | 109 => ⟨S5000x32, .f32⟩
  | 110 => ⟨S5000x32, .f32⟩
  | 111 => ⟨S5000x32, .f32⟩
  | 112 => ⟨S5000x32, .f32⟩
  | 113 => ⟨S5000x32, .f32⟩
  | 114 => ⟨S5000x32, .f32⟩
  | 115 => ⟨S32x1, .f32⟩
  | 116 => ⟨S5000x1, .f32⟩
  | 117 => ⟨S32x1, .f32⟩
  | 118 => ⟨S5000x1, .f32⟩
  | 119 => ⟨S5000x1, .f32⟩
  | 120 => ⟨S_, .f32⟩
  | 121 => ⟨S_, .f32⟩
  | 122 => ⟨S5000x1, .f32⟩
  | 123 => ⟨S5000x1, .i1⟩
  | 124 => ⟨S_, .f32⟩
  | 125 => ⟨S5000x1, .f32⟩
  | 126 => ⟨S5000x1, .f32⟩
  | 127 => ⟨S5000x1, .f32⟩
  | _ => ⟨S5000x256, .f32⟩

abbrev hbmTy0_4 (i : Nat) : BufTy := match i % 128 with
  | 0 => ⟨S32x1, .f32⟩
  | 1 => ⟨S5000x1, .f32⟩
  | 2 => ⟨S5000x1, .f32⟩
  | 3 => ⟨S_, .f32⟩
  | 4 => ⟨S_, .f32⟩
  | 5 => ⟨S5000x1, .f32⟩
  | 6 => ⟨S5000x1, .i1⟩
  | 7 => ⟨S_, .f32⟩
  | 8 => ⟨S5000x1, .f32⟩
  | 9 => ⟨S5000x1, .f32⟩
  | 10 => ⟨S5000x1, .f32⟩
  | 11 => ⟨S32x1, .f32⟩
  | 12 => ⟨S5000x1, .f32⟩
  | 13 => ⟨S5000x1, .f32⟩
  | 14 => ⟨S_, .f32⟩
  | 15 => ⟨S_, .f32⟩
  | 16 => ⟨S5000x1, .f32⟩
  | 17 => ⟨S5000x1, .i1⟩
  | 18 => ⟨S_, .f32⟩
  | 19 => ⟨S5000x1, .f32⟩
  | 20 => ⟨S5000x1, .f32⟩
  | 21 => ⟨S5000x1, .f32⟩
  | 22 => ⟨S32x1, .f32⟩
  | 23 => ⟨S5000x1, .f32⟩
  | 24 => ⟨S5000x1, .f32⟩
  | 25 => ⟨S_, .f32⟩
  | 26 => ⟨S_, .f32⟩
  | 27 => ⟨S5000x1, .f32⟩
  | 28 => ⟨S5000x1, .i1⟩
  | 29 => ⟨S_, .f32⟩
  | 30 => ⟨S5000x1, .f32⟩
  | 31 => ⟨S5000x1, .f32⟩
  | 32 => ⟨S5000x1, .f32⟩
  | 33 => ⟨S5000x4, .f32⟩
  | 34 => ⟨S_, .f32⟩
  | 35 => ⟨S5000, .f32⟩
  | 36 => ⟨S_, .f32⟩
  | 37 => ⟨S5000, .f32⟩
  | 38 => ⟨S5000, .f32⟩
  | 39 => ⟨S5000x1, .f32⟩
  | 40 => ⟨S5000x4, .f32⟩
  | 41 => ⟨S5000x4, .f32⟩
  | 42 => ⟨S5000x4, .f32⟩
  | 43 => ⟨S_, .f32⟩
  | 44 => ⟨S5000, .f32⟩
  | 45 => ⟨S5000x1, .f32⟩
  | 46 => ⟨S5000x4, .f32⟩
  | 47 => ⟨S5000x4, .f32⟩
  | 48 => ⟨S5000x1, .f32⟩
  | 49 => ⟨S5000x32, .f32⟩
  | 50 => ⟨S5000x32, .f32⟩
  | 51 => ⟨S5000x1, .f32⟩
  | 52 => ⟨S5000x32, .f32⟩
  | 53 => ⟨S5000x32, .f32⟩
  | 54 => ⟨S5000x32, .f32⟩
  | 55 => ⟨S5000x1, .f32⟩
  | 56 => ⟨S5000x32, .f32⟩
  | 57 => ⟨S5000x32, .f32⟩
  | 58 => ⟨S5000x32, .f32⟩
  | 59 => ⟨S5000x1, .f32⟩
  | 60 => ⟨S5000x32, .f32⟩
  | 61 => ⟨S5000x32, .f32⟩
  | 62 => ⟨S5000x32, .f32⟩
  | 63 => ⟨S_, .f32⟩
  | 64 => ⟨S32, .f32⟩
  | 65 => ⟨S1x32, .f32⟩
  | 66 => ⟨S_, .f32⟩
  | 67 => ⟨S1x32, .f32⟩
  | 68 => ⟨S1x32, .f32⟩
  | 69 => ⟨S_, .i32⟩
  | 70 => ⟨S_, .f32⟩
  | 71 => ⟨S32, .f32⟩
  | 72 => ⟨S1x32, .f32⟩
  | 73 => ⟨S_, .f32⟩
  | 74 => ⟨S1x32, .f32⟩
  | 75 => ⟨S1x32, .f32⟩
  | 76 => ⟨S5000x32, .f32⟩
  | 77 => ⟨S5000x32, .f32⟩
  | 78 => ⟨S5000x32, .f32⟩
  | 79 => ⟨S_, .f32⟩
  | 80 => ⟨S_, .f32⟩
  | 81 => ⟨S_, .f32⟩
  | 82 => ⟨S_, .f32⟩
  | 83 => ⟨S32, .f32⟩
  | 84 => ⟨S1x32, .f32⟩
  | 85 => ⟨S1x32, .f32⟩
  | 86 => ⟨S1x32, .f32⟩
  | 87 => ⟨S_, .f32⟩
  | 88 => ⟨S_, .i1⟩
  | 89 => ⟨S_, .f32⟩
  | 90 => ⟨S_, .f32⟩
  | 91 => ⟨S1x32, .f32⟩
  | 92 => ⟨S1x32, .f32⟩
  | 93 => ⟨S5000x32, .f32⟩
  | 94 => ⟨S5000x32, .f32⟩
  | 95 => ⟨S1x32, .f32⟩
  | 96 => ⟨S5000x32, .f32⟩
  | 97 => ⟨S5000x32, .f32⟩
  | 98 => ⟨S_, .f32⟩
  | 99 => ⟨S1x32, .f32⟩
  | 100 => ⟨S1x32, .f32⟩
  | 101 => ⟨S1x32, .f32⟩
  | 102 => ⟨S5000x32, .f32⟩
  | 103 => ⟨S5000x32, .f32⟩
  | 104 => ⟨S1x32, .f32⟩
  | 105 => ⟨S5000x32, .f32⟩
  | 106 => ⟨S5000x32, .f32⟩
  | 107 => ⟨S_, .f32⟩
  | 108 => ⟨S5000x32, .f32⟩
  | 109 => ⟨S5000x32, .f32⟩
  | 110 => ⟨S5000x128, .f32⟩
  | 111 => ⟨S5000x10, .f32⟩
  | 112 => ⟨S1x10, .f32⟩
  | 113 => ⟨S5000x10, .f32⟩
  | 114 => ⟨S5000x10, .f32⟩
  | 115 => ⟨S5000x10, .f32⟩
  | 116 => ⟨S_, .f32⟩
  | 117 => ⟨S5000x10, .f32⟩
  | 118 => ⟨S5000x10, .f32⟩
  | 119 => ⟨S5000x10, .f32⟩
  | 120 => ⟨S_, .f32⟩
  | 121 => ⟨S5000x10, .f32⟩
  | 122 => ⟨S5000x10, .f32⟩
  | 123 => ⟨S_, .f32⟩
  | 124 => ⟨S5000, .f32⟩
  | 125 => ⟨S_, .f32⟩
  | 126 => ⟨S5000, .f32⟩
  | 127 => ⟨S5000, .f32⟩
  | _ => ⟨S5000x256, .f32⟩

abbrev hbmTy0_5 (i : Nat) : BufTy := match i % 128 with
  | 0 => ⟨S5000x1, .f32⟩
  | 1 => ⟨S5000x10, .f32⟩
  | 2 => ⟨S5000x10, .f32⟩
  | 3 => ⟨S5000x10, .f32⟩
  | 4 => ⟨S_, .f32⟩
  | 5 => ⟨S5000, .f32⟩
  | 6 => ⟨S5000x1, .f32⟩
  | 7 => ⟨S5000x1, .f32⟩
  | 8 => ⟨S5000x10, .f32⟩
  | 9 => ⟨S5000x10, .f32⟩
  | _ => ⟨S5000x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S5000x256, .f32⟩

abbrev bufTy : (tb : Table) → Fin (tcTables nBuf tb) → BufTy
  | .hbm, ⟨i, _⟩ => hbmTy i
  | _, _ => ⟨S5000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_cst_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_cst_1 : Ref sig .tc := ⟨.hbm, 31, rfl⟩
abbrev main_call0_v8 : Ref sig .tc := ⟨.hbm, 32, rfl⟩
abbrev main_call0_cst_2 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_cst_3 : Ref sig .tc := ⟨.hbm, 38, rfl⟩
abbrev main_call0_v13 : Ref sig .tc := ⟨.hbm, 39, rfl⟩
abbrev main_call0_cst_4 : Ref sig .tc := ⟨.hbm, 40, rfl⟩
abbrev main_call0_call0_v0 : Ref sig .tc := ⟨.hbm, 41, rfl⟩
abbrev main_call0_call0_v1 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_cst_1 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_cst_2 : Ref sig .tc := ⟨.hbm, 81, rfl⟩
abbrev main_call1_cst : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_cst_3 : Ref sig .tc := ⟨.hbm, 92, rfl⟩
abbrev main_call2_cst : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_cst_4 : Ref sig .tc := ⟨.hbm, 103, rfl⟩
abbrev main_call3_cst : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_cst_5 : Ref sig .tc := ⟨.hbm, 114, rfl⟩
abbrev main_call4_cst : Ref sig .tc := ⟨.hbm, 115, rfl⟩
abbrev main_call4_v0 : Ref sig .tc := ⟨.hbm, 116, rfl⟩
abbrev main_call4_v1 : Ref sig .tc := ⟨.hbm, 117, rfl⟩
abbrev main_call4_v2 : Ref sig .tc := ⟨.hbm, 118, rfl⟩
abbrev main_call4_v3 : Ref sig .tc := ⟨.hbm, 119, rfl⟩
abbrev main_call4_v4 : Ref sig .tc := ⟨.hbm, 120, rfl⟩
abbrev main_v53 : Ref sig .tc := ⟨.hbm, 121, rfl⟩
abbrev main_v54 : Ref sig .tc := ⟨.hbm, 122, rfl⟩
abbrev main_cst_6 : Ref sig .tc := ⟨.hbm, 123, rfl⟩
abbrev main_v55 : Ref sig .tc := ⟨.hbm, 124, rfl⟩
abbrev main_cst_7 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_cst_8 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_cst_9 : Ref sig .tc := ⟨.hbm, 152, rfl⟩
abbrev main_v81 : Ref sig .tc := ⟨.hbm, 153, rfl⟩
abbrev main_v82 : Ref sig .tc := ⟨.hbm, 154, rfl⟩
abbrev main_cst_10 : Ref sig .tc := ⟨.hbm, 155, rfl⟩
abbrev main_v83 : Ref sig .tc := ⟨.hbm, 156, rfl⟩
abbrev main_v84 : Ref sig .tc := ⟨.hbm, 157, rfl⟩
abbrev main_c_11 : Ref sig .tc := ⟨.hbm, 158, rfl⟩
abbrev main_call5_cst : Ref sig .tc := ⟨.hbm, 159, rfl⟩
abbrev main_call5_v0 : Ref sig .tc := ⟨.hbm, 160, rfl⟩
abbrev main_call5_v1 : Ref sig .tc := ⟨.hbm, 161, rfl⟩
abbrev main_call5_cst_0 : Ref sig .tc := ⟨.hbm, 162, rfl⟩
abbrev main_call5_v2 : Ref sig .tc := ⟨.hbm, 163, rfl⟩
abbrev main_call5_v3 : Ref sig .tc := ⟨.hbm, 164, rfl⟩
abbrev main_call5_v4 : Ref sig .tc := ⟨.hbm, 165, rfl⟩
abbrev main_call5_v5 : Ref sig .tc := ⟨.hbm, 166, rfl⟩
abbrev main_call5_v6 : Ref sig .tc := ⟨.hbm, 167, rfl⟩
abbrev main_call5_v7 : Ref sig .tc := ⟨.hbm, 168, rfl⟩
abbrev main_call5_cst_1 : Ref sig .tc := ⟨.hbm, 169, rfl⟩
abbrev main_call5_v8 : Ref sig .tc := ⟨.hbm, 170, rfl⟩
abbrev main_call5_cst_2 : Ref sig .tc := ⟨.hbm, 171, rfl⟩
abbrev main_call5_v9 : Ref sig .tc := ⟨.hbm, 172, rfl⟩
abbrev main_call5_v10 : Ref sig .tc := ⟨.hbm, 173, rfl⟩
abbrev main_call5_v11 : Ref sig .tc := ⟨.hbm, 174, rfl⟩
abbrev main_call5_v12 : Ref sig .tc := ⟨.hbm, 175, rfl⟩
abbrev main_call5_cst_3 : Ref sig .tc := ⟨.hbm, 176, rfl⟩
abbrev main_call5_v13 : Ref sig .tc := ⟨.hbm, 177, rfl⟩
abbrev main_call5_cst_4 : Ref sig .tc := ⟨.hbm, 178, rfl⟩
abbrev main_call5_call0_v0 : Ref sig .tc := ⟨.hbm, 179, rfl⟩
abbrev main_call5_call0_v1 : Ref sig .tc := ⟨.hbm, 180, rfl⟩
abbrev main_v85 : Ref sig .tc := ⟨.hbm, 181, rfl⟩
abbrev main_v86 : Ref sig .tc := ⟨.hbm, 182, rfl⟩
abbrev main_v87 : Ref sig .tc := ⟨.hbm, 183, rfl⟩
abbrev main_v88 : Ref sig .tc := ⟨.hbm, 184, rfl⟩
abbrev main_v89 : Ref sig .tc := ⟨.hbm, 185, rfl⟩
abbrev main_v90 : Ref sig .tc := ⟨.hbm, 186, rfl⟩
abbrev main_cst_12 : Ref sig .tc := ⟨.hbm, 187, rfl⟩
abbrev main_v91 : Ref sig .tc := ⟨.hbm, 188, rfl⟩
abbrev main_v92 : Ref sig .tc := ⟨.hbm, 189, rfl⟩
abbrev main_v93 : Ref sig .tc := ⟨.hbm, 190, rfl⟩
abbrev main_v94 : Ref sig .tc := ⟨.hbm, 191, rfl⟩
abbrev main_v95 : Ref sig .tc := ⟨.hbm, 192, rfl⟩
abbrev main_v96 : Ref sig .tc := ⟨.hbm, 193, rfl⟩
abbrev main_v97 : Ref sig .tc := ⟨.hbm, 194, rfl⟩
abbrev main_v98 : Ref sig .tc := ⟨.hbm, 195, rfl⟩
abbrev main_call6_cst : Ref sig .tc := ⟨.hbm, 196, rfl⟩
abbrev main_call6_v0 : Ref sig .tc := ⟨.hbm, 197, rfl⟩
abbrev main_v99 : Ref sig .tc := ⟨.hbm, 198, rfl⟩
abbrev main_v100 : Ref sig .tc := ⟨.hbm, 199, rfl⟩
abbrev main_v101 : Ref sig .tc := ⟨.hbm, 200, rfl⟩
abbrev main_v102 : Ref sig .tc := ⟨.hbm, 201, rfl⟩
abbrev main_v103 : Ref sig .tc := ⟨.hbm, 202, rfl⟩
abbrev main_v104 : Ref sig .tc := ⟨.hbm, 203, rfl⟩
abbrev main_v105 : Ref sig .tc := ⟨.hbm, 204, rfl⟩
abbrev main_v106 : Ref sig .tc := ⟨.hbm, 205, rfl⟩
abbrev main_v107 : Ref sig .tc := ⟨.hbm, 206, rfl⟩
abbrev main_v108 : Ref sig .tc := ⟨.hbm, 207, rfl⟩
abbrev main_v109 : Ref sig .tc := ⟨.hbm, 208, rfl⟩
abbrev main_v110 : Ref sig .tc := ⟨.hbm, 209, rfl⟩
abbrev main_v111 : Ref sig .tc := ⟨.hbm, 210, rfl⟩
abbrev main_v112 : Ref sig .tc := ⟨.hbm, 211, rfl⟩
abbrev main_v113 : Ref sig .tc := ⟨.hbm, 212, rfl⟩
abbrev main_v114 : Ref sig .tc := ⟨.hbm, 213, rfl⟩
abbrev main_v115 : Ref sig .tc := ⟨.hbm, 214, rfl⟩
abbrev main_v116 : Ref sig .tc := ⟨.hbm, 215, rfl⟩
abbrev main_v117 : Ref sig .tc := ⟨.hbm, 216, rfl⟩
abbrev main_v118 : Ref sig .tc := ⟨.hbm, 217, rfl⟩
abbrev main_v119 : Ref sig .tc := ⟨.hbm, 218, rfl⟩
abbrev main_v120 : Ref sig .tc := ⟨.hbm, 219, rfl⟩
abbrev main_v121 : Ref sig .tc := ⟨.hbm, 220, rfl⟩
abbrev main_v122 : Ref sig .tc := ⟨.hbm, 221, rfl⟩
abbrev main_cst_13 : Ref sig .tc := ⟨.hbm, 222, rfl⟩
abbrev main_call7_cst : Ref sig .tc := ⟨.hbm, 223, rfl⟩
abbrev main_call7_v0 : Ref sig .tc := ⟨.hbm, 224, rfl⟩
abbrev main_call7_v1 : Ref sig .tc := ⟨.hbm, 225, rfl⟩
abbrev main_call7_v2 : Ref sig .tc := ⟨.hbm, 226, rfl⟩
abbrev main_call7_v3 : Ref sig .tc := ⟨.hbm, 227, rfl⟩
abbrev main_call7_v4 : Ref sig .tc := ⟨.hbm, 228, rfl⟩
abbrev main_v123 : Ref sig .tc := ⟨.hbm, 229, rfl⟩
abbrev main_v124 : Ref sig .tc := ⟨.hbm, 230, rfl⟩
abbrev main_v125 : Ref sig .tc := ⟨.hbm, 231, rfl⟩
abbrev main_v126 : Ref sig .tc := ⟨.hbm, 232, rfl⟩
abbrev main_cst_14 : Ref sig .tc := ⟨.hbm, 233, rfl⟩
abbrev main_call8_cst : Ref sig .tc := ⟨.hbm, 234, rfl⟩
abbrev main_call8_v0 : Ref sig .tc := ⟨.hbm, 235, rfl⟩
abbrev main_call8_v1 : Ref sig .tc := ⟨.hbm, 236, rfl⟩
abbrev main_call8_v2 : Ref sig .tc := ⟨.hbm, 237, rfl⟩
abbrev main_call8_v3 : Ref sig .tc := ⟨.hbm, 238, rfl⟩
abbrev main_call8_v4 : Ref sig .tc := ⟨.hbm, 239, rfl⟩
abbrev main_v127 : Ref sig .tc := ⟨.hbm, 240, rfl⟩
abbrev main_v128 : Ref sig .tc := ⟨.hbm, 241, rfl⟩
abbrev main_v129 : Ref sig .tc := ⟨.hbm, 242, rfl⟩
abbrev main_v130 : Ref sig .tc := ⟨.hbm, 243, rfl⟩
abbrev main_cst_15 : Ref sig .tc := ⟨.hbm, 244, rfl⟩
abbrev main_call9_cst : Ref sig .tc := ⟨.hbm, 245, rfl⟩
abbrev main_call9_v0 : Ref sig .tc := ⟨.hbm, 246, rfl⟩
abbrev main_call9_v1 : Ref sig .tc := ⟨.hbm, 247, rfl⟩
abbrev main_call9_v2 : Ref sig .tc := ⟨.hbm, 248, rfl⟩
abbrev main_call9_v3 : Ref sig .tc := ⟨.hbm, 249, rfl⟩
abbrev main_call9_v4 : Ref sig .tc := ⟨.hbm, 250, rfl⟩
abbrev main_v131 : Ref sig .tc := ⟨.hbm, 251, rfl⟩
abbrev main_v132 : Ref sig .tc := ⟨.hbm, 252, rfl⟩
abbrev main_v133 : Ref sig .tc := ⟨.hbm, 253, rfl⟩
abbrev main_v134 : Ref sig .tc := ⟨.hbm, 254, rfl⟩
abbrev main_cst_16 : Ref sig .tc := ⟨.hbm, 255, rfl⟩
abbrev main_call10_cst : Ref sig .tc := ⟨.hbm, 256, rfl⟩
abbrev main_call10_v0 : Ref sig .tc := ⟨.hbm, 257, rfl⟩
abbrev main_call10_v1 : Ref sig .tc := ⟨.hbm, 258, rfl⟩
abbrev main_call10_v2 : Ref sig .tc := ⟨.hbm, 259, rfl⟩
abbrev main_call10_v3 : Ref sig .tc := ⟨.hbm, 260, rfl⟩
abbrev main_call10_v4 : Ref sig .tc := ⟨.hbm, 261, rfl⟩
abbrev main_v135 : Ref sig .tc := ⟨.hbm, 262, rfl⟩
abbrev main_v136 : Ref sig .tc := ⟨.hbm, 263, rfl⟩
abbrev main_cst_17 : Ref sig .tc := ⟨.hbm, 264, rfl⟩
abbrev main_v137 : Ref sig .tc := ⟨.hbm, 265, rfl⟩
abbrev main_cst_18 : Ref sig .tc := ⟨.hbm, 266, rfl⟩
abbrev main_v138 : Ref sig .tc := ⟨.hbm, 267, rfl⟩
abbrev main_v139 : Ref sig .tc := ⟨.hbm, 268, rfl⟩
abbrev main_v140 : Ref sig .tc := ⟨.hbm, 269, rfl⟩
abbrev main_v141 : Ref sig .tc := ⟨.hbm, 270, rfl⟩
abbrev main_v142 : Ref sig .tc := ⟨.hbm, 271, rfl⟩
abbrev main_v143 : Ref sig .tc := ⟨.hbm, 272, rfl⟩
abbrev main_cst_19 : Ref sig .tc := ⟨.hbm, 273, rfl⟩
abbrev main_v144 : Ref sig .tc := ⟨.hbm, 274, rfl⟩
abbrev main_v145 : Ref sig .tc := ⟨.hbm, 275, rfl⟩
abbrev main_v146 : Ref sig .tc := ⟨.hbm, 276, rfl⟩
abbrev main_v147 : Ref sig .tc := ⟨.hbm, 277, rfl⟩
abbrev main_v148 : Ref sig .tc := ⟨.hbm, 278, rfl⟩
abbrev main_v149 : Ref sig .tc := ⟨.hbm, 279, rfl⟩
abbrev main_v150 : Ref sig .tc := ⟨.hbm, 280, rfl⟩
abbrev main_v151 : Ref sig .tc := ⟨.hbm, 281, rfl⟩
abbrev main_v152 : Ref sig .tc := ⟨.hbm, 282, rfl⟩
abbrev main_v153 : Ref sig .tc := ⟨.hbm, 283, rfl⟩
abbrev main_v154 : Ref sig .tc := ⟨.hbm, 284, rfl⟩
abbrev main_v155 : Ref sig .tc := ⟨.hbm, 285, rfl⟩
abbrev main_v156 : Ref sig .tc := ⟨.hbm, 286, rfl⟩
abbrev main_v157 : Ref sig .tc := ⟨.hbm, 287, rfl⟩
abbrev main_v158 : Ref sig .tc := ⟨.hbm, 288, rfl⟩
abbrev main_v159 : Ref sig .tc := ⟨.hbm, 289, rfl⟩
abbrev main_v160 : Ref sig .tc := ⟨.hbm, 290, rfl⟩
abbrev main_v161 : Ref sig .tc := ⟨.hbm, 291, rfl⟩
abbrev main_v162 : Ref sig .tc := ⟨.hbm, 292, rfl⟩
abbrev main_cst_20 : Ref sig .tc := ⟨.hbm, 293, rfl⟩
abbrev main_v163 : Ref sig .tc := ⟨.hbm, 294, rfl⟩
abbrev main_v164 : Ref sig .tc := ⟨.hbm, 295, rfl⟩
abbrev main_cst_21 : Ref sig .tc := ⟨.hbm, 296, rfl⟩
abbrev main_v165 : Ref sig .tc := ⟨.hbm, 297, rfl⟩
abbrev main_v166 : Ref sig .tc := ⟨.hbm, 298, rfl⟩
abbrev main_c_22 : Ref sig .tc := ⟨.hbm, 299, rfl⟩
abbrev main_call11_cst : Ref sig .tc := ⟨.hbm, 300, rfl⟩
abbrev main_call11_v0 : Ref sig .tc := ⟨.hbm, 301, rfl⟩
abbrev main_call11_v1 : Ref sig .tc := ⟨.hbm, 302, rfl⟩
abbrev main_call11_cst_0 : Ref sig .tc := ⟨.hbm, 303, rfl⟩
abbrev main_call11_v2 : Ref sig .tc := ⟨.hbm, 304, rfl⟩
abbrev main_call11_v3 : Ref sig .tc := ⟨.hbm, 305, rfl⟩
abbrev main_call11_v4 : Ref sig .tc := ⟨.hbm, 306, rfl⟩
abbrev main_call11_v5 : Ref sig .tc := ⟨.hbm, 307, rfl⟩
abbrev main_call11_v6 : Ref sig .tc := ⟨.hbm, 308, rfl⟩
abbrev main_call11_v7 : Ref sig .tc := ⟨.hbm, 309, rfl⟩
abbrev main_call11_cst_1 : Ref sig .tc := ⟨.hbm, 310, rfl⟩
abbrev main_call11_v8 : Ref sig .tc := ⟨.hbm, 311, rfl⟩
abbrev main_call11_cst_2 : Ref sig .tc := ⟨.hbm, 312, rfl⟩
abbrev main_call11_v9 : Ref sig .tc := ⟨.hbm, 313, rfl⟩
abbrev main_call11_v10 : Ref sig .tc := ⟨.hbm, 314, rfl⟩
abbrev main_call11_v11 : Ref sig .tc := ⟨.hbm, 315, rfl⟩
abbrev main_call11_v12 : Ref sig .tc := ⟨.hbm, 316, rfl⟩
abbrev main_call11_cst_3 : Ref sig .tc := ⟨.hbm, 317, rfl⟩
abbrev main_call11_v13 : Ref sig .tc := ⟨.hbm, 318, rfl⟩
abbrev main_call11_cst_4 : Ref sig .tc := ⟨.hbm, 319, rfl⟩
abbrev main_call11_call0_v0 : Ref sig .tc := ⟨.hbm, 320, rfl⟩
abbrev main_call11_call0_v1 : Ref sig .tc := ⟨.hbm, 321, rfl⟩
abbrev main_v167 : Ref sig .tc := ⟨.hbm, 322, rfl⟩
abbrev main_v168 : Ref sig .tc := ⟨.hbm, 323, rfl⟩
abbrev main_v169 : Ref sig .tc := ⟨.hbm, 324, rfl⟩
abbrev main_v170 : Ref sig .tc := ⟨.hbm, 325, rfl⟩
abbrev main_v171 : Ref sig .tc := ⟨.hbm, 326, rfl⟩
abbrev main_v172 : Ref sig .tc := ⟨.hbm, 327, rfl⟩
abbrev main_cst_23 : Ref sig .tc := ⟨.hbm, 328, rfl⟩
abbrev main_v173 : Ref sig .tc := ⟨.hbm, 329, rfl⟩
abbrev main_v174 : Ref sig .tc := ⟨.hbm, 330, rfl⟩
abbrev main_v175 : Ref sig .tc := ⟨.hbm, 331, rfl⟩
abbrev main_v176 : Ref sig .tc := ⟨.hbm, 332, rfl⟩
abbrev main_v177 : Ref sig .tc := ⟨.hbm, 333, rfl⟩
abbrev main_v178 : Ref sig .tc := ⟨.hbm, 334, rfl⟩
abbrev main_v179 : Ref sig .tc := ⟨.hbm, 335, rfl⟩
abbrev main_v180 : Ref sig .tc := ⟨.hbm, 336, rfl⟩
abbrev main_call12_cst : Ref sig .tc := ⟨.hbm, 337, rfl⟩
abbrev main_call12_v0 : Ref sig .tc := ⟨.hbm, 338, rfl⟩
abbrev main_v181 : Ref sig .tc := ⟨.hbm, 339, rfl⟩
abbrev main_v182 : Ref sig .tc := ⟨.hbm, 340, rfl⟩
abbrev main_v183 : Ref sig .tc := ⟨.hbm, 341, rfl⟩
abbrev main_v184 : Ref sig .tc := ⟨.hbm, 342, rfl⟩
abbrev main_v185 : Ref sig .tc := ⟨.hbm, 343, rfl⟩
abbrev main_v186 : Ref sig .tc := ⟨.hbm, 344, rfl⟩
abbrev main_v187 : Ref sig .tc := ⟨.hbm, 345, rfl⟩
abbrev main_v188 : Ref sig .tc := ⟨.hbm, 346, rfl⟩
abbrev main_v189 : Ref sig .tc := ⟨.hbm, 347, rfl⟩
abbrev main_v190 : Ref sig .tc := ⟨.hbm, 348, rfl⟩
abbrev main_v191 : Ref sig .tc := ⟨.hbm, 349, rfl⟩
abbrev main_v192 : Ref sig .tc := ⟨.hbm, 350, rfl⟩
abbrev main_v193 : Ref sig .tc := ⟨.hbm, 351, rfl⟩
abbrev main_v194 : Ref sig .tc := ⟨.hbm, 352, rfl⟩
abbrev main_v195 : Ref sig .tc := ⟨.hbm, 353, rfl⟩
abbrev main_v196 : Ref sig .tc := ⟨.hbm, 354, rfl⟩
abbrev main_v197 : Ref sig .tc := ⟨.hbm, 355, rfl⟩
abbrev main_v198 : Ref sig .tc := ⟨.hbm, 356, rfl⟩
abbrev main_v199 : Ref sig .tc := ⟨.hbm, 357, rfl⟩
abbrev main_v200 : Ref sig .tc := ⟨.hbm, 358, rfl⟩
abbrev main_v201 : Ref sig .tc := ⟨.hbm, 359, rfl⟩
abbrev main_v202 : Ref sig .tc := ⟨.hbm, 360, rfl⟩
abbrev main_v203 : Ref sig .tc := ⟨.hbm, 361, rfl⟩
abbrev main_v204 : Ref sig .tc := ⟨.hbm, 362, rfl⟩
abbrev main_cst_24 : Ref sig .tc := ⟨.hbm, 363, rfl⟩
abbrev main_call13_cst : Ref sig .tc := ⟨.hbm, 364, rfl⟩
abbrev main_call13_v0 : Ref sig .tc := ⟨.hbm, 365, rfl⟩
abbrev main_call13_v1 : Ref sig .tc := ⟨.hbm, 366, rfl⟩
abbrev main_call13_v2 : Ref sig .tc := ⟨.hbm, 367, rfl⟩
abbrev main_call13_v3 : Ref sig .tc := ⟨.hbm, 368, rfl⟩
abbrev main_call13_v4 : Ref sig .tc := ⟨.hbm, 369, rfl⟩
abbrev main_v205 : Ref sig .tc := ⟨.hbm, 370, rfl⟩
abbrev main_v206 : Ref sig .tc := ⟨.hbm, 371, rfl⟩
abbrev main_v207 : Ref sig .tc := ⟨.hbm, 372, rfl⟩
abbrev main_v208 : Ref sig .tc := ⟨.hbm, 373, rfl⟩
abbrev main_cst_25 : Ref sig .tc := ⟨.hbm, 374, rfl⟩
abbrev main_call14_cst : Ref sig .tc := ⟨.hbm, 375, rfl⟩
abbrev main_call14_v0 : Ref sig .tc := ⟨.hbm, 376, rfl⟩
abbrev main_call14_v1 : Ref sig .tc := ⟨.hbm, 377, rfl⟩
abbrev main_call14_v2 : Ref sig .tc := ⟨.hbm, 378, rfl⟩
abbrev main_call14_v3 : Ref sig .tc := ⟨.hbm, 379, rfl⟩
abbrev main_call14_v4 : Ref sig .tc := ⟨.hbm, 380, rfl⟩
abbrev main_v209 : Ref sig .tc := ⟨.hbm, 381, rfl⟩
abbrev main_v210 : Ref sig .tc := ⟨.hbm, 382, rfl⟩
abbrev main_v211 : Ref sig .tc := ⟨.hbm, 383, rfl⟩
abbrev main_v212 : Ref sig .tc := ⟨.hbm, 384, rfl⟩
abbrev main_cst_26 : Ref sig .tc := ⟨.hbm, 385, rfl⟩
abbrev main_call15_cst : Ref sig .tc := ⟨.hbm, 386, rfl⟩
abbrev main_call15_v0 : Ref sig .tc := ⟨.hbm, 387, rfl⟩
abbrev main_call15_v1 : Ref sig .tc := ⟨.hbm, 388, rfl⟩
abbrev main_call15_v2 : Ref sig .tc := ⟨.hbm, 389, rfl⟩
abbrev main_call15_v3 : Ref sig .tc := ⟨.hbm, 390, rfl⟩
abbrev main_call15_v4 : Ref sig .tc := ⟨.hbm, 391, rfl⟩
abbrev main_v213 : Ref sig .tc := ⟨.hbm, 392, rfl⟩
abbrev main_v214 : Ref sig .tc := ⟨.hbm, 393, rfl⟩
abbrev main_v215 : Ref sig .tc := ⟨.hbm, 394, rfl⟩
abbrev main_v216 : Ref sig .tc := ⟨.hbm, 395, rfl⟩
abbrev main_cst_27 : Ref sig .tc := ⟨.hbm, 396, rfl⟩
abbrev main_call16_cst : Ref sig .tc := ⟨.hbm, 397, rfl⟩
abbrev main_call16_v0 : Ref sig .tc := ⟨.hbm, 398, rfl⟩
abbrev main_call16_v1 : Ref sig .tc := ⟨.hbm, 399, rfl⟩
abbrev main_call16_v2 : Ref sig .tc := ⟨.hbm, 400, rfl⟩
abbrev main_call16_v3 : Ref sig .tc := ⟨.hbm, 401, rfl⟩
abbrev main_call16_v4 : Ref sig .tc := ⟨.hbm, 402, rfl⟩
abbrev main_v217 : Ref sig .tc := ⟨.hbm, 403, rfl⟩
abbrev main_v218 : Ref sig .tc := ⟨.hbm, 404, rfl⟩
abbrev main_cst_28 : Ref sig .tc := ⟨.hbm, 405, rfl⟩
abbrev main_v219 : Ref sig .tc := ⟨.hbm, 406, rfl⟩
abbrev main_cst_29 : Ref sig .tc := ⟨.hbm, 407, rfl⟩
abbrev main_v220 : Ref sig .tc := ⟨.hbm, 408, rfl⟩
abbrev main_v221 : Ref sig .tc := ⟨.hbm, 409, rfl⟩
abbrev main_v222 : Ref sig .tc := ⟨.hbm, 410, rfl⟩
abbrev main_v223 : Ref sig .tc := ⟨.hbm, 411, rfl⟩
abbrev main_v224 : Ref sig .tc := ⟨.hbm, 412, rfl⟩
abbrev main_v225 : Ref sig .tc := ⟨.hbm, 413, rfl⟩
abbrev main_cst_30 : Ref sig .tc := ⟨.hbm, 414, rfl⟩
abbrev main_v226 : Ref sig .tc := ⟨.hbm, 415, rfl⟩
abbrev main_v227 : Ref sig .tc := ⟨.hbm, 416, rfl⟩
abbrev main_v228 : Ref sig .tc := ⟨.hbm, 417, rfl⟩
abbrev main_v229 : Ref sig .tc := ⟨.hbm, 418, rfl⟩
abbrev main_v230 : Ref sig .tc := ⟨.hbm, 419, rfl⟩
abbrev main_v231 : Ref sig .tc := ⟨.hbm, 420, rfl⟩
abbrev main_v232 : Ref sig .tc := ⟨.hbm, 421, rfl⟩
abbrev main_v233 : Ref sig .tc := ⟨.hbm, 422, rfl⟩
abbrev main_v234 : Ref sig .tc := ⟨.hbm, 423, rfl⟩
abbrev main_v235 : Ref sig .tc := ⟨.hbm, 424, rfl⟩
abbrev main_v236 : Ref sig .tc := ⟨.hbm, 425, rfl⟩
abbrev main_v237 : Ref sig .tc := ⟨.hbm, 426, rfl⟩
abbrev main_v238 : Ref sig .tc := ⟨.hbm, 427, rfl⟩
abbrev main_v239 : Ref sig .tc := ⟨.hbm, 428, rfl⟩
abbrev main_v240 : Ref sig .tc := ⟨.hbm, 429, rfl⟩
abbrev main_v241 : Ref sig .tc := ⟨.hbm, 430, rfl⟩
abbrev main_v242 : Ref sig .tc := ⟨.hbm, 431, rfl⟩
abbrev main_v243 : Ref sig .tc := ⟨.hbm, 432, rfl⟩
abbrev main_v244 : Ref sig .tc := ⟨.hbm, 433, rfl⟩
abbrev main_cst_31 : Ref sig .tc := ⟨.hbm, 434, rfl⟩
abbrev main_v245 : Ref sig .tc := ⟨.hbm, 435, rfl⟩
abbrev main_v246 : Ref sig .tc := ⟨.hbm, 436, rfl⟩
abbrev main_cst_32 : Ref sig .tc := ⟨.hbm, 437, rfl⟩
abbrev main_v247 : Ref sig .tc := ⟨.hbm, 438, rfl⟩
abbrev main_v248 : Ref sig .tc := ⟨.hbm, 439, rfl⟩
abbrev main_c_33 : Ref sig .tc := ⟨.hbm, 440, rfl⟩
abbrev main_call17_cst : Ref sig .tc := ⟨.hbm, 441, rfl⟩
abbrev main_call17_v0 : Ref sig .tc := ⟨.hbm, 442, rfl⟩
abbrev main_call17_v1 : Ref sig .tc := ⟨.hbm, 443, rfl⟩
abbrev main_call17_cst_0 : Ref sig .tc := ⟨.hbm, 444, rfl⟩
abbrev main_call17_v2 : Ref sig .tc := ⟨.hbm, 445, rfl⟩
abbrev main_call17_v3 : Ref sig .tc := ⟨.hbm, 446, rfl⟩
abbrev main_call17_v4 : Ref sig .tc := ⟨.hbm, 447, rfl⟩
abbrev main_call17_v5 : Ref sig .tc := ⟨.hbm, 448, rfl⟩
abbrev main_call17_v6 : Ref sig .tc := ⟨.hbm, 449, rfl⟩
abbrev main_call17_v7 : Ref sig .tc := ⟨.hbm, 450, rfl⟩
abbrev main_call17_cst_1 : Ref sig .tc := ⟨.hbm, 451, rfl⟩
abbrev main_call17_v8 : Ref sig .tc := ⟨.hbm, 452, rfl⟩
abbrev main_call17_cst_2 : Ref sig .tc := ⟨.hbm, 453, rfl⟩
abbrev main_call17_v9 : Ref sig .tc := ⟨.hbm, 454, rfl⟩
abbrev main_call17_v10 : Ref sig .tc := ⟨.hbm, 455, rfl⟩
abbrev main_call17_v11 : Ref sig .tc := ⟨.hbm, 456, rfl⟩
abbrev main_call17_v12 : Ref sig .tc := ⟨.hbm, 457, rfl⟩
abbrev main_call17_cst_3 : Ref sig .tc := ⟨.hbm, 458, rfl⟩
abbrev main_call17_v13 : Ref sig .tc := ⟨.hbm, 459, rfl⟩
abbrev main_call17_cst_4 : Ref sig .tc := ⟨.hbm, 460, rfl⟩
abbrev main_call17_call0_v0 : Ref sig .tc := ⟨.hbm, 461, rfl⟩
abbrev main_call17_call0_v1 : Ref sig .tc := ⟨.hbm, 462, rfl⟩
abbrev main_v249 : Ref sig .tc := ⟨.hbm, 463, rfl⟩
abbrev main_v250 : Ref sig .tc := ⟨.hbm, 464, rfl⟩
abbrev main_v251 : Ref sig .tc := ⟨.hbm, 465, rfl⟩
abbrev main_v252 : Ref sig .tc := ⟨.hbm, 466, rfl⟩
abbrev main_v253 : Ref sig .tc := ⟨.hbm, 467, rfl⟩
abbrev main_v254 : Ref sig .tc := ⟨.hbm, 468, rfl⟩
abbrev main_cst_34 : Ref sig .tc := ⟨.hbm, 469, rfl⟩
abbrev main_v255 : Ref sig .tc := ⟨.hbm, 470, rfl⟩
abbrev main_v256 : Ref sig .tc := ⟨.hbm, 471, rfl⟩
abbrev main_v257 : Ref sig .tc := ⟨.hbm, 472, rfl⟩
abbrev main_v258 : Ref sig .tc := ⟨.hbm, 473, rfl⟩
abbrev main_v259 : Ref sig .tc := ⟨.hbm, 474, rfl⟩
abbrev main_v260 : Ref sig .tc := ⟨.hbm, 475, rfl⟩
abbrev main_v261 : Ref sig .tc := ⟨.hbm, 476, rfl⟩
abbrev main_v262 : Ref sig .tc := ⟨.hbm, 477, rfl⟩
abbrev main_call18_cst : Ref sig .tc := ⟨.hbm, 478, rfl⟩
abbrev main_call18_v0 : Ref sig .tc := ⟨.hbm, 479, rfl⟩
abbrev main_v263 : Ref sig .tc := ⟨.hbm, 480, rfl⟩
abbrev main_v264 : Ref sig .tc := ⟨.hbm, 481, rfl⟩
abbrev main_v265 : Ref sig .tc := ⟨.hbm, 482, rfl⟩
abbrev main_v266 : Ref sig .tc := ⟨.hbm, 483, rfl⟩
abbrev main_v267 : Ref sig .tc := ⟨.hbm, 484, rfl⟩
abbrev main_v268 : Ref sig .tc := ⟨.hbm, 485, rfl⟩
abbrev main_v269 : Ref sig .tc := ⟨.hbm, 486, rfl⟩
abbrev main_v270 : Ref sig .tc := ⟨.hbm, 487, rfl⟩
abbrev main_v271 : Ref sig .tc := ⟨.hbm, 488, rfl⟩
abbrev main_v272 : Ref sig .tc := ⟨.hbm, 489, rfl⟩
abbrev main_v273 : Ref sig .tc := ⟨.hbm, 490, rfl⟩
abbrev main_v274 : Ref sig .tc := ⟨.hbm, 491, rfl⟩
abbrev main_v275 : Ref sig .tc := ⟨.hbm, 492, rfl⟩
abbrev main_v276 : Ref sig .tc := ⟨.hbm, 493, rfl⟩
abbrev main_v277 : Ref sig .tc := ⟨.hbm, 494, rfl⟩
abbrev main_v278 : Ref sig .tc := ⟨.hbm, 495, rfl⟩
abbrev main_v279 : Ref sig .tc := ⟨.hbm, 496, rfl⟩
abbrev main_v280 : Ref sig .tc := ⟨.hbm, 497, rfl⟩
abbrev main_v281 : Ref sig .tc := ⟨.hbm, 498, rfl⟩
abbrev main_v282 : Ref sig .tc := ⟨.hbm, 499, rfl⟩
abbrev main_v283 : Ref sig .tc := ⟨.hbm, 500, rfl⟩
abbrev main_v284 : Ref sig .tc := ⟨.hbm, 501, rfl⟩
abbrev main_v285 : Ref sig .tc := ⟨.hbm, 502, rfl⟩
abbrev main_v286 : Ref sig .tc := ⟨.hbm, 503, rfl⟩
abbrev main_cst_35 : Ref sig .tc := ⟨.hbm, 504, rfl⟩
abbrev main_call19_cst : Ref sig .tc := ⟨.hbm, 505, rfl⟩
abbrev main_call19_v0 : Ref sig .tc := ⟨.hbm, 506, rfl⟩
abbrev main_call19_v1 : Ref sig .tc := ⟨.hbm, 507, rfl⟩
abbrev main_call19_v2 : Ref sig .tc := ⟨.hbm, 508, rfl⟩
abbrev main_call19_v3 : Ref sig .tc := ⟨.hbm, 509, rfl⟩
abbrev main_call19_v4 : Ref sig .tc := ⟨.hbm, 510, rfl⟩
abbrev main_v287 : Ref sig .tc := ⟨.hbm, 511, rfl⟩
abbrev main_v288 : Ref sig .tc := ⟨.hbm, 512, rfl⟩
abbrev main_v289 : Ref sig .tc := ⟨.hbm, 513, rfl⟩
abbrev main_v290 : Ref sig .tc := ⟨.hbm, 514, rfl⟩
abbrev main_cst_36 : Ref sig .tc := ⟨.hbm, 515, rfl⟩
abbrev main_call20_cst : Ref sig .tc := ⟨.hbm, 516, rfl⟩
abbrev main_call20_v0 : Ref sig .tc := ⟨.hbm, 517, rfl⟩
abbrev main_call20_v1 : Ref sig .tc := ⟨.hbm, 518, rfl⟩
abbrev main_call20_v2 : Ref sig .tc := ⟨.hbm, 519, rfl⟩
abbrev main_call20_v3 : Ref sig .tc := ⟨.hbm, 520, rfl⟩
abbrev main_call20_v4 : Ref sig .tc := ⟨.hbm, 521, rfl⟩
abbrev main_v291 : Ref sig .tc := ⟨.hbm, 522, rfl⟩
abbrev main_v292 : Ref sig .tc := ⟨.hbm, 523, rfl⟩
abbrev main_v293 : Ref sig .tc := ⟨.hbm, 524, rfl⟩
abbrev main_v294 : Ref sig .tc := ⟨.hbm, 525, rfl⟩
abbrev main_cst_37 : Ref sig .tc := ⟨.hbm, 526, rfl⟩
abbrev main_call21_cst : Ref sig .tc := ⟨.hbm, 527, rfl⟩
abbrev main_call21_v0 : Ref sig .tc := ⟨.hbm, 528, rfl⟩
abbrev main_call21_v1 : Ref sig .tc := ⟨.hbm, 529, rfl⟩
abbrev main_call21_v2 : Ref sig .tc := ⟨.hbm, 530, rfl⟩
abbrev main_call21_v3 : Ref sig .tc := ⟨.hbm, 531, rfl⟩
abbrev main_call21_v4 : Ref sig .tc := ⟨.hbm, 532, rfl⟩
abbrev main_v295 : Ref sig .tc := ⟨.hbm, 533, rfl⟩
abbrev main_v296 : Ref sig .tc := ⟨.hbm, 534, rfl⟩
abbrev main_v297 : Ref sig .tc := ⟨.hbm, 535, rfl⟩
abbrev main_v298 : Ref sig .tc := ⟨.hbm, 536, rfl⟩
abbrev main_cst_38 : Ref sig .tc := ⟨.hbm, 537, rfl⟩
abbrev main_call22_cst : Ref sig .tc := ⟨.hbm, 538, rfl⟩
abbrev main_call22_v0 : Ref sig .tc := ⟨.hbm, 539, rfl⟩
abbrev main_call22_v1 : Ref sig .tc := ⟨.hbm, 540, rfl⟩
abbrev main_call22_v2 : Ref sig .tc := ⟨.hbm, 541, rfl⟩
abbrev main_call22_v3 : Ref sig .tc := ⟨.hbm, 542, rfl⟩
abbrev main_call22_v4 : Ref sig .tc := ⟨.hbm, 543, rfl⟩
abbrev main_v299 : Ref sig .tc := ⟨.hbm, 544, rfl⟩
abbrev main_v300 : Ref sig .tc := ⟨.hbm, 545, rfl⟩
abbrev main_cst_39 : Ref sig .tc := ⟨.hbm, 546, rfl⟩
abbrev main_v301 : Ref sig .tc := ⟨.hbm, 547, rfl⟩
abbrev main_cst_40 : Ref sig .tc := ⟨.hbm, 548, rfl⟩
abbrev main_v302 : Ref sig .tc := ⟨.hbm, 549, rfl⟩
abbrev main_v303 : Ref sig .tc := ⟨.hbm, 550, rfl⟩
abbrev main_v304 : Ref sig .tc := ⟨.hbm, 551, rfl⟩
abbrev main_v305 : Ref sig .tc := ⟨.hbm, 552, rfl⟩
abbrev main_v306 : Ref sig .tc := ⟨.hbm, 553, rfl⟩
abbrev main_v307 : Ref sig .tc := ⟨.hbm, 554, rfl⟩
abbrev main_cst_41 : Ref sig .tc := ⟨.hbm, 555, rfl⟩
abbrev main_v308 : Ref sig .tc := ⟨.hbm, 556, rfl⟩
abbrev main_v309 : Ref sig .tc := ⟨.hbm, 557, rfl⟩
abbrev main_v310 : Ref sig .tc := ⟨.hbm, 558, rfl⟩
abbrev main_v311 : Ref sig .tc := ⟨.hbm, 559, rfl⟩
abbrev main_v312 : Ref sig .tc := ⟨.hbm, 560, rfl⟩
abbrev main_v313 : Ref sig .tc := ⟨.hbm, 561, rfl⟩
abbrev main_v314 : Ref sig .tc := ⟨.hbm, 562, rfl⟩
abbrev main_v315 : Ref sig .tc := ⟨.hbm, 563, rfl⟩
abbrev main_v316 : Ref sig .tc := ⟨.hbm, 564, rfl⟩
abbrev main_v317 : Ref sig .tc := ⟨.hbm, 565, rfl⟩
abbrev main_v318 : Ref sig .tc := ⟨.hbm, 566, rfl⟩
abbrev main_v319 : Ref sig .tc := ⟨.hbm, 567, rfl⟩
abbrev main_v320 : Ref sig .tc := ⟨.hbm, 568, rfl⟩
abbrev main_v321 : Ref sig .tc := ⟨.hbm, 569, rfl⟩
abbrev main_v322 : Ref sig .tc := ⟨.hbm, 570, rfl⟩
abbrev main_v323 : Ref sig .tc := ⟨.hbm, 571, rfl⟩
abbrev main_v324 : Ref sig .tc := ⟨.hbm, 572, rfl⟩
abbrev main_v325 : Ref sig .tc := ⟨.hbm, 573, rfl⟩
abbrev main_v326 : Ref sig .tc := ⟨.hbm, 574, rfl⟩
abbrev main_cst_42 : Ref sig .tc := ⟨.hbm, 575, rfl⟩
abbrev main_v327 : Ref sig .tc := ⟨.hbm, 576, rfl⟩
abbrev main_v328 : Ref sig .tc := ⟨.hbm, 577, rfl⟩
abbrev main_cst_43 : Ref sig .tc := ⟨.hbm, 578, rfl⟩
abbrev main_v329 : Ref sig .tc := ⟨.hbm, 579, rfl⟩
abbrev main_v330 : Ref sig .tc := ⟨.hbm, 580, rfl⟩
abbrev main_c_44 : Ref sig .tc := ⟨.hbm, 581, rfl⟩
abbrev main_call23_cst : Ref sig .tc := ⟨.hbm, 582, rfl⟩
abbrev main_call23_v0 : Ref sig .tc := ⟨.hbm, 583, rfl⟩
abbrev main_call23_v1 : Ref sig .tc := ⟨.hbm, 584, rfl⟩
abbrev main_call23_cst_0 : Ref sig .tc := ⟨.hbm, 585, rfl⟩
abbrev main_call23_v2 : Ref sig .tc := ⟨.hbm, 586, rfl⟩
abbrev main_call23_v3 : Ref sig .tc := ⟨.hbm, 587, rfl⟩
abbrev main_call23_v4 : Ref sig .tc := ⟨.hbm, 588, rfl⟩
abbrev main_call23_v5 : Ref sig .tc := ⟨.hbm, 589, rfl⟩
abbrev main_call23_v6 : Ref sig .tc := ⟨.hbm, 590, rfl⟩
abbrev main_call23_v7 : Ref sig .tc := ⟨.hbm, 591, rfl⟩
abbrev main_call23_cst_1 : Ref sig .tc := ⟨.hbm, 592, rfl⟩
abbrev main_call23_v8 : Ref sig .tc := ⟨.hbm, 593, rfl⟩
abbrev main_call23_cst_2 : Ref sig .tc := ⟨.hbm, 594, rfl⟩
abbrev main_call23_v9 : Ref sig .tc := ⟨.hbm, 595, rfl⟩
abbrev main_call23_v10 : Ref sig .tc := ⟨.hbm, 596, rfl⟩
abbrev main_call23_v11 : Ref sig .tc := ⟨.hbm, 597, rfl⟩
abbrev main_call23_v12 : Ref sig .tc := ⟨.hbm, 598, rfl⟩
abbrev main_call23_cst_3 : Ref sig .tc := ⟨.hbm, 599, rfl⟩
abbrev main_call23_v13 : Ref sig .tc := ⟨.hbm, 600, rfl⟩
abbrev main_call23_cst_4 : Ref sig .tc := ⟨.hbm, 601, rfl⟩
abbrev main_call23_call0_v0 : Ref sig .tc := ⟨.hbm, 602, rfl⟩
abbrev main_call23_call0_v1 : Ref sig .tc := ⟨.hbm, 603, rfl⟩
abbrev main_v331 : Ref sig .tc := ⟨.hbm, 604, rfl⟩
abbrev main_v332 : Ref sig .tc := ⟨.hbm, 605, rfl⟩
abbrev main_v333 : Ref sig .tc := ⟨.hbm, 606, rfl⟩
abbrev main_v334 : Ref sig .tc := ⟨.hbm, 607, rfl⟩
abbrev main_v335 : Ref sig .tc := ⟨.hbm, 608, rfl⟩
abbrev main_v336 : Ref sig .tc := ⟨.hbm, 609, rfl⟩
abbrev main_cst_45 : Ref sig .tc := ⟨.hbm, 610, rfl⟩
abbrev main_v337 : Ref sig .tc := ⟨.hbm, 611, rfl⟩
abbrev main_v338 : Ref sig .tc := ⟨.hbm, 612, rfl⟩
abbrev main_v339 : Ref sig .tc := ⟨.hbm, 613, rfl⟩
abbrev main_v340 : Ref sig .tc := ⟨.hbm, 614, rfl⟩
abbrev main_v341 : Ref sig .tc := ⟨.hbm, 615, rfl⟩
abbrev main_v342 : Ref sig .tc := ⟨.hbm, 616, rfl⟩
abbrev main_v343 : Ref sig .tc := ⟨.hbm, 617, rfl⟩
abbrev main_v344 : Ref sig .tc := ⟨.hbm, 618, rfl⟩
abbrev main_call24_cst : Ref sig .tc := ⟨.hbm, 619, rfl⟩
abbrev main_call24_v0 : Ref sig .tc := ⟨.hbm, 620, rfl⟩
abbrev main_v345 : Ref sig .tc := ⟨.hbm, 621, rfl⟩
abbrev main_v346 : Ref sig .tc := ⟨.hbm, 622, rfl⟩
abbrev main_v347 : Ref sig .tc := ⟨.hbm, 623, rfl⟩
abbrev main_v348 : Ref sig .tc := ⟨.hbm, 624, rfl⟩
abbrev main_v349 : Ref sig .tc := ⟨.hbm, 625, rfl⟩
abbrev main_v350 : Ref sig .tc := ⟨.hbm, 626, rfl⟩
abbrev main_v351 : Ref sig .tc := ⟨.hbm, 627, rfl⟩
abbrev main_cst_46 : Ref sig .tc := ⟨.hbm, 628, rfl⟩
abbrev main_v352 : Ref sig .tc := ⟨.hbm, 629, rfl⟩
abbrev main_v353 : Ref sig .tc := ⟨.hbm, 630, rfl⟩
abbrev main_v354 : Ref sig .tc := ⟨.hbm, 631, rfl⟩
abbrev main_cst_47 : Ref sig .tc := ⟨.hbm, 632, rfl⟩
abbrev main_v355 : Ref sig .tc := ⟨.hbm, 633, rfl⟩
abbrev main_v356 : Ref sig .tc := ⟨.hbm, 634, rfl⟩
abbrev main_call25_cst : Ref sig .tc := ⟨.hbm, 635, rfl⟩
abbrev main_call25_v0 : Ref sig .tc := ⟨.hbm, 636, rfl⟩
abbrev main_call25_cst_0 : Ref sig .tc := ⟨.hbm, 637, rfl⟩
abbrev main_call25_v1 : Ref sig .tc := ⟨.hbm, 638, rfl⟩
abbrev main_call25_v2 : Ref sig .tc := ⟨.hbm, 639, rfl⟩
abbrev main_call25_v3 : Ref sig .tc := ⟨.hbm, 640, rfl⟩
abbrev main_call25_v4 : Ref sig .tc := ⟨.hbm, 641, rfl⟩
abbrev main_call25_v5 : Ref sig .tc := ⟨.hbm, 642, rfl⟩
abbrev main_call25_v6 : Ref sig .tc := ⟨.hbm, 643, rfl⟩
abbrev main_call25_cst_1 : Ref sig .tc := ⟨.hbm, 644, rfl⟩
abbrev main_call25_v7 : Ref sig .tc := ⟨.hbm, 645, rfl⟩
abbrev main_call25_v8 : Ref sig .tc := ⟨.hbm, 646, rfl⟩
abbrev main_call25_v9 : Ref sig .tc := ⟨.hbm, 647, rfl⟩
abbrev main_call25_v10 : Ref sig .tc := ⟨.hbm, 648, rfl⟩
abbrev main_v357 : Ref sig .tc := ⟨.hbm, 649, rfl⟩

abbrev nD : Nat := 1
abbrev τ : Topo := Topo.v7x

variable {F : FTy → Type} [FloatOps F]

class Facts₀ : Prop where
  reducesTo_S5000x256_S256_d0 : S5000x256.ReducesTo [0] S256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)
  bcast_S1x256_S5000x256_0_1 : S1x256.BroadcastsInDim S5000x256 (![0, 1] : Fin 2 → Fin S5000x256.rank)
  slices_S4x256x32_S1x256x32_0_0_0 : S4x256x32.Slices ![0, 0, 0] S1x256x32
  shapeCasts_S1x256x32_S256x32 : S1x256x32.ShapeCasts S256x32
  slices_S4x64x1_S1x64x1_0_0_0 : S4x64x1.Slices ![0, 0, 0] S1x64x1
  shapeCasts_S1x64x1_S64x1 : S1x64x1.ShapeCasts S64x1
  slices_S64x1_S32x1_0_0 : S64x1.Slices ![0, 0] S32x1
  slices_S64x1_S32x1_32_0 : S64x1.Slices ![32, 0] S32x1
  bcast_S_S5000x1 : S_.BroadcastsInDim S5000x1 (![] : Fin 0 → Fin S5000x1.rank)
  concatenates_S5000x1_S5000x1_S5000x1_S5000x1_S5000x4_d1 : Shape.Concatenates [S5000x1, S5000x1, S5000x1, S5000x1] S5000x4 1
  reducesTo_S5000x4_S5000_d1 : S5000x4.ReducesTo [1] S5000
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x4_0_1 : S5000x1.BroadcastsInDim S5000x4 (![0, 1] : Fin 2 → Fin S5000x4.rank)
  slices_S5000x4_S5000x1_0_0 : S5000x4.Slices ![0, 0] S5000x1
  bcast_S5000x1_S5000x32_0_1 : S5000x1.BroadcastsInDim S5000x32 (![0, 1] : Fin 2 → Fin S5000x32.rank)
  slices_S5000x4_S5000x1_0_1 : S5000x4.Slices ![0, 1] S5000x1
  slices_S5000x4_S5000x1_0_2 : S5000x4.Slices ![0, 2] S5000x1
  slices_S5000x4_S5000x1_0_3 : S5000x4.Slices ![0, 3] S5000x1
  reducesTo_S5000x32_S32_d0 : S5000x32.ReducesTo [0] S32
  bcast_S32_S1x32_1 : S32.BroadcastsInDim S1x32 (![1] : Fin 1 → Fin S1x32.rank)
  bcast_S_S1x32 : S_.BroadcastsInDim S1x32 (![] : Fin 0 → Fin S1x32.rank)
  bcast_S1x32_S5000x32_0_1 : S1x32.BroadcastsInDim S5000x32 (![0, 1] : Fin 2 → Fin S5000x32.rank)
  bcast_S_S5000x32 : S_.BroadcastsInDim S5000x32 (![] : Fin 0 → Fin S5000x32.rank)
  slices_S4x256x32_S1x256x32_1_0_0 : S4x256x32.Slices ![1, 0, 0] S1x256x32
  slices_S4x64x1_S1x64x1_1_0_0 : S4x64x1.Slices ![1, 0, 0] S1x64x1
  slices_S4x256x32_S1x256x32_2_0_0 : S4x256x32.Slices ![2, 0, 0] S1x256x32
  slices_S4x64x1_S1x64x1_2_0_0 : S4x64x1.Slices ![2, 0, 0] S1x64x1
  slices_S4x256x32_S1x256x32_3_0_0 : S4x256x32.Slices ![3, 0, 0] S1x256x32
  slices_S4x64x1_S1x64x1_3_0_0 : S4x64x1.Slices ![3, 0, 0] S1x64x1
  concatenates_S5000x32_S5000x32_S5000x32_S5000x32_S5000x128_d1 : Shape.Concatenates [S5000x32, S5000x32, S5000x32, S5000x32] S5000x128 1
  bcast_S10_S1x10_1 : S10.BroadcastsInDim S1x10 (![1] : Fin 1 → Fin S1x10.rank)
  bcast_S1x10_S5000x10_0_1 : S1x10.BroadcastsInDim S5000x10 (![0, 1] : Fin 2 → Fin S5000x10.rank)
  bcast_S_S5000x10 : S_.BroadcastsInDim S5000x10 (![] : Fin 0 → Fin S5000x10.rank)
  reducesTo_S5000x10_S5000_d1 : S5000x10.ReducesTo [1] S5000
  bcast_S5000x1_S5000x10_0_1 : S5000x1.BroadcastsInDim S5000x10 (![0, 1] : Fin 2 → Fin S5000x10.rank)
  dot_S5000x256_S256x32_S5000x32_1_0_0_1_n_n_wf : DotDims.WF S5000x256 S256x32 S5000x32 [1] [0] [0] [1] [] []
  dot_S5000x5000_S5000x32_S5000x32_1_0_0_1_n_n_wf : DotDims.WF S5000x5000 S5000x32 S5000x32 [1] [0] [0] [1] [] []
  dot_S5000x32_S32x1_S5000x1_1_0_0_1_n_n_wf : DotDims.WF S5000x32 S32x1 S5000x1 [1] [0] [0] [1] [] []
  dot_S5000x128_S128x10_S5000x10_1_0_0_1_n_n_wf : DotDims.WF S5000x128 S128x10 S5000x10 [1] [0] [0] [1] [] []
  dot_S5000x5000_S5000x10_S5000x10_1_0_0_1_n_n_wf : DotDims.WF S5000x5000 S5000x10 S5000x10 [1] [0] [0] [1] [] []

variable [Facts₀]

def dot_S5000x256_S256x32_S5000x32_1_0_0_1_n_n : DotDims S5000x256 S256x32 S5000x32 where
  lhsContracting := [1]
  rhsContracting := [0]
  lhsNonContracting := [0]
  rhsNonContracting := [1]
  lhsBatch := []
  rhsBatch := []
  wf := dot_S5000x256_S256x32_S5000x32_1_0_0_1_n_n_wf
def dot_S5000x5000_S5000x32_S5000x32_1_0_0_1_n_n : DotDims S5000x5000 S5000x32 S5000x32 where
  lhsContracting := [1]
  rhsContracting := [0]
  lhsNonContracting := [0]
  rhsNonContracting := [1]
  lhsBatch := []
  rhsBatch := []
  wf := dot_S5000x5000_S5000x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf
def dot_S5000x128_S128x10_S5000x10_1_0_0_1_n_n : DotDims S5000x128 S128x10 S5000x10 where
  lhsContracting := [1]
  rhsContracting := [0]
  lhsNonContracting := [0]
  rhsNonContracting := [1]
  lhsBatch := []
  rhsBatch := []
  wf := dot_S5000x128_S128x10_S5000x10_1_0_0_1_n_n_wf
def dot_S5000x5000_S5000x10_S5000x10_1_0_0_1_n_n : DotDims S5000x5000 S5000x10 S5000x10 where
  lhsContracting := [1]
  rhsContracting := [0]
  lhsNonContracting := [0]
  rhsNonContracting := [1]
  lhsBatch := []
  rhsBatch := []
  wf := dot_S5000x5000_S5000x10_S5000x10_1_0_0_1_n_n_wf

class Facts : Prop extends Facts₀ where

variable [Facts]
-- ==== Proof.K.Common.lean ====
/-
  The two kernel regions of the program as printed: what every later module shares.

  Region 0 is the attention kernel on a grid of 25 points: at its first point it fills a 5000 x 128 scratch with the
  projected features H, and at every point it reads H whole and in the 200 rows of the point. Region 1 is the smoothing
  kernel on 5 points: at its first point it fills a 5000 x 10 scratch with the support matrix, and at every point reads
  it whole and in the point's 1000 rows. So each body has one branch, taken exactly at the first grid point, and the
  scratch it fills there is carried unchanged through the remaining points.

  The windows' blocks are stated at a parameter `V`: what the TensorCore's buffers hold when the region is entered.
-/
import proofs.«113748_g69337952026834_cont_sun_c4_16_16_alg».proof.Proof.Gen.Kernel.Launch
import proofs.«113748_g69337952026834_cont_sun_c4_16_16_alg».proof.Proof.Gen.Kernel.Skeleton
import proofs.«113748_g69337952026834_cont_sun_c4_16_16_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The branch of each body -/

/-- The attention kernel's branch condition, from the grid coordinate. -/
abbrev cond0 (i : grid0.Coords) : Prop :=
  (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val = 0 :=
  (by decide +kernel : ∀ t : Fin grid0.N, cond0 (grid0.coords t) ↔ t.val = 0)

/-- The smoothing kernel's branch condition, from the grid coordinate. -/
abbrev cond1 (i : grid1.Coords) : Prop :=
  (Scalar.cmpi .ne (Scalar.extui (Scalar.cmpi .eq (BitVec.ofNat 32 (i 0).val) 0#32)) 0#32) = 1#1
/-- It holds at the first point only. -/
theorem hcond1 : ∀ t : Fin cfg1.N, cond1 (grid1.coords t) ↔ t.val = 0 :=
  (by decide +kernel : ∀ t : Fin grid1.N, cond1 (grid1.coords t) ↔ t.val = 0)

/-! ## The scratch of each kernel, and a view of each output window's staging buffer -/

/-- The attention kernel's scratch: the projected features. -/
abbrev scM0 : Memref sig .tc .vmem S5000x128 .f32 := Memref.whole cc0_scratch0
abbrev VS0 : View sig .tc .vmem S5000x128 .f32 := scM0.view
/-- One staging buffer of the attention kernel's output window, through which its contents are stated. -/
abbrev VO0 : View sig .tc .vmem S200x128 .f32 := (Memref.whole cc0_stg10_0 : Memref sig .tc .vmem S200x128 .f32).view
/-- The smoothing kernel's scratch: the support matrix. -/
abbrev scM1 : Memref sig .tc .vmem S5000x10 .f32 := Memref.whole cc1_scratch0
abbrev VS1 : View sig .tc .vmem S5000x10 .f32 := scM1.view
/-- One staging buffer of the smoothing kernel's output window. -/
abbrev VO1 : View sig .tc .vmem S1000x10 .f32 := (Memref.whole cc1_stg6_0 : Memref sig .tc .vmem S1000x10 .f32).view

/-! ## The windows' blocks -/

section Regions
variable (V : (c : Dev nD) → (b : Ref sig .tc) → Buf (Elt F) ((c : Thread nD τ).loc b))

/-- Window `w`'s block of region 0 at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block of region 1 at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end Regions

/-! ## The region invariant before the first point, conjunct by conjunct

The core's scoped buffers that the region's pipeline does not stage, each whole at some contents, with the region's own
scratch as an owned memref, beside the generator register at some state. -/

theorem PhiA0_eq (c : Dev nD) :
    (Pipeline.ΦA spec0 c : sProp 𝕄)
      = iprop(iprop((∃ d, owns (c : Thread nD τ) scM0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0, owns_whole]; try rfl

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_scratch0), ((c : Thread nD τ).loc cc0_scratch0) ↦{fullShare} f) ∗ (∃ d, owns (c : Thread nD τ) scM1 fullShare d)) ∗ (∃ r, prngReg c r)) := by
  unfold Pipeline.ΦA; rw [scopedRest1_eq]; simp only [scM1, owns_whole]; try rfl

end Cert.Kernel.Hand

end
-- ==== Proof.K.Tables.lean ====
/- Per window of each kernel region: the staging memref the pipeline passes the body at a grid point, that it is a whole
   buffer, and, for an input window, that this buffer holds the window's block at every point (where the block is not
   fetched at a point, its index has not moved since the point before). One entry per window; the same text at each. -/
import proofs.«113748_g69337952026834_cont_sun_c4_16_16_alg».proof.Proof.K.Common

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]

abbrev ms0_0 (t : Fin cfg0.N) : Memref sig .tc .vmem S5000x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S200x5000 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S200x5000 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S200x5000 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S200x5000 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S200x128 .f32 := win0_10.stage (cfg0.slots t 10)
abbrev hs0_10 (t : Fin cfg0.N) : (ms0_10 t).IsWhole := hstage0_10 ((cfg0.slots t 10).cast nbuf0_10)
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x10 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x10 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1000x5000 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1000x10 .f32 := win1_6.stage (cfg1.slots t 6)
abbrev hs1_6 (t : Fin cfg1.N) : (ms1_6 t).IsWhole := hstage1_6 ((cfg1.slots t 6).cast nbuf1_6)

section Regions
variable (V : (c : Dev nD) → (b : Ref sig .tc) → Buf (Elt F) ((c : Thread nD τ).loc b))

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (Pipeline.UD sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (Pipeline.UD sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (Pipeline.UD sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (Pipeline.UD sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end Regions

end Cert.Kernel.Hand

end
-- ==== Proof.K.Run0A.lean ====
/-
  The attention kernel's body at the FIRST grid point. The branch is taken: the body reads the node features whole
  (5000 x 256), the first batch norm's scale and shift and the concatenated head projections (256 x 128), and stores into
  the scratch the projected features H: batch norm over the 5000 rows, times the projections. It then continues as at
  every other point, reading that scratch whole and in the point's 200 rows, and stores the point's 200 x 128 output
  block. The pieces stored into the output's staging buffer and into the scratch are what the symbolic run finds.
-/
import proofs.«113748_g69337952026834_cont_sun_c4_16_16_alg».proof.Proof.K.Tables

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
noncomputable def kernelRun0_A (c : Dev nD) (i : grid0.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S200x5000 .f32) (harg7 : arg7.IsWhole) (arg8 : Memref sig .tc .vmem S200x5000 .f32) (harg8 : arg8.IsWhole) (arg9 : Memref sig .tc .vmem S200x5000 .f32) (harg9 : arg9.IsWhole) (arg10 : Memref sig .tc .vmem S200x5000 .f32) (harg10 : arg10.IsWhole) (arg11 : Memref sig .tc .vmem S200x128 .f32) (harg11 : arg11.IsWhole) (arg12 : Memref sig .tc .vmem S5000x128 .f32) (harg12 : arg12.IsWhole) (hc : cond0 i)
    (x0 : Vec F S5000x256 .f32) (x1 : Vec F S1x256 .f32) (x2 : Vec F S1x256 .f32) (x3 : Vec F S256x128 .f32) (x4 : Vec F S1x128 .f32) (x5 : Vec F S1x128 .f32) (x6 : Vec F S200x5000 .f32) (x7 : Vec F S200x5000 .f32) (x8 : Vec F S200x5000 .f32) (x9 : Vec F S200x5000 .f32) :
    Σ' (L10 : List (View.Piece (Elt F) S200x128 .f32)), { LS : List (View.Piece (Elt F) S5000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS)) -∗ K ⟨⟩))
          ⊢ wp frame (wpE (defs₀ (F := F)) Variants.none c none) E (cc0__att_kernel i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__att_kernel_eq_skeleton]; unfold cc0__att_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    iexists _; iexact HS

end Cert.Kernel.Hand

end
-- ==== Proof.K.Run0B.lean ====
/-
  The attention kernel's body at a grid point that is NOT the first. The branch is skipped, so the body only reads: the
  point's 200 x 5000 blocks of the four propagation operators, the two attention vectors, the scratch of projected
  features H whole and in the point's 200 rows; and it stores one 200 x 128 block: the four channels (operator-block @ H,
  the three band-pass ones raised to the fourth power), their per-head additive scores through leaky relu, the softmax
  over the four channels of each head, and the weighted mix. The scratch and every input come back as they were found;
  the pieces stored into the output's staging buffer are what the symbolic run finds.
-/
import proofs.«113748_g69337952026834_cont_sun_c4_16_16_alg».proof.Proof.K.Tables

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
noncomputable def kernelRun0_B (c : Dev nD) (i : grid0.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S200x5000 .f32) (harg7 : arg7.IsWhole) (arg8 : Memref sig .tc .vmem S200x5000 .f32) (harg8 : arg8.IsWhole) (arg9 : Memref sig .tc .vmem S200x5000 .f32) (harg9 : arg9.IsWhole) (arg10 : Memref sig .tc .vmem S200x5000 .f32) (harg10 : arg10.IsWhole) (arg11 : Memref sig .tc .vmem S200x128 .f32) (harg11 : arg11.IsWhole) (arg12 : Memref sig .tc .vmem S5000x128 .f32) (harg12 : arg12.IsWhole) (hc : ¬cond0 i)
    (x0 : Vec F S5000x256 .f32) (x1 : Vec F S1x256 .f32) (x2 : Vec F S1x256 .f32) (x3 : Vec F S256x128 .f32) (x4 : Vec F S1x128 .f32) (x5 : Vec F S1x128 .f32) (x6 : Vec F S200x5000 .f32) (x7 : Vec F S200x5000 .f32) (x8 : Vec F S200x5000 .f32) (x9 : Vec F S200x5000 .f32) (xs : Vec F S5000x128 .f32) :
    { L10 : List (View.Piece (Elt F) S200x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ owns (c : Thread nD τ) arg12 fullShare xs) -∗ K ⟨⟩))
          ⊢ wp frame (wpE (defs₀ (F := F)) Variants.none c none) E (cc0__att_kernel i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__att_kernel_eq_skeleton]; unfold cc0__att_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hfs
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    iexists _; isplitr; · ipureintro; exact harg12.read_unread _
    iexact HS

end Cert.Kernel.Hand

end
-- ==== Proof.K.Reg0.lean ====
/-
  Region 0, the attention kernel, as proof data for its pipeline.

  After the first point the scratch holds the projected features H, a function of the region's whole input arrays only,
  and no later point stores into it: so the invariant before point n > 0 is "the scratch holds H", and the output block
  after point t is the first-point run's at t = 0 and the later-point run's, over H, elsewhere.
-/
import proofs.«113748_g69337952026834_cont_sun_c4_16_16_alg».proof.Proof.K.Run0A
import proofs.«113748_g69337952026834_cont_sun_c4_16_16_alg».proof.Proof.K.Run0B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The stored pieces cover their buffers -/

theorem cover0_A (c : Dev nD) (i : grid0.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S200x5000 .f32) (harg7 : arg7.IsWhole) (arg8 : Memref sig .tc .vmem S200x5000 .f32) (harg8 : arg8.IsWhole) (arg9 : Memref sig .tc .vmem S200x5000 .f32) (harg9 : arg9.IsWhole) (arg10 : Memref sig .tc .vmem S200x5000 .f32) (harg10 : arg10.IsWhole) (arg11 : Memref sig .tc .vmem S200x128 .f32) (harg11 : arg11.IsWhole) (arg12 : Memref sig .tc .vmem S5000x128 .f32) (harg12 : arg12.IsWhole) (hc : cond0 i) (x0 : Vec F S5000x256 .f32) (x1 : Vec F S1x256 .f32) (x2 : Vec F S1x256 .f32) (x3 : Vec F S256x128 .f32) (x4 : Vec F S1x128 .f32) (x5 : Vec F S1x128 .f32) (x6 : Vec F S200x5000 .f32) (x7 : Vec F S200x5000 .f32) (x8 : Vec F S200x5000 .f32) (x9 : Vec F S200x5000 .f32) (y : S200x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 x9).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 x9).1 S200x128.size (by sl_kernel_rfl) y

theorem scover0_A (c : Dev nD) (i : grid0.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S200x5000 .f32) (harg7 : arg7.IsWhole) (arg8 : Memref sig .tc .vmem S200x5000 .f32) (harg8 : arg8.IsWhole) (arg9 : Memref sig .tc .vmem S200x5000 .f32) (harg9 : arg9.IsWhole) (arg10 : Memref sig .tc .vmem S200x5000 .f32) (harg10 : arg10.IsWhole) (arg11 : Memref sig .tc .vmem S200x128 .f32) (harg11 : arg11.IsWhole) (arg12 : Memref sig .tc .vmem S5000x128 .f32) (harg12 : arg12.IsWhole) (hc : cond0 i) (x0 : Vec F S5000x256 .f32) (x1 : Vec F S1x256 .f32) (x2 : Vec F S1x256 .f32) (x3 : Vec F S256x128 .f32) (x4 : Vec F S1x128 .f32) (x5 : Vec F S1x128 .f32) (x6 : Vec F S200x5000 .f32) (x7 : Vec F S200x5000 .f32) (x8 : Vec F S200x5000 .f32) (x9 : Vec F S200x5000 .f32) (y : S5000x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 x9).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 x9).2.1 S5000x128.size (by sl_kernel_rfl) y

theorem cover0_B (c : Dev nD) (i : grid0.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S200x5000 .f32) (harg7 : arg7.IsWhole) (arg8 : Memref sig .tc .vmem S200x5000 .f32) (harg8 : arg8.IsWhole) (arg9 : Memref sig .tc .vmem S200x5000 .f32) (harg9 : arg9.IsWhole) (arg10 : Memref sig .tc .vmem S200x5000 .f32) (harg10 : arg10.IsWhole) (arg11 : Memref sig .tc .vmem S200x128 .f32) (harg11 : arg11.IsWhole) (arg12 : Memref sig .tc .vmem S5000x128 .f32) (harg12 : arg12.IsWhole) (hc : ¬cond0 i) (x0 : Vec F S5000x256 .f32) (x1 : Vec F S1x256 .f32) (x2 : Vec F S1x256 .f32) (x3 : Vec F S256x128 .f32) (x4 : Vec F S1x128 .f32) (x5 : Vec F S1x128 .f32) (x6 : Vec F S200x5000 .f32) (x7 : Vec F S200x5000 .f32) (x8 : Vec F S200x5000 .f32) (x9 : Vec F S200x5000 .f32) (xs : Vec F S5000x128 .f32) (y : S200x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 x9 xs).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 x9 xs).1 S200x128.size (by sl_kernel_rfl) y

/-! ## What the runs leave: the pieces read back -/

/-- The output block the first-point run leaves. -/
def out0_A (c : Dev nD) (i : grid0.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S200x5000 .f32) (harg7 : arg7.IsWhole) (arg8 : Memref sig .tc .vmem S200x5000 .f32) (harg8 : arg8.IsWhole) (arg9 : Memref sig .tc .vmem S200x5000 .f32) (harg9 : arg9.IsWhole) (arg10 : Memref sig .tc .vmem S200x5000 .f32) (harg10 : arg10.IsWhole) (arg11 : Memref sig .tc .vmem S200x128 .f32) (harg11 : arg11.IsWhole) (arg12 : Memref sig .tc .vmem S5000x128 .f32) (harg12 : arg12.IsWhole) (hc : cond0 i) (x0 : Vec F S5000x256 .f32) (x1 : Vec F S1x256 .f32) (x2 : Vec F S1x256 .f32) (x3 : Vec F S256x128 .f32) (x4 : Vec F S1x128 .f32) (x5 : Vec F S1x128 .f32) (x6 : Vec F S200x5000 .f32) (x7 : Vec F S200x5000 .f32) (x8 : Vec F S200x5000 .f32) (x9 : Vec F S200x5000 .f32) : Vec F S200x128 .f32 :=
  VO0.read (Elt F) (VO0.writes (Elt F) VO0.junk (kernelRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 x9).1)

/-- The scratch the first-point run leaves: the projected features. -/
def sout0_A (c : Dev nD) (i : grid0.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S200x5000 .f32) (harg7 : arg7.IsWhole) (arg8 : Memref sig .tc .vmem S200x5000 .f32) (harg8 : arg8.IsWhole) (arg9 : Memref sig .tc .vmem S200x5000 .f32) (harg9 : arg9.IsWhole) (arg10 : Memref sig .tc .vmem S200x5000 .f32) (harg10 : arg10.IsWhole) (arg11 : Memref sig .tc .vmem S200x128 .f32) (harg11 : arg11.IsWhole) (arg12 : Memref sig .tc .vmem S5000x128 .f32) (harg12 : arg12.IsWhole) (hc : cond0 i) (x0 : Vec F S5000x256 .f32) (x1 : Vec F S1x256 .f32) (x2 : Vec F S1x256 .f32) (x3 : Vec F S256x128 .f32) (x4 : Vec F S1x128 .f32) (x5 : Vec F S1x128 .f32) (x6 : Vec F S200x5000 .f32) (x7 : Vec F S200x5000 .f32) (x8 : Vec F S200x5000 .f32) (x9 : Vec F S200x5000 .f32) : Vec F S5000x128 .f32 :=
  VS0.read (Elt F) (VS0.writes (Elt F) VS0.junk (kernelRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 x9).2.1)

/-- The output block a later-point run leaves, over the scratch contents `xs`. -/
def out0_B (c : Dev nD) (i : grid0.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S200x5000 .f32) (harg7 : arg7.IsWhole) (arg8 : Memref sig .tc .vmem S200x5000 .f32) (harg8 : arg8.IsWhole) (arg9 : Memref sig .tc .vmem S200x5000 .f32) (harg9 : arg9.IsWhole) (arg10 : Memref sig .tc .vmem S200x5000 .f32) (harg10 : arg10.IsWhole) (arg11 : Memref sig .tc .vmem S200x128 .f32) (harg11 : arg11.IsWhole) (arg12 : Memref sig .tc .vmem S5000x128 .f32) (harg12 : arg12.IsWhole) (hc : ¬cond0 i) (x0 : Vec F S5000x256 .f32) (x1 : Vec F S1x256 .f32) (x2 : Vec F S1x256 .f32) (x3 : Vec F S256x128 .f32) (x4 : Vec F S1x128 .f32) (x5 : Vec F S1x128 .f32) (x6 : Vec F S200x5000 .f32) (x7 : Vec F S200x5000 .f32) (x8 : Vec F S200x5000 .f32) (x9 : Vec F S200x5000 .f32) (xs : Vec F S5000x128 .f32) : Vec F S200x128 .f32 :=
  VO0.read (Elt F) (VO0.writes (Elt F) VO0.junk (kernelRun0_B c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 x9 xs).1)

/-- The grid's first point. -/
def p0 : Fin cfg0.N := ⟨0, by rw [show cfg0.N = 25 from N_0]; decide⟩

section Regions
variable (V : (c : Dev nD) → (b : Ref sig .tc) → Buf (Elt F) ((c : Thread nD τ).loc b))

/-- The projected features: what the scratch holds from the first point on. -/
def scr0 (c : Dev nD) : Vec F S5000x128 .f32 :=
  sout0_A c (grid0.coords p0) (ms0_0 p0) (hs0_0 p0) (ms0_1 p0) (hs0_1 p0) (ms0_2 p0) (hs0_2 p0) (ms0_3 p0) (hs0_3 p0) (ms0_4 p0) (hs0_4 p0) (ms0_5 p0) (hs0_5 p0) (ms0_6 p0) (hs0_6 p0) (ms0_7 p0) (hs0_7 p0) (ms0_8 p0) (hs0_8 p0) (ms0_9 p0) (hs0_9 p0) (ms0_10 p0) (hs0_10 p0) scM0 (Memref.isWhole_whole _) ((hcond0 p0).mpr rfl) (iblk0 V c 0 p0) (iblk0 V c 1 p0) (iblk0 V c 2 p0) (iblk0 V c 3 p0) (iblk0 V c 4 p0) (iblk0 V c 5 p0) (iblk0 V c 6 p0) (iblk0 V c 7 p0) (iblk0 V c 8 p0) (iblk0 V c 9 p0)

/-- The output window's staging buffer after the body at point `t`. -/
def outsAt0 (c : Dev nD) (t : Fin cfg0.N) : Vec F S200x128 .f32 :=
  if h : t.val = 0 then
    out0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0 (Memref.isWhole_whole _) ((hcond0 t).mpr h) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  else
    out0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0 (Memref.isWhole_whole _) (fun hh => h ((hcond0 t).mp hh)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (scr0 V c)

theorem outsAt0_first (c : Dev nD) :
    outsAt0 V c p0 = out0_A c (grid0.coords p0) (ms0_0 p0) (hs0_0 p0) (ms0_1 p0) (hs0_1 p0) (ms0_2 p0) (hs0_2 p0) (ms0_3 p0) (hs0_3 p0) (ms0_4 p0) (hs0_4 p0) (ms0_5 p0) (hs0_5 p0) (ms0_6 p0) (hs0_6 p0) (ms0_7 p0) (hs0_7 p0) (ms0_8 p0) (hs0_8 p0) (ms0_9 p0) (hs0_9 p0) (ms0_10 p0) (hs0_10 p0) scM0 (Memref.isWhole_whole _) ((hcond0 p0).mpr rfl) (iblk0 V c 0 p0) (iblk0 V c 1 p0) (iblk0 V c 2 p0) (iblk0 V c 3 p0) (iblk0 V c 4 p0) (iblk0 V c 5 p0) (iblk0 V c 6 p0) (iblk0 V c 7 p0) (iblk0 V c 8 p0) (iblk0 V c 9 p0) :=
  dif_pos rfl

theorem outsAt0_later (c : Dev nD) (t : Fin cfg0.N) (h : ¬t.val = 0) :
    outsAt0 V c t = out0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0 (Memref.isWhole_whole _) (fun hh => h ((hcond0 t).mp hh)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (scr0 V c) :=
  dif_neg h

/-- The region invariant before position `n`: before the first point every scoped buffer at anything; afterwards the same
    with the scratch at the projected features. -/
def PhiS0 (c : Dev nD) : ℕ → sProp 𝕄
  | 0 => Pipeline.ΦA spec0 c
  | _ + 1 => iprop(iprop(owns (c : Thread nD τ) scM0 fullShare (scr0 V c) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f)) ∗ (∃ r, prngReg c r))

theorem PhiS0_succ (c : Dev nD) (n : ℕ) :
    PhiS0 V c (n + 1) = iprop(iprop(owns (c : Thread nD τ) scM0 fullShare (scr0 V c) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f)) ∗ (∃ r, prngReg c r)) := rfl

theorem PhiS0_pos (c : Dev nD) (n : ℕ) (hn : n ≠ 0) :
    PhiS0 V c n = iprop(iprop(owns (c : Thread nD τ) scM0 fullShare (scr0 V c) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f)) ∗ (∃ r, prngReg c r)) := by
  cases n with
  | zero => exact absurd rfl hn
  | succ n => rfl

/-! ## The pipeline's proof data -/

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => outsAt0 V c t
  Φ t := PhiS0 V c t.val
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) : (dat0 V c).Φ t.castSucc = PhiS0 V c t.val := by
  dsimp only [dat0]; simp only [Fin.coe_castSucc]
theorem Phi0_succ (c : Dev nD) (t : Fin cfg0.N) : (dat0 V c).Φ t.succ = PhiS0 V c (t.val + 1) := by
  dsimp only [dat0]; simp only [Fin.val_succ]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = outsAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t))

set_option maxHeartbeats 4000000 in
/-- The body at any point. At the first point the invariant hands the scratch over at anything and takes it back at the
    projected features; at a later point it hands the scratch over at the projected features and takes it back unchanged. The
    inputs' staging buffers hold their blocks and come back as found; the output's comes back with the run's pieces read back. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).owesAt () t.succ = (dat0 V c).owesAt () t.castSucc from rfl]
  rw [Phi0_castSucc, Phi0_succ, PhiS0_succ, after0_0, after0_1, after0_2, after0_3, after0_4, after0_5, after0_6, after0_7, after0_8, after0_9, after0_10]
  by_cases h : t.val = 0
  · obtain rfl : t = p0 := Fin.ext h
    rw [show PhiS0 V c (p0 : Fin cfg0.N).val = Pipeline.ΦA spec0 c from rfl, PhiA0_eq, outsAt0_first]
    unfold scr0 out0_A sout0_A
    iintro ⟨⟨⟨HS, HR0, HR1, HR2, HR3, HR4, HR5, HR6, HR7, HR8, HR9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (grid0.coords p0) (ms0_0 p0) (hs0_0 p0) (ms0_1 p0) (hs0_1 p0) (ms0_2 p0) (hs0_2 p0) (ms0_3 p0) (hs0_3 p0) (ms0_4 p0) (hs0_4 p0) (ms0_5 p0) (hs0_5 p0) (ms0_6 p0) (hs0_6 p0) (ms0_7 p0) (hs0_7 p0) (ms0_8 p0) (hs0_8 p0) (ms0_9 p0) (hs0_9 p0) (ms0_10 p0) (hs0_10 p0) scM0 (Memref.isWhole_whole _) ((hcond0 p0).mpr rfl) (iblk0 V c 0 p0) (iblk0 V c 1 p0) (iblk0 V c 2 p0) (iblk0 V c 3 p0) (iblk0 V c 4 p0) (iblk0 V c 5 p0) (iblk0 V c 6 p0) (iblk0 V c 7 p0) (iblk0 V c 8 p0) (iblk0 V c 9 p0)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS]; · iexact HS
    iintro ⟨H0, H1, H2, H3, H4, H5, H6, H7, H8, H9, ⟨%e10, H10⟩, ⟨%es, HS⟩⟩
    isplitl [HS HR0 HR1 HR2 HR3 HR4 HR5 HR6 HR7 HR8 HR9 Hg]
    · isplitl [HS HR0 HR1 HR2 HR3 HR4 HR5 HR6 HR7 HR8 HR9]
      · isplitl [HS]
        · unfold owns; iexists _; isplitr
          swap; · iexact HS
          ipureintro; exact View.read_writes_of_cover _ _ _ _ _ (scover0_A c _ _ _ _ _ _ _ _ _ _ _ _ _ _ _ _ _ _ _ _ _ _ _ _ _ _ _ _ _ _ _ _ _ _ _ _)
        isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        iexact HR9
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H10
    ipureintro; exact View.read_writes_of_cover _ _ _ _ _ (cover0_A c _ _ _ _ _ _ _ _ _ _ _ _ _ _ _ _ _ _ _ _ _ _ _ _ _ _ _ _ _ _ _ _ _ _ _ _)
  · rw [PhiS0_pos V c _ h, outsAt0_later V c t h]
    unfold out0_B
    iintro ⟨⟨⟨HS, HR0, HR1, HR2, HR3, HR4, HR5, HR6, HR7, HR8, HR9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0 (Memref.isWhole_whole _) (fun hh => h ((hcond0 t).mp hh)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (scr0 V c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS]; · iexact HS
    iintro ⟨H0, H1, H2, H3, H4, H5, H6, H7, H8, H9, ⟨%e10, H10⟩, HS⟩
    isplitl [HS HR0 HR1 HR2 HR3 HR4 HR5 HR6 HR7 HR8 HR9 Hg]
    · isplitl [HS HR0 HR1 HR2 HR3 HR4 HR5 HR6 HR7 HR8 HR9]
      · isplitl [HS]; · iexact HS
        isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        iexact HR9
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H10
    ipureintro; exact View.read_writes_of_cover _ _ _ _ _ (cover0_B c _ _ _ _ _ _ _ _ _ _ _ _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Pipeline.ΦA spec0 c from rfl]
  try exact Idealize.SL.BI.Entails.refl _

/-- After the last point the invariant gives the class's back: the scratch's named contents are forgotten. -/
theorem hout0 (c : Dev nD) : (dat0 V c).Φ (Fin.last cfg0.N) ⊢ Pipeline.ΦA spec0 c := by
  rw [show (dat0 V c).Φ (Fin.last cfg0.N) = PhiS0 V c (24 + 1) from rfl, PhiS0_succ, PhiA0_eq]
  iintro ⟨⟨HS, HR0, HR1, HR2, HR3, HR4, HR5, HR6, HR7, HR8, HR9⟩, Hg⟩
  isplitl [HS HR0 HR1 HR2 HR3 HR4 HR5 HR6 HR7 HR8 HR9]
  · isplitl [HS]; · iexists _; iexact HS
    isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    iexact HR9
  iexact Hg

end Regions

end Cert.Kernel.Hand

end
-- ==== Proof.K.Run1A.lean ====
/-
  The smoothing kernel's body at the FIRST grid point. The branch is taken: the body reads the attention output whole
  (5000 x 128), the tiled batch-norm scale and shift, the classifier weights and bias, and stores into the scratch the
  support matrix: batch norm over the 5000 rows, relu, times the 128 x 10 weights, plus the bias. It then continues as at
  every other point, reading that scratch whole and in the point's 1000 rows, and stores the point's 1000 x 10 output
  block. The pieces stored into the output's staging buffer and into the scratch are what the symbolic run finds.
-/
import proofs.«113748_g69337952026834_cont_sun_c4_16_16_alg».proof.Proof.K.Tables

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun1_A (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1000x5000 .f32) (harg6 : arg6.IsWhole) (arg7 : Memref sig .tc .vmem S1000x10 .f32) (harg7 : arg7.IsWhole) (arg8 : Memref sig .tc .vmem S5000x10 .f32) (harg8 : arg8.IsWhole) (hc : cond1 i)
    (x0 : Vec F S5000x128 .f32) (x1 : Vec F S1x128 .f32) (x2 : Vec F S1x128 .f32) (x3 : Vec F S128x10 .f32) (x4 : Vec F S1x10 .f32) (x5 : Vec F S1000x5000 .f32) :
    Σ' (L6 : List (View.Piece (Elt F) S1000x10 .f32)), { LS : List (View.Piece (Elt F) S5000x10 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS)) -∗ K ⟨⟩))
          ⊢ wp frame (wpE (defs₀ (F := F)) Variants.none c none) E (cc1__smooth_kernel i arg1 harg1 arg2 harg2 arg3 harg3 arg4 harg4 arg5 harg5 arg6 harg6 arg7 harg7 arg8 harg8) K } := by
  refine ⟨?_, ?_, fun E K => ?run⟩
  case run =>
    simp only [cc1__smooth_kernel_eq_skeleton]; unfold cc1__smooth_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS

end Cert.Kernel.Hand

end
-- ==== Proof.K.Run1B.lean ====
/-
  The smoothing kernel's body at a grid point that is NOT the first. The branch is skipped, so the body only reads: the
  point's 1000 x 5000 block of the propagation operator, the support scratch whole and in the point's 1000 rows; and it
  stores one 1000 x 10 block, the row log-softmax of (0.5 * operator-block @ support + support-rows) * (2/3). The scratch
  and every input come back as they were found; the pieces stored into the output's staging buffer are what the symbolic
  run finds.
-/
import proofs.«113748_g69337952026834_cont_sun_c4_16_16_alg».proof.Proof.K.Tables

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun1_B (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1000x5000 .f32) (harg6 : arg6.IsWhole) (arg7 : Memref sig .tc .vmem S1000x10 .f32) (harg7 : arg7.IsWhole) (arg8 : Memref sig .tc .vmem S5000x10 .f32) (harg8 : arg8.IsWhole) (hc : ¬cond1 i)
    (x0 : Vec F S5000x128 .f32) (x1 : Vec F S1x128 .f32) (x2 : Vec F S1x128 .f32) (x3 : Vec F S128x10 .f32) (x4 : Vec F S1x10 .f32) (x5 : Vec F S1000x5000 .f32) (xs : Vec F S5000x10 .f32) :
    { L6 : List (View.Piece (Elt F) S1000x10 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xs) -∗ K ⟨⟩))
          ⊢ wp frame (wpE (defs₀ (F := F)) Variants.none c none) E (cc1__smooth_kernel i arg1 harg1 arg2 harg2 arg3 harg3 arg4 harg4 arg5 harg5 arg6 harg6 arg7 harg7 arg8 harg8) K } := by
  refine ⟨?_, fun E K => ?run⟩
  case run =>
    simp only [cc1__smooth_kernel_eq_skeleton]; unfold cc1__smooth_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; isplitr; · ipureintro; exact harg8.read_unread _
    iexact HS

end Cert.Kernel.Hand

end
-- ==== Proof.K.Reg1.lean ====
/-
  Region 1, the smoothing kernel, as proof data for its pipeline.

  After the first point the scratch holds the support matrix, a function of the region's whole input arrays only, and no
  later point stores into it: so the invariant before point n > 0 is "the scratch holds that matrix", and the output
  block after point t is the first-point run's at t = 0 and the later-point run's, over that matrix, elsewhere.
-/
import proofs.«113748_g69337952026834_cont_sun_c4_16_16_alg».proof.Proof.K.Run1A
import proofs.«113748_g69337952026834_cont_sun_c4_16_16_alg».proof.Proof.K.Run1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The stored pieces cover their buffers -/

theorem cover1_A (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1000x5000 .f32) (harg6 : arg6.IsWhole) (arg7 : Memref sig .tc .vmem S1000x10 .f32) (harg7 : arg7.IsWhole) (arg8 : Memref sig .tc .vmem S5000x10 .f32) (harg8 : arg8.IsWhole) (hc : cond1 i) (x0 : Vec F S5000x128 .f32) (x1 : Vec F S1x128 .f32) (x2 : Vec F S1x128 .f32) (x3 : Vec F S128x10 .f32) (x4 : Vec F S1x10 .f32) (x5 : Vec F S1000x5000 .f32) (y : S1000x10.Idx) :
    ∃ pc ∈ (kernelRun1_A c i arg1 harg1 arg2 harg2 arg3 harg3 arg4 harg4 arg5 harg5 arg6 harg6 arg7 harg7 arg8 harg8 hc x0 x1 x2 x3 x4 x5).1, y ∈ pc.1.set :=
  View.cover_of_tiledL (kernelRun1_A c i arg1 harg1 arg2 harg2 arg3 harg3 arg4 harg4 arg5 harg5 arg6 harg6 arg7 harg7 arg8 harg8 hc x0 x1 x2 x3 x4 x5).1 S1000x10.size (by sl_kernel_rfl) y

theorem scover1_A (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1000x5000 .f32) (harg6 : arg6.IsWhole) (arg7 : Memref sig .tc .vmem S1000x10 .f32) (harg7 : arg7.IsWhole) (arg8 : Memref sig .tc .vmem S5000x10 .f32) (harg8 : arg8.IsWhole) (hc : cond1 i) (x0 : Vec F S5000x128 .f32) (x1 : Vec F S1x128 .f32) (x2 : Vec F S1x128 .f32) (x3 : Vec F S128x10 .f32) (x4 : Vec F S1x10 .f32) (x5 : Vec F S1000x5000 .f32) (y : S5000x10.Idx) :
    ∃ pc ∈ (kernelRun1_A c i arg1 harg1 arg2 harg2 arg3 harg3 arg4 harg4 arg5 harg5 arg6 harg6 arg7 harg7 arg8 harg8 hc x0 x1 x2 x3 x4 x5).2.1, y ∈ pc.1.set :=
  View.cover_of_tiledL (kernelRun1_A c i arg1 harg1 arg2 harg2 arg3 harg3 arg4 harg4 arg5 harg5 arg6 harg6 arg7 harg7 arg8 harg8 hc x0 x1 x2 x3 x4 x5).2.1 S5000x10.size (by sl_kernel_rfl) y

theorem cover1_B (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1000x5000 .f32) (harg6 : arg6.IsWhole) (arg7 : Memref sig .tc .vmem S1000x10 .f32) (harg7 : arg7.IsWhole) (arg8 : Memref sig .tc .vmem S5000x10 .f32) (harg8 : arg8.IsWhole) (hc : ¬cond1 i) (x0 : Vec F S5000x128 .f32) (x1 : Vec F S1x128 .f32) (x2 : Vec F S1x128 .f32) (x3 : Vec F S128x10 .f32) (x4 : Vec F S1x10 .f32) (x5 : Vec F S1000x5000 .f32) (xs : Vec F S5000x10 .f32) (y : S1000x10.Idx) :
    ∃ pc ∈ (kernelRun1_B c i arg1 harg1 arg2 harg2 arg3 harg3 arg4 harg4 arg5 harg5 arg6 harg6 arg7 harg7 arg8 harg8 hc x0 x1 x2 x3 x4 x5 xs).1, y ∈ pc.1.set :=
  View.cover_of_tiledL (kernelRun1_B c i arg1 harg1 arg2 harg2 arg3 harg3 arg4 harg4 arg5 harg5 arg6 harg6 arg7 harg7 arg8 harg8 hc x0 x1 x2 x3 x4 x5 xs).1 S1000x10.size (by sl_kernel_rfl) y

/-! ## What the runs leave: the pieces read back -/

/-- The output block the first-point run leaves. -/
def out1_A (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1000x5000 .f32) (harg6 : arg6.IsWhole) (arg7 : Memref sig .tc .vmem S1000x10 .f32) (harg7 : arg7.IsWhole) (arg8 : Memref sig .tc .vmem S5000x10 .f32) (harg8 : arg8.IsWhole) (hc : cond1 i) (x0 : Vec F S5000x128 .f32) (x1 : Vec F S1x128 .f32) (x2 : Vec F S1x128 .f32) (x3 : Vec F S128x10 .f32) (x4 : Vec F S1x10 .f32) (x5 : Vec F S1000x5000 .f32) : Vec F S1000x10 .f32 :=
  VO1.read (Elt F) (VO1.writes (Elt F) VO1.junk (kernelRun1_A c i arg1 harg1 arg2 harg2 arg3 harg3 arg4 harg4 arg5 harg5 arg6 harg6 arg7 harg7 arg8 harg8 hc x0 x1 x2 x3 x4 x5).1)

/-- The scratch the first-point run leaves: the support matrix. -/
def sout1_A (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1000x5000 .f32) (harg6 : arg6.IsWhole) (arg7 : Memref sig .tc .vmem S1000x10 .f32) (harg7 : arg7.IsWhole) (arg8 : Memref sig .tc .vmem S5000x10 .f32) (harg8 : arg8.IsWhole) (hc : cond1 i) (x0 : Vec F S5000x128 .f32) (x1 : Vec F S1x128 .f32) (x2 : Vec F S1x128 .f32) (x3 : Vec F S128x10 .f32) (x4 : Vec F S1x10 .f32) (x5 : Vec F S1000x5000 .f32) : Vec F S5000x10 .f32 :=
  VS1.read (Elt F) (VS1.writes (Elt F) VS1.junk (kernelRun1_A c i arg1 harg1 arg2 harg2 arg3 harg3 arg4 harg4 arg5 harg5 arg6 harg6 arg7 harg7 arg8 harg8 hc x0 x1 x2 x3 x4 x5).2.1)

/-- The output block a later-point run leaves, over the scratch contents `xs`. -/
def out1_B (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1000x5000 .f32) (harg6 : arg6.IsWhole) (arg7 : Memref sig .tc .vmem S1000x10 .f32) (harg7 : arg7.IsWhole) (arg8 : Memref sig .tc .vmem S5000x10 .f32) (harg8 : arg8.IsWhole) (hc : ¬cond1 i) (x0 : Vec F S5000x128 .f32) (x1 : Vec F S1x128 .f32) (x2 : Vec F S1x128 .f32) (x3 : Vec F S128x10 .f32) (x4 : Vec F S1x10 .f32) (x5 : Vec F S1000x5000 .f32) (xs : Vec F S5000x10 .f32) : Vec F S1000x10 .f32 :=
  VO1.read (Elt F) (VO1.writes (Elt F) VO1.junk (kernelRun1_B c i arg1 harg1 arg2 harg2 arg3 harg3 arg4 harg4 arg5 harg5 arg6 harg6 arg7 harg7 arg8 harg8 hc x0 x1 x2 x3 x4 x5 xs).1)

/-- The grid's first point. -/
def p1 : Fin cfg1.N := ⟨0, by rw [show cfg1.N = 5 from N_1]; decide⟩

section Regions
variable (V : (c : Dev nD) → (b : Ref sig .tc) → Buf (Elt F) ((c : Thread nD τ).loc b))

/-- The support matrix: what the scratch holds from the first point on. -/
def scr1 (c : Dev nD) : Vec F S5000x10 .f32 :=
  sout1_A c (grid1.coords p1) (ms1_0 p1) (hs1_0 p1) (ms1_1 p1) (hs1_1 p1) (ms1_2 p1) (hs1_2 p1) (ms1_3 p1) (hs1_3 p1) (ms1_4 p1) (hs1_4 p1) (ms1_5 p1) (hs1_5 p1) (ms1_6 p1) (hs1_6 p1) scM1 (Memref.isWhole_whole _) ((hcond1 p1).mpr rfl) (iblk1 V c 0 p1) (iblk1 V c 1 p1) (iblk1 V c 2 p1) (iblk1 V c 3 p1) (iblk1 V c 4 p1) (iblk1 V c 5 p1)

/-- The output window's staging buffer after the body at point `t`. -/
def outsAt1 (c : Dev nD) (t : Fin cfg1.N) : Vec F S1000x10 .f32 :=
  if h : t.val = 0 then
    out1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1 t).mpr h) (iblk1 V c 0 t) (iblk1 V c 1 t) (iblk1 V c 2 t) (iblk1 V c 3 t) (iblk1 V c 4 t) (iblk1 V c 5 t)
  else
    out1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun hh => h ((hcond1 t).mp hh)) (iblk1 V c 0 t) (iblk1 V c 1 t) (iblk1 V c 2 t) (iblk1 V c 3 t) (iblk1 V c 4 t) (iblk1 V c 5 t) (scr1 V c)

theorem outsAt1_first (c : Dev nD) :
    outsAt1 V c p1 = out1_A c (grid1.coords p1) (ms1_0 p1) (hs1_0 p1) (ms1_1 p1) (hs1_1 p1) (ms1_2 p1) (hs1_2 p1) (ms1_3 p1) (hs1_3 p1) (ms1_4 p1) (hs1_4 p1) (ms1_5 p1) (hs1_5 p1) (ms1_6 p1) (hs1_6 p1) scM1 (Memref.isWhole_whole _) ((hcond1 p1).mpr rfl) (iblk1 V c 0 p1) (iblk1 V c 1 p1) (iblk1 V c 2 p1) (iblk1 V c 3 p1) (iblk1 V c 4 p1) (iblk1 V c 5 p1) :=
  dif_pos rfl

theorem outsAt1_later (c : Dev nD) (t : Fin cfg1.N) (h : ¬t.val = 0) :
    outsAt1 V c t = out1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun hh => h ((hcond1 t).mp hh)) (iblk1 V c 0 t) (iblk1 V c 1 t) (iblk1 V c 2 t) (iblk1 V c 3 t) (iblk1 V c 4 t) (iblk1 V c 5 t) (scr1 V c) :=
  dif_neg h

/-- The region invariant before position `n`: before the first point every scoped buffer at anything; afterwards the same
    with the scratch at the support matrix. -/
def PhiS1 (c : Dev nD) : ℕ → sProp 𝕄
  | 0 => Pipeline.ΦA spec1 c
  | _ + 1 => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_scratch0), ((c : Thread nD τ).loc cc0_scratch0) ↦{fullShare} f) ∗ owns (c : Thread nD τ) scM1 fullShare (scr1 V c)) ∗ (∃ r, prngReg c r))

theorem PhiS1_succ (c : Dev nD) (n : ℕ) :
    PhiS1 V c (n + 1) = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_scratch0), ((c : Thread nD τ).loc cc0_scratch0) ↦{fullShare} f) ∗ owns (c : Thread nD τ) scM1 fullShare (scr1 V c)) ∗ (∃ r, prngReg c r)) := rfl

theorem PhiS1_pos (c : Dev nD) (n : ℕ) (hn : n ≠ 0) :
    PhiS1 V c n = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_scratch0), ((c : Thread nD τ).loc cc0_scratch0) ↦{fullShare} f) ∗ owns (c : Thread nD τ) scM1 fullShare (scr1 V c)) ∗ (∃ r, prngReg c r)) := by
  cases n with
  | zero => exact absurd rfl hn
  | succ n => rfl

/-! ## The pipeline's proof data -/

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outsAt1 V c t
  Φ t := PhiS1 V c t.val
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) : (dat1 V c).Φ t.castSucc = PhiS1 V c t.val := by
  dsimp only [dat1]; simp only [Fin.coe_castSucc]
theorem Phi1_succ (c : Dev nD) (t : Fin cfg1.N) : (dat1 V c).Φ t.succ = PhiS1 V c (t.val + 1) := by
  dsimp only [dat1]; simp only [Fin.val_succ]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outsAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 4000000 in
/-- The body at any point. At the first point the invariant hands the scratch over at anything and takes it back at the
    support matrix; at a later point it hands the scratch over at the support matrix and takes it back unchanged. The inputs'
    staging buffers hold their blocks and come back as found; the output's comes back with the run's pieces read back. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [Phi1_castSucc, Phi1_succ, PhiS1_succ, after1_0, after1_1, after1_2, after1_3, after1_4, after1_5, after1_6]
  by_cases h : t.val = 0
  · obtain rfl : t = p1 := Fin.ext h
    rw [show PhiS1 V c (p1 : Fin cfg1.N).val = Pipeline.ΦA spec1 c from rfl, PhiA1_eq, outsAt1_first]
    unfold scr1 out1_A sout1_A
    iintro ⟨⟨⟨HR0, HR1, HR2, HR3, HR4, HR5, HR6, HR7, HR8, HR9, HR10, HR11, HR12, HR13, HR14, HR15, HR16, HS⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords p1) (ms1_0 p1) (hs1_0 p1) (ms1_1 p1) (hs1_1 p1) (ms1_2 p1) (hs1_2 p1) (ms1_3 p1) (hs1_3 p1) (ms1_4 p1) (hs1_4 p1) (ms1_5 p1) (hs1_5 p1) (ms1_6 p1) (hs1_6 p1) scM1 (Memref.isWhole_whole _) ((hcond1 p1).mpr rfl) (iblk1 V c 0 p1) (iblk1 V c 1 p1) (iblk1 V c 2 p1) (iblk1 V c 3 p1) (iblk1 V c 4 p1) (iblk1 V c 5 p1)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, ⟨%e6, H6⟩, ⟨%es, HS⟩⟩
    isplitl [HR0 HR1 HR2 HR3 HR4 HR5 HR6 HR7 HR8 HR9 HR10 HR11 HR12 HR13 HR14 HR15 HR16 HS Hg]
    · isplitl [HR0 HR1 HR2 HR3 HR4 HR5 HR6 HR7 HR8 HR9 HR10 HR11 HR12 HR13 HR14 HR15 HR16 HS]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        isplitl [HR12]; · iexact HR12
        isplitl [HR13]; · iexact HR13
        isplitl [HR14]; · iexact HR14
        isplitl [HR15]; · iexact HR15
        isplitl [HR16]; · iexact HR16
        unfold owns; iexists _; isplitr
        swap; · iexact HS
        ipureintro; exact View.read_writes_of_cover _ _ _ _ _ (scover1_A c _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover1_A c _ _ _ _ _ _ _ _ _ _ _ _ _ _ _ _ _ _ _ _ _ _ _ _)
  · rw [PhiS1_pos V c _ h, outsAt1_later V c t h]
    unfold out1_B
    iintro ⟨⟨⟨HR0, HR1, HR2, HR3, HR4, HR5, HR6, HR7, HR8, HR9, HR10, HR11, HR12, HR13, HR14, HR15, HR16, HS⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun hh => h ((hcond1 t).mp hh)) (iblk1 V c 0 t) (iblk1 V c 1 t) (iblk1 V c 2 t) (iblk1 V c 3 t) (iblk1 V c 4 t) (iblk1 V c 5 t) (scr1 V c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, ⟨%e6, H6⟩, HS⟩
    isplitl [HR0 HR1 HR2 HR3 HR4 HR5 HR6 HR7 HR8 HR9 HR10 HR11 HR12 HR13 HR14 HR15 HR16 HS Hg]
    · isplitl [HR0 HR1 HR2 HR3 HR4 HR5 HR6 HR7 HR8 HR9 HR10 HR11 HR12 HR13 HR14 HR15 HR16 HS]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        isplitl [HR12]; · iexact HR12
        isplitl [HR13]; · iexact HR13
        isplitl [HR14]; · iexact HR14
        isplitl [HR15]; · iexact HR15
        isplitl [HR16]; · iexact HR16
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover1_B c _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Pipeline.ΦA spec1 c from rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiS1 V c (4 + 1) from rfl, PhiS1_succ, PhiA1_eq]
  iintro ⟨⟨HR0, HR1, HR2, HR3, HR4, HR5, HR6, HR7, HR8, HR9, HR10, HR11, HR12, HR13, HR14, HR15, HR16, HS⟩, Hg⟩
  isplitl [HR0 HR1 HR2 HR3 HR4 HR5 HR6 HR7 HR8 HR9 HR10 HR11 HR12 HR13 HR14 HR15 HR16 HS]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    iexists _; iexact HS
  iexact Hg

end Regions

end Cert.Kernel.Hand

end
-- ==== Proof.K.Bounds.lean ====
/-
  The contents of the TensorCore's unscoped buffers at each boundary of the kernel program as printed, as a fold from the
  launch memory: after the nineteen host operations that re-lay the small operands, their results; after a kernel region,
  its arrays at what the pipeline's write-backs leave and every other buffer as it was.
-/
import proofs.«113748_g69337952026834_cont_sun_c4_16_16_alg».proof.Proof.K.Reg0
import proofs.«113748_g69337952026834_cont_sun_c4_16_16_alg».proof.Proof.K.Reg1
import proofs.«113748_g69337952026834_cont_sun_c4_16_16_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)
/-- After the host stretch: where region 0 is entered. -/
abbrev B1 : Dev nD → Valuation τ sig (Elt F) := fun c => StableHlo.after hostOps0 (B0 m ρ c)
/-- The same read at the TensorCore's references: region 0's entry contents. -/
abbrev E0 : (c : Dev nD) → (b : Ref sig .tc) → Buf (Elt F) ((c : Thread nD τ).loc b) := fun c b => B1 m ρ c b
/-- After region 0: its arrays at what the pipeline leaves, every other buffer as entered. Where region 1 is entered. -/
def B2 (c : Dev nD) : Valuation τ sig (Elt F) :=
  Pipeline.withArrays spec0 c (B1 m ρ c) fun w => (dat0 (E0 m ρ) c).arrAt w cfg0.N
theorem B2_arr (c : Dev nD) (w : Fin cfg0.W) :
    B2 m ρ c (Proc.devRef .tc (Pipeline.arrRef spec0 w)) = (dat0 (E0 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- Region 1's entry contents. -/
abbrev E1 : (c : Dev nD) → (b : Ref sig .tc) → Buf (Elt F) ((c : Thread nD τ).loc b) := fun c b => B2 m ρ c b
theorem hF0 (c : Dev nD) (w : Fin cfg0.W) : (dat0 (E0 m ρ) c).arrAt w cfg0.N = E1 m ρ c (Pipeline.arrRef spec0 w) :=
  (B2_arr m ρ c w).symm
theorem hrest0 (c : Dev nD) : ∀ b, b ∉ Finset.univ.image (Pipeline.arrRef spec0) → E1 m ρ c b = E0 m ρ c b :=
  fun b hb => B2_of_ne m ρ c b fun w e => hb (Finset.mem_image.mpr ⟨w, Finset.mem_univ _, e⟩)
/-- After region 1: the last boundary. -/
def B3 (c : Dev nD) : Valuation τ sig (Elt F) :=
  Pipeline.withArrays spec1 c (B2 m ρ c) fun w => (dat1 (E1 m ρ) c).arrAt w cfg1.N
theorem B3_arr (c : Dev nD) (w : Fin cfg1.W) :
    B3 m ρ c (Proc.devRef .tc (Pipeline.arrRef spec1 w)) = (dat1 (E1 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E2 : (c : Dev nD) → (b : Ref sig .tc) → Buf (Elt F) ((c : Thread nD τ).loc b) := fun c b => B3 m ρ c b
theorem hF1 (c : Dev nD) (w : Fin cfg1.W) : (dat1 (E1 m ρ) c).arrAt w cfg1.N = E2 m ρ c (Pipeline.arrRef spec1 w) :=
  (B3_arr m ρ c w).symm
theorem hrest1 (c : Dev nD) : ∀ b, b ∉ Finset.univ.image (Pipeline.arrRef spec1) → E2 m ρ c b = E1 m ρ c b :=
  fun b hb => B3_of_ne m ρ c b fun w e => hb (Finset.mem_image.mpr ⟨w, Finset.mem_univ _, e⟩)

end Cert.Kernel.Hand

end
-- ==== Proof.K.ArgBack.lean ====
/- Each argument array ends as launched: no host operation writes an argument, and a region either reads it through an
   input window (whose array the pipeline leaves as it found it) or never touches it. One lemma per argument. -/
import proofs.«113748_g69337952026834_cont_sun_c4_16_16_alg».proof.Proof.K.Bounds

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := B3_of_ne m ρ c main_arg0 (by decide)
    _ = B1 m ρ c (Proc.devRef .tc main_arg0) := (B2_arr m ρ c 0).trans (((dat0 (E0 m ρ) c).arrAt_in 0 rfl _).trans (A_eq0 (E0 m ρ) c 0))
    _ = B0 m ρ c (Proc.devRef .tc main_arg0) := Cert.Kernel.Gen.V1_of m c main_arg0 (by decide)
    _ = m ((c : Thread nD τ).loc main_arg0) := rfl
theorem B3_main_arg1 (c : Dev nD) : B3 m ρ c (Proc.devRef .tc main_arg1) = m ((c : Thread nD τ).loc main_arg1) :=
  calc B3 m ρ c (Proc.devRef .tc main_arg1)
    _ = B2 m ρ c (Proc.devRef .tc main_arg1) := (B3_arr m ρ c 5).trans (((dat1 (E1 m ρ) c).arrAt_in 5 rfl _).trans (A_eq1 (E1 m ρ) c 5))
    _ = B1 m ρ c (Proc.devRef .tc main_arg1) := B2_of_ne m ρ c main_arg1 (by decide)
    _ = B0 m ρ c (Proc.devRef .tc main_arg1) := Cert.Kernel.Gen.V1_of m c main_arg1 (by decide)
    _ = m ((c : Thread nD τ).loc main_arg1) := rfl
theorem B3_main_arg2 (c : Dev nD) : B3 m ρ c (Proc.devRef .tc main_arg2) = m ((c : Thread nD τ).loc main_arg2) :=
  calc B3 m ρ c (Proc.devRef .tc main_arg2)
    _ = B2 m ρ c (Proc.devRef .tc main_arg2) := B3_of_ne m ρ c main_arg2 (by decide)
    _ = B1 m ρ c (Proc.devRef .tc main_arg2) := (B2_arr m ρ c 6).trans (((dat0 (E0 m ρ) c).arrAt_in 6 rfl _).trans (A_eq0 (E0 m ρ) c 6))
    _ = B0 m ρ c (Proc.devRef .tc main_arg2) := Cert.Kernel.Gen.V1_of m c main_arg2 (by decide)
    _ = m ((c : Thread nD τ).loc main_arg2) := rfl
theorem B3_main_arg3 (c : Dev nD) : B3 m ρ c (Proc.devRef .tc main_arg3) = m ((c : Thread nD τ).loc main_arg3) :=
  calc B3 m ρ c (Proc.devRef .tc main_arg3)
    _ = B2 m ρ c (Proc.devRef .tc main_arg3) := B3_of_ne m ρ c main_arg3 (by decide)
    _ = B1 m ρ c (Proc.devRef .tc main_arg3) := (B2_arr m ρ c 7).trans (((dat0 (E0 m ρ) c).arrAt_in 7 rfl _).trans (A_eq0 (E0 m ρ) c 7))
    _ = B0 m ρ c (Proc.devRef .tc main_arg3) := Cert.Kernel.Gen.V1_of m c main_arg3 (by decide)
    _ = m ((c : Thread nD τ).loc main_arg3) := rfl
theorem B3_main_arg4 (c : Dev nD) : B3 m ρ c (Proc.devRef .tc main_arg4) = m ((c : Thread nD τ).loc main_arg4) :=
  calc B3 m ρ c (Proc.devRef .tc main_arg4)
    _ = B2 m ρ c (Proc.devRef .tc main_arg4) := B3_of_ne m ρ c main_arg4 (by decide)
    _ = B1 m ρ c (Proc.devRef .tc main_arg4) := (B2_arr m ρ c 8).trans (((dat0 (E0 m ρ) c).arrAt_in 8 rfl _).trans (A_eq0 (E0 m ρ) c 8))
    _ = B0 m ρ c (Proc.devRef .tc main_arg4) := Cert.Kernel.Gen.V1_of m c main_arg4 (by decide)
    _ = m ((c : Thread nD τ).loc main_arg4) := rfl
theorem B3_main_arg5 (c : Dev nD) : B3 m ρ c (Proc.devRef .tc main_arg5) = m ((c : Thread nD τ).loc main_arg5) :=
  calc B3 m ρ c (Proc.devRef .tc main_arg5)
    _ = B2 m ρ c (Proc.devRef .tc main_arg5) := B3_of_ne m ρ c main_arg5 (by decide)
    _ = B1 m ρ c (Proc.devRef .tc main_arg5) := (B2_arr m ρ c 9).trans (((dat0 (E0 m ρ) c).arrAt_in 9 rfl _).trans (A_eq0 (E0 m ρ) c 9))
    _ = B0 m ρ c (Proc.devRef .tc main_arg5) := Cert.Kernel.Gen.V1_of m c main_arg5 (by decide)
    _ = m ((c : Thread nD τ).loc main_arg5) := rfl
theorem B3_main_arg6 (c : Dev nD) : B3 m ρ c (Proc.devRef .tc main_arg6) = m ((c : Thread nD τ).loc main_arg6) :=
  calc B3 m ρ c (Proc.devRef .tc main_arg6)
    _ = B2 m ρ c (Proc.devRef .tc main_arg6) := B3_of_ne m ρ c main_arg6 (by decide)
    _ = B1 m ρ c (Proc.devRef .tc main_arg6) := B2_of_ne m ρ c main_arg6 (by decide)
    _ = B0 m ρ c (Proc.devRef .tc main_arg6) := Cert.Kernel.Gen.V1_of m c main_arg6 (by decide)
    _ = m ((c : Thread nD τ).loc main_arg6) := rfl
theorem B3_main_arg7 (c : Dev nD) : B3 m ρ c (Proc.devRef .tc main_arg7) = m ((c : Thread nD τ).loc main_arg7) :=
  calc B3 m ρ c (Proc.devRef .tc main_arg7)
    _ = B2 m ρ c (Proc.devRef .tc main_arg7) := B3_of_ne m ρ c main_arg7 (by decide)
    _ = B1 m ρ c (Proc.devRef .tc main_arg7) := B2_of_ne m ρ c main_arg7 (by decide)
    _ = B0 m ρ c (Proc.devRef .tc main_arg7) := Cert.Kernel.Gen.V1_of m c main_arg7 (by decide)
    _ = m ((c : Thread nD τ).loc main_arg7) := rfl
theorem B3_main_arg8 (c : Dev nD) : B3 m ρ c (Proc.devRef .tc main_arg8) = m ((c : Thread nD τ).loc main_arg8) :=
  calc B3 m ρ c (Proc.devRef .tc main_arg8)
    _ = B2 m ρ c (Proc.devRef .tc main_arg8) := B3_of_ne m ρ c main_arg8 (by decide)
    _ = B1 m ρ c (Proc.devRef .tc main_arg8) := B2_of_ne m ρ c main_arg8 (by decide)
    _ = B0 m ρ c (Proc.devRef .tc main_arg8) := Cert.Kernel.Gen.V1_of m c main_arg8 (by decide)
    _ = m ((c : Thread nD τ).loc main_arg8) := rfl
theorem B3_main_arg9 (c : Dev nD) : B3 m ρ c (Proc.devRef .tc main_arg9) = m ((c : Thread nD τ).loc main_arg9) :=
  calc B3 m ρ c (Proc.devRef .tc main_arg9)
    _ = B2 m ρ c (Proc.devRef .tc main_arg9) := B3_of_ne m ρ c main_arg9 (by decide)
    _ = B1 m ρ c (Proc.devRef .tc main_arg9) := B2_of_ne m ρ c main_arg9 (by decide)
    _ = B0 m ρ c (Proc.devRef .tc main_arg9) := Cert.Kernel.Gen.V1_of m c main_arg9 (by decide)
    _ = m ((c : Thread nD τ).loc main_arg9) := rfl
theorem B3_main_arg10 (c : Dev nD) : B3 m ρ c (Proc.devRef .tc main_arg10) = m ((c : Thread nD τ).loc main_arg10) :=
  calc B3 m ρ c (Proc.devRef .tc main_arg10)
    _ = B2 m ρ c (Proc.devRef .tc main_arg10) := B3_of_ne m ρ c main_arg10 (by decide)
    _ = B1 m ρ c (Proc.devRef .tc main_arg10) := B2_of_ne m ρ c main_arg10 (by decide)
    _ = B0 m ρ c (Proc.devRef .tc main_arg10) := Cert.Kernel.Gen.V1_of m c main_arg10 (by decide)
    _ = m ((c : Thread nD τ).loc main_arg10) := rfl
theorem B3_main_arg11 (c : Dev nD) : B3 m ρ c (Proc.devRef .tc main_arg11) = m ((c : Thread nD τ).loc main_arg11) :=
  calc B3 m ρ c (Proc.devRef .tc main_arg11)
    _ = B2 m ρ c (Proc.devRef .tc main_arg11) := B3_of_ne m ρ c main_arg11 (by decide)
    _ = B1 m ρ c (Proc.devRef .tc main_arg11) := B2_of_ne m ρ c main_arg11 (by decide)
    _ = B0 m ρ c (Proc.devRef .tc main_arg11) := Cert.Kernel.Gen.V1_of m c main_arg11 (by decide)
    _ = m ((c : Thread nD τ).loc main_arg11) := rfl
theorem B3_main_arg12 (c : Dev nD) : B3 m ρ c (Proc.devRef .tc main_arg12) = m ((c : Thread nD τ).loc main_arg12) :=
  calc B3 m ρ c (Proc.devRef .tc main_arg12)
    _ = B2 m ρ c (Proc.devRef .tc main_arg12) := (B3_arr m ρ c 3).trans (((dat1 (E1 m ρ) c).arrAt_in 3 rfl _).trans (A_eq1 (E1 m ρ) c 3))
    _ = B1 m ρ c (Proc.devRef .tc main_arg12) := B2_of_ne m ρ c main_arg12 (by decide)
    _ = B0 m ρ c (Proc.devRef .tc main_arg12) := Cert.Kernel.Gen.V1_of m c main_arg12 (by decide)
    _ = m ((c : Thread nD τ).loc main_arg12) := rfl
theorem B3_main_arg13 (c : Dev nD) : B3 m ρ c (Proc.devRef .tc main_arg13) = m ((c : Thread nD τ).loc main_arg13) :=
  calc B3 m ρ c (Proc.devRef .tc main_arg13)
    _ = B2 m ρ c (Proc.devRef .tc main_arg13) := B3_of_ne m ρ c main_arg13 (by decide)
    _ = B1 m ρ c (Proc.devRef .tc main_arg13) := B2_of_ne m ρ c main_arg13 (by decide)
    _ = B0 m ρ c (Proc.devRef .tc main_arg13) := Cert.Kernel.Gen.V1_of m c main_arg13 (by decide)
    _ = m ((c : Thread nD τ).loc main_arg13) := rfl

end Cert.Kernel.Hand

end
-- ==== Proof.K.Frame.lean ====
/-
  The kernel program as printed as a whole: nineteen host operations that re-lay the small operands, then the attention
  kernel's region, then the smoothing kernel's region.

  The contents of the TensorCore's unscoped buffers at each boundary are a fold from the launch memory: after the host
  stretch, the operations' results; after a region, its arrays at what the pipeline's write-backs leave and every other
  buffer as it was. Each region is entered from "every unscoped buffer at the boundary's contents, the generator register
  at some state, nothing owed" and left in the same form at the next boundary; inside, its arrays are split out of the
  unscoped buffers, the generator register and the scoped buffers go into the region invariant and come back, and at the
  exit the arrays are put back at their final contents. The run ends with every unscoped buffer at the last boundary's
  contents: the argument arrays at their launch contents, and the result array at what the second region's write-backs
  leave.
-/
import proofs.«113748_g69337952026834_cont_sun_c4_16_16_alg».proof.Proof.K.ArgBack

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The proof data family and the thread state -/

/-- Every pipeline's proof data, each at its region's entry contents. -/
def pdatsH : (p : Fin 2) → (c : Dev nD) → Dat τ (Elt F) Unit ℕ (Pipeline.UD sig nD τ) ℕ (Pipeline.pin (pcfgs (F := F)) adm p) c
  | ⟨0, _⟩ => fun c => dat0 (E0 m ρ) c
  | ⟨1, _⟩ => fun c => dat1 (E1 m ρ) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every segment: the generator register at some state, and nothing owed. -/
abbrev Rd (c : Dev nD) : sProp 𝕄 := iprop((∃ r, prngReg c r) ∗ ∃ W, owes (c : Thread nD τ) (0 : CellTallies nD τ sig Unit) W)
/-- The host stretch as a segment over the unscoped references, `Rd` riding along. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TnH (c : Dev nD) : sProp 𝕄 := iprop(StableHlo.held (c : Thread nD τ) (Pipeline.ucRefs τ sig) (B3 m ρ c) ∗ ∃ r, prngReg c r)

/-! ## The regions as segments -/

set_option backward.isDefEq.respectTransparency.types false in
/-- Region 0 over the thread state: entered from every unscoped buffer at `B1`, left at `B2`. -/
def regH0 : Pipeline.RegionSeg (pcfgs (F := F)) adm (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ LH lvH 0 fun _ _ => rfl
  pre c := iprop(StableHlo.held (c : Thread nD τ) (Pipeline.ucRefs τ sig) (B1 m ρ c) ∗ Rd c)
  post c := iprop(StableHlo.held (c : Thread nD τ) (Pipeline.ucRefs τ sig) (B2 m ρ c) ∗ Rd c)
  X c := iprop(∃ r, prngReg c r)
  Y c := iprop(∃ r, prngReg c r)
  Z c := Pipeline.unscopedRest (Ix := Unit) (Name := ℕ) (U := Pipeline.UD sig nD τ) (Lvl := ℕ) spec0 c (E0 m ρ c)
  hentry c := by
    rw [Pipeline.ownSems0_none]
    have hsplit := Pipeline.arrays_of_unscopedBufs (p := 0) (pcfgs (F := F)) adm (pdatsH m ρ) launch0.win launch0.arr_whole c
      ((pdatsH m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdatsH m ρ 0 c).Φ 0 from hin0 (E0 m ρ) c)
    unfold Pipeline.ΦA
    iintro ⟨Hp, -, Hr⟩
    isplitl [Hr]; · iexact Hr
    iexact Hp
  hout c := by
    rw [Pipeline.ownSems0_none]
    refine BIBase.Entails.trans (show (pdatsH m ρ 0 c).Φ (Fin.last _) ⊢ Pipeline.ΦA spec0 c from hout0 (E0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdatsH m ρ) ((pdatsH m ρ 0 c).share_full fun _ => rfl)
      (E0 m ρ c) (E1 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B2`, left at `B3`. -/
def regH1 : Pipeline.RegionSeg (pcfgs (F := F)) adm (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ LH lvH 1 fun _ _ => rfl
  pre c := iprop(StableHlo.held (c : Thread nD τ) (Pipeline.ucRefs τ sig) (B2 m ρ c) ∗ Rd c)
  post c := iprop(TnH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (E1 m ρ c)
  hentry c := by
    rw [Pipeline.ownSems0_none]
    have hsplit := Pipeline.arrays_of_unscopedBufs (p := 1) (pcfgs (F := F)) adm (pdatsH m ρ) launch1.win launch1.arr_whole c
      ((pdatsH m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdatsH m ρ 1 c).Φ 0 from hin1 (E1 m ρ) c)
    unfold Pipeline.ΦA
    iintro ⟨Hp, -, Hr⟩
    isplitl [Hr]; · iexact Hr
    iexact Hp
  hout c := by
    rw [Pipeline.ownSems0_none]
    refine BIBase.Entails.trans (show (pdatsH m ρ 1 c).Φ (Fin.last _) ⊢ Pipeline.ΦA spec1 c from hout1 (E1 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdatsH m ρ) ((pdatsH m ρ 1 c).share_full fun _ => rfl)
      (E1 m ρ c) (E2 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segsH : List (Pipeline.Seg (pcfgs (F := F)) adm (pdatsH m ρ) () defs₀ 𝒱H LH lvH) :=
  [ .host (hsegH hostOps0 hostOps0_sub hostOps0_fresh (B0 m ρ)),
    .region (regH0 m ρ),
    .region (regH1 m ρ) ]

theorem main_run (c : Dev nD) : main (F := F) c = Pipeline.Seg.run (segsH m ρ) := (main_chain c).trans (by chain_rfl)

set_option backward.isDefEq.respectTransparency.types false in
/-- THE RUN: from any memory with zero counters every weakly fair execution of @main on the TensorCores terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m ρ c b) :=
  Pipeline.θ_run_regions_kit (pcfgs (F := F)) adm (pdatsH m ρ) () cellOf_inj embL defs₀ 𝒱H LH lvH m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rd c)) (Tₙ := TnH m ρ)
    (hch := ⟨fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (B3_main_arg0 m ρ c),
    (h c _ (mem_uc main_arg1 (by decide))).trans (B3_main_arg1 m ρ c),
    (h c _ (mem_uc main_arg2 (by decide))).trans (B3_main_arg2 m ρ c),
    (h c _ (mem_uc main_arg3 (by decide))).trans (B3_main_arg3 m ρ c),
    (h c _ (mem_uc main_arg4 (by decide))).trans (B3_main_arg4 m ρ c),
    (h c _ (mem_uc main_arg5 (by decide))).trans (B3_main_arg5 m ρ c),
    (h c _ (mem_uc main_arg6 (by decide))).trans (B3_main_arg6 m ρ c),
    (h c _ (mem_uc main_arg7 (by decide))).trans (B3_main_arg7 m ρ c),
    (h c _ (mem_uc main_arg8 (by decide))).trans (B3_main_arg8 m ρ c),
    (h c _ (mem_uc main_arg9 (by decide))).trans (B3_main_arg9 m ρ c),
    (h c _ (mem_uc main_arg10 (by decide))).trans (B3_main_arg10 m ρ c),
    (h c _ (mem_uc main_arg11 (by decide))).trans (B3_main_arg11 m ρ c),
    (h c _ (mem_uc main_arg12 (by decide))).trans (B3_main_arg12 m ρ c),
    (h c _ (mem_uc main_arg13 (by decide))).trans (B3_main_arg13 m ρ c)⟩) (run_all m ρ)

/-- The run with the result array named: what the second region's write-backs leave in it, beside the unchanged arguments. -/
theorem run_result : θ_run defs (onTc (τ := τ) (main (F := F))) ⟨m, fun _ => 0, ρ⟩ (fun r => ∀ c : Dev nD,
      r.2.mem ((c.tc : Thread nD τ).loc main_v20) = (dat1 (E1 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_v20 (by decide))).trans (B3_arr m ρ c 6), (h c _ (mem_uc main_arg0 (by decide))).trans (B3_main_arg0 m ρ c),
    (h c _ (mem_uc main_arg1 (by decide))).trans (B3_main_arg1 m ρ c),
    (h c _ (mem_uc main_arg2 (by decide))).trans (B3_main_arg2 m ρ c),
    (h c _ (mem_uc main_arg3 (by decide))).trans (B3_main_arg3 m ρ c),
    (h c _ (mem_uc main_arg4 (by decide))).trans (B3_main_arg4 m ρ c),
    (h c _ (mem_uc main_arg5 (by decide))).trans (B3_main_arg5 m ρ c),
    (h c _ (mem_uc main_arg6 (by decide))).trans (B3_main_arg6 m ρ c),
    (h c _ (mem_uc main_arg7 (by decide))).trans (B3_main_arg7 m ρ c),
    (h c _ (mem_uc main_arg8 (by decide))).trans (B3_main_arg8 m ρ c),
    (h c _ (mem_uc main_arg9 (by decide))).trans (B3_main_arg9 m ρ c),
    (h c _ (mem_uc main_arg10 (by decide))).trans (B3_main_arg10 m ρ c),
    (h c _ (mem_uc main_arg11 (by decide))).trans (B3_main_arg11 m ρ c),
    (h c _ (mem_uc main_arg12 (by decide))).trans (B3_main_arg12 m ρ c),
    (h c _ (mem_uc main_arg13 (by decide))).trans (B3_main_arg13 m ρ c)⟩) (run_all m ρ)

end Cert.Kernel.Hand

end
-- ==== Proof.KI.Common.lean ====
/-
  The two kernel regions of the idealized program: what every later module shares.

  Region 0 is the attention kernel on a grid of 25 points: at its first point it fills a 5000 x 128 scratch with the
  projected features H, and at every point it reads H whole and in the 200 rows of the point. Region 1 is the smoothing
  kernel on 5 points: at its first point it fills a 5000 x 10 scratch with the support matrix, and at every point reads
  it whole and in the point's 1000 rows. So each body has one branch, taken exactly at the first grid point, and the
  scratch it fills there is carried unchanged through the remaining points.

  The windows' blocks are stated at a parameter `V`: what the TensorCore's buffers hold when the region is entered.
-/
import proofs.«113748_g69337952026834_cont_sun_c4_16_16_alg».proof.Proof.Gen.KernelIdeal.Launch
import proofs.«113748_g69337952026834_cont_sun_c4_16_16_alg».proof.Proof.Gen.KernelIdeal.Skeleton
import proofs.«113748_g69337952026834_cont_sun_c4_16_16_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## The branch of each body -/

/-- The attention kernel's branch condition, from the grid coordinate. -/
abbrev cond0 (i : grid0.Coords) : Prop :=
  (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val = 0 :=
  (by decide +kernel : ∀ t : Fin grid0.N, cond0 (grid0.coords t) ↔ t.val = 0)

/-- The smoothing kernel's branch condition, from the grid coordinate. -/
abbrev cond1 (i : grid1.Coords) : Prop :=
  (Scalar.cmpi .ne (Scalar.extui (Scalar.cmpi .eq (BitVec.ofNat 32 (i 0).val) 0#32)) 0#32) = 1#1
/-- It holds at the first point only. -/
theorem hcond1 : ∀ t : Fin cfg1.N, cond1 (grid1.coords t) ↔ t.val = 0 :=
  (by decide +kernel : ∀ t : Fin grid1.N, cond1 (grid1.coords t) ↔ t.val = 0)

/-! ## The scratch of each kernel, and a view of each output window's staging buffer -/

/-- The attention kernel's scratch: the projected features. -/
abbrev scM0 : Memref sig .tc .vmem S5000x128 .f32 := Memref.whole cc0_scratch0
abbrev VS0 : View sig .tc .vmem S5000x128 .f32 := scM0.view
/-- One staging buffer of the attention kernel's output window, through which its contents are stated. -/
abbrev VO0 : View sig .tc .vmem S200x128 .f32 := (Memref.whole cc0_stg10_0 : Memref sig .tc .vmem S200x128 .f32).view
/-- The smoothing kernel's scratch: the support matrix. -/
abbrev scM1 : Memref sig .tc .vmem S5000x10 .f32 := Memref.whole cc1_scratch0
abbrev VS1 : View sig .tc .vmem S5000x10 .f32 := scM1.view
/-- One staging buffer of the smoothing kernel's output window. -/
abbrev VO1 : View sig .tc .vmem S1000x10 .f32 := (Memref.whole cc1_stg6_0 : Memref sig .tc .vmem S1000x10 .f32).view

/-! ## The windows' blocks -/

section Regions
variable (V : (c : Dev nD) → (b : Ref sig .tc) → Buf (Elt F) ((c : Thread nD τ).loc b))

/-- Window `w`'s block of region 0 at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block of region 1 at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end Regions

/-! ## The region invariant before the first point, conjunct by conjunct

The core's scoped buffers that the region's pipeline does not stage, each whole at some contents, with the region's own
scratch as an owned memref, beside the generator register at some state. -/

theorem PhiA0_eq (c : Dev nD) :
    (Pipeline.ΦA spec0 c : sProp 𝕄)
      = iprop(iprop((∃ d, owns (c : Thread nD τ) scM0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0, owns_whole]; try rfl

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_scratch0), ((c : Thread nD τ).loc cc0_scratch0) ↦{fullShare} f) ∗ (∃ d, owns (c : Thread nD τ) scM1 fullShare d)) ∗ (∃ r, prngReg c r)) := by
  unfold Pipeline.ΦA; rw [scopedRest1_eq]; simp only [scM1, owns_whole]; try rfl

end Cert.KernelIdeal.Hand

end
-- ==== Proof.KI.Tables.lean ====
/- Per window of each kernel region: the staging memref the pipeline passes the body at a grid point, that it is a whole
   buffer, and, for an input window, that this buffer holds the window's block at every point (where the block is not
   fetched at a point, its index has not moved since the point before). One entry per window; the same text at each. -/
import proofs.«113748_g69337952026834_cont_sun_c4_16_16_alg».proof.Proof.KI.Common

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F] [Named F]

abbrev ms0_0 (t : Fin cfg0.N) : Memref sig .tc .vmem S5000x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S200x5000 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S200x5000 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S200x5000 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S200x5000 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S200x128 .f32 := win0_10.stage (cfg0.slots t 10)
abbrev hs0_10 (t : Fin cfg0.N) : (ms0_10 t).IsWhole := hstage0_10 ((cfg0.slots t 10).cast nbuf0_10)
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x10 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x10 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1000x5000 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1000x10 .f32 := win1_6.stage (cfg1.slots t 6)
abbrev hs1_6 (t : Fin cfg1.N) : (ms1_6 t).IsWhole := hstage1_6 ((cfg1.slots t 6).cast nbuf1_6)

section Regions
variable (V : (c : Dev nD) → (b : Ref sig .tc) → Buf (Elt F) ((c : Thread nD τ).loc b))

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (Pipeline.UD sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (Pipeline.UD sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (Pipeline.UD sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (Pipeline.UD sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end Regions

end Cert.KernelIdeal.Hand

end
-- ==== Proof.KI.Run0A.lean ====
/-
  The attention kernel's body at the FIRST grid point. The branch is taken: the body reads the node features whole
  (5000 x 256), the first batch norm's scale and shift and the concatenated head projections (256 x 128), and stores into
  the scratch the projected features H: batch norm over the 5000 rows, times the projections. It then continues as at
  every other point, reading that scratch whole and in the point's 200 rows, and stores the point's 200 x 128 output
  block. The pieces stored into the output's staging buffer and into the scratch are what the symbolic run finds.
-/
import proofs.«113748_g69337952026834_cont_sun_c4_16_16_alg».proof.Proof.KI.Tables

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 2000000 in
noncomputable def kernelRun0_A (c : Dev nD) (i : grid0.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S200x5000 .f32) (harg7 : arg7.IsWhole) (arg8 : Memref sig .tc .vmem S200x5000 .f32) (harg8 : arg8.IsWhole) (arg9 : Memref sig .tc .vmem S200x5000 .f32) (harg9 : arg9.IsWhole) (arg10 : Memref sig .tc .vmem S200x5000 .f32) (harg10 : arg10.IsWhole) (arg11 : Memref sig .tc .vmem S200x128 .f32) (harg11 : arg11.IsWhole) (arg12 : Memref sig .tc .vmem S5000x128 .f32) (harg12 : arg12.IsWhole) (hc : cond0 i)
    (x0 : Vec F S5000x256 .f32) (x1 : Vec F S1x256 .f32) (x2 : Vec F S1x256 .f32) (x3 : Vec F S256x128 .f32) (x4 : Vec F S1x128 .f32) (x5 : Vec F S1x128 .f32) (x6 : Vec F S200x5000 .f32) (x7 : Vec F S200x5000 .f32) (x8 : Vec F S200x5000 .f32) (x9 : Vec F S200x5000 .f32) :
    Σ' (L10 : List (View.Piece (Elt F) S200x128 .f32)), { LS : List (View.Piece (Elt F) S5000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS)) -∗ K ⟨⟩))
          ⊢ wp frame (wpE (defs₀ (F := F)) Variants.none c none) E (cc0__att_kernel i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__att_kernel_eq_skeleton]; unfold cc0__att_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    iexists _; iexact HS

end Cert.KernelIdeal.Hand

end
-- ==== Proof.KI.Run0B.lean ====
/-
  The attention kernel's body at a grid point that is NOT the first. The branch is skipped, so the body only reads: the
  point's 200 x 5000 blocks of the four propagation operators, the two attention vectors, the scratch of projected
  features H whole and in the point's 200 rows; and it stores one 200 x 128 block: the four channels (operator-block @ H,
  the three band-pass ones raised to the fourth power), their per-head additive scores through leaky relu, the softmax
  over the four channels of each head, and the weighted mix. The scratch and every input come back as they were found;
  the pieces stored into the output's staging buffer are what the symbolic run finds.
-/
import proofs.«113748_g69337952026834_cont_sun_c4_16_16_alg».proof.Proof.KI.Tables

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 2000000 in
noncomputable def kernelRun0_B (c : Dev nD) (i : grid0.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S200x5000 .f32) (harg7 : arg7.IsWhole) (arg8 : Memref sig .tc .vmem S200x5000 .f32) (harg8 : arg8.IsWhole) (arg9 : Memref sig .tc .vmem S200x5000 .f32) (harg9 : arg9.IsWhole) (arg10 : Memref sig .tc .vmem S200x5000 .f32) (harg10 : arg10.IsWhole) (arg11 : Memref sig .tc .vmem S200x128 .f32) (harg11 : arg11.IsWhole) (arg12 : Memref sig .tc .vmem S5000x128 .f32) (harg12 : arg12.IsWhole) (hc : ¬cond0 i)
    (x0 : Vec F S5000x256 .f32) (x1 : Vec F S1x256 .f32) (x2 : Vec F S1x256 .f32) (x3 : Vec F S256x128 .f32) (x4 : Vec F S1x128 .f32) (x5 : Vec F S1x128 .f32) (x6 : Vec F S200x5000 .f32) (x7 : Vec F S200x5000 .f32) (x8 : Vec F S200x5000 .f32) (x9 : Vec F S200x5000 .f32) (xs : Vec F S5000x128 .f32) :
    { L10 : List (View.Piece (Elt F) S200x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ owns (c : Thread nD τ) arg12 fullShare xs) -∗ K ⟨⟩))
          ⊢ wp frame (wpE (defs₀ (F := F)) Variants.none c none) E (cc0__att_kernel i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__att_kernel_eq_skeleton]; unfold cc0__att_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hfs
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    iexists _; isplitr; · ipureintro; exact harg12.read_unread _
    iexact HS

end Cert.KernelIdeal.Hand

end
-- ==== Proof.KI.Reg0.lean ====
/-
  Region 0, the attention kernel, as proof data for its pipeline.

  After the first point the scratch holds the projected features H, a function of the region's whole input arrays only,
  and no later point stores into it: so the invariant before point n > 0 is "the scratch holds H", and the output block
  after point t is the first-point run's at t = 0 and the later-point run's, over H, elsewhere.
-/
import proofs.«113748_g69337952026834_cont_sun_c4_16_16_alg».proof.Proof.KI.Run0A
import proofs.«113748_g69337952026834_cont_sun_c4_16_16_alg».proof.Proof.KI.Run0B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## The stored pieces cover their buffers -/

theorem cover0_A (c : Dev nD) (i : grid0.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S200x5000 .f32) (harg7 : arg7.IsWhole) (arg8 : Memref sig .tc .vmem S200x5000 .f32) (harg8 : arg8.IsWhole) (arg9 : Memref sig .tc .vmem S200x5000 .f32) (harg9 : arg9.IsWhole) (arg10 : Memref sig .tc .vmem S200x5000 .f32) (harg10 : arg10.IsWhole) (arg11 : Memref sig .tc .vmem S200x128 .f32) (harg11 : arg11.IsWhole) (arg12 : Memref sig .tc .vmem S5000x128 .f32) (harg12 : arg12.IsWhole) (hc : cond0 i) (x0 : Vec F S5000x256 .f32) (x1 : Vec F S1x256 .f32) (x2 : Vec F S1x256 .f32) (x3 : Vec F S256x128 .f32) (x4 : Vec F S1x128 .f32) (x5 : Vec F S1x128 .f32) (x6 : Vec F S200x5000 .f32) (x7 : Vec F S200x5000 .f32) (x8 : Vec F S200x5000 .f32) (x9 : Vec F S200x5000 .f32) (y : S200x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 x9).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 x9).1 S200x128.size (by sl_kernel_rfl) y

theorem scover0_A (c : Dev nD) (i : grid0.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S200x5000 .f32) (harg7 : arg7.IsWhole) (arg8 : Memref sig .tc .vmem S200x5000 .f32) (harg8 : arg8.IsWhole) (arg9 : Memref sig .tc .vmem S200x5000 .f32) (harg9 : arg9.IsWhole) (arg10 : Memref sig .tc .vmem S200x5000 .f32) (harg10 : arg10.IsWhole) (arg11 : Memref sig .tc .vmem S200x128 .f32) (harg11 : arg11.IsWhole) (arg12 : Memref sig .tc .vmem S5000x128 .f32) (harg12 : arg12.IsWhole) (hc : cond0 i) (x0 : Vec F S5000x256 .f32) (x1 : Vec F S1x256 .f32) (x2 : Vec F S1x256 .f32) (x3 : Vec F S256x128 .f32) (x4 : Vec F S1x128 .f32) (x5 : Vec F S1x128 .f32) (x6 : Vec F S200x5000 .f32) (x7 : Vec F S200x5000 .f32) (x8 : Vec F S200x5000 .f32) (x9 : Vec F S200x5000 .f32) (y : S5000x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 x9).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 x9).2.1 S5000x128.size (by sl_kernel_rfl) y

theorem cover0_B (c : Dev nD) (i : grid0.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S200x5000 .f32) (harg7 : arg7.IsWhole) (arg8 : Memref sig .tc .vmem S200x5000 .f32) (harg8 : arg8.IsWhole) (arg9 : Memref sig .tc .vmem S200x5000 .f32) (harg9 : arg9.IsWhole) (arg10 : Memref sig .tc .vmem S200x5000 .f32) (harg10 : arg10.IsWhole) (arg11 : Memref sig .tc .vmem S200x128 .f32) (harg11 : arg11.IsWhole) (arg12 : Memref sig .tc .vmem S5000x128 .f32) (harg12 : arg12.IsWhole) (hc : ¬cond0 i) (x0 : Vec F S5000x256 .f32) (x1 : Vec F S1x256 .f32) (x2 : Vec F S1x256 .f32) (x3 : Vec F S256x128 .f32) (x4 : Vec F S1x128 .f32) (x5 : Vec F S1x128 .f32) (x6 : Vec F S200x5000 .f32) (x7 : Vec F S200x5000 .f32) (x8 : Vec F S200x5000 .f32) (x9 : Vec F S200x5000 .f32) (xs : Vec F S5000x128 .f32) (y : S200x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 x9 xs).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 x9 xs).1 S200x128.size (by sl_kernel_rfl) y

/-! ## What the runs leave: the pieces read back -/

/-- The output block the first-point run leaves. -/
def out0_A (c : Dev nD) (i : grid0.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S200x5000 .f32) (harg7 : arg7.IsWhole) (arg8 : Memref sig .tc .vmem S200x5000 .f32) (harg8 : arg8.IsWhole) (arg9 : Memref sig .tc .vmem S200x5000 .f32) (harg9 : arg9.IsWhole) (arg10 : Memref sig .tc .vmem S200x5000 .f32) (harg10 : arg10.IsWhole) (arg11 : Memref sig .tc .vmem S200x128 .f32) (harg11 : arg11.IsWhole) (arg12 : Memref sig .tc .vmem S5000x128 .f32) (harg12 : arg12.IsWhole) (hc : cond0 i) (x0 : Vec F S5000x256 .f32) (x1 : Vec F S1x256 .f32) (x2 : Vec F S1x256 .f32) (x3 : Vec F S256x128 .f32) (x4 : Vec F S1x128 .f32) (x5 : Vec F S1x128 .f32) (x6 : Vec F S200x5000 .f32) (x7 : Vec F S200x5000 .f32) (x8 : Vec F S200x5000 .f32) (x9 : Vec F S200x5000 .f32) : Vec F S200x128 .f32 :=
  VO0.read (Elt F) (VO0.writes (Elt F) VO0.junk (kernelRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 x9).1)

/-- The scratch the first-point run leaves: the projected features. -/
def sout0_A (c : Dev nD) (i : grid0.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S200x5000 .f32) (harg7 : arg7.IsWhole) (arg8 : Memref sig .tc .vmem S200x5000 .f32) (harg8 : arg8.IsWhole) (arg9 : Memref sig .tc .vmem S200x5000 .f32) (harg9 : arg9.IsWhole) (arg10 : Memref sig .tc .vmem S200x5000 .f32) (harg10 : arg10.IsWhole) (arg11 : Memref sig .tc .vmem S200x128 .f32) (harg11 : arg11.IsWhole) (arg12 : Memref sig .tc .vmem S5000x128 .f32) (harg12 : arg12.IsWhole) (hc : cond0 i) (x0 : Vec F S5000x256 .f32) (x1 : Vec F S1x256 .f32) (x2 : Vec F S1x256 .f32) (x3 : Vec F S256x128 .f32) (x4 : Vec F S1x128 .f32) (x5 : Vec F S1x128 .f32) (x6 : Vec F S200x5000 .f32) (x7 : Vec F S200x5000 .f32) (x8 : Vec F S200x5000 .f32) (x9 : Vec F S200x5000 .f32) : Vec F S5000x128 .f32 :=
  VS0.read (Elt F) (VS0.writes (Elt F) VS0.junk (kernelRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 x9).2.1)

/-- The output block a later-point run leaves, over the scratch contents `xs`. -/
def out0_B (c : Dev nD) (i : grid0.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S200x5000 .f32) (harg7 : arg7.IsWhole) (arg8 : Memref sig .tc .vmem S200x5000 .f32) (harg8 : arg8.IsWhole) (arg9 : Memref sig .tc .vmem S200x5000 .f32) (harg9 : arg9.IsWhole) (arg10 : Memref sig .tc .vmem S200x5000 .f32) (harg10 : arg10.IsWhole) (arg11 : Memref sig .tc .vmem S200x128 .f32) (harg11 : arg11.IsWhole) (arg12 : Memref sig .tc .vmem S5000x128 .f32) (harg12 : arg12.IsWhole) (hc : ¬cond0 i) (x0 : Vec F S5000x256 .f32) (x1 : Vec F S1x256 .f32) (x2 : Vec F S1x256 .f32) (x3 : Vec F S256x128 .f32) (x4 : Vec F S1x128 .f32) (x5 : Vec F S1x128 .f32) (x6 : Vec F S200x5000 .f32) (x7 : Vec F S200x5000 .f32) (x8 : Vec F S200x5000 .f32) (x9 : Vec F S200x5000 .f32) (xs : Vec F S5000x128 .f32) : Vec F S200x128 .f32 :=
  VO0.read (Elt F) (VO0.writes (Elt F) VO0.junk (kernelRun0_B c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 x9 xs).1)

/-- The grid's first point. -/
def p0 : Fin cfg0.N := ⟨0, by rw [show cfg0.N = 25 from N_0]; decide⟩

section Regions
variable (V : (c : Dev nD) → (b : Ref sig .tc) → Buf (Elt F) ((c : Thread nD τ).loc b))

/-- The projected features: what the scratch holds from the first point on. -/
def scr0 (c : Dev nD) : Vec F S5000x128 .f32 :=
  sout0_A c (grid0.coords p0) (ms0_0 p0) (hs0_0 p0) (ms0_1 p0) (hs0_1 p0) (ms0_2 p0) (hs0_2 p0) (ms0_3 p0) (hs0_3 p0) (ms0_4 p0) (hs0_4 p0) (ms0_5 p0) (hs0_5 p0) (ms0_6 p0) (hs0_6 p0) (ms0_7 p0) (hs0_7 p0) (ms0_8 p0) (hs0_8 p0) (ms0_9 p0) (hs0_9 p0) (ms0_10 p0) (hs0_10 p0) scM0 (Memref.isWhole_whole _) ((hcond0 p0).mpr rfl) (iblk0 V c 0 p0) (iblk0 V c 1 p0) (iblk0 V c 2 p0) (iblk0 V c 3 p0) (iblk0 V c 4 p0) (iblk0 V c 5 p0) (iblk0 V c 6 p0) (iblk0 V c 7 p0) (iblk0 V c 8 p0) (iblk0 V c 9 p0)

/-- The output window's staging buffer after the body at point `t`. -/
def outsAt0 (c : Dev nD) (t : Fin cfg0.N) : Vec F S200x128 .f32 :=
  if h : t.val = 0 then
    out0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0 (Memref.isWhole_whole _) ((hcond0 t).mpr h) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  else
    out0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0 (Memref.isWhole_whole _) (fun hh => h ((hcond0 t).mp hh)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (scr0 V c)

theorem outsAt0_first (c : Dev nD) :
    outsAt0 V c p0 = out0_A c (grid0.coords p0) (ms0_0 p0) (hs0_0 p0) (ms0_1 p0) (hs0_1 p0) (ms0_2 p0) (hs0_2 p0) (ms0_3 p0) (hs0_3 p0) (ms0_4 p0) (hs0_4 p0) (ms0_5 p0) (hs0_5 p0) (ms0_6 p0) (hs0_6 p0) (ms0_7 p0) (hs0_7 p0) (ms0_8 p0) (hs0_8 p0) (ms0_9 p0) (hs0_9 p0) (ms0_10 p0) (hs0_10 p0) scM0 (Memref.isWhole_whole _) ((hcond0 p0).mpr rfl) (iblk0 V c 0 p0) (iblk0 V c 1 p0) (iblk0 V c 2 p0) (iblk0 V c 3 p0) (iblk0 V c 4 p0) (iblk0 V c 5 p0) (iblk0 V c 6 p0) (iblk0 V c 7 p0) (iblk0 V c 8 p0) (iblk0 V c 9 p0) :=
  dif_pos rfl

theorem outsAt0_later (c : Dev nD) (t : Fin cfg0.N) (h : ¬t.val = 0) :
    outsAt0 V c t = out0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0 (Memref.isWhole_whole _) (fun hh => h ((hcond0 t).mp hh)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (scr0 V c) :=
  dif_neg h

/-- The region invariant before position `n`: before the first point every scoped buffer at anything; afterwards the same
    with the scratch at the projected features. -/
def PhiS0 (c : Dev nD) : ℕ → sProp 𝕄
  | 0 => Pipeline.ΦA spec0 c
  | _ + 1 => iprop(iprop(owns (c : Thread nD τ) scM0 fullShare (scr0 V c) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f)) ∗ (∃ r, prngReg c r))

theorem PhiS0_succ (c : Dev nD) (n : ℕ) :
    PhiS0 V c (n + 1) = iprop(iprop(owns (c : Thread nD τ) scM0 fullShare (scr0 V c) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f)) ∗ (∃ r, prngReg c r)) := rfl

theorem PhiS0_pos (c : Dev nD) (n : ℕ) (hn : n ≠ 0) :
    PhiS0 V c n = iprop(iprop(owns (c : Thread nD τ) scM0 fullShare (scr0 V c) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f)) ∗ (∃ r, prngReg c r)) := by
  cases n with
  | zero => exact absurd rfl hn
  | succ n => rfl

/-! ## The pipeline's proof data -/

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => outsAt0 V c t
  Φ t := PhiS0 V c t.val
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) : (dat0 V c).Φ t.castSucc = PhiS0 V c t.val := by
  dsimp only [dat0]; simp only [Fin.coe_castSucc]
theorem Phi0_succ (c : Dev nD) (t : Fin cfg0.N) : (dat0 V c).Φ t.succ = PhiS0 V c (t.val + 1) := by
  dsimp only [dat0]; simp only [Fin.val_succ]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = outsAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t))

set_option maxHeartbeats 4000000 in
/-- The body at any point. At the first point the invariant hands the scratch over at anything and takes it back at the
    projected features; at a later point it hands the scratch over at the projected features and takes it back unchanged. The
    inputs' staging buffers hold their blocks and come back as found; the output's comes back with the run's pieces read back. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).owesAt () t.succ = (dat0 V c).owesAt () t.castSucc from rfl]
  rw [Phi0_castSucc, Phi0_succ, PhiS0_succ, after0_0, after0_1, after0_2, after0_3, after0_4, after0_5, after0_6, after0_7, after0_8, after0_9, after0_10]
  by_cases h : t.val = 0
  · obtain rfl : t = p0 := Fin.ext h
    rw [show PhiS0 V c (p0 : Fin cfg0.N).val = Pipeline.ΦA spec0 c from rfl, PhiA0_eq, outsAt0_first]
    unfold scr0 out0_A sout0_A
    iintro ⟨⟨⟨HS, HR0, HR1, HR2, HR3, HR4, HR5, HR6, HR7, HR8, HR9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (grid0.coords p0) (ms0_0 p0) (hs0_0 p0) (ms0_1 p0) (hs0_1 p0) (ms0_2 p0) (hs0_2 p0) (ms0_3 p0) (hs0_3 p0) (ms0_4 p0) (hs0_4 p0) (ms0_5 p0) (hs0_5 p0) (ms0_6 p0) (hs0_6 p0) (ms0_7 p0) (hs0_7 p0) (ms0_8 p0) (hs0_8 p0) (ms0_9 p0) (hs0_9 p0) (ms0_10 p0) (hs0_10 p0) scM0 (Memref.isWhole_whole _) ((hcond0 p0).mpr rfl) (iblk0 V c 0 p0) (iblk0 V c 1 p0) (iblk0 V c 2 p0) (iblk0 V c 3 p0) (iblk0 V c 4 p0) (iblk0 V c 5 p0) (iblk0 V c 6 p0) (iblk0 V c 7 p0) (iblk0 V c 8 p0) (iblk0 V c 9 p0)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS]; · iexact HS
    iintro ⟨H0, H1, H2, H3, H4, H5, H6, H7, H8, H9, ⟨%e10, H10⟩, ⟨%es, HS⟩⟩
    isplitl [HS HR0 HR1 HR2 HR3 HR4 HR5 HR6 HR7 HR8 HR9 Hg]
    · isplitl [HS HR0 HR1 HR2 HR3 HR4 HR5 HR6 HR7 HR8 HR9]
      · isplitl [HS]
        · unfold owns; iexists _; isplitr
          swap; · iexact HS
          ipureintro; exact View.read_writes_of_cover _ _ _ _ _ (scover0_A c _ _ _ _ _ _ _ _ _ _ _ _ _ _ _ _ _ _ _ _ _ _ _ _ _ _ _ _ _ _ _ _ _ _ _ _)
        isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        iexact HR9
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H10
    ipureintro; exact View.read_writes_of_cover _ _ _ _ _ (cover0_A c _ _ _ _ _ _ _ _ _ _ _ _ _ _ _ _ _ _ _ _ _ _ _ _ _ _ _ _ _ _ _ _ _ _ _ _)
  · rw [PhiS0_pos V c _ h, outsAt0_later V c t h]
    unfold out0_B
    iintro ⟨⟨⟨HS, HR0, HR1, HR2, HR3, HR4, HR5, HR6, HR7, HR8, HR9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0 (Memref.isWhole_whole _) (fun hh => h ((hcond0 t).mp hh)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (scr0 V c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS]; · iexact HS
    iintro ⟨H0, H1, H2, H3, H4, H5, H6, H7, H8, H9, ⟨%e10, H10⟩, HS⟩
    isplitl [HS HR0 HR1 HR2 HR3 HR4 HR5 HR6 HR7 HR8 HR9 Hg]
    · isplitl [HS HR0 HR1 HR2 HR3 HR4 HR5 HR6 HR7 HR8 HR9]
      · isplitl [HS]; · iexact HS
        isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        iexact HR9
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H10
    ipureintro; exact View.read_writes_of_cover _ _ _ _ _ (cover0_B c _ _ _ _ _ _ _ _ _ _ _ _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Pipeline.ΦA spec0 c from rfl]
  try exact Idealize.SL.BI.Entails.refl _

/-- After the last point the invariant gives the class's back: the scratch's named contents are forgotten. -/
theorem hout0 (c : Dev nD) : (dat0 V c).Φ (Fin.last cfg0.N) ⊢ Pipeline.ΦA spec0 c := by
  rw [show (dat0 V c).Φ (Fin.last cfg0.N) = PhiS0 V c (24 + 1) from rfl, PhiS0_succ, PhiA0_eq]
  iintro ⟨⟨HS, HR0, HR1, HR2, HR3, HR4, HR5, HR6, HR7, HR8, HR9⟩, Hg⟩
  isplitl [HS HR0 HR1 HR2 HR3 HR4 HR5 HR6 HR7 HR8 HR9]
  · isplitl [HS]; · iexists _; iexact HS
    isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    iexact HR9
  iexact Hg

end Regions

end Cert.KernelIdeal.Hand

end
-- ==== Proof.KI.Run1A.lean ====
/-
  The smoothing kernel's body at the FIRST grid point. The branch is taken: the body reads the attention output whole
  (5000 x 128), the tiled batch-norm scale and shift, the classifier weights and bias, and stores into the scratch the
  support matrix: batch norm over the 5000 rows, relu, times the 128 x 10 weights, plus the bias. It then continues as at
  every other point, reading that scratch whole and in the point's 1000 rows, and stores the point's 1000 x 10 output
  block. The pieces stored into the output's staging buffer and into the scratch are what the symbolic run finds.
-/
import proofs.«113748_g69337952026834_cont_sun_c4_16_16_alg».proof.Proof.KI.Tables

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 1000000 in
noncomputable def kernelRun1_A (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1000x5000 .f32) (harg6 : arg6.IsWhole) (arg7 : Memref sig .tc .vmem S1000x10 .f32) (harg7 : arg7.IsWhole) (arg8 : Memref sig .tc .vmem S5000x10 .f32) (harg8 : arg8.IsWhole) (hc : cond1 i)
    (x0 : Vec F S5000x128 .f32) (x1 : Vec F S1x128 .f32) (x2 : Vec F S1x128 .f32) (x3 : Vec F S128x10 .f32) (x4 : Vec F S1x10 .f32) (x5 : Vec F S1000x5000 .f32) :
    Σ' (L6 : List (View.Piece (Elt F) S1000x10 .f32)), { LS : List (View.Piece (Elt F) S5000x10 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS)) -∗ K ⟨⟩))
          ⊢ wp frame (wpE (defs₀ (F := F)) Variants.none c none) E (cc1__smooth_kernel i arg1 harg1 arg2 harg2 arg3 harg3 arg4 harg4 arg5 harg5 arg6 harg6 arg7 harg7 arg8 harg8) K } := by
  refine ⟨?_, ?_, fun E K => ?run⟩
  case run =>
    simp only [cc1__smooth_kernel_eq_skeleton]; unfold cc1__smooth_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS

end Cert.KernelIdeal.Hand

end
-- ==== Proof.KI.Run1B.lean ====
/-
  The smoothing kernel's body at a grid point that is NOT the first. The branch is skipped, so the body only reads: the
  point's 1000 x 5000 block of the propagation operator, the support scratch whole and in the point's 1000 rows; and it
  stores one 1000 x 10 block, the row log-softmax of (0.5 * operator-block @ support + support-rows) * (2/3). The scratch
  and every input come back as they were found; the pieces stored into the output's staging buffer are what the symbolic
  run finds.
-/
import proofs.«113748_g69337952026834_cont_sun_c4_16_16_alg».proof.Proof.KI.Tables

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 1000000 in
noncomputable def kernelRun1_B (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1000x5000 .f32) (harg6 : arg6.IsWhole) (arg7 : Memref sig .tc .vmem S1000x10 .f32) (harg7 : arg7.IsWhole) (arg8 : Memref sig .tc .vmem S5000x10 .f32) (harg8 : arg8.IsWhole) (hc : ¬cond1 i)
    (x0 : Vec F S5000x128 .f32) (x1 : Vec F S1x128 .f32) (x2 : Vec F S1x128 .f32) (x3 : Vec F S128x10 .f32) (x4 : Vec F S1x10 .f32) (x5 : Vec F S1000x5000 .f32) (xs : Vec F S5000x10 .f32) :
    { L6 : List (View.Piece (Elt F) S1000x10 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xs) -∗ K ⟨⟩))
          ⊢ wp frame (wpE (defs₀ (F := F)) Variants.none c none) E (cc1__smooth_kernel i arg1 harg1 arg2 harg2 arg3 harg3 arg4 harg4 arg5 harg5 arg6 harg6 arg7 harg7 arg8 harg8) K } := by
  refine ⟨?_, fun E K => ?run⟩
  case run =>
    simp only [cc1__smooth_kernel_eq_skeleton]; unfold cc1__smooth_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; isplitr; · ipureintro; exact harg8.read_unread _
    iexact HS

end Cert.KernelIdeal.Hand

end
-- ==== Proof.KI.Reg1.lean ====
/-
  Region 1, the smoothing kernel, as proof data for its pipeline.

  After the first point the scratch holds the support matrix, a function of the region's whole input arrays only, and no
  later point stores into it: so the invariant before point n > 0 is "the scratch holds that matrix", and the output
  block after point t is the first-point run's at t = 0 and the later-point run's, over that matrix, elsewhere.
-/
import proofs.«113748_g69337952026834_cont_sun_c4_16_16_alg».proof.Proof.KI.Run1A
import proofs.«113748_g69337952026834_cont_sun_c4_16_16_alg».proof.Proof.KI.Run1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## The stored pieces cover their buffers -/

theorem cover1_A (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1000x5000 .f32) (harg6 : arg6.IsWhole) (arg7 : Memref sig .tc .vmem S1000x10 .f32) (harg7 : arg7.IsWhole) (arg8 : Memref sig .tc .vmem S5000x10 .f32) (harg8 : arg8.IsWhole) (hc : cond1 i) (x0 : Vec F S5000x128 .f32) (x1 : Vec F S1x128 .f32) (x2 : Vec F S1x128 .f32) (x3 : Vec F S128x10 .f32) (x4 : Vec F S1x10 .f32) (x5 : Vec F S1000x5000 .f32) (y : S1000x10.Idx) :
    ∃ pc ∈ (kernelRun1_A c i arg1 harg1 arg2 harg2 arg3 harg3 arg4 harg4 arg5 harg5 arg6 harg6 arg7 harg7 arg8 harg8 hc x0 x1 x2 x3 x4 x5).1, y ∈ pc.1.set :=
  View.cover_of_tiledL (kernelRun1_A c i arg1 harg1 arg2 harg2 arg3 harg3 arg4 harg4 arg5 harg5 arg6 harg6 arg7 harg7 arg8 harg8 hc x0 x1 x2 x3 x4 x5).1 S1000x10.size (by sl_kernel_rfl) y

theorem scover1_A (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1000x5000 .f32) (harg6 : arg6.IsWhole) (arg7 : Memref sig .tc .vmem S1000x10 .f32) (harg7 : arg7.IsWhole) (arg8 : Memref sig .tc .vmem S5000x10 .f32) (harg8 : arg8.IsWhole) (hc : cond1 i) (x0 : Vec F S5000x128 .f32) (x1 : Vec F S1x128 .f32) (x2 : Vec F S1x128 .f32) (x3 : Vec F S128x10 .f32) (x4 : Vec F S1x10 .f32) (x5 : Vec F S1000x5000 .f32) (y : S5000x10.Idx) :
    ∃ pc ∈ (kernelRun1_A c i arg1 harg1 arg2 harg2 arg3 harg3 arg4 harg4 arg5 harg5 arg6 harg6 arg7 harg7 arg8 harg8 hc x0 x1 x2 x3 x4 x5).2.1, y ∈ pc.1.set :=
  View.cover_of_tiledL (kernelRun1_A c i arg1 harg1 arg2 harg2 arg3 harg3 arg4 harg4 arg5 harg5 arg6 harg6 arg7 harg7 arg8 harg8 hc x0 x1 x2 x3 x4 x5).2.1 S5000x10.size (by sl_kernel_rfl) y

theorem cover1_B (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1000x5000 .f32) (harg6 : arg6.IsWhole) (arg7 : Memref sig .tc .vmem S1000x10 .f32) (harg7 : arg7.IsWhole) (arg8 : Memref sig .tc .vmem S5000x10 .f32) (harg8 : arg8.IsWhole) (hc : ¬cond1 i) (x0 : Vec F S5000x128 .f32) (x1 : Vec F S1x128 .f32) (x2 : Vec F S1x128 .f32) (x3 : Vec F S128x10 .f32) (x4 : Vec F S1x10 .f32) (x5 : Vec F S1000x5000 .f32) (xs : Vec F S5000x10 .f32) (y : S1000x10.Idx) :
    ∃ pc ∈ (kernelRun1_B c i arg1 harg1 arg2 harg2 arg3 harg3 arg4 harg4 arg5 harg5 arg6 harg6 arg7 harg7 arg8 harg8 hc x0 x1 x2 x3 x4 x5 xs).1, y ∈ pc.1.set :=
  View.cover_of_tiledL (kernelRun1_B c i arg1 harg1 arg2 harg2 arg3 harg3 arg4 harg4 arg5 harg5 arg6 harg6 arg7 harg7 arg8 harg8 hc x0 x1 x2 x3 x4 x5 xs).1 S1000x10.size (by sl_kernel_rfl) y

/-! ## What the runs leave: the pieces read back -/

/-- The output block the first-point run leaves. -/
def out1_A (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1000x5000 .f32) (harg6 : arg6.IsWhole) (arg7 : Memref sig .tc .vmem S1000x10 .f32) (harg7 : arg7.IsWhole) (arg8 : Memref sig .tc .vmem S5000x10 .f32) (harg8 : arg8.IsWhole) (hc : cond1 i) (x0 : Vec F S5000x128 .f32) (x1 : Vec F S1x128 .f32) (x2 : Vec F S1x128 .f32) (x3 : Vec F S128x10 .f32) (x4 : Vec F S1x10 .f32) (x5 : Vec F S1000x5000 .f32) : Vec F S1000x10 .f32 :=
  VO1.read (Elt F) (VO1.writes (Elt F) VO1.junk (kernelRun1_A c i arg1 harg1 arg2 harg2 arg3 harg3 arg4 harg4 arg5 harg5 arg6 harg6 arg7 harg7 arg8 harg8 hc x0 x1 x2 x3 x4 x5).1)

/-- The scratch the first-point run leaves: the support matrix. -/
def sout1_A (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1000x5000 .f32) (harg6 : arg6.IsWhole) (arg7 : Memref sig .tc .vmem S1000x10 .f32) (harg7 : arg7.IsWhole) (arg8 : Memref sig .tc .vmem S5000x10 .f32) (harg8 : arg8.IsWhole) (hc : cond1 i) (x0 : Vec F S5000x128 .f32) (x1 : Vec F S1x128 .f32) (x2 : Vec F S1x128 .f32) (x3 : Vec F S128x10 .f32) (x4 : Vec F S1x10 .f32) (x5 : Vec F S1000x5000 .f32) : Vec F S5000x10 .f32 :=
  VS1.read (Elt F) (VS1.writes (Elt F) VS1.junk (kernelRun1_A c i arg1 harg1 arg2 harg2 arg3 harg3 arg4 harg4 arg5 harg5 arg6 harg6 arg7 harg7 arg8 harg8 hc x0 x1 x2 x3 x4 x5).2.1)

/-- The output block a later-point run leaves, over the scratch contents `xs`. -/
def out1_B (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1000x5000 .f32) (harg6 : arg6.IsWhole) (arg7 : Memref sig .tc .vmem S1000x10 .f32) (harg7 : arg7.IsWhole) (arg8 : Memref sig .tc .vmem S5000x10 .f32) (harg8 : arg8.IsWhole) (hc : ¬cond1 i) (x0 : Vec F S5000x128 .f32) (x1 : Vec F S1x128 .f32) (x2 : Vec F S1x128 .f32) (x3 : Vec F S128x10 .f32) (x4 : Vec F S1x10 .f32) (x5 : Vec F S1000x5000 .f32) (xs : Vec F S5000x10 .f32) : Vec F S1000x10 .f32 :=
  VO1.read (Elt F) (VO1.writes (Elt F) VO1.junk (kernelRun1_B c i arg1 harg1 arg2 harg2 arg3 harg3 arg4 harg4 arg5 harg5 arg6 harg6 arg7 harg7 arg8 harg8 hc x0 x1 x2 x3 x4 x5 xs).1)

/-- The grid's first point. -/
def p1 : Fin cfg1.N := ⟨0, by rw [show cfg1.N = 5 from N_1]; decide⟩

section Regions
variable (V : (c : Dev nD) → (b : Ref sig .tc) → Buf (Elt F) ((c : Thread nD τ).loc b))

/-- The support matrix: what the scratch holds from the first point on. -/
def scr1 (c : Dev nD) : Vec F S5000x10 .f32 :=
  sout1_A c (grid1.coords p1) (ms1_0 p1) (hs1_0 p1) (ms1_1 p1) (hs1_1 p1) (ms1_2 p1) (hs1_2 p1) (ms1_3 p1) (hs1_3 p1) (ms1_4 p1) (hs1_4 p1) (ms1_5 p1) (hs1_5 p1) (ms1_6 p1) (hs1_6 p1) scM1 (Memref.isWhole_whole _) ((hcond1 p1).mpr rfl) (iblk1 V c 0 p1) (iblk1 V c 1 p1) (iblk1 V c 2 p1) (iblk1 V c 3 p1) (iblk1 V c 4 p1) (iblk1 V c 5 p1)

/-- The output window's staging buffer after the body at point `t`. -/
def outsAt1 (c : Dev nD) (t : Fin cfg1.N) : Vec F S1000x10 .f32 :=
  if h : t.val = 0 then
    out1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1 t).mpr h) (iblk1 V c 0 t) (iblk1 V c 1 t) (iblk1 V c 2 t) (iblk1 V c 3 t) (iblk1 V c 4 t) (iblk1 V c 5 t)
  else
    out1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun hh => h ((hcond1 t).mp hh)) (iblk1 V c 0 t) (iblk1 V c 1 t) (iblk1 V c 2 t) (iblk1 V c 3 t) (iblk1 V c 4 t) (iblk1 V c 5 t) (scr1 V c)

theorem outsAt1_first (c : Dev nD) :
    outsAt1 V c p1 = out1_A c (grid1.coords p1) (ms1_0 p1) (hs1_0 p1) (ms1_1 p1) (hs1_1 p1) (ms1_2 p1) (hs1_2 p1) (ms1_3 p1) (hs1_3 p1) (ms1_4 p1) (hs1_4 p1) (ms1_5 p1) (hs1_5 p1) (ms1_6 p1) (hs1_6 p1) scM1 (Memref.isWhole_whole _) ((hcond1 p1).mpr rfl) (iblk1 V c 0 p1) (iblk1 V c 1 p1) (iblk1 V c 2 p1) (iblk1 V c 3 p1) (iblk1 V c 4 p1) (iblk1 V c 5 p1) :=
  dif_pos rfl

theorem outsAt1_later (c : Dev nD) (t : Fin cfg1.N) (h : ¬t.val = 0) :
    outsAt1 V c t = out1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun hh => h ((hcond1 t).mp hh)) (iblk1 V c 0 t) (iblk1 V c 1 t) (iblk1 V c 2 t) (iblk1 V c 3 t) (iblk1 V c 4 t) (iblk1 V c 5 t) (scr1 V c) :=
  dif_neg h

/-- The region invariant before position `n`: before the first point every scoped buffer at anything; afterwards the same
    with the scratch at the support matrix. -/
def PhiS1 (c : Dev nD) : ℕ → sProp 𝕄
  | 0 => Pipeline.ΦA spec1 c
  | _ + 1 => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_scratch0), ((c : Thread nD τ).loc cc0_scratch0) ↦{fullShare} f) ∗ owns (c : Thread nD τ) scM1 fullShare (scr1 V c)) ∗ (∃ r, prngReg c r))

theorem PhiS1_succ (c : Dev nD) (n : ℕ) :
    PhiS1 V c (n + 1) = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_scratch0), ((c : Thread nD τ).loc cc0_scratch0) ↦{fullShare} f) ∗ owns (c : Thread nD τ) scM1 fullShare (scr1 V c)) ∗ (∃ r, prngReg c r)) := rfl

theorem PhiS1_pos (c : Dev nD) (n : ℕ) (hn : n ≠ 0) :
    PhiS1 V c n = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_scratch0), ((c : Thread nD τ).loc cc0_scratch0) ↦{fullShare} f) ∗ owns (c : Thread nD τ) scM1 fullShare (scr1 V c)) ∗ (∃ r, prngReg c r)) := by
  cases n with
  | zero => exact absurd rfl hn
  | succ n => rfl

/-! ## The pipeline's proof data -/

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outsAt1 V c t
  Φ t := PhiS1 V c t.val
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) : (dat1 V c).Φ t.castSucc = PhiS1 V c t.val := by
  dsimp only [dat1]; simp only [Fin.coe_castSucc]
theorem Phi1_succ (c : Dev nD) (t : Fin cfg1.N) : (dat1 V c).Φ t.succ = PhiS1 V c (t.val + 1) := by
  dsimp only [dat1]; simp only [Fin.val_succ]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outsAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 4000000 in
/-- The body at any point. At the first point the invariant hands the scratch over at anything and takes it back at the
    support matrix; at a later point it hands the scratch over at the support matrix and takes it back unchanged. The inputs'
    staging buffers hold their blocks and come back as found; the output's comes back with the run's pieces read back. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [Phi1_castSucc, Phi1_succ, PhiS1_succ, after1_0, after1_1, after1_2, after1_3, after1_4, after1_5, after1_6]
  by_cases h : t.val = 0
  · obtain rfl : t = p1 := Fin.ext h
    rw [show PhiS1 V c (p1 : Fin cfg1.N).val = Pipeline.ΦA spec1 c from rfl, PhiA1_eq, outsAt1_first]
    unfold scr1 out1_A sout1_A
    iintro ⟨⟨⟨HR0, HR1, HR2, HR3, HR4, HR5, HR6, HR7, HR8, HR9, HR10, HR11, HR12, HR13, HR14, HR15, HR16, HS⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords p1) (ms1_0 p1) (hs1_0 p1) (ms1_1 p1) (hs1_1 p1) (ms1_2 p1) (hs1_2 p1) (ms1_3 p1) (hs1_3 p1) (ms1_4 p1) (hs1_4 p1) (ms1_5 p1) (hs1_5 p1) (ms1_6 p1) (hs1_6 p1) scM1 (Memref.isWhole_whole _) ((hcond1 p1).mpr rfl) (iblk1 V c 0 p1) (iblk1 V c 1 p1) (iblk1 V c 2 p1) (iblk1 V c 3 p1) (iblk1 V c 4 p1) (iblk1 V c 5 p1)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, ⟨%e6, H6⟩, ⟨%es, HS⟩⟩
    isplitl [HR0 HR1 HR2 HR3 HR4 HR5 HR6 HR7 HR8 HR9 HR10 HR11 HR12 HR13 HR14 HR15 HR16 HS Hg]
    · isplitl [HR0 HR1 HR2 HR3 HR4 HR5 HR6 HR7 HR8 HR9 HR10 HR11 HR12 HR13 HR14 HR15 HR16 HS]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        isplitl [HR12]; · iexact HR12
        isplitl [HR13]; · iexact HR13
        isplitl [HR14]; · iexact HR14
        isplitl [HR15]; · iexact HR15
        isplitl [HR16]; · iexact HR16
        unfold owns; iexists _; isplitr
        swap; · iexact HS
        ipureintro; exact View.read_writes_of_cover _ _ _ _ _ (scover1_A c _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover1_A c _ _ _ _ _ _ _ _ _ _ _ _ _ _ _ _ _ _ _ _ _ _ _ _)
  · rw [PhiS1_pos V c _ h, outsAt1_later V c t h]
    unfold out1_B
    iintro ⟨⟨⟨HR0, HR1, HR2, HR3, HR4, HR5, HR6, HR7, HR8, HR9, HR10, HR11, HR12, HR13, HR14, HR15, HR16, HS⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun hh => h ((hcond1 t).mp hh)) (iblk1 V c 0 t) (iblk1 V c 1 t) (iblk1 V c 2 t) (iblk1 V c 3 t) (iblk1 V c 4 t) (iblk1 V c 5 t) (scr1 V c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, ⟨%e6, H6⟩, HS⟩
    isplitl [HR0 HR1 HR2 HR3 HR4 HR5 HR6 HR7 HR8 HR9 HR10 HR11 HR12 HR13 HR14 HR15 HR16 HS Hg]
    · isplitl [HR0 HR1 HR2 HR3 HR4 HR5 HR6 HR7 HR8 HR9 HR10 HR11 HR12 HR13 HR14 HR15 HR16 HS]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        isplitl [HR12]; · iexact HR12
        isplitl [HR13]; · iexact HR13
        isplitl [HR14]; · iexact HR14
        isplitl [HR15]; · iexact HR15
        isplitl [HR16]; · iexact HR16
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover1_B c _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Pipeline.ΦA spec1 c from rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiS1 V c (4 + 1) from rfl, PhiS1_succ, PhiA1_eq]
  iintro ⟨⟨HR0, HR1, HR2, HR3, HR4, HR5, HR6, HR7, HR8, HR9, HR10, HR11, HR12, HR13, HR14, HR15, HR16, HS⟩, Hg⟩
  isplitl [HR0 HR1 HR2 HR3 HR4 HR5 HR6 HR7 HR8 HR9 HR10 HR11 HR12 HR13 HR14 HR15 HR16 HS]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    iexists _; iexact HS
  iexact Hg

end Regions

end Cert.KernelIdeal.Hand

end
-- ==== Proof.KI.Spec.lean ====
/-
  The idealized kernel program's values, stage by stage, as functions of arrays: what the host operations before the first
  kernel make of the small operands, what each kernel's scratch holds, and what each kernel stores at a grid point.

  The attention kernel sees the four heads side by side on 128 lanes, lane 32 k + j belonging to head k: the projected
  features H = bn(x) @ [W_0 | W_1 | W_2 | W_3], and per point the 200 rows of the four propagated channels of all heads at
  once, their per-head scores taken by products with 0/1 matrices that sum or repeat over each group of 32 lanes. The
  smoothing kernel batch-normalises those 128 lanes with the 32 scale and shift values repeated four times, and so on.
-/
import proofs.«113748_g69337952026834_cont_sun_c4_16_16_alg».proof.Proof.Gen.KernelIdeal.Skeleton
import Idealize.ShloMosaic.Lib.Pipeline.FrameBody
import Idealize.ShloMosaic.PureOps.Ideal

noncomputable section

namespace Cert.KernelIdeal.Val

open Cert.KernelIdeal Cert.KernelIdeal.Gen
open Idealize.ShloMosaic Idealize.SL.Sem

variable {F : FTy → Type} [FloatOps F] [Named F]

/-! ## The operands the host operations prepare -/

/-- A 256-vector as a 1 x 256 row (the first batch norm's scale, and its shift). -/
def row256 (g : Vec F S256 .f32) : Vec F S1x256 .f32 := shapeCast S1x256 g shapeCasts_S256_S1x256
/-- The four heads' 256 x 32 projections side by side: 256 x 128, column 32 k + j from head k's column j. -/
def wcat (W : Vec F S4x256x32 .f32) : Vec F S256x128 .f32 :=
  shapeCast S256x128 (transpose S256x4x32 [1, 0, 2] W transposes_S4x256x32_S256x4x32_1_0_2) shapeCasts_S256x4x32_S256x128
/-- The four heads' self-attention vectors (entries 0..31 of each head's 64) side by side: 1 x 128. -/
def aselfRow (a : Vec F S4x64x1 .f32) : Vec F S1x128 .f32 :=
  shapeCast S1x128 (shapeCast S4x32 (extractStridedSlice S4x32x1 ![0, 0, 0] a slices_S4x64x1_S4x32x1_0_0_0) shapeCasts_S4x32x1_S4x32) shapeCasts_S4x32_S1x128
/-- The four heads' neighbour-attention vectors (entries 32..63) side by side: 1 x 128. -/
def anbRow (a : Vec F S4x64x1 .f32) : Vec F S1x128 .f32 :=
  shapeCast S1x128 (shapeCast S4x32 (extractStridedSlice S4x32x1 ![0, 32, 0] a slices_S4x64x1_S4x32x1_0_32_0) shapeCasts_S4x32x1_S4x32) shapeCasts_S4x32_S1x128
/-- A 32-vector repeated four times as a 1 x 128 row (the second batch norm's scale, and its shift). -/
def tile4 (g : Vec F S32 .f32) : Vec F S1x128 .f32 :=
  shapeCast S1x128 (shapeCast S128 (broadcastInDim S4x32 ![0, 1] bcast_S1x32_S4x32_0_1 (shapeCast S1x32 g shapeCasts_S32_S1x32)) shapeCasts_S4x32_S128) shapeCasts_S128_S1x128
/-- The classifier's bias as a 1 x 10 row. -/
def row10 (b : Vec F S10 .f32) : Vec F S1x10 .f32 := shapeCast S1x10 b shapeCasts_S10_S1x10

/-! ## The attention kernel -/

/-- The projected features the first point stores into the scratch: batch norm of x over its 5000 rows, times the
    concatenated projections. -/
def feat (x : Vec F S5000x256 .f32) (g b : Vec F S1x256 .f32) (w : Vec F S256x128 .f32) : FVec F S5000x128 .f32 :=
  k0_pay2 x g b w

/-- The 200 rows of the features at grid point `i`. -/
def featRows (i : grid0.Coords) (H : Vec F S5000x128 .f32) : Vec F S200x128 .f32 :=
  View.ld H (Rect.unit (s := S5000x128) (k0_off1 i) S200x128.size (k0_off1_inb i))

/-- What the attention kernel stores at grid point `i`: from the two attention rows, the point's 200 x 5000 blocks of the
    four operators and the features, the 200 x 128 block of the mixed channels. -/
def attOut (i : grid0.Coords) (aself anb : Vec F S1x128 .f32) (A s1 s2 s3 : Vec F S200x5000 .f32) (H : Vec F S5000x128 .f32) :
    FVec F S200x128 .f32 :=
  k0_pay1 (k0_pay5 (iota .tc S4x128 32 [0] iota_S4x128_d0_w32) (iota .tc S4x128 32 [1] iota_S4x128_d1_w32) 32#32 k0_pay4 0#32)
    (k0_pay7 H A) (k0_pay11 (k0_pay8 H s1)) (k0_pay12 (k0_pay9 H s2)) (k0_pay13 (k0_pay10 H s3))
    (k0_pay15 (featRows i H) k0_pay3 (k0_pay6 anb) (k0_pay7 H A) aself)
    (k0_pay16 (featRows i H) k0_pay3 (k0_pay6 anb) (k0_pay8 H s1) aself)
    (k0_pay17 (featRows i H) k0_pay3 (k0_pay6 anb) (k0_pay9 H s2) aself)
    (k0_pay18 (featRows i H) k0_pay3 (k0_pay6 anb) (k0_pay10 H s3) aself)
    (k0_pay19 (featRows i H) k0_pay3 (k0_pay6 anb) (k0_pay7 H A) (k0_pay8 H s1) aself)

/-! ## The smoothing kernel -/

/-- The support matrix the first point stores into the scratch: batch norm of the mixed channels over their 5000 rows,
    relu, times the classifier weights, plus the bias. -/
def supMat (mx : Vec F S5000x128 .f32) (g b : Vec F S1x128 .f32) (w : Vec F S128x10 .f32) (bias : Vec F S1x10 .f32) :
    FVec F S5000x10 .f32 :=
  k1_pay1 mx g b w bias

/-- The 1000 rows of the support matrix at grid point `i`. -/
def supRows (i : grid1.Coords) (S : Vec F S5000x10 .f32) : Vec F S1000x10 .f32 :=
  View.ld S (Rect.unit (s := S5000x10) (k1_off1 i) S1000x10.size (k1_off1_inb i))

/-- What the smoothing kernel stores at grid point `i`: from the point's 1000 x 5000 block of the propagation operator and
    the support matrix, the 1000 x 10 block of row log-softmaxes. -/
def smOut (i : grid1.Coords) (adj : Vec F S1000x5000 .f32) (S : Vec F S5000x10 .f32) : FVec F S1000x10 .f32 :=
  k1_pay2 (supRows i S) adj S

/-! ## Finiteness -/

/-- Every entry of an array of extended reals is a real number. -/
def AllReal {S : Shape} (x : S.Idx → EReal) : Prop := ∀ i, ∃ r : ℝ, x i = (r : EReal)

end Cert.KernelIdeal.Val

end
-- ==== Proof.KI.Pieces.lean ====
/-
  What the kernels' runs leave, as the specification's stage functions of the blocks they were handed.

  A run's stores are pieces over a zero offset covering the whole buffer, so reading them back is reading the stored
  payload; a load of the whole scratch after its one whole store reads that payload, and a load of the point's rows reads
  its rows. With that, the attention kernel's scratch is `feat` of the four small operands' blocks and its output block is
  `attOut` over the scratch, and the smoothing kernel's scratch is `supMat` and its output block `smOut`.
-/
import proofs.«113748_g69337952026834_cont_sun_c4_16_16_alg».proof.Proof.KI.Reg0
import proofs.«113748_g69337952026834_cont_sun_c4_16_16_alg».proof.Proof.KI.Reg1
import proofs.«113748_g69337952026834_cont_sun_c4_16_16_alg».proof.Proof.KI.Spec
import Idealize.ShloMosaic.Lib.Pipeline.Value

set_option maxRecDepth 16384

noncomputable section

namespace Cert.KernelIdeal.Hand

open Cert.KernelIdeal Cert.KernelIdeal.Gen Cert.KernelIdeal.Val
open Idealize.ShloMosaic Idealize.ShloMosaic.TcCoe Idealize.ShloMosaic.Tactic
open Idealize.SL Idealize.SL.Sem

variable {F : FTy → Type} [FloatOps F] [Named F]

theorem hz2 : (![0, 0] : Fin 2 → Nat) = fun _ => 0 := funext fun a => by fin_cases a <;> rfl

/-- A load through a box, of a buffer holding one whole store over junk, reads the stored payload through the box. -/
theorem readAt_one_store {sig' : RefSig} {κ : Kind} {sp : Space} {S : Shape} {e : EltTy} {Val : EltTy → Type} [∀ e, Nonempty (Val e)]
    (v : View sig' κ sp S e) {off : Fin S.rank → Nat} (h : off = fun _ => 0) (inb : ∀ a, off a + S.size a ≤ S.size a)
    (w : S.Idx → Val e) (B : LoadRect S) :
    v.readAt Val B (v.writes Val v.junk [(⟨Rect.unit off S.size inb, w⟩ : View.Piece Val S e)]) = fun j => w (B.idx j) := by
  rw [View.readAt_writes_junk_eq_canon, View.canon_unit_zero h]

/-! ## The smoothing kernel -/

theorem sout1_A_eq (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1000x5000 .f32) (harg6 : arg6.IsWhole) (arg7 : Memref sig .tc .vmem S1000x10 .f32) (harg7 : arg7.IsWhole) (arg8 : Memref sig .tc .vmem S5000x10 .f32) (harg8 : arg8.IsWhole) (hc : cond1 i) (x0 : Vec F S5000x128 .f32) (x1 : Vec F S1x128 .f32) (x2 : Vec F S1x128 .f32) (x3 : Vec F S128x10 .f32) (x4 : Vec F S1x10 .f32) (x5 : Vec F S1000x5000 .f32) :
    sout1_A c i arg1 harg1 arg2 harg2 arg3 harg3 arg4 harg4 arg5 harg5 arg6 harg6 arg7 harg7 arg8 harg8 hc x0 x1 x2 x3 x4 x5 = supMat x0 x1 x2 x3 x4 := by
  unfold sout1_A
  rw [View.read_writes_eq_canon _ _ _ (scover1_A c i arg1 harg1 arg2 harg2 arg3 harg3 arg4 harg4 arg5 harg5 arg6 harg6 arg7 harg7 arg8 harg8 hc x0 x1 x2 x3 x4 x5)]
  unfold kernelRun1_A
  dsimp only
  sl_unfold_run_names
  rw [View.canon_unit_zero hz2]
  simp only [View.readAt_eq_ld, harg1.read_unread, harg2.read_unread, harg3.read_unread, harg4.read_unread, harg5.read_unread,
    View.ld_unit_zero (S := S5000x128) hz2, View.ld_unit_zero (S := S1x128) hz2, View.ld_unit_zero (S := S128x10) hz2, View.ld_unit_zero (S := S1x10) hz2]
  rfl

theorem out1_B_eq (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1000x5000 .f32) (harg6 : arg6.IsWhole) (arg7 : Memref sig .tc .vmem S1000x10 .f32) (harg7 : arg7.IsWhole) (arg8 : Memref sig .tc .vmem S5000x10 .f32) (harg8 : arg8.IsWhole) (hc : ¬cond1 i) (x0 : Vec F S5000x128 .f32) (x1 : Vec F S1x128 .f32) (x2 : Vec F S1x128 .f32) (x3 : Vec F S128x10 .f32) (x4 : Vec F S1x10 .f32) (x5 : Vec F S1000x5000 .f32) (xs : Vec F S5000x10 .f32) :
    out1_B c i arg1 harg1 arg2 harg2 arg3 harg3 arg4 harg4 arg5 harg5 arg6 harg6 arg7 harg7 arg8 harg8 hc x0 x1 x2 x3 x4 x5 xs = smOut i x5 xs := by
  unfold out1_B
  rw [View.read_writes_eq_canon _ _ _ (cover1_B c i arg1 harg1 arg2 harg2 arg3 harg3 arg4 harg4 arg5 harg5 arg6 harg6 arg7 harg7 arg8 harg8 hc x0 x1 x2 x3 x4 x5 xs)]
  unfold kernelRun1_B
  dsimp only
  rw [View.canon_unit_zero hz2]
  simp only [View.readAt_eq_ld, harg6.read_unread, harg8.read_unread,
    View.ld_unit_zero (S := S1000x5000) hz2, View.ld_unit_zero (S := S5000x10) hz2]
  rfl

theorem out1_A_eq (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x10 .f32) (harg4 : arg4.IsWhole) (arg5 : Memref sig .tc .vmem S1x10 .f32) (harg5 : arg5.IsWhole) (arg6 : Memref sig .tc .vmem S1000x5000 .f32) (harg6 : arg6.IsWhole) (arg7 : Memref sig .tc .vmem S1000x10 .f32) (harg7 : arg7.IsWhole) (arg8 : Memref sig .tc .vmem S5000x10 .f32) (harg8 : arg8.IsWhole) (hc : cond1 i) (x0 : Vec F S5000x128 .f32) (x1 : Vec F S1x128 .f32) (x2 : Vec F S1x128 .f32) (x3 : Vec F S128x10 .f32) (x4 : Vec F S1x10 .f32) (x5 : Vec F S1000x5000 .f32) :
    out1_A c i arg1 harg1 arg2 harg2 arg3 harg3 arg4 harg4 arg5 harg5 arg6 harg6 arg7 harg7 arg8 harg8 hc x0 x1 x2 x3 x4 x5 = smOut i x5 (supMat x0 x1 x2 x3 x4) := by
  unfold out1_A
  rw [View.read_writes_eq_canon _ _ _ (cover1_A c i arg1 harg1 arg2 harg2 arg3 harg3 arg4 harg4 arg5 harg5 arg6 harg6 arg7 harg7 arg8 harg8 hc x0 x1 x2 x3 x4 x5)]
  unfold kernelRun1_A
  dsimp only
  sl_unfold_run_names
  rw [View.canon_unit_zero hz2]
  rw [readAt_one_store (S := S5000x10) _ hz2, View.readCov_unit_zero (S := S5000x10) _ hz2]
  simp only [View.readAt_eq_ld, harg1.read_unread, harg2.read_unread, harg3.read_unread, harg4.read_unread, harg5.read_unread, harg6.read_unread,
    View.ld_unit_zero (S := S5000x128) hz2, View.ld_unit_zero (S := S1x128) hz2, View.ld_unit_zero (S := S128x10) hz2, View.ld_unit_zero (S := S1x10) hz2,
    View.ld_unit_zero (S := S1000x5000) hz2]
  rfl

/-! ## The attention kernel -/

theorem sout0_A_eq (c : Dev nD) (i : grid0.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S200x5000 .f32) (harg7 : arg7.IsWhole) (arg8 : Memref sig .tc .vmem S200x5000 .f32) (harg8 : arg8.IsWhole) (arg9 : Memref sig .tc .vmem S200x5000 .f32) (harg9 : arg9.IsWhole) (arg10 : Memref sig .tc .vmem S200x5000 .f32) (harg10 : arg10.IsWhole) (arg11 : Memref sig .tc .vmem S200x128 .f32) (harg11 : arg11.IsWhole) (arg12 : Memref sig .tc .vmem S5000x128 .f32) (harg12 : arg12.IsWhole) (hc : cond0 i) (x0 : Vec F S5000x256 .f32) (x1 : Vec F S1x256 .f32) (x2 : Vec F S1x256 .f32) (x3 : Vec F S256x128 .f32) (x4 : Vec F S1x128 .f32) (x5 : Vec F S1x128 .f32) (x6 : Vec F S200x5000 .f32) (x7 : Vec F S200x5000 .f32) (x8 : Vec F S200x5000 .f32) (x9 : Vec F S200x5000 .f32) :
    sout0_A c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 x9 = feat x0 x1 x2 x3 := by
  unfold sout0_A
  rw [View.read_writes_eq_canon _ _ _ (scover0_A c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 x9)]
  unfold kernelRun0_A
  dsimp only
  sl_unfold_run_names
  rw [View.canon_unit_zero hz2]
  simp only [View.readAt_eq_ld, harg1.read_unread, harg2.read_unread, harg3.read_unread, harg4.read_unread,
    View.ld_unit_zero (S := S5000x256) hz2, View.ld_unit_zero (S := S1x256) hz2, View.ld_unit_zero (S := S256x128) hz2]
  rfl

theorem out0_B_eq (c : Dev nD) (i : grid0.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S200x5000 .f32) (harg7 : arg7.IsWhole) (arg8 : Memref sig .tc .vmem S200x5000 .f32) (harg8 : arg8.IsWhole) (arg9 : Memref sig .tc .vmem S200x5000 .f32) (harg9 : arg9.IsWhole) (arg10 : Memref sig .tc .vmem S200x5000 .f32) (harg10 : arg10.IsWhole) (arg11 : Memref sig .tc .vmem S200x128 .f32) (harg11 : arg11.IsWhole) (arg12 : Memref sig .tc .vmem S5000x128 .f32) (harg12 : arg12.IsWhole) (hc : ¬cond0 i) (x0 : Vec F S5000x256 .f32) (x1 : Vec F S1x256 .f32) (x2 : Vec F S1x256 .f32) (x3 : Vec F S256x128 .f32) (x4 : Vec F S1x128 .f32) (x5 : Vec F S1x128 .f32) (x6 : Vec F S200x5000 .f32) (x7 : Vec F S200x5000 .f32) (x8 : Vec F S200x5000 .f32) (x9 : Vec F S200x5000 .f32) (xs : Vec F S5000x128 .f32) :
    out0_B c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 x9 xs = attOut i x4 x5 x6 x7 x8 x9 xs := by
  unfold out0_B
  rw [View.read_writes_eq_canon _ _ _ (cover0_B c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 x9 xs)]
  unfold kernelRun0_B
  dsimp only
  sl_unfold_run_names
  rw [View.canon_unit_zero hz2]
  simp only [View.readAt_eq_ld, harg5.read_unread, harg6.read_unread, harg7.read_unread, harg8.read_unread, harg9.read_unread, harg10.read_unread, harg12.read_unread,
    View.ld_unit_zero (S := S1x128) hz2, View.ld_unit_zero (S := S200x5000) hz2, View.ld_unit_zero (S := S5000x128) hz2]
  rfl

theorem out0_A_eq (c : Dev nD) (i : grid0.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S200x5000 .f32) (harg7 : arg7.IsWhole) (arg8 : Memref sig .tc .vmem S200x5000 .f32) (harg8 : arg8.IsWhole) (arg9 : Memref sig .tc .vmem S200x5000 .f32) (harg9 : arg9.IsWhole) (arg10 : Memref sig .tc .vmem S200x5000 .f32) (harg10 : arg10.IsWhole) (arg11 : Memref sig .tc .vmem S200x128 .f32) (harg11 : arg11.IsWhole) (arg12 : Memref sig .tc .vmem S5000x128 .f32) (harg12 : arg12.IsWhole) (hc : cond0 i) (x0 : Vec F S5000x256 .f32) (x1 : Vec F S1x256 .f32) (x2 : Vec F S1x256 .f32) (x3 : Vec F S256x128 .f32) (x4 : Vec F S1x128 .f32) (x5 : Vec F S1x128 .f32) (x6 : Vec F S200x5000 .f32) (x7 : Vec F S200x5000 .f32) (x8 : Vec F S200x5000 .f32) (x9 : Vec F S200x5000 .f32) :
    out0_A c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 x9 = attOut i x4 x5 x6 x7 x8 x9 (feat x0 x1 x2 x3) := by
  unfold out0_A
  rw [View.read_writes_eq_canon _ _ _ (cover0_A c i arg1 harg1 arg2 harg2 arg3 harg3 arg4 harg4 arg5 harg5 arg6 harg6 arg7 harg7 arg8 harg8 arg9 harg9 arg10 harg10 arg11 harg11 arg12 harg12 hc x0 x1 x2 x3 x4 x5 x6 x7 x8 x9)]
  unfold kernelRun0_A
  dsimp only
  sl_unfold_run_names
  rw [View.canon_unit_zero hz2]
  simp only [readAt_one_store (S := S5000x128) _ hz2, View.readCov_unit_zero (S := S5000x128) _ hz2]
  simp only [View.readAt_eq_ld, harg1.read_unread, harg2.read_unread, harg3.read_unread, harg4.read_unread, harg5.read_unread, harg6.read_unread, harg7.read_unread, harg8.read_unread, harg9.read_unread, harg10.read_unread,
    View.ld_unit_zero (S := S5000x256) hz2, View.ld_unit_zero (S := S1x256) hz2, View.ld_unit_zero (S := S256x128) hz2, View.ld_unit_zero (S := S1x128) hz2, View.ld_unit_zero (S := S200x5000) hz2]
  rfl

/-! ## At the regions' points -/

section Regions
variable (V : (c : Dev nD) → (b : Ref sig .tc) → Buf (Elt F) ((c : Thread nD τ).loc b))

/-- The attention kernel's scratch from its first point on: the projected features of the four small operands. -/
theorem scr0_eq (c : Dev nD) : scr0 V c = feat (iblk0 V c 0 p0) (iblk0 V c 1 p0) (iblk0 V c 2 p0) (iblk0 V c 3 p0) := by
  unfold scr0; exact sout0_A_eq c _ _ _ _ _ _ _ _ _ _ _ _ _ _ _ _ _ _ _ _ _ _ _ _ _ _ _ _ _ _ _ _ _ _ _ _

/-- The attention kernel's output block at every point. -/
theorem outsAt0_eq (c : Dev nD) (t : Fin cfg0.N) :
    outsAt0 V c t = attOut (grid0.coords t) (iblk0 V c 4 t) (iblk0 V c 5 t) (iblk0 V c 6 t) (iblk0 V c 7 t) (iblk0 V c 8 t) (iblk0 V c 9 t) (scr0 V c) := by
  by_cases h : t.val = 0
  · obtain rfl : t = p0 := Fin.ext h
    rw [outsAt0_first, scr0_eq]; exact out0_A_eq c _ _ _ _ _ _ _ _ _ _ _ _ _ _ _ _ _ _ _ _ _ _ _ _ _ _ _ _ _ _ _ _ _ _ _ _
  · rw [outsAt0_later V c t h]; exact out0_B_eq c _ _ _ _ _ _ _ _ _ _ _ _ _ _ _ _ _ _ _ _ _ _ _ _ _ _ _ _ _ _ _ _ _ _ _ _ _

/-- The smoothing kernel's scratch from its first point on: the support matrix. -/
theorem scr1_eq (c : Dev nD) : scr1 V c = supMat (iblk1 V c 0 p1) (iblk1 V c 1 p1) (iblk1 V c 2 p1) (iblk1 V c 3 p1) (iblk1 V c 4 p1) := by
  unfold scr1; exact sout1_A_eq c _ _ _ _ _ _ _ _ _ _ _ _ _ _ _ _ _ _ _ _ _ _ _ _

/-- The smoothing kernel's output block at every point. -/
theorem outsAt1_eq (c : Dev nD) (t : Fin cfg1.N) : outsAt1 V c t = smOut (grid1.coords t) (iblk1 V c 5 t) (scr1 V c) := by
  by_cases h : t.val = 0
  · obtain rfl : t = p1 := Fin.ext h
    rw [outsAt1_first, scr1_eq]; exact out1_A_eq c _ _ _ _ _ _ _ _ _ _ _ _ _ _ _ _ _ _ _ _ _ _ _ _
  · rw [outsAt1_later V c t h]; exact out1_B_eq c _ _ _ _ _ _ _ _ _ _ _ _ _ _ _ _ _ _ _ _ _ _ _ _ _

end Regions

end Cert.KernelIdeal.Hand

end
-- ==== Proof.KI.Arrays.lean ====
/-
  From blocks to arrays.

  The printed index maps, decided once over each grid: a small operand's window is the whole array at every point; an
  operator's window at point t is its rows 200 t .. 200 t + 199 (region 0) or 1000 t .. 1000 t + 999 (region 1), all
  columns; the output's window likewise. So an input block read at an index is the array at the shifted row, what point t
  writes back is block t of ONE function of the array index — "the point of that row's output block, at the row inside the
  block" —, the output's blocks tile its array, and the array ends holding that function.
-/
import proofs.«113748_g69337952026834_cont_sun_c4_16_16_alg».proof.Proof.KI.Pieces
import Idealize.ShloMosaic.Lib.ValueIdx

set_option maxRecDepth 16384

noncomputable section

namespace Cert.KernelIdeal.Hand

open Cert.KernelIdeal Cert.KernelIdeal.Gen Cert.KernelIdeal.Val
open Idealize.ShloMosaic Idealize.ShloMosaic.TcCoe Idealize.ShloMosaic.ValueIdx
open Idealize.SL Idealize.SL.Sem
open Idealize.ShloMosaic.Pipeline (Dat)

variable {F : FTy → Type} [FloatOps F] [Named F]

/-! ## The printed index maps, decided over the grids -/

theorem idx_facts0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

theorem idx_facts1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

theorem lt25 (t : Fin cfg0.N) : t.val < 25 := lt_of_lt_of_eq t.isLt (show cfg0.N = 25 from N_0)
theorem lt5 (t : Fin cfg1.N) : t.val < 5 := lt_of_lt_of_eq t.isLt (show cfg1.N = 5 from N_1)

section Regions
variable (V : (c : Dev nD) → (b : Ref sig .tc) → Buf (Elt F) ((c : Thread nD τ).loc b))

/-! ## Region 0's input blocks -/

theorem iblk0_0 (c : Dev nD) (t : Fin cfg0.N) : (iblk0 V c 0 t : S5000x256.Idx → Elt F .f32) = V c main_arg0 := by
  obtain ⟨e0, e1, -⟩ := idx_facts0 t
  funext j
  show V c main_arg0 (((cfg0.win 0).blk t).view.emb j) = V c main_arg0 j
  refine congrArg _ ?_
  funext a; apply Fin.ext
  match a with
  | ⟨0, _⟩ => show win0_0.index t (0 : Fin 2) * 5000 + 1 * (j 0).val = (j 0).val; omega
  | ⟨1, _⟩ => show win0_0.index t (1 : Fin 2) * 256 + 1 * (j 1).val = (j 1).val; omega

theorem iblk0_1 (c : Dev nD) (t : Fin cfg0.N) : (iblk0 V c 1 t : S1x256.Idx → Elt F .f32) = V c main_v8 := by
  obtain ⟨-, -, e0, e1, -⟩ := idx_facts0 t
  funext j
  show V c main_v8 (((cfg0.win 1).blk t).view.emb j) = V c main_v8 j
  refine congrArg _ ?_
  funext a; apply Fin.ext
  match a with
  | ⟨0, _⟩ => show win0_1.index t (0 : Fin 2) * 1 + 1 * (j 0).val = (j 0).val; omega
  | ⟨1, _⟩ => show win0_1.index t (1 : Fin 2) * 256 + 1 * (j 1).val = (j 1).val; omega

theorem iblk0_2 (c : Dev nD) (t : Fin cfg0.N) : (iblk0 V c 2 t : S1x256.Idx → Elt F .f32) = V c main_v9 := by
  obtain ⟨-, -, -, -, e0, e1, -⟩ := idx_facts0 t
  funext j
  show V c main_v9 (((cfg0.win 2).blk t).view.emb j) = V c main_v9 j
  refine congrArg _ ?_
  funext a; apply Fin.ext
  match a with
  | ⟨0, _⟩ => show win0_2.index t (0 : Fin 2) * 1 + 1 * (j 0).val = (j 0).val; omega
  | ⟨1, _⟩ => show win0_2.index t (1 : Fin 2) * 256 + 1 * (j 1).val = (j 1).val; omega

theorem iblk0_3 (c : Dev nD) (t : Fin cfg0.N) : (iblk0 V c 3 t : S256x128.Idx → Elt F .f32) = V c main_v1 := by
  obtain ⟨-, -, -, -, -, -, e0, e1, -⟩ := idx_facts0 t
  funext j
  show V c main_v1 (((cfg0.win 3).blk t).view.emb j) = V c main_v1 j
  refine congrArg _ ?_
  funext a; apply Fin.ext
  match a with
  | ⟨0, _⟩ => show win0_3.index t (0 : Fin 2) * 256 + 1 * (j 0).val = (j 0).val; omega
  | ⟨1, _⟩ => show win0_3.index t (1 : Fin 2) * 128 + 1 * (j 1).val = (j 1).val; omega

theorem iblk0_4 (c : Dev nD) (t : Fin cfg0.N) : (iblk0 V c 4 t : S1x128.Idx → Elt F .f32) = V c main_v4 := by
  obtain ⟨-, -, -, -, -, -, -, -, e0, e1, -⟩ := idx_facts0 t
  funext j
  show V c main_v4 (((cfg0.win 4).blk t).view.emb j) = V c main_v4 j
  refine congrArg _ ?_
  funext a; apply Fin.ext
  match a with
  | ⟨0, _⟩ => show win0_4.index t (0 : Fin 2) * 1 + 1 * (j 0).val = (j 0).val; omega
  | ⟨1, _⟩ => show win0_4.index t (1 : Fin 2) * 128 + 1 * (j 1).val = (j 1).val; omega

theorem iblk0_5 (c : Dev nD) (t : Fin cfg0.N) : (iblk0 V c 5 t : S1x128.Idx → Elt F .f32) = V c main_v7 := by
  obtain ⟨-, -, -, -, -, -, -, -, -, -, e0, e1, -⟩ := idx_facts0 t
  funext j
  show V c main_v7 (((cfg0.win 5).blk t).view.emb j) = V c main_v7 j
  refine congrArg _ ?_
  funext a; apply Fin.ext
  match a with
  | ⟨0, _⟩ => show win0_5.index t (0 : Fin 2) * 1 + 1 * (j 0).val = (j 0).val; omega
  | ⟨1, _⟩ => show win0_5.index t (1 : Fin 2) * 128 + 1 * (j 1).val = (j 1).val; omega

theorem iblk0_6 (c : Dev nD) (t : Fin cfg0.N) (p : Fin 200) (q : Fin 5000) (hr : 200 * t.val + p.val < 5000) :
    (iblk0 V c 6 t : S200x5000.Idx → Elt F .f32) (ix2 p q) = V c main_arg2 (ix2 ⟨200 * t.val + p.val, hr⟩ q) := by
  obtain ⟨-, -, -, -, -, -, -, -, -, -, -, -, e0, e1, -⟩ := idx_facts0 t
  show V c main_arg2 (((cfg0.win 6).blk t).view.emb (ix2 p q)) = _
  refine congrArg _ ?_
  funext a; apply Fin.ext
  match a with
  | ⟨0, _⟩ => show win0_6.index t (0 : Fin 2) * 200 + 1 * p.val = 200 * t.val + p.val; omega
  | ⟨1, _⟩ => show win0_6.index t (1 : Fin 2) * 5000 + 1 * q.val = q.val; omega

theorem iblk0_7 (c : Dev nD) (t : Fin cfg0.N) (p : Fin 200) (q : Fin 5000) (hr : 200 * t.val + p.val < 5000) :
    (iblk0 V c 7 t : S200x5000.Idx → Elt F .f32) (ix2 p q) = V c main_arg3 (ix2 ⟨200 * t.val + p.val, hr⟩ q) := by
  obtain ⟨-, -, -, -, -, -, -, -, -, -, -, -, -, -, e0, e1, -⟩ := idx_facts0 t
  show V c main_arg3 (((cfg0.win 7).blk t).view.emb (ix2 p q)) = _
  refine congrArg _ ?_
  funext a; apply Fin.ext
  match a with
  | ⟨0, _⟩ => show win0_7.index t (0 : Fin 2) * 200 + 1 * p.val = 200 * t.val + p.val; omega
  | ⟨1, _⟩ => show win0_7.index t (1 : Fin 2) * 5000 + 1 * q.val = q.val; omega

theorem iblk0_8 (c : Dev nD) (t : Fin cfg0.N) (p : Fin 200) (q : Fin 5000) (hr : 200 * t.val + p.val < 5000) :
    (iblk0 V c 8 t : S200x5000.Idx → Elt F .f32) (ix2 p q) = V c main_arg4 (ix2 ⟨200 * t.val + p.val, hr⟩ q) := by
  obtain ⟨-, -, -, -, -, -, -, -, -, -, -, -, -, -, -, -, e0, e1, -⟩ := idx_facts0 t
  show V c main_arg4 (((cfg0.win 8).blk t).view.emb (ix2 p q)) = _
  refine congrArg _ ?_
  funext a; apply Fin.ext
  match a with
  | ⟨0, _⟩ => show win0_8.index t (0 : Fin 2) * 200 + 1 * p.val = 200 * t.val + p.val; omega
  | ⟨1, _⟩ => show win0_8.index t (1 : Fin 2) * 5000 + 1 * q.val = q.val; omega

theorem iblk0_9 (c : Dev nD) (t : Fin cfg0.N) (p : Fin 200) (q : Fin 5000) (hr : 200 * t.val + p.val < 5000) :
    (iblk0 V c 9 t : S200x5000.Idx → Elt F .f32) (ix2 p q) = V c main_arg5 (ix2 ⟨200 * t.val + p.val, hr⟩ q) := by
  obtain ⟨-, -, -, -, -, -, -, -, -, -, -, -, -, -, -, -, -, -, e0, e1, -⟩ := idx_facts0 t
  show V c main_arg5 (((cfg0.win 9).blk t).view.emb (ix2 p q)) = _
  refine congrArg _ ?_
  funext a; apply Fin.ext
  match a with
  | ⟨0, _⟩ => show win0_9.index t (0 : Fin 2) * 200 + 1 * p.val = 200 * t.val + p.val; omega
  | ⟨1, _⟩ => show win0_9.index t (1 : Fin 2) * 5000 + 1 * q.val = q.val; omega

/-! ## Region 0's output array -/

/-- The grid point whose output block holds array row `i 0`. -/
def pt0 (i : S5000x128.Idx) : Fin cfg0.N :=
  ⟨(i 0).val / 200, by rw [show cfg0.N = 25 from N_0]; have h : (i 0).val < 5000 := idx2_lt0 i; omega⟩

/-- The mixed channels as one function of the array index: the output block of the row's point, at the row inside the block. -/
def G0 (c : Dev nD) : S5000x128.Idx → Elt F .f32 := fun i =>
  outsAt0 V c (pt0 i) (ix2 (⟨(i 0).val % 200, Nat.mod_lt _ (by decide)⟩ : Fin 200) (⟨(i 1).val, idx2_lt1 i⟩ : Fin 128))

theorem mem_blk0 (t : Fin cfg0.N) (i : S5000x128.Idx) :
    i ∈ ((cfg0.win 10).blk t).view.set ↔ ∀ a : Fin 2, win0_10.index t a * S200x128.size a ≤ (i a).val ∧ (i a).val < win0_10.index t a * S200x128.size a + S200x128.size a := by
  show i ∈ ((View.whole main_v19).slice (win0_10.rect t)).set ↔ _
  rw [View.set_slice_whole, Rect.mem_set_unit]
  exact Iff.rfl

/-- What point `t` writes back is block `t` of `G0`. -/
theorem flushed0_eq (c : Dev nD) (t : Fin cfg0.N) :
    (dat0 V c).flushed 10 t = ((cfg0.win 10).blk t).view.read (Elt F) (G0 V c) := by
  show (cfg0.win 10).cut (grid0.coords t) ((dat0 V c).after 10 t) = _
  rw [after0_10]
  obtain ⟨-, -, -, -, -, -, -, -, -, -, -, -, -, -, -, -, -, -, -, -, e0, e1⟩ := idx_facts0 t
  have ht := lt25 t
  funext j
  show outsAt0 V c t j = G0 V c (((cfg0.win 10).blk t).view.emb j)
  have hj0 : (j 0).val < 200 := (j 0).isLt
  have hj1 : (j 1).val < 128 := (j 1).isLt
  have hemb0 : ((((cfg0.win 10).blk t).view.emb j) 0).val = 200 * t.val + (j 0).val := by
    show win0_10.index t (0 : Fin 2) * 200 + 1 * (j 0).val = _; omega
  have hemb1 : ((((cfg0.win 10).blk t).view.emb j) 1).val = (j 1).val := by
    show win0_10.index t (1 : Fin 2) * 128 + 1 * (j 1).val = _; omega
  unfold G0
  have hpt : pt0 (((cfg0.win 10).blk t).view.emb j) = t := Fin.ext (by show ((((cfg0.win 10).blk t).view.emb j) 0).val / 200 = t.val; rw [hemb0]; omega)
  rw [hpt]
  refine congrArg (outsAt0 V c t) ?_
  funext a
  match a with
  | ⟨0, _⟩ => exact Fin.ext (by show (j 0).val = ((((cfg0.win 10).blk t).view.emb j) 0).val % 200; rw [hemb0]; omega)
  | ⟨1, _⟩ => exact Fin.ext (by show (j 1).val = ((((cfg0.win 10).blk t).view.emb j) 1).val; rw [hemb1])

/-- The output's blocks tile its array. -/
theorem cover0 (i : S5000x128.Idx) : ∃ t : Fin cfg0.N, (cfg0.win 10).flush t = true ∧ i ∈ ((cfg0.win 10).blk t).view.set := by
  have hi0 : (i 0).val < 5000 := idx2_lt0 i
  have hi1 : (i 1).val < 128 := idx2_lt1 i
  refine ⟨pt0 i, flush0_10 _, ?_⟩
  obtain ⟨-, -, -, -, -, -, -, -, -, -, -, -, -, -, -, -, -, -, -, -, e0, e1⟩ := idx_facts0 (pt0 i)
  have hp : (pt0 i).val = (i 0).val / 200 := rfl
  rw [mem_blk0]
  intro a
  match a with
  | ⟨0, _⟩ => show win0_10.index (pt0 i) (0 : Fin 2) * 200 ≤ (i 0).val ∧ (i 0).val < win0_10.index (pt0 i) (0 : Fin 2) * 200 + 200; omega
  | ⟨1, _⟩ => show win0_10.index (pt0 i) (1 : Fin 2) * 128 ≤ (i 1).val ∧ (i 1).val < win0_10.index (pt0 i) (1 : Fin 2) * 128 + 128; omega

/-- The mixed-channels array after region 0. -/
theorem final0 (c : Dev nD) : (dat0 V c).arrAt 10 cfg0.N = G0 V c :=
  (dat0 V c).arrAt_eq_of_cover 10 (G0 V c) (fun t _ => flushed0_eq V c t) cover0

/-! ## Region 1's input blocks -/

theorem iblk1_0 (c : Dev nD) (t : Fin cfg1.N) : (iblk1 V c 0 t : S5000x128.Idx → Elt F .f32) = V c main_v19 := by
  obtain ⟨e0, e1, -⟩ := idx_facts1 t
  funext j
  show V c main_v19 (((cfg1.win 0).blk t).view.emb j) = V c main_v19 j
  refine congrArg _ ?_
  funext a; apply Fin.ext
  match a with
  | ⟨0, _⟩ => show win1_0.index t (0 : Fin 2) * 5000 + 1 * (j 0).val = (j 0).val; omega
  | ⟨1, _⟩ => show win1_0.index t (1 : Fin 2) * 128 + 1 * (j 1).val = (j 1).val; omega

theorem iblk1_1 (c : Dev nD) (t : Fin cfg1.N) : (iblk1 V c 1 t : S1x128.Idx → Elt F .f32) = V c main_v13 := by
  obtain ⟨-, -, e0, e1, -⟩ := idx_facts1 t
  funext j
  show V c main_v13 (((cfg1.win 1).blk t).view.emb j) = V c main_v13 j
  refine congrArg _ ?_
  funext a; apply Fin.ext
  match a with
  | ⟨0, _⟩ => show win1_1.index t (0 : Fin 2) * 1 + 1 * (j 0).val = (j 0).val; omega
  | ⟨1, _⟩ => show win1_1.index t (1 : Fin 2) * 128 + 1 * (j 1).val = (j 1).val; omega

theorem iblk1_2 (c : Dev nD) (t : Fin cfg1.N) : (iblk1 V c 2 t : S1x128.Idx → Elt F .f32) = V c main_v17 := by
  obtain ⟨-, -, -, -, e0, e1, -⟩ := idx_facts1 t
  funext j
  show V c main_v17 (((cfg1.win 2).blk t).view.emb j) = V c main_v17 j
  refine congrArg _ ?_
  funext a; apply Fin.ext
  match a with
  | ⟨0, _⟩ => show win1_2.index t (0 : Fin 2) * 1 + 1 * (j 0).val = (j 0).val; omega
  | ⟨1, _⟩ => show win1_2.index t (1 : Fin 2) * 128 + 1 * (j 1).val = (j 1).val; omega

theorem iblk1_3 (c : Dev nD) (t : Fin cfg1.N) : (iblk1 V c 3 t : S128x10.Idx → Elt F .f32) = V c main_arg12 := by
  obtain ⟨-, -, -, -, -, -, e0, e1, -⟩ := idx_facts1 t
  funext j
  show V c main_arg12 (((cfg1.win 3).blk t).view.emb j) = V c main_arg12 j
  refine congrArg _ ?_
  funext a; apply Fin.ext
  match a with
  | ⟨0, _⟩ => show win1_3.index t (0 : Fin 2) * 128 + 1 * (j 0).val = (j 0).val; omega
  | ⟨1, _⟩ => show win1_3.index t (1 : Fin 2) * 10 + 1 * (j 1).val = (j 1).val; omega

theorem iblk1_4 (c : Dev nD) (t : Fin cfg1.N) : (iblk1 V c 4 t : S1x10.Idx → Elt F .f32) = V c main_v18 := by
  obtain ⟨-, -, -, -, -, -, -, -, e0, e1, -⟩ := idx_facts1 t
  funext j
  show V c main_v18 (((cfg1.win 4).blk t).view.emb j) = V c main_v18 j
  refine congrArg _ ?_
  funext a; apply Fin.ext
  match a with
  | ⟨0, _⟩ => show win1_4.index t (0 : Fin 2) * 1 + 1 * (j 0).val = (j 0).val; omega
  | ⟨1, _⟩ => show win1_4.index t (1 : Fin 2) * 10 + 1 * (j 1).val = (j 1).val; omega

theorem iblk1_5 (c : Dev nD) (t : Fin cfg1.N) (p : Fin 1000) (q : Fin 5000) (hr : 1000 * t.val + p.val < 5000) :
    (iblk1 V c 5 t : S1000x5000.Idx → Elt F .f32) (ix2 p q) = V c main_arg1 (ix2 ⟨1000 * t.val + p.val, hr⟩ q) := by
  obtain ⟨-, -, -, -, -, -, -, -, -, -, e0, e1, -⟩ := idx_facts1 t
  show V c main_arg1 (((cfg1.win 5).blk t).view.emb (ix2 p q)) = _
  refine congrArg _ ?_
  funext a; apply Fin.ext
  match a with
  | ⟨0, _⟩ => show win1_5.index t (0 : Fin 2) * 1000 + 1 * p.val = 1000 * t.val + p.val; omega
  | ⟨1, _⟩ => show win1_5.index t (1 : Fin 2) * 5000 + 1 * q.val = q.val; omega

/-! ## Region 1's output array -/

/-- The grid point whose output block holds array row `i 0`. -/
def pt1 (i : S5000x10.Idx) : Fin cfg1.N :=
  ⟨(i 0).val / 1000, by rw [show cfg1.N = 5 from N_1]; have h : (i 0).val < 5000 := idx2_lt0 i; omega⟩

/-- The result as one function of the array index: the output block of the row's point, at the row inside the block. -/
def G1 (c : Dev nD) : S5000x10.Idx → Elt F .f32 := fun i =>
  outsAt1 V c (pt1 i) (ix2 (⟨(i 0).val % 1000, Nat.mod_lt _ (by decide)⟩ : Fin 1000) (⟨(i 1).val, idx2_lt1 i⟩ : Fin 10))

theorem mem_blk1 (t : Fin cfg1.N) (i : S5000x10.Idx) :
    i ∈ ((cfg1.win 6).blk t).view.set ↔ ∀ a : Fin 2, win1_6.index t a * S1000x10.size a ≤ (i a).val ∧ (i a).val < win1_6.index t a * S1000x10.size a + S1000x10.size a := by
  show i ∈ ((View.whole main_v20).slice (win1_6.rect t)).set ↔ _
  rw [View.set_slice_whole, Rect.mem_set_unit]
  exact Iff.rfl

/-- What point `t` writes back is block `t` of `G1`. -/
theorem flushed1_eq (c : Dev nD) (t : Fin cfg1.N) :
    (dat1 V c).flushed 6 t = ((cfg1.win 6).blk t).view.read (Elt F) (G1 V c) := by
  show (cfg1.win 6).cut (grid1.coords t) ((dat1 V c).after 6 t) = _
  rw [after1_6]
  obtain ⟨-, -, -, -, -, -, -, -, -, -, -, -, e0, e1⟩ := idx_facts1 t
  have ht := lt5 t
  funext j
  show outsAt1 V c t j = G1 V c (((cfg1.win 6).blk t).view.emb j)
  have hj0 : (j 0).val < 1000 := (j 0).isLt
  have hj1 : (j 1).val < 10 := (j 1).isLt
  have hemb0 : ((((cfg1.win 6).blk t).view.emb j) 0).val = 1000 * t.val + (j 0).val := by
    show win1_6.index t (0 : Fin 2) * 1000 + 1 * (j 0).val = _; omega
  have hemb1 : ((((cfg1.win 6).blk t).view.emb j) 1).val = (j 1).val := by
    show win1_6.index t (1 : Fin 2) * 10 + 1 * (j 1).val = _; omega
  unfold G1
  have hpt : pt1 (((cfg1.win 6).blk t).view.emb j) = t := Fin.ext (by show ((((cfg1.win 6).blk t).view.emb j) 0).val / 1000 = t.val; rw [hemb0]; omega)
  rw [hpt]
  refine congrArg (outsAt1 V c t) ?_
  funext a
  match a with
  | ⟨0, _⟩ => exact Fin.ext (by show (j 0).val = ((((cfg1.win 6).blk t).view.emb j) 0).val % 1000; rw [hemb0]; omega)
  | ⟨1, _⟩ => exact Fin.ext (by show (j 1).val = ((((cfg1.win 6).blk t).view.emb j) 1).val; rw [hemb1])

/-- The output's blocks tile its array. -/
theorem cover1 (i : S5000x10.Idx) : ∃ t : Fin cfg1.N, (cfg1.win 6).flush t = true ∧ i ∈ ((cfg1.win 6).blk t).view.set := by
  have hi0 : (i 0).val < 5000 := idx2_lt0 i
  have hi1 : (i 1).val < 10 := idx2_lt1 i
  refine ⟨pt1 i, flush1_6 _, ?_⟩
  obtain ⟨-, -, -, -, -, -, -, -, -, -, -, -, e0, e1⟩ := idx_facts1 (pt1 i)
  have hp : (pt1 i).val = (i 0).val / 1000 := rfl
  rw [mem_blk1]
  intro a
  match a with
  | ⟨0, _⟩ => show win1_6.index (pt1 i) (0 : Fin 2) * 1000 ≤ (i 0).val ∧ (i 0).val < win1_6.index (pt1 i) (0 : Fin 2) * 1000 + 1000; omega
  | ⟨1, _⟩ => show win1_6.index (pt1 i) (1 : Fin 2) * 10 ≤ (i 1).val ∧ (i 1).val < win1_6.index (pt1 i) (1 : Fin 2) * 10 + 10; omega

/-- The result array after region 1. -/
theorem final1 (c : Dev nD) : (dat1 V c).arrAt 6 cfg1.N = G1 V c :=
  (dat1 V c).arrAt_eq_of_cover 6 (G1 V c) (fun t _ => flushed1_eq V c t) cover1

end Regions

end Cert.KernelIdeal.Hand

end
-- ==== Proof.KI.Bounds.lean ====
/-
  The contents of the TensorCore's unscoped buffers at each boundary of the idealized kernel program, as a fold from the
  launch memory: after the nineteen host operations that re-lay the small operands, their results; after a kernel region,
  its arrays at what the pipeline's write-backs leave and every other buffer as it was.
-/
import proofs.«113748_g69337952026834_cont_sun_c4_16_16_alg».proof.Proof.KI.Reg0
import proofs.«113748_g69337952026834_cont_sun_c4_16_16_alg».proof.Proof.KI.Reg1
import proofs.«113748_g69337952026834_cont_sun_c4_16_16_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)
/-- After the host stretch: where region 0 is entered. -/
abbrev B1 : Dev nD → Valuation τ sig (Elt F) := fun c => StableHlo.after hostOps0 (B0 m ρ c)
/-- The same read at the TensorCore's references: region 0's entry contents. -/
abbrev E0 : (c : Dev nD) → (b : Ref sig .tc) → Buf (Elt F) ((c : Thread nD τ).loc b) := fun c b => B1 m ρ c b
/-- After region 0: its arrays at what the pipeline leaves, every other buffer as entered. Where region 1 is entered. -/
def B2 (c : Dev nD) : Valuation τ sig (Elt F) :=
  Pipeline.withArrays spec0 c (B1 m ρ c) fun w => (dat0 (E0 m ρ) c).arrAt w cfg0.N
theorem B2_arr (c : Dev nD) (w : Fin cfg0.W) :
    B2 m ρ c (Proc.devRef .tc (Pipeline.arrRef spec0 w)) = (dat0 (E0 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- Region 1's entry contents. -/
abbrev E1 : (c : Dev nD) → (b : Ref sig .tc) → Buf (Elt F) ((c : Thread nD τ).loc b) := fun c b => B2 m ρ c b
theorem hF0 (c : Dev nD) (w : Fin cfg0.W) : (dat0 (E0 m ρ) c).arrAt w cfg0.N = E1 m ρ c (Pipeline.arrRef spec0 w) :=
  (B2_arr m ρ c w).symm
theorem hrest0 (c : Dev nD) : ∀ b, b ∉ Finset.univ.image (Pipeline.arrRef spec0) → E1 m ρ c b = E0 m ρ c b :=
  fun b hb => B2_of_ne m ρ c b fun w e => hb (Finset.mem_image.mpr ⟨w, Finset.mem_univ _, e⟩)
/-- After region 1: the last boundary. -/
def B3 (c : Dev nD) : Valuation τ sig (Elt F) :=
  Pipeline.withArrays spec1 c (B2 m ρ c) fun w => (dat1 (E1 m ρ) c).arrAt w cfg1.N
theorem B3_arr (c : Dev nD) (w : Fin cfg1.W) :
    B3 m ρ c (Proc.devRef .tc (Pipeline.arrRef spec1 w)) = (dat1 (E1 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E2 : (c : Dev nD) → (b : Ref sig .tc) → Buf (Elt F) ((c : Thread nD τ).loc b) := fun c b => B3 m ρ c b
theorem hF1 (c : Dev nD) (w : Fin cfg1.W) : (dat1 (E1 m ρ) c).arrAt w cfg1.N = E2 m ρ c (Pipeline.arrRef spec1 w) :=
  (B3_arr m ρ c w).symm
theorem hrest1 (c : Dev nD) : ∀ b, b ∉ Finset.univ.image (Pipeline.arrRef spec1) → E2 m ρ c b = E1 m ρ c b :=
  fun b hb => B3_of_ne m ρ c b fun w e => hb (Finset.mem_image.mpr ⟨w, Finset.mem_univ _, e⟩)

end Cert.KernelIdeal.Hand

end
-- ==== Proof.KI.ArgBack.lean ====
/- Each argument array ends as launched: no host operation writes an argument, and a region either reads it through an
   input window (whose array the pipeline leaves as it found it) or never touches it. One lemma per argument. -/
import proofs.«113748_g69337952026834_cont_sun_c4_16_16_alg».proof.Proof.KI.Bounds

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F] [Named F]

variable (m : (ℓ : Loc nD τ sig) → Buf (Elt F) ℓ) (ρ : Dev nD → PrngReg)

theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := B3_of_ne m ρ c main_arg0 (by decide)
    _ = B1 m ρ c (Proc.devRef .tc main_arg0) := (B2_arr m ρ c 0).trans (((dat0 (E0 m ρ) c).arrAt_in 0 rfl _).trans (A_eq0 (E0 m ρ) c 0))
    _ = B0 m ρ c (Proc.devRef .tc main_arg0) := Cert.KernelIdeal.Gen.V1_of m c main_arg0 (by decide)
    _ = m ((c : Thread nD τ).loc main_arg0) := rfl
theorem B3_main_arg1 (c : Dev nD) : B3 m ρ c (Proc.devRef .tc main_arg1) = m ((c : Thread nD τ).loc main_arg1) :=
  calc B3 m ρ c (Proc.devRef .tc main_arg1)
    _ = B2 m ρ c (Proc.devRef .tc main_arg1) := (B3_arr m ρ c 5).trans (((dat1 (E1 m ρ) c).arrAt_in 5 rfl _).trans (A_eq1 (E1 m ρ) c 5))
    _ = B1 m ρ c (Proc.devRef .tc main_arg1) := B2_of_ne m ρ c main_arg1 (by decide)
    _ = B0 m ρ c (Proc.devRef .tc main_arg1) := Cert.KernelIdeal.Gen.V1_of m c main_arg1 (by decide)
    _ = m ((c : Thread nD τ).loc main_arg1) := rfl
theorem B3_main_arg2 (c : Dev nD) : B3 m ρ c (Proc.devRef .tc main_arg2) = m ((c : Thread nD τ).loc main_arg2) :=
  calc B3 m ρ c (Proc.devRef .tc main_arg2)
    _ = B2 m ρ c (Proc.devRef .tc main_arg2) := B3_of_ne m ρ c main_arg2 (by decide)
    _ = B1 m ρ c (Proc.devRef .tc main_arg2) := (B2_arr m ρ c 6).trans (((dat0 (E0 m ρ) c).arrAt_in 6 rfl _).trans (A_eq0 (E0 m ρ) c 6))
    _ = B0 m ρ c (Proc.devRef .tc main_arg2) := Cert.KernelIdeal.Gen.V1_of m c main_arg2 (by decide)
    _ = m ((c : Thread nD τ).loc main_arg2) := rfl
theorem B3_main_arg3 (c : Dev nD) : B3 m ρ c (Proc.devRef .tc main_arg3) = m ((c : Thread nD τ).loc main_arg3) :=
  calc B3 m ρ c (Proc.devRef .tc main_arg3)
    _ = B2 m ρ c (Proc.devRef .tc main_arg3) := B3_of_ne m ρ c main_arg3 (by decide)
    _ = B1 m ρ c (Proc.devRef .tc main_arg3) := (B2_arr m ρ c 7).trans (((dat0 (E0 m ρ) c).arrAt_in 7 rfl _).trans (A_eq0 (E0 m ρ) c 7))
    _ = B0 m ρ c (Proc.devRef .tc main_arg3) := Cert.KernelIdeal.Gen.V1_of m c main_arg3 (by decide)
    _ = m ((c : Thread nD τ).loc main_arg3) := rfl
theorem B3_main_arg4 (c : Dev nD) : B3 m ρ c (Proc.devRef .tc main_arg4) = m ((c : Thread nD τ).loc main_arg4) :=
  calc B3 m ρ c (Proc.devRef .tc main_arg4)
    _ = B2 m ρ c (Proc.devRef .tc main_arg4) := B3_of_ne m ρ c main_arg4 (by decide)
    _ = B1 m ρ c (Proc.devRef .tc main_arg4) := (B2_arr m ρ c 8).trans (((dat0 (E0 m ρ) c).arrAt_in 8 rfl _).trans (A_eq0 (E0 m ρ) c 8))
    _ = B0 m ρ c (Proc.devRef .tc main_arg4) := Cert.KernelIdeal.Gen.V1_of m c main_arg4 (by decide)
    _ = m ((c : Thread nD τ).loc main_arg4) := rfl
theorem B3_main_arg5 (c : Dev nD) : B3 m ρ c (Proc.devRef .tc main_arg5) = m ((c : Thread nD τ).loc main_arg5) :=
  calc B3 m ρ c (Proc.devRef .tc main_arg5)
    _ = B2 m ρ c (Proc.devRef .tc main_arg5) := B3_of_ne m ρ c main_arg5 (by decide)
    _ = B1 m ρ c (Proc.devRef .tc main_arg5) := (B2_arr m ρ c 9).trans (((dat0 (E0 m ρ) c).arrAt_in 9 rfl _).trans (A_eq0 (E0 m ρ) c 9))
    _ = B0 m ρ c (Proc.devRef .tc main_arg5) := Cert.KernelIdeal.Gen.V1_of m c main_arg5 (by decide)
    _ = m ((c : Thread nD τ).loc main_arg5) := rfl
theorem B3_main_arg6 (c : Dev nD) : B3 m ρ c (Proc.devRef .tc main_arg6) = m ((c : Thread nD τ).loc main_arg6) :=
  calc B3 m ρ c (Proc.devRef .tc main_arg6)
    _ = B2 m ρ c (Proc.devRef .tc main_arg6) := B3_of_ne m ρ c main_arg6 (by decide)
    _ = B1 m ρ c (Proc.devRef .tc main_arg6) := B2_of_ne m ρ c main_arg6 (by decide)
    _ = B0 m ρ c (Proc.devRef .tc main_arg6) := Cert.KernelIdeal.Gen.V1_of m c main_arg6 (by decide)
    _ = m ((c : Thread nD τ).loc main_arg6) := rfl
theorem B3_main_arg7 (c : Dev nD) : B3 m ρ c (Proc.devRef .tc main_arg7) = m ((c : Thread nD τ).loc main_arg7) :=
  calc B3 m ρ c (Proc.devRef .tc main_arg7)
    _ = B2 m ρ c (Proc.devRef .tc main_arg7) := B3_of_ne m ρ c main_arg7 (by decide)
    _ = B1 m ρ c (Proc.devRef .tc main_arg7) := B2_of_ne m ρ c main_arg7 (by decide)
    _ = B0 m ρ c (Proc.devRef .tc main_arg7) := Cert.KernelIdeal.Gen.V1_of m c main_arg7 (by decide)
    _ = m ((c : Thread nD τ).loc main_arg7) := rfl
theorem B3_main_arg8 (c : Dev nD) : B3 m ρ c (Proc.devRef .tc main_arg8) = m ((c : Thread nD τ).loc main_arg8) :=
  calc B3 m ρ c (Proc.devRef .tc main_arg8)
    _ = B2 m ρ c (Proc.devRef .tc main_arg8) := B3_of_ne m ρ c main_arg8 (by decide)
    _ = B1 m ρ c (Proc.devRef .tc main_arg8) := B2_of_ne m ρ c main_arg8 (by decide)
    _ = B0 m ρ c (Proc.devRef .tc main_arg8) := Cert.KernelIdeal.Gen.V1_of m c main_arg8 (by decide)
    _ = m ((c : Thread nD τ).loc main_arg8) := rfl
theorem B3_main_arg9 (c : Dev nD) : B3 m ρ c (Proc.devRef .tc main_arg9) = m ((c : Thread nD τ).loc main_arg9) :=
  calc B3 m ρ c (Proc.devRef .tc main_arg9)
    _ = B2 m ρ c (Proc.devRef .tc main_arg9) := B3_of_ne m ρ c main_arg9 (by decide)
    _ = B1 m ρ c (Proc.devRef .tc main_arg9) := B2_of_ne m ρ c main_arg9 (by decide)
    _ = B0 m ρ c (Proc.devRef .tc main_arg9) := Cert.KernelIdeal.Gen.V1_of m c main_arg9 (by decide)
    _ = m ((c : Thread nD τ).loc main_arg9) := rfl
theorem B3_main_arg10 (c : Dev nD) : B3 m ρ c (Proc.devRef .tc main_arg10) = m ((c : Thread nD τ).loc main_arg10) :=
  calc B3 m ρ c (Proc.devRef .tc main_arg10)
    _ = B2 m ρ c (Proc.devRef .tc main_arg10) := B3_of_ne m ρ c main_arg10 (by decide)
    _ = B1 m ρ c (Proc.devRef .tc main_arg10) := B2_of_ne m ρ c main_arg10 (by decide)
    _ = B0 m ρ c (Proc.devRef .tc main_arg10) := Cert.KernelIdeal.Gen.V1_of m c main_arg10 (by decide)
    _ = m ((c : Thread nD τ).loc main_arg10) := rfl
theorem B3_main_arg11 (c : Dev nD) : B3 m ρ c (Proc.devRef .tc main_arg11) = m ((c : Thread nD τ).loc main_arg11) :=
  calc B3 m ρ c (Proc.devRef .tc main_arg11)
    _ = B2 m ρ c (Proc.devRef .tc main_arg11) := B3_of_ne m ρ c main_arg11 (by decide)
    _ = B1 m ρ c (Proc.devRef .tc main_arg11) := B2_of_ne m ρ c main_arg11 (by decide)
    _ = B0 m ρ c (Proc.devRef .tc main_arg11) := Cert.KernelIdeal.Gen.V1_of m c main_arg11 (by decide)
    _ = m ((c : Thread nD τ).loc main_arg11) := rfl
theorem B3_main_arg12 (c : Dev nD) : B3 m ρ c (Proc.devRef .tc main_arg12) = m ((c : Thread nD τ).loc main_arg12) :=
  calc B3 m ρ c (Proc.devRef .tc main_arg12)
    _ = B2 m ρ c (Proc.devRef .tc main_arg12) := (B3_arr m ρ c 3).trans (((dat1 (E1 m ρ) c).arrAt_in 3 rfl _).trans (A_eq1 (E1 m ρ) c 3))
    _ = B1 m ρ c (Proc.devRef .tc main_arg12) := B2_of_ne m ρ c main_arg12 (by decide)
    _ = B0 m ρ c (Proc.devRef .tc main_arg12) := Cert.KernelIdeal.Gen.V1_of m c main_arg12 (by decide)
    _ = m ((c : Thread nD τ).loc main_arg12) := rfl
theorem B3_main_arg13 (c : Dev nD) : B3 m ρ c (Proc.devRef .tc main_arg13) = m ((c : Thread nD τ).loc main_arg13) :=
  calc B3 m ρ c (Proc.devRef .tc main_arg13)
    _ = B2 m ρ c (Proc.devRef .tc main_arg13) := B3_of_ne m ρ c main_arg13 (by decide)
    _ = B1 m ρ c (Proc.devRef .tc main_arg13) := B2_of_ne m ρ c main_arg13 (by decide)
    _ = B0 m ρ c (Proc.devRef .tc main_arg13) := Cert.KernelIdeal.Gen.V1_of m c main_arg13 (by decide)
    _ = m ((c : Thread nD τ).loc main_arg13) := rfl

end Cert.KernelIdeal.Hand

end
-- ==== Proof.KI.Frame.lean ====
/-
  The idealized kernel program as a whole: nineteen host operations that re-lay the small operands, then the attention
  kernel's region, then the smoothing kernel's region.

  The contents of the TensorCore's unscoped buffers at each boundary are a fold from the launch memory: after the host
  stretch, the operations' results; after a region, its arrays at what the pipeline's write-backs leave and every other
  buffer as it was. Each region is entered from "every unscoped buffer at the boundary's contents, the generator register
  at some state, nothing owed" and left in the same form at the next boundary; inside, its arrays are split out of the
  unscoped buffers, the generator register and the scoped buffers go into the region invariant and come back, and at the
  exit the arrays are put back at their final contents. The run ends with every unscoped buffer at the last boundary's
  contents: the argument arrays at their launch contents, and the result array at what the second region's write-backs
  leave.
-/
import proofs.«113748_g69337952026834_cont_sun_c4_16_16_alg».proof.Proof.KI.ArgBack

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The proof data family and the thread state -/

/-- Every pipeline's proof data, each at its region's entry contents. -/
def pdatsH : (p : Fin 2) → (c : Dev nD) → Dat τ (Elt F) Unit ℕ (Pipeline.UD sig nD τ) ℕ (Pipeline.pin (pcfgs (F := F)) adm p) c
  | ⟨0, _⟩ => fun c => dat0 (E0 m ρ) c
  | ⟨1, _⟩ => fun c => dat1 (E1 m ρ) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every segment: the generator register at some state, and nothing owed. -/
abbrev Rd (c : Dev nD) : sProp 𝕄 := iprop((∃ r, prngReg c r) ∗ ∃ W, owes (c : Thread nD τ) (0 : CellTallies nD τ sig Unit) W)
/-- The host stretch as a segment over the unscoped references, `Rd` riding along. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TnH (c : Dev nD) : sProp 𝕄 := iprop(StableHlo.held (c : Thread nD τ) (Pipeline.ucRefs τ sig) (B3 m ρ c) ∗ ∃ r, prngReg c r)

/-! ## The regions as segments -/

set_option backward.isDefEq.respectTransparency.types false in
/-- Region 0 over the thread state: entered from every unscoped buffer at `B1`, left at `B2`. -/
def regH0 : Pipeline.RegionSeg (pcfgs (F := F)) adm (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ LH lvH 0 fun _ _ => rfl
  pre c := iprop(StableHlo.held (c : Thread nD τ) (Pipeline.ucRefs τ sig) (B1 m ρ c) ∗ Rd c)
  post c := iprop(StableHlo.held (c : Thread nD τ) (Pipeline.ucRefs τ sig) (B2 m ρ c) ∗ Rd c)
  X c := iprop(∃ r, prngReg c r)
  Y c := iprop(∃ r, prngReg c r)
  Z c := Pipeline.unscopedRest (Ix := Unit) (Name := ℕ) (U := Pipeline.UD sig nD τ) (Lvl := ℕ) spec0 c (E0 m ρ c)
  hentry c := by
    rw [Pipeline.ownSems0_none]
    have hsplit := Pipeline.arrays_of_unscopedBufs (p := 0) (pcfgs (F := F)) adm (pdatsH m ρ) launch0.win launch0.arr_whole c
      ((pdatsH m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdatsH m ρ 0 c).Φ 0 from hin0 (E0 m ρ) c)
    unfold Pipeline.ΦA
    iintro ⟨Hp, -, Hr⟩
    isplitl [Hr]; · iexact Hr
    iexact Hp
  hout c := by
    rw [Pipeline.ownSems0_none]
    refine BIBase.Entails.trans (show (pdatsH m ρ 0 c).Φ (Fin.last _) ⊢ Pipeline.ΦA spec0 c from hout0 (E0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdatsH m ρ) ((pdatsH m ρ 0 c).share_full fun _ => rfl)
      (E0 m ρ c) (E1 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B2`, left at `B3`. -/
def regH1 : Pipeline.RegionSeg (pcfgs (F := F)) adm (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ LH lvH 1 fun _ _ => rfl
  pre c := iprop(StableHlo.held (c : Thread nD τ) (Pipeline.ucRefs τ sig) (B2 m ρ c) ∗ Rd c)
  post c := iprop(TnH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (E1 m ρ c)
  hentry c := by
    rw [Pipeline.ownSems0_none]
    have hsplit := Pipeline.arrays_of_unscopedBufs (p := 1) (pcfgs (F := F)) adm (pdatsH m ρ) launch1.win launch1.arr_whole c
      ((pdatsH m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdatsH m ρ 1 c).Φ 0 from hin1 (E1 m ρ) c)
    unfold Pipeline.ΦA
    iintro ⟨Hp, -, Hr⟩
    isplitl [Hr]; · iexact Hr
    iexact Hp
  hout c := by
    rw [Pipeline.ownSems0_none]
    refine BIBase.Entails.trans (show (pdatsH m ρ 1 c).Φ (Fin.last _) ⊢ Pipeline.ΦA spec1 c from hout1 (E1 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdatsH m ρ) ((pdatsH m ρ 1 c).share_full fun _ => rfl)
      (E1 m ρ c) (E2 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segsH : List (Pipeline.Seg (pcfgs (F := F)) adm (pdatsH m ρ) () defs₀ 𝒱H LH lvH) :=
  [ .host (hsegH hostOps0 hostOps0_sub hostOps0_fresh (B0 m ρ)),
    .region (regH0 m ρ),
    .region (regH1 m ρ) ]

theorem main_run (c : Dev nD) : main (F := F) c = Pipeline.Seg.run (segsH m ρ) := (main_chain c).trans (by chain_rfl)

set_option backward.isDefEq.respectTransparency.types false in
/-- THE RUN: from any memory with zero counters every weakly fair execution of @main on the TensorCores terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m ρ c b) :=
  Pipeline.θ_run_regions_kit (pcfgs (F := F)) adm (pdatsH m ρ) () cellOf_inj embL defs₀ 𝒱H LH lvH m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rd c)) (Tₙ := TnH m ρ)
    (hch := ⟨fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (B3_main_arg0 m ρ c),
    (h c _ (mem_uc main_arg1 (by decide))).trans (B3_main_arg1 m ρ c),
    (h c _ (mem_uc main_arg2 (by decide))).trans (B3_main_arg2 m ρ c),
    (h c _ (mem_uc main_arg3 (by decide))).trans (B3_main_arg3 m ρ c),
    (h c _ (mem_uc main_arg4 (by decide))).trans (B3_main_arg4 m ρ c),
    (h c _ (mem_uc main_arg5 (by decide))).trans (B3_main_arg5 m ρ c),
    (h c _ (mem_uc main_arg6 (by decide))).trans (B3_main_arg6 m ρ c),
    (h c _ (mem_uc main_arg7 (by decide))).trans (B3_main_arg7 m ρ c),
    (h c _ (mem_uc main_arg8 (by decide))).trans (B3_main_arg8 m ρ c),
    (h c _ (mem_uc main_arg9 (by decide))).trans (B3_main_arg9 m ρ c),
    (h c _ (mem_uc main_arg10 (by decide))).trans (B3_main_arg10 m ρ c),
    (h c _ (mem_uc main_arg11 (by decide))).trans (B3_main_arg11 m ρ c),
    (h c _ (mem_uc main_arg12 (by decide))).trans (B3_main_arg12 m ρ c),
    (h c _ (mem_uc main_arg13 (by decide))).trans (B3_main_arg13 m ρ c)⟩) (run_all m ρ)

/-- The run with the result array named: what the second region's write-backs leave in it, beside the unchanged arguments. -/
theorem run_result : θ_run defs (onTc (τ := τ) (main (F := F))) ⟨m, fun _ => 0, ρ⟩ (fun r => ∀ c : Dev nD,
      r.2.mem ((c.tc : Thread nD τ).loc main_v20) = (dat1 (E1 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_v20 (by decide))).trans (B3_arr m ρ c 6), (h c _ (mem_uc main_arg0 (by decide))).trans (B3_main_arg0 m ρ c),
    (h c _ (mem_uc main_arg1 (by decide))).trans (B3_main_arg1 m ρ c),
    (h c _ (mem_uc main_arg2 (by decide))).trans (B3_main_arg2 m ρ c),
    (h c _ (mem_uc main_arg3 (by decide))).trans (B3_main_arg3 m ρ c),
    (h c _ (mem_uc main_arg4 (by decide))).trans (B3_main_arg4 m ρ c),
    (h c _ (mem_uc main_arg5 (by decide))).trans (B3_main_arg5 m ρ c),
    (h c _ (mem_uc main_arg6 (by decide))).trans (B3_main_arg6 m ρ c),
    (h c _ (mem_uc main_arg7 (by decide))).trans (B3_main_arg7 m ρ c),
    (h c _ (mem_uc main_arg8 (by decide))).trans (B3_main_arg8 m ρ c),
    (h c _ (mem_uc main_arg9 (by decide))).trans (B3_main_arg9 m ρ c),
    (h c _ (mem_uc main_arg10 (by decide))).trans (B3_main_arg10 m ρ c),
    (h c _ (mem_uc main_arg11 (by decide))).trans (B3_main_arg11 m ρ c),
    (h c _ (mem_uc main_arg12 (by decide))).trans (B3_main_arg12 m ρ c),
    (h c _ (mem_uc main_arg13 (by decide))).trans (B3_main_arg13 m ρ c)⟩) (run_all m ρ)

end Cert.KernelIdeal.Hand

end
-- ==== Proof.KI.Operands.lean ====
/-
  What each kernel region's operands hold, in terms of the launch memory.

  Region 0 is entered after the host operations: its small operands are the re-laid arguments (rows, the concatenated head
  projections, the two attention rows), its large ones the arguments themselves. Region 1 is entered after region 0: its
  first operand is the mixed-channels array region 0 left, its small operands the tiled second batch-norm rows and the
  bias row the host operations prepared, the rest arguments.
-/
import proofs.«113748_g69337952026834_cont_sun_c4_16_16_alg».proof.Proof.KI.Arrays
import proofs.«113748_g69337952026834_cont_sun_c4_16_16_alg».proof.Proof.KI.Frame

set_option maxRecDepth 16384

noncomputable section

namespace Cert.KernelIdeal.Hand

open Cert.KernelIdeal Cert.KernelIdeal.Gen Cert.KernelIdeal.Val
open Idealize.ShloMosaic Idealize.ShloMosaic.TcCoe Idealize.ShloMosaic.Tactic
open Idealize.SL Idealize.SL.Sem

variable {F : FTy → Type} [FloatOps F] [Named F]
variable (m : (ℓ : Loc nD τ sig) → Buf (Elt F) ℓ) (ρ : Dev nD → PrngReg)

/-! ## Region 0's operands -/

theorem E0_v8 (c : Dev nD) : (E0 m ρ c main_v8 : S1x256.Idx → F .f32) = row256 (m ((c : Thread nD τ).loc main_arg8)) := by
  show StableHlo.after hostOps0 (B0 m ρ c) (Proc.devRef .tc main_v8) = _
  after_results; rfl
theorem E0_v9 (c : Dev nD) : (E0 m ρ c main_v9 : S1x256.Idx → F .f32) = row256 (m ((c : Thread nD τ).loc main_arg9)) := by
  show StableHlo.after hostOps0 (B0 m ρ c) (Proc.devRef .tc main_v9) = _
  after_results; rfl
theorem E0_v1 (c : Dev nD) : (E0 m ρ c main_v1 : S256x128.Idx → F .f32) = wcat (m ((c : Thread nD τ).loc main_arg6)) := by
  show StableHlo.after hostOps0 (B0 m ρ c) (Proc.devRef .tc main_v1) = _
  after_results; rfl
theorem E0_v4 (c : Dev nD) : (E0 m ρ c main_v4 : S1x128.Idx → F .f32) = aselfRow (m ((c : Thread nD τ).loc main_arg7)) := by
  show StableHlo.after hostOps0 (B0 m ρ c) (Proc.devRef .tc main_v4) = _
  after_results; rfl
theorem E0_v7 (c : Dev nD) : (E0 m ρ c main_v7 : S1x128.Idx → F .f32) = anbRow (m ((c : Thread nD τ).loc main_arg7)) := by
  show StableHlo.after hostOps0 (B0 m ρ c) (Proc.devRef .tc main_v7) = _
  after_results; rfl
theorem E0_v13 (c : Dev nD) : (E0 m ρ c main_v13 : S1x128.Idx → F .f32) = tile4 (m ((c : Thread nD τ).loc main_arg10)) := by
  show StableHlo.after hostOps0 (B0 m ρ c) (Proc.devRef .tc main_v13) = _
  after_results; rfl
theorem E0_v17 (c : Dev nD) : (E0 m ρ c main_v17 : S1x128.Idx → F .f32) = tile4 (m ((c : Thread nD τ).loc main_arg11)) := by
  show StableHlo.after hostOps0 (B0 m ρ c) (Proc.devRef .tc main_v17) = _
  after_results; rfl
theorem E0_v18 (c : Dev nD) : (E0 m ρ c main_v18 : S1x10.Idx → F .f32) = row10 (m ((c : Thread nD τ).loc main_arg13)) := by
  show StableHlo.after hostOps0 (B0 m ρ c) (Proc.devRef .tc main_v18) = _
  after_results; rfl

theorem E0_arg0 (c : Dev nD) : E0 m ρ c main_arg0 = m ((c : Thread nD τ).loc main_arg0) := Cert.KernelIdeal.Gen.V1_of m c main_arg0 (by decide)
theorem E0_arg1 (c : Dev nD) : E0 m ρ c main_arg1 = m ((c : Thread nD τ).loc main_arg1) := Cert.KernelIdeal.Gen.V1_of m c main_arg1 (by decide)
theorem E0_arg2 (c : Dev nD) : E0 m ρ c main_arg2 = m ((c : Thread nD τ).loc main_arg2) := Cert.KernelIdeal.Gen.V1_of m c main_arg2 (by decide)
theorem E0_arg3 (c : Dev nD) : E0 m ρ c main_arg3 = m ((c : Thread nD τ).loc main_arg3) := Cert.KernelIdeal.Gen.V1_of m c main_arg3 (by decide)
theorem E0_arg4 (c : Dev nD) : E0 m ρ c main_arg4 = m ((c : Thread nD τ).loc main_arg4) := Cert.KernelIdeal.Gen.V1_of m c main_arg4 (by decide)
theorem E0_arg5 (c : Dev nD) : E0 m ρ c main_arg5 = m ((c : Thread nD τ).loc main_arg5) := Cert.KernelIdeal.Gen.V1_of m c main_arg5 (by decide)
theorem E0_arg12 (c : Dev nD) : E0 m ρ c main_arg12 = m ((c : Thread nD τ).loc main_arg12) := Cert.KernelIdeal.Gen.V1_of m c main_arg12 (by decide)

/-! ## Region 1's operands -/

/-- The mixed channels region 0 left. -/
theorem E1_v19 (c : Dev nD) : E1 m ρ c main_v19 = G0 (E0 m ρ) c :=
  (B2_arr m ρ c 10).trans (final0 (E0 m ρ) c)
theorem E1_v13 (c : Dev nD) : (E1 m ρ c main_v13 : S1x128.Idx → F .f32) = tile4 (m ((c : Thread nD τ).loc main_arg10)) :=
  (B2_of_ne m ρ c main_v13 (by decide)).trans (E0_v13 m ρ c)
theorem E1_v17 (c : Dev nD) : (E1 m ρ c main_v17 : S1x128.Idx → F .f32) = tile4 (m ((c : Thread nD τ).loc main_arg11)) :=
  (B2_of_ne m ρ c main_v17 (by decide)).trans (E0_v17 m ρ c)
theorem E1_v18 (c : Dev nD) : (E1 m ρ c main_v18 : S1x10.Idx → F .f32) = row10 (m ((c : Thread nD τ).loc main_arg13)) :=
  (B2_of_ne m ρ c main_v18 (by decide)).trans (E0_v18 m ρ c)
theorem E1_arg12 (c : Dev nD) : E1 m ρ c main_arg12 = m ((c : Thread nD τ).loc main_arg12) :=
  (B2_of_ne m ρ c main_arg12 (by decide)).trans (E0_arg12 m ρ c)
theorem E1_arg1 (c : Dev nD) : E1 m ρ c main_arg1 = m ((c : Thread nD τ).loc main_arg1) :=
  (B2_of_ne m ρ c main_arg1 (by decide)).trans (E0_arg1 m ρ c)

end Cert.KernelIdeal.Hand

end
-- ==== Proof.RefRun.Stages.lean ====
import proofs.«113748_g69337952026834_cont_sun_c4_16_16_alg».proof.ReferenceIdeal
import Idealize.ShloMosaic.Lib.StableHlo.Run

noncomputable section

namespace Cert.ReferenceIdeal.HandRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-! # The reference's result as a tower of named stages

Each stage is one step of the source computation, written with the printed program's own pure operations and
evidence, so that the run reads the program's result off as `result` of the fourteen argument arrays without
opening any arithmetic, and each stage can be given its mathematical meaning on its own. -/

/-- An f32 array of shape `S` over the float values. -/
abbrev Arr (F : FTy → Type) (S : Shape) : Type := (⟨S, .f32⟩ : BufTy).Contents (Elt F)

/-- The divisor of a variance over 5000 rows: the row count less the degrees of freedom removed (none). -/
def varCount : Arr F S_ := subf (constant S_ .f32 0x459C4000#32) (sitofp .f32 (constantI S_ 32 0#32))

/-- Column means of a 5000×256 array as a 1×256 row: the column sums divided by 5000. -/
def colMean256 (x : Arr F S5000x256) : Arr F S1x256 :=
  Host.divf (broadcastInDim S1x256 ![1] bcast_S256_S1x256_1 (Host.reduceAdd x (constant S_ .f32 0x00000000#32) reducesTo_S5000x256_S256_d0 h_S_))
    (broadcastInDim S1x256 ![] bcast_S_S1x256 (constant S_ .f32 0x459C4000#32))

/-- The array less its column means. -/
def center256 (x : Arr F S5000x256) : Arr F S5000x256 :=
  subf x (broadcastInDim S5000x256 ![0, 1] bcast_S1x256_S5000x256_0_1 (colMean256 x))

/-- Column variances (no degrees of freedom removed) as a 1×256 row: the column sums of the squared centred
    array over the count `5000 - 0`, where that count is positive, and the quiet NaN otherwise. -/
def colVar256 (x : Arr F S5000x256) : Arr F S1x256 :=
  select (broadcastInDim S1x256 ![] bcast_S_S1x256 (cmpf .ogt (varCount (F := F)) (constant S_ .f32 0x00000000#32)))
    (Host.divf (broadcastInDim S1x256 ![1] bcast_S256_S1x256_1 (Host.reduceAdd (mulf (center256 x) (center256 x)) (constant S_ .f32 0x00000000#32) reducesTo_S5000x256_S256_d0 h_S_))
      (broadcastInDim S1x256 ![] bcast_S_S1x256 (varCount (F := F))))
    (broadcastInDim S1x256 ![] bcast_S_S1x256 (id (constant S_ .f32 0x7FC00000#32)))

/-- Batch normalisation over the rows: `γ · (x - mean) / sqrt (var + ε) + β`, column by column (`ε` the f32 nearest 1e-5). -/
def bn256 (x : Arr F S5000x256) (g b : Arr F S256) : Arr F S5000x256 :=
  addf (Host.divf (mulf (broadcastInDim S5000x256 ![0, 1] bcast_S1x256_S5000x256_0_1 (broadcastInDim S1x256 ![1] bcast_S256_S1x256_1 g)) (center256 x))
      (broadcastInDim S5000x256 ![0, 1] bcast_S1x256_S5000x256_0_1 (Host.sqrt (addf (colVar256 x) (broadcastInDim S1x256 ![] bcast_S_S1x256 (constant S_ .f32 0x3727C5AC#32))))))
    (broadcastInDim S5000x256 ![0, 1] bcast_S1x256_S5000x256_0_1 (broadcastInDim S1x256 ![1] bcast_S256_S1x256_1 b))

/-- Column means of a 5000×32 array as a 1×32 row: the column sums divided by 5000. -/
def colMean32 (x : Arr F S5000x32) : Arr F S1x32 :=
  Host.divf (broadcastInDim S1x32 ![1] bcast_S32_S1x32_1 (Host.reduceAdd x (constant S_ .f32 0x00000000#32) reducesTo_S5000x32_S32_d0 h_S_))
    (broadcastInDim S1x32 ![] bcast_S_S1x32 (constant S_ .f32 0x459C4000#32))

/-- The array less its column means. -/
def center32 (x : Arr F S5000x32) : Arr F S5000x32 :=
  subf x (broadcastInDim S5000x32 ![0, 1] bcast_S1x32_S5000x32_0_1 (colMean32 x))

/-- Column variances (no degrees of freedom removed) as a 1×32 row: the column sums of the squared centred
    array over the count `5000 - 0`, where that count is positive, and the quiet NaN otherwise. -/
def colVar32 (x : Arr F S5000x32) : Arr F S1x32 :=
  select (broadcastInDim S1x32 ![] bcast_S_S1x32 (cmpf .ogt (varCount (F := F)) (constant S_ .f32 0x00000000#32)))
    (Host.divf (broadcastInDim S1x32 ![1] bcast_S32_S1x32_1 (Host.reduceAdd (mulf (center32 x) (center32 x)) (constant S_ .f32 0x00000000#32) reducesTo_S5000x32_S32_d0 h_S_))
      (broadcastInDim S1x32 ![] bcast_S_S1x32 (varCount (F := F))))
    (broadcastInDim S1x32 ![] bcast_S_S1x32 (id (constant S_ .f32 0x7FC00000#32)))

/-- Batch normalisation over the rows: `γ · (x - mean) / sqrt (var + ε) + β`, column by column (`ε` the f32 nearest 1e-5). -/
def bn32 (x : Arr F S5000x32) (g b : Arr F S32) : Arr F S5000x32 :=
  addf (Host.divf (mulf (broadcastInDim S5000x32 ![0, 1] bcast_S1x32_S5000x32_0_1 (broadcastInDim S1x32 ![1] bcast_S32_S1x32_1 g)) (center32 x))
      (broadcastInDim S5000x32 ![0, 1] bcast_S1x32_S5000x32_0_1 (Host.sqrt (addf (colVar32 x) (broadcastInDim S1x32 ![] bcast_S_S1x32 (constant S_ .f32 0x3727C5AC#32))))))
    (broadcastInDim S5000x32 ![0, 1] bcast_S1x32_S5000x32_0_1 (broadcastInDim S1x32 ![1] bcast_S32_S1x32_1 b))

/-- `max x 0`, element by element. -/
def relu32 (x : Arr F S5000x32) : Arr F S5000x32 :=
  maximumf x (broadcastInDim S5000x32 ![] bcast_S_S5000x32 (constant S_ .f32 0x00000000#32))

/-- Head 0's 256×32 projection matrix: slab 0 of the stacked matrices. -/
def wSlice0 (Wh : Arr F S4x256x32) : Arr F S256x32 :=
  shapeCast S256x32 (extractStridedSlice S1x256x32 ![0, 0, 0] Wh slices_S4x256x32_S1x256x32_0_0_0) shapeCasts_S1x256x32_S256x32
/-- Head 0's 64×1 attention vector: slab 0 of the stacked vectors. -/
def aSlice0 (ah : Arr F S4x64x1) : Arr F S64x1 :=
  shapeCast S64x1 (extractStridedSlice S1x64x1 ![0, 0, 0] ah slices_S4x64x1_S1x64x1_0_0_0) shapeCasts_S1x64x1_S64x1
/-- Head 1's 256×32 projection matrix: slab 1 of the stacked matrices. -/
def wSlice1 (Wh : Arr F S4x256x32) : Arr F S256x32 :=
  shapeCast S256x32 (extractStridedSlice S1x256x32 ![1, 0, 0] Wh slices_S4x256x32_S1x256x32_1_0_0) shapeCasts_S1x256x32_S256x32
/-- Head 1's 64×1 attention vector: slab 1 of the stacked vectors. -/
def aSlice1 (ah : Arr F S4x64x1) : Arr F S64x1 :=
  shapeCast S64x1 (extractStridedSlice S1x64x1 ![1, 0, 0] ah slices_S4x64x1_S1x64x1_1_0_0) shapeCasts_S1x64x1_S64x1
/-- Head 2's 256×32 projection matrix: slab 2 of the stacked matrices. -/
def wSlice2 (Wh : Arr F S4x256x32) : Arr F S256x32 :=
  shapeCast S256x32 (extractStridedSlice S1x256x32 ![2, 0, 0] Wh slices_S4x256x32_S1x256x32_2_0_0) shapeCasts_S1x256x32_S256x32
/-- Head 2's 64×1 attention vector: slab 2 of the stacked vectors. -/
def aSlice2 (ah : Arr F S4x64x1) : Arr F S64x1 :=
  shapeCast S64x1 (extractStridedSlice S1x64x1 ![2, 0, 0] ah slices_S4x64x1_S1x64x1_2_0_0) shapeCasts_S1x64x1_S64x1
/-- Head 3's 256×32 projection matrix: slab 3 of the stacked matrices. -/
def wSlice3 (Wh : Arr F S4x256x32) : Arr F S256x32 :=
  shapeCast S256x32 (extractStridedSlice S1x256x32 ![3, 0, 0] Wh slices_S4x256x32_S1x256x32_3_0_0) shapeCasts_S1x256x32_S256x32
/-- Head 3's 64×1 attention vector: slab 3 of the stacked vectors. -/
def aSlice3 (ah : Arr F S4x64x1) : Arr F S64x1 :=
  shapeCast S64x1 (extractStridedSlice S1x64x1 ![3, 0, 0] ah slices_S4x64x1_S1x64x1_3_0_0) shapeCasts_S1x64x1_S64x1

/-- The first 32 entries of an attention vector: the weights of a node's own features. -/
def aSelf (a : Arr F S64x1) : Arr F S32x1 := extractStridedSlice S32x1 ![0, 0] a slices_S64x1_S32x1_0_0
/-- The last 32 entries of an attention vector: the weights of a propagated channel. -/
def aNbr (a : Arr F S64x1) : Arr F S32x1 := extractStridedSlice S32x1 ![32, 0] a slices_S64x1_S32x1_32_0

/-- The linear projection `xb · W`. -/
def proj (xb : Arr F S5000x256) (W : Arr F S256x32) : Arr F S5000x32 :=
  Host.dotGeneral dot_S5000x256_S256x32_S5000x32_1_0_0_1_n_n none xb W
/-- One propagation `A · h` by a dense 5000×5000 operator. -/
def prop (A : Arr F S5000x5000) (h : Arr F S5000x32) : Arr F S5000x32 :=
  Host.dotGeneral dot_S5000x5000_S5000x32_S5000x32_1_0_0_1_n_n none A h
/-- `|y|⁴` as the square of the square of the absolute value. -/
def pow4abs (y : Arr F S5000x32) : Arr F S5000x32 :=
  mulf (mulf (Host.absf y) (Host.absf y)) (mulf (Host.absf y) (Host.absf y))
/-- A band-pass channel: `|S · h|⁴`. -/
def band (s : Arr F S5000x5000) (h : Arr F S5000x32) : Arr F S5000x32 := pow4abs (prop s h)
/-- A 5000×32 array against a 32×1 column. -/
def dotA (c : Arr F S5000x32) (v : Arr F S32x1) : Arr F S5000x1 :=
  Host.dotGeneral dot_S5000x32_S32x1_S5000x1_1_0_0_1_n_n none c v
/-- The self term of the additive score: `h · a[:32]`. -/
def eSelf (h : Arr F S5000x32) (a : Arr F S64x1) : Arr F S5000x1 := dotA h (aSelf a)
/-- A channel's score before the activation: the self term plus `c · a[32:]`. -/
def preScore (es : Arr F S5000x1) (c : Arr F S5000x32) (a : Arr F S64x1) : Arr F S5000x1 := addf es (dotA c (aNbr a))
/-- Leaky ReLU of slope 0.2 (its f32 neighbour): `x` where `x ≥ 0`, else `0.2 · x`. -/
def leaky (x : Arr F S5000x1) : Arr F S5000x1 :=
  select (cmpf .oge x (broadcastInDim S5000x1 ![] bcast_S_S5000x1 (constant S_ .f32 0x00000000#32))) x
    (mulf (broadcastInDim S5000x1 ![] bcast_S_S5000x1 (id (constant S_ .f32 0x3E4CCCCD#32))) x)
/-- A channel's score. -/
def score (es : Arr F S5000x1) (c : Arr F S5000x32) (a : Arr F S64x1) : Arr F S5000x1 := leaky (preScore es c a)
/-- Four score columns side by side. -/
def cat4 (e0 e1 e2 e3 : Arr F S5000x1) : Arr F S5000x4 :=
  concatenate S5000x4 1 [⟨S5000x1, e0⟩, ⟨S5000x1, e1⟩, ⟨S5000x1, e2⟩, ⟨S5000x1, e3⟩] concatenates_S5000x1_S5000x1_S5000x1_S5000x1_S5000x4_d1

/-- Row maxima of a 5000×4 array (joined with -∞). -/
def rowMax4 (e : Arr F S5000x4) : Arr F S5000 :=
  maximumf (broadcastInDim S5000 ![] bcast_S_S5000 (constant S_ .f32 0xFF800000#32))
    (Host.reduce FloatOps.maximumf e (constant S_ .f32 0xFF800000#32) reducesTo_S5000x4_S5000_d1 h_S_)
/-- `exp (e - rowmax e)`. -/
def expShift4 (e : Arr F S5000x4) : Arr F S5000x4 :=
  Host.exp (subf e (broadcastInDim S5000x4 ![0, 1] bcast_S5000x1_S5000x4_0_1 (broadcastInDim S5000x1 ![0] bcast_S5000_S5000x1_0 (rowMax4 e))))
/-- Softmax along the four channels of each row. -/
def softmax4 (e : Arr F S5000x4) : Arr F S5000x4 :=
  Host.divf (expShift4 e) (broadcastInDim S5000x4 ![0, 1] bcast_S5000x1_S5000x4_0_1 (broadcastInDim S5000x1 ![0] bcast_S5000_S5000x1_0
    (Host.reduceAdd (expShift4 e) (constant S_ .f32 0x00000000#32) reducesTo_S5000x4_S5000_d1 h_S_)))

/-- Column 0 of the attention weights. -/
def attCol0 (att : Arr F S5000x4) : Arr F S5000x1 := extractStridedSlice S5000x1 ![0, 0] att slices_S5000x4_S5000x1_0_0
/-- Column 1 of the attention weights. -/
def attCol1 (att : Arr F S5000x4) : Arr F S5000x1 := extractStridedSlice S5000x1 ![0, 1] att slices_S5000x4_S5000x1_0_1
/-- Column 2 of the attention weights. -/
def attCol2 (att : Arr F S5000x4) : Arr F S5000x1 := extractStridedSlice S5000x1 ![0, 2] att slices_S5000x4_S5000x1_0_2
/-- Column 3 of the attention weights. -/
def attCol3 (att : Arr F S5000x4) : Arr F S5000x1 := extractStridedSlice S5000x1 ![0, 3] att slices_S5000x4_S5000x1_0_3
/-- A channel weighted row by row by one column of weights. -/
def wtd (col : Arr F S5000x1) (c : Arr F S5000x32) : Arr F S5000x32 :=
  mulf (broadcastInDim S5000x32 ![0, 1] bcast_S5000x1_S5000x32_0_1 col) c
/-- The first two terms of the attention mix. -/
def mix2 (att : Arr F S5000x4) (c0 c1 : Arr F S5000x32) : Arr F S5000x32 := addf (wtd (attCol0 att) c0) (wtd (attCol1 att) c1)
/-- The first three terms of the attention mix. -/
def mix3 (att : Arr F S5000x4) (c0 c1 c2 : Arr F S5000x32) : Arr F S5000x32 := addf (mix2 att c0 c1) (wtd (attCol2 att) c2)
/-- The attention mix `Σₖ attₖ · cₖ`, summed from the left. -/
def mix (att : Arr F S5000x4) (c0 c1 c2 c3 : Arr F S5000x32) : Arr F S5000x32 := addf (mix3 att c0 c1 c2) (wtd (attCol3 att) c3)

/-- The four channels' scores of a head, from its projected features and channels. -/
def headScores (h c0 c1 c2 c3 : Arr F S5000x32) (a : Arr F S64x1) : Arr F S5000x4 :=
  cat4 (score (eSelf h a) c0 a) (score (eSelf h a) c1 a) (score (eSelf h a) c2 a) (score (eSelf h a) c3 a)
/-- A head's attention-weighted mix of its channels. -/
def headMix (h c0 c1 c2 c3 : Arr F S5000x32) (a : Arr F S64x1) : Arr F S5000x32 :=
  mix (softmax4 (headScores h c0 c1 c2 c3 a)) c0 c1 c2 c3
/-- A head from its projected features: the low-pass channel and the three band-pass channels, the mix,
    batch normalisation and ReLU. -/
def headOfProj (h : Arr F S5000x32) (a : Arr F S64x1) (A s1 s2 s3 : Arr F S5000x5000) (g b : Arr F S32) : Arr F S5000x32 :=
  relu32 (bn32 (headMix h (prop A h) (band s1 h) (band s2 h) (band s3 h) a) g b)
/-- One attention head. -/
def head (xb : Arr F S5000x256) (W : Arr F S256x32) (a : Arr F S64x1) (A s1 s2 s3 : Arr F S5000x5000) (g b : Arr F S32) : Arr F S5000x32 :=
  headOfProj (proj xb W) a A s1 s2 s3 g b

/-- The four heads' outputs side by side. -/
def xcat (o0 o1 o2 o3 : Arr F S5000x32) : Arr F S5000x128 :=
  concatenate S5000x128 1 [⟨S5000x32, o0⟩, ⟨S5000x32, o1⟩, ⟨S5000x32, o2⟩, ⟨S5000x32, o3⟩] concatenates_S5000x32_S5000x32_S5000x32_S5000x32_S5000x128_d1
/-- `xc · W + b`. -/
def support (xc : Arr F S5000x128) (gcW : Arr F S128x10) (gcb : Arr F S10) : Arr F S5000x10 :=
  addf (Host.dotGeneral dot_S5000x128_S128x10_S5000x10_1_0_0_1_n_n none xc gcW)
    (broadcastInDim S5000x10 ![0, 1] bcast_S1x10_S5000x10_0_1 (broadcastInDim S1x10 ![1] bcast_S10_S1x10_1 gcb))
/-- Residual smoothing: `(0.5 · (adj · s) + s) / 1.5`. -/
def smooth (adj : Arr F S5000x5000) (s : Arr F S5000x10) : Arr F S5000x10 :=
  Host.divf (addf (mulf (broadcastInDim S5000x10 ![] bcast_S_S5000x10 (constant S_ .f32 0x3F000000#32))
      (Host.dotGeneral dot_S5000x5000_S5000x10_S5000x10_1_0_0_1_n_n none adj s)) s)
    (broadcastInDim S5000x10 ![] bcast_S_S5000x10 (constant S_ .f32 0x3FC00000#32))
/-- Row maxima of a 5000×10 array (joined with -∞). -/
def rowMax10 (o : Arr F S5000x10) : Arr F S5000 :=
  maximumf (broadcastInDim S5000 ![] bcast_S_S5000 (constant S_ .f32 0xFF800000#32))
    (Host.reduce FloatOps.maximumf o (constant S_ .f32 0xFF800000#32) reducesTo_S5000x10_S5000_d1 h_S_)
/-- `o - rowmax o`. -/
def shift10 (o : Arr F S5000x10) : Arr F S5000x10 :=
  subf o (broadcastInDim S5000x10 ![0, 1] bcast_S5000x1_S5000x10_0_1 (broadcastInDim S5000x1 ![0] bcast_S5000_S5000x1_0 (rowMax10 o)))
/-- Log-softmax along each row: the shifted array less the logarithm of the row sums of its exponential. -/
def logSoftmax10 (o : Arr F S5000x10) : Arr F S5000x10 :=
  subf (shift10 o) (broadcastInDim S5000x10 ![0, 1] bcast_S5000x1_S5000x10_0_1 (Host.log (broadcastInDim S5000x1 ![0] bcast_S5000_S5000x1_0
    (Host.reduceAdd (Host.exp (shift10 o)) (constant S_ .f32 0x00000000#32) reducesTo_S5000x10_S5000_d1 h_S_))))

/-- The result from the normalised input: four heads, the graph convolution with residual smoothing, log-softmax. -/
def resultOfNorm (xb : Arr F S5000x256) (adj A s1 s2 s3 : Arr F S5000x5000) (Wh : Arr F S4x256x32) (ah : Arr F S4x64x1)
    (g1 b1 : Arr F S32) (gcW : Arr F S128x10) (gcb : Arr F S10) : Arr F S5000x10 :=
  logSoftmax10 (smooth adj (support (xcat (head xb (wSlice0 Wh) (aSlice0 ah) A s1 s2 s3 g1 b1) (head xb (wSlice1 Wh) (aSlice1 ah) A s1 s2 s3 g1 b1)
    (head xb (wSlice2 Wh) (aSlice2 ah) A s1 s2 s3 g1 b1) (head xb (wSlice3 Wh) (aSlice3 ah) A s1 s2 s3 g1 b1)) gcW gcb))

/-- The reference's result as a function of its fourteen argument arrays, in the order of @main's arguments. -/
def result (x : Arr F S5000x256) (adj A s1 s2 s3 : Arr F S5000x5000) (Wh : Arr F S4x256x32) (ah : Arr F S4x64x1)
    (g0 b0 : Arr F S256) (g1 b1 : Arr F S32) (gcW : Arr F S128x10) (gcb : Arr F S10) : Arr F S5000x10 :=
  resultOfNorm (bn256 x g0 b0) adj A s1 s2 s3 Wh ah g1 b1 gcW gcb

end Cert.ReferenceIdeal.HandRun

end
-- ==== Proof.KI.SpecRef.lean ====
/-
  The two programs' vocabularies side by side: which lane of the kernel's 128 belongs to which head, which array row a grid
  point's block row is, and the reference's per-head intermediates named once — head k's projected features and head k's
  mixed channels — so that the bridge can be stated head by head.
-/
import proofs.«113748_g69337952026834_cont_sun_c4_16_16_alg».proof.Proof.KI.Spec
import proofs.«113748_g69337952026834_cont_sun_c4_16_16_alg».proof.Proof.RefRun.Stages
import proofs.«113748_g69337952026834_cont_sun_c4_16_16_alg».proof.Proof.Gen.ReferenceIdeal
import Idealize.ShloMosaic.Lib.ValueIdx

noncomputable section

namespace Cert.KernelIdeal.Val

open Idealize.ShloMosaic Idealize.ShloMosaic.ValueIdx

attribute [local instance] Cert.ReferenceIdeal.Gen.facts

/-- Lane `32 k + j` of the 128: head `k`'s feature `j`. -/
def lane (k : Fin 4) (j : Fin 32) : Fin 128 := ⟨32 * k.val + j.val, by omega⟩
/-- Row `p` of the attention kernel's block at grid point `t`: array row `200 t + p`. -/
def row0 (t : Fin 25) (p : Fin 200) : Fin 5000 := ⟨200 * t.val + p.val, by omega⟩
/-- Row `p` of the smoothing kernel's block at grid point `t`: array row `1000 t + p`. -/
def row1 (t : Fin 5) (p : Fin 1000) : Fin 5000 := ⟨1000 * t.val + p.val, by omega⟩

/-- Head `k`'s 256 x 32 projection. -/
def wHead (Wh : Cert.ReferenceIdeal.HandRun.Arr Ideal Cert.ReferenceIdeal.S4x256x32) : Fin 4 → Cert.ReferenceIdeal.HandRun.Arr Ideal Cert.ReferenceIdeal.S256x32
  | 0 => Cert.ReferenceIdeal.HandRun.wSlice0 Wh
  | 1 => Cert.ReferenceIdeal.HandRun.wSlice1 Wh
  | 2 => Cert.ReferenceIdeal.HandRun.wSlice2 Wh
  | 3 => Cert.ReferenceIdeal.HandRun.wSlice3 Wh
/-- Head `k`'s 64 x 1 attention vector. -/
def aHead (ah : Cert.ReferenceIdeal.HandRun.Arr Ideal Cert.ReferenceIdeal.S4x64x1) : Fin 4 → Cert.ReferenceIdeal.HandRun.Arr Ideal Cert.ReferenceIdeal.S64x1
  | 0 => Cert.ReferenceIdeal.HandRun.aSlice0 ah
  | 1 => Cert.ReferenceIdeal.HandRun.aSlice1 ah
  | 2 => Cert.ReferenceIdeal.HandRun.aSlice2 ah
  | 3 => Cert.ReferenceIdeal.HandRun.aSlice3 ah

/-- Head `k`'s projected features: the batch-normalised input times the head's projection. -/
def hHead (x : Cert.ReferenceIdeal.HandRun.Arr Ideal Cert.ReferenceIdeal.S5000x256) (g0 b0 : Cert.ReferenceIdeal.HandRun.Arr Ideal Cert.ReferenceIdeal.S256)
    (Wh : Cert.ReferenceIdeal.HandRun.Arr Ideal Cert.ReferenceIdeal.S4x256x32) (k : Fin 4) : Cert.ReferenceIdeal.HandRun.Arr Ideal Cert.ReferenceIdeal.S5000x32 :=
  Cert.ReferenceIdeal.HandRun.proj (Cert.ReferenceIdeal.HandRun.bn256 x g0 b0) (wHead Wh k)

/-- Head `k`'s mixed channels from its projected features `h`: the four propagated channels, attention over them, the mix. -/
def mixOf (h : Cert.ReferenceIdeal.HandRun.Arr Ideal Cert.ReferenceIdeal.S5000x32) (a : Cert.ReferenceIdeal.HandRun.Arr Ideal Cert.ReferenceIdeal.S64x1)
    (A s1 s2 s3 : Cert.ReferenceIdeal.HandRun.Arr Ideal Cert.ReferenceIdeal.S5000x5000) : Cert.ReferenceIdeal.HandRun.Arr Ideal Cert.ReferenceIdeal.S5000x32 :=
  Cert.ReferenceIdeal.HandRun.headMix h (Cert.ReferenceIdeal.HandRun.prop A h) (Cert.ReferenceIdeal.HandRun.band s1 h) (Cert.ReferenceIdeal.HandRun.band s2 h)
    (Cert.ReferenceIdeal.HandRun.band s3 h) a

end Cert.KernelIdeal.Val

end
-- ==== Proof.KI.MathStmts.lean ====
/-
  The four mathematical facts the bridge between the two programs rests on, as statements: the kernel's projected features
  are the heads' side by side; its attention block is the heads' mixes side by side; its support matrix is the reference's;
  its smoothing block is the reference's row log-softmax of the smoothed support. Each is stated for arrays of real numbers.
-/
import proofs.«113748_g69337952026834_cont_sun_c4_16_16_alg».proof.Proof.KI.SpecRef

noncomputable section

namespace Cert.KernelIdeal.Val

open Idealize.ShloMosaic Idealize.ShloMosaic.ValueIdx
open Cert.ReferenceIdeal.HandRun

attribute [local instance] Cert.ReferenceIdeal.Gen.facts

/-- The kernel's projected features, lane 32 k + j, are head k's projected features, column j; and every entry is real. -/
def FeatHead : Prop :=
  ∀ (x : Arr Ideal Cert.ReferenceIdeal.S5000x256) (g0 b0 : Arr Ideal Cert.ReferenceIdeal.S256) (Wh : Arr Ideal Cert.ReferenceIdeal.S4x256x32),
    AllReal x → AllReal g0 → AllReal b0 → AllReal Wh →
    (∀ (k : Fin 4) (r : Fin 5000) (j : Fin 32),
        feat (F := Ideal) x (row256 g0) (row256 b0) (wcat Wh) (ix2 r (lane k j)) = hHead x g0 b0 Wh k (ix2 r j))
      ∧ AllReal (feat (F := Ideal) x (row256 g0) (row256 b0) (wcat Wh))

/-- Given features whose lane 32 k + j is h k's column j, what the attention kernel stores at grid point t, block row p,
    lane 32 k + j, is head k's mix at array row 200 t + p, column j; and every entry is real. -/
def AttHead : Prop :=
  ∀ (t : Fin cfg0.N) (ht : t.val < 25) (ah : Arr Ideal Cert.ReferenceIdeal.S4x64x1)
    (A s1 s2 s3 : Arr Ideal Cert.ReferenceIdeal.S5000x5000) (Ab s1b s2b s3b : Vec Ideal Cert.KernelIdeal.S200x5000 .f32)
    (H : Vec Ideal Cert.KernelIdeal.S5000x128 .f32) (h : Fin 4 → Arr Ideal Cert.ReferenceIdeal.S5000x32),
    (∀ (p : Fin 200) (q : Fin 5000), Ab (ix2 p q) = A (ix2 (row0 ⟨t.val, ht⟩ p) q)) →
    (∀ (p : Fin 200) (q : Fin 5000), s1b (ix2 p q) = s1 (ix2 (row0 ⟨t.val, ht⟩ p) q)) →
    (∀ (p : Fin 200) (q : Fin 5000), s2b (ix2 p q) = s2 (ix2 (row0 ⟨t.val, ht⟩ p) q)) →
    (∀ (p : Fin 200) (q : Fin 5000), s3b (ix2 p q) = s3 (ix2 (row0 ⟨t.val, ht⟩ p) q)) →
    (∀ (k : Fin 4) (r : Fin 5000) (j : Fin 32), H (ix2 r (lane k j)) = h k (ix2 r j)) →
    AllReal ah → AllReal A → AllReal s1 → AllReal s2 → AllReal s3 → AllReal H →
    (∀ (k : Fin 4) (p : Fin 200) (j : Fin 32),
        attOut (F := Ideal) (grid0.coords t) (aselfRow ah) (anbRow ah) Ab s1b s2b s3b H (ix2 p (lane k j))
          = mixOf (h k) (aHead ah k) A s1 s2 s3 (ix2 (row0 ⟨t.val, ht⟩ p) j))
      ∧ AllReal (attOut (F := Ideal) (grid0.coords t) (aselfRow ah) (anbRow ah) Ab s1b s2b s3b H)

/-- Given mixed channels whose lane 32 k + j is mh k's column j, the kernel's support matrix is the reference's. -/
def SupEq : Prop :=
  ∀ (mx : Vec Ideal Cert.KernelIdeal.S5000x128 .f32) (mh : Fin 4 → Arr Ideal Cert.ReferenceIdeal.S5000x32)
    (g1 b1 : Arr Ideal Cert.ReferenceIdeal.S32) (gcW : Arr Ideal Cert.ReferenceIdeal.S128x10) (gcb : Arr Ideal Cert.ReferenceIdeal.S10),
    (∀ (k : Fin 4) (r : Fin 5000) (j : Fin 32), mx (ix2 r (lane k j)) = mh k (ix2 r j)) →
    AllReal mx → AllReal g1 → AllReal b1 → AllReal gcW → AllReal gcb →
    (supMat (F := Ideal) mx (tile4 g1) (tile4 b1) gcW (row10 gcb)
        = support (xcat (relu32 (bn32 (mh 0) g1 b1)) (relu32 (bn32 (mh 1) g1 b1)) (relu32 (bn32 (mh 2) g1 b1)) (relu32 (bn32 (mh 3) g1 b1))) gcW gcb)
      ∧ AllReal (supMat (F := Ideal) mx (tile4 g1) (tile4 b1) gcW (row10 gcb))

/-- What the smoothing kernel stores at grid point t, block row p, column q, is the reference's row log-softmax of the
    smoothed support at array row 1000 t + p. -/
def SmEq : Prop :=
  ∀ (t : Fin cfg1.N) (ht : t.val < 5) (adj : Arr Ideal Cert.ReferenceIdeal.S5000x5000) (adjb : Vec Ideal Cert.KernelIdeal.S1000x5000 .f32)
    (S : Vec Ideal Cert.KernelIdeal.S5000x10 .f32),
    (∀ (p : Fin 1000) (q : Fin 5000), adjb (ix2 p q) = adj (ix2 (row1 ⟨t.val, ht⟩ p) q)) →
    AllReal adj → AllReal S →
    ∀ (p : Fin 1000) (q : Fin 10),
      smOut (F := Ideal) (grid1.coords t) adjb S (ix2 p q) = logSoftmax10 (smooth adj S) (ix2 (row1 ⟨t.val, ht⟩ p) q)

end Cert.KernelIdeal.Val

end
-- ==== Proof.KI.Value.lean ====
/-
  The kernel program's result is the reference's, as one function of the launch arrays.

  Region 1's final array is, row by row, the smoothing block of the row's grid point over the support matrix; the support
  matrix is a function of region 0's final array and the small operands; region 0's final array is, row by row, the attention
  block of the row's grid point over the projected features. Through the four mathematical facts — each for arrays of real
  numbers — these are the reference's stages: the heads' projected features side by side, the heads' mixes side by side, the
  support matrix, and the row log-softmax of the smoothed support.
-/
import proofs.«113748_g69337952026834_cont_sun_c4_16_16_alg».proof.Proof.KI.Operands
import proofs.«113748_g69337952026834_cont_sun_c4_16_16_alg».proof.Proof.KI.MathStmts

set_option maxRecDepth 16384

noncomputable section

namespace Cert.KernelIdeal.Hand

open Cert.KernelIdeal Cert.KernelIdeal.Gen Cert.KernelIdeal.Val
open Idealize.ShloMosaic Idealize.ShloMosaic.TcCoe Idealize.ShloMosaic.ValueIdx
open Idealize.SL Idealize.SL.Sem
open Cert.ReferenceIdeal.HandRun (result resultOfNorm head headOfProj logSoftmax10 smooth support xcat relu32 bn32)

attribute [local instance] Cert.ReferenceIdeal.Gen.facts

variable (m : (ℓ : Loc nD τ sig) → Buf (Elt Ideal) ℓ) (ρ : Dev nD → PrngReg)

set_option maxHeartbeats 1000000 in
theorem kernel_value (hA : FeatHead) (hB : AttHead) (hC1 : SupEq) (hC2 : SmEq) (c : Dev nD)
    (r0 : AllReal (S := S5000x256) (m ((c : Thread nD τ).loc main_arg0))) (r1 : AllReal (S := S5000x5000) (m ((c : Thread nD τ).loc main_arg1))) (r2 : AllReal (S := S5000x5000) (m ((c : Thread nD τ).loc main_arg2)))
    (r3 : AllReal (S := S5000x5000) (m ((c : Thread nD τ).loc main_arg3))) (r4 : AllReal (S := S5000x5000) (m ((c : Thread nD τ).loc main_arg4))) (r5 : AllReal (S := S5000x5000) (m ((c : Thread nD τ).loc main_arg5)))
    (r6 : AllReal (S := S4x256x32) (m ((c : Thread nD τ).loc main_arg6))) (r7 : AllReal (S := S4x64x1) (m ((c : Thread nD τ).loc main_arg7))) (r8 : AllReal (S := S256) (m ((c : Thread nD τ).loc main_arg8)))
    (r9 : AllReal (S := S256) (m ((c : Thread nD τ).loc main_arg9))) (r10 : AllReal (S := S32) (m ((c : Thread nD τ).loc main_arg10))) (r11 : AllReal (S := S32) (m ((c : Thread nD τ).loc main_arg11)))
    (r12 : AllReal (S := S128x10) (m ((c : Thread nD τ).loc main_arg12))) (r13 : AllReal (S := S10) (m ((c : Thread nD τ).loc main_arg13))) :
    (dat1 (E1 m ρ) c).arrAt 6 cfg1.N
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  -- the projected features
  have hHfeat : scr0 (E0 m ρ) c = feat (m ((c : Thread nD τ).loc main_arg0)) (row256 (m ((c : Thread nD τ).loc main_arg8))) (row256 (m ((c : Thread nD τ).loc main_arg9))) (wcat (m ((c : Thread nD τ).loc main_arg6))) := by
    rw [scr0_eq, iblk0_0, iblk0_1, iblk0_2, iblk0_3, E0_arg0, E0_v8, E0_v9, E0_v1]
  obtain ⟨hfeat, rH⟩ := hA (m ((c : Thread nD τ).loc main_arg0)) (m ((c : Thread nD τ).loc main_arg8)) (m ((c : Thread nD τ).loc main_arg9)) (m ((c : Thread nD τ).loc main_arg6)) r0 r8 r9 r6
  -- the attention block at every point
  have hblock : ∀ t : Fin cfg0.N,
      (∀ (k : Fin 4) (p : Fin 200) (j : Fin 32),
        outsAt0 (E0 m ρ) c t (ix2 p (lane k j))
          = mixOf (hHead (m ((c : Thread nD τ).loc main_arg0)) (m ((c : Thread nD τ).loc main_arg8)) (m ((c : Thread nD τ).loc main_arg9)) (m ((c : Thread nD τ).loc main_arg6)) k) (aHead (m ((c : Thread nD τ).loc main_arg7)) k) (m ((c : Thread nD τ).loc main_arg2)) (m ((c : Thread nD τ).loc main_arg3)) (m ((c : Thread nD τ).loc main_arg4)) (m ((c : Thread nD τ).loc main_arg5)) (ix2 (row0 ⟨t.val, lt25 t⟩ p) j))
      ∧ AllReal (S := S200x128) (outsAt0 (E0 m ρ) c t) := by
    intro t
    have ht := lt25 t
    rw [outsAt0_eq, iblk0_4, iblk0_5, E0_v4, E0_v7, hHfeat]
    exact hB t ht (m ((c : Thread nD τ).loc main_arg7)) (m ((c : Thread nD τ).loc main_arg2)) (m ((c : Thread nD τ).loc main_arg3)) (m ((c : Thread nD τ).loc main_arg4)) (m ((c : Thread nD τ).loc main_arg5)) _ _ _ _ _ (fun k => hHead (m ((c : Thread nD τ).loc main_arg0)) (m ((c : Thread nD τ).loc main_arg8)) (m ((c : Thread nD τ).loc main_arg9)) (m ((c : Thread nD τ).loc main_arg6)) k)
      (fun p q => by rw [iblk0_6 (E0 m ρ) c t p q (by have := p.isLt; omega), E0_arg2]; rfl)
      (fun p q => by rw [iblk0_7 (E0 m ρ) c t p q (by have := p.isLt; omega), E0_arg3]; rfl)
      (fun p q => by rw [iblk0_8 (E0 m ρ) c t p q (by have := p.isLt; omega), E0_arg4]; rfl)
      (fun p q => by rw [iblk0_9 (E0 m ρ) c t p q (by have := p.isLt; omega), E0_arg5]; rfl)
      hfeat r7 r2 r3 r4 r5 rH
  -- the mixed channels, head by head, and their realness
  have hmx : ∀ (k : Fin 4) (r : Fin 5000) (j : Fin 32),
      G0 (E0 m ρ) c (ix2 r (lane k j)) = (fun k => mixOf (hHead (m ((c : Thread nD τ).loc main_arg0)) (m ((c : Thread nD τ).loc main_arg8)) (m ((c : Thread nD τ).loc main_arg9)) (m ((c : Thread nD τ).loc main_arg6)) k) (aHead (m ((c : Thread nD τ).loc main_arg7)) k) (m ((c : Thread nD τ).loc main_arg2)) (m ((c : Thread nD τ).loc main_arg3)) (m ((c : Thread nD τ).loc main_arg4)) (m ((c : Thread nD τ).loc main_arg5))) k (ix2 r j) := by
    intro k r j
    have hr : r.val < 5000 := r.isLt
    refine ((hblock (pt0 (ix2 r (lane k j)))).1 k ⟨r.val % 200, Nat.mod_lt _ (by decide)⟩ j).trans ?_
    exact congrArg (fun z : Fin 5000 => mixOf (hHead (m ((c : Thread nD τ).loc main_arg0)) (m ((c : Thread nD τ).loc main_arg8)) (m ((c : Thread nD τ).loc main_arg9)) (m ((c : Thread nD τ).loc main_arg6)) k) (aHead (m ((c : Thread nD τ).loc main_arg7)) k) (m ((c : Thread nD τ).loc main_arg2)) (m ((c : Thread nD τ).loc main_arg3)) (m ((c : Thread nD τ).loc main_arg4)) (m ((c : Thread nD τ).loc main_arg5)) (ix2 z j))
      (Fin.ext (by show 200 * (r.val / 200) + r.val % 200 = r.val; omega))
  have rmx : AllReal (S := S5000x128) (G0 (E0 m ρ) c) := fun i => (hblock (pt0 i)).2 _
  -- the support matrix
  have hS : scr1 (E1 m ρ) c = supMat (G0 (E0 m ρ) c) (tile4 (m ((c : Thread nD τ).loc main_arg10))) (tile4 (m ((c : Thread nD τ).loc main_arg11))) (m ((c : Thread nD τ).loc main_arg12)) (row10 (m ((c : Thread nD τ).loc main_arg13))) := by
    rw [scr1_eq, iblk1_0, iblk1_1, iblk1_2, iblk1_3, iblk1_4, E1_v19, E1_v13, E1_v17, E1_arg12, E1_v18]
  obtain ⟨hsup, rS⟩ := hC1 (G0 (E0 m ρ) c) (fun k => mixOf (hHead (m ((c : Thread nD τ).loc main_arg0)) (m ((c : Thread nD τ).loc main_arg8)) (m ((c : Thread nD τ).loc main_arg9)) (m ((c : Thread nD τ).loc main_arg6)) k) (aHead (m ((c : Thread nD τ).loc main_arg7)) k) (m ((c : Thread nD τ).loc main_arg2)) (m ((c : Thread nD τ).loc main_arg3)) (m ((c : Thread nD τ).loc main_arg4)) (m ((c : Thread nD τ).loc main_arg5))) (m ((c : Thread nD τ).loc main_arg10)) (m ((c : Thread nD τ).loc main_arg11)) (m ((c : Thread nD τ).loc main_arg12)) (m ((c : Thread nD τ).loc main_arg13)) hmx rmx r10 r11 r12 r13
  -- the result, row by row
  funext i
  have hi0 : (i 0).val < 5000 := idx2_lt0 i
  have hi1 : (i 1).val < 10 := idx2_lt1 i
  have htl := lt5 (pt1 i)
  rw [final1]
  show outsAt1 (E1 m ρ) c (pt1 i) (ix2 (⟨(i 0).val % 1000, Nat.mod_lt _ (by decide)⟩ : Fin 1000) (⟨(i 1).val, hi1⟩ : Fin 10)) = _
  rw [outsAt1_eq, hS]
  rw [hC2 (pt1 i) htl (m ((c : Thread nD τ).loc main_arg1)) (iblk1 (E1 m ρ) c 5 (pt1 i)) _
      (fun p q => by rw [iblk1_5 (E1 m ρ) c (pt1 i) p q (by have := p.isLt; omega), E1_arg1]; rfl) r1 rS
      ⟨(i 0).val % 1000, Nat.mod_lt _ (by decide)⟩ ⟨(i 1).val, hi1⟩, hsup]
  have hi : (ix2 (row1 ⟨(pt1 i).val, htl⟩ ⟨(i 0).val % 1000, Nat.mod_lt _ (by decide)⟩) (⟨(i 1).val, hi1⟩ : Fin 10) : S5000x10.Idx) = i := by
    funext a
    match a with
    | ⟨0, _⟩ => exact Fin.ext (by show 1000 * ((i 0).val / 1000) + (i 0).val % 1000 = (i 0).val; omega)
    | ⟨1, _⟩ => rfl
  rw [hi]
  unfold result resultOfNorm head headOfProj mixOf hHead wHead aHead
  rfl

end Cert.KernelIdeal.Hand

end
-- ==== Proof.RefRun.Ops0.lean ====
import proofs.«113748_g69337952026834_cont_sun_c4_16_16_alg».proof.Proof.RefRun.Stages

noncomputable section

namespace Cert.ReferenceIdeal.HandRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-! # @main's statements of window 0, the calls unfolded, and what they leave in the buffers read later -/

set_option Elab.async false

/-- Operations 1 … 44: the input's batch normalisation (the variance function unfolded). -/
abbrev s0a : List (HloOp τ sig (Elt F)) :=
  [ nullary main_cst (constant S_ .f32 0x00000000#32),
    binary main_arg0 main_cst main_v0 ((fun x v => Host.reduceAdd x v reducesTo_S5000x256_S256_d0 h_S_) : (⟨S5000x256, .f32⟩ : BufTy).Contents (Elt F) → (⟨S_, .f32⟩ : BufTy).Contents (Elt F) → (⟨S256, .f32⟩ : BufTy).Contents (Elt F)),
    unary main_v0 main_v1 (broadcastInDim S1x256 ![1] bcast_S256_S1x256_1 : (⟨S256, .f32⟩ : BufTy).Contents (Elt F) → (⟨S1x256, .f32⟩ : BufTy).Contents (Elt F)),
    nullary main_cst_0 (constant S_ .f32 0x459C4000#32),
    unary main_cst_0 main_v2 (broadcastInDim S1x256 ![] bcast_S_S1x256 : (⟨S_, .f32⟩ : BufTy).Contents (Elt F) → (⟨S1x256, .f32⟩ : BufTy).Contents (Elt F)),
    binary main_v1 main_v2 main_v3 (Host.divf : (⟨S1x256, .f32⟩ : BufTy).Contents (Elt F) → (⟨S1x256, .f32⟩ : BufTy).Contents (Elt F) → (⟨S1x256, .f32⟩ : BufTy).Contents (Elt F)),
    nullary main_c (constantI S_ 32 0#32),
    TRef.nullary main_call0.cst (constant S_ .f32 0x00000000#32),
    TRef.binary (.of main_arg0) main_call0.cst main_call0.v0 (fun x v => Host.reduceAdd x v reducesTo_S5000x256_S256_d0 h_S_),
    TRef.unary main_call0.v0 main_call0.v1 (broadcastInDim S1x256 ![1] bcast_S256_S1x256_1),
    TRef.nullary main_call0.cst_0 (constant S_ .f32 0x459C4000#32),
    TRef.unary main_call0.cst_0 main_call0.v2 (broadcastInDim S1x256 ![] bcast_S_S1x256),
    TRef.binary main_call0.v1 main_call0.v2 main_call0.v3 Host.divf,
    TRef.unary main_call0.v3 main_call0.v4 (broadcastInDim S5000x256 ![0, 1] bcast_S1x256_S5000x256_0_1),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x459C4000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S5000x256_S256_d0 h_S_),
    TRef.unary main_call0.v9 main_call0.v10 (broadcastInDim S1x256 ![1] bcast_S256_S1x256_1),
    TRef.unary main_call0.v8 main_call0.v11 (broadcastInDim S1x256 ![] bcast_S_S1x256),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S1x256 ![] bcast_S_S1x256),
    TRef.ternary main_call0.v13 main_call0.v12 main_call0.call0.v1 main_call0.call0.v2 (fun p a b => select (broadcastInDim S1x256 ![] bcast_S_S1x256 p) a b),
    unary main_v3 main_v5 (broadcastInDim S5000x256 ![0, 1] bcast_S1x256_S5000x256_0_1 : (⟨S1x256, .f32⟩ : BufTy).Contents (Elt F) → (⟨S5000x256, .f32⟩ : BufTy).Contents (Elt F)),
    binary main_arg0 main_v5 main_v6 (subf : (⟨S5000x256, .f32⟩ : BufTy).Contents (Elt F) → (⟨S5000x256, .f32⟩ : BufTy).Contents (Elt F) → (⟨S5000x256, .f32⟩ : BufTy).Contents (Elt F)),
    unary main_arg8 main_v7 (broadcastInDim S1x256 ![1] bcast_S256_S1x256_1 : (⟨S256, .f32⟩ : BufTy).Contents (Elt F) → (⟨S1x256, .f32⟩ : BufTy).Contents (Elt F)),
    unary main_v7 main_v8 (broadcastInDim S5000x256 ![0, 1] bcast_S1x256_S5000x256_0_1 : (⟨S1x256, .f32⟩ : BufTy).Contents (Elt F) → (⟨S5000x256, .f32⟩ : BufTy).Contents (Elt F)),
    binary main_v8 main_v6 main_v9 (mulf : (⟨S5000x256, .f32⟩ : BufTy).Contents (Elt F) → (⟨S5000x256, .f32⟩ : BufTy).Contents (Elt F) → (⟨S5000x256, .f32⟩ : BufTy).Contents (Elt F)),
    nullary main_cst_1 (constant S_ .f32 0x3727C5AC#32),
    unary main_cst_1 main_v10 (broadcastInDim S1x256 ![] bcast_S_S1x256 : (⟨S_, .f32⟩ : BufTy).Contents (Elt F) → (⟨S1x256, .f32⟩ : BufTy).Contents (Elt F)),
    binary main_v4 main_v10 main_v11 (addf : (⟨S1x256, .f32⟩ : BufTy).Contents (Elt F) → (⟨S1x256, .f32⟩ : BufTy).Contents (Elt F) → (⟨S1x256, .f32⟩ : BufTy).Contents (Elt F)),
    unary main_v11 main_v12 (Host.sqrt : (⟨S1x256, .f32⟩ : BufTy).Contents (Elt F) → (⟨S1x256, .f32⟩ : BufTy).Contents (Elt F)),
    unary main_v12 main_v13 (broadcastInDim S5000x256 ![0, 1] bcast_S1x256_S5000x256_0_1 : (⟨S1x256, .f32⟩ : BufTy).Contents (Elt F) → (⟨S5000x256, .f32⟩ : BufTy).Contents (Elt F)),
    binary main_v9 main_v13 main_v14 (Host.divf : (⟨S5000x256, .f32⟩ : BufTy).Contents (Elt F) → (⟨S5000x256, .f32⟩ : BufTy).Contents (Elt F) → (⟨S5000x256, .f32⟩ : BufTy).Contents (Elt F)),
    unary main_arg9 main_v15 (broadcastInDim S1x256 ![1] bcast_S256_S1x256_1 : (⟨S256, .f32⟩ : BufTy).Contents (Elt F) → (⟨S1x256, .f32⟩ : BufTy).Contents (Elt F)),
    unary main_v15 main_v16 (broadcastInDim S5000x256 ![0, 1] bcast_S1x256_S5000x256_0_1 : (⟨S1x256, .f32⟩ : BufTy).Contents (Elt F) → (⟨S5000x256, .f32⟩ : BufTy).Contents (Elt F)),
    binary main_v14 main_v16 main_v17 (addf : (⟨S5000x256, .f32⟩ : BufTy).Contents (Elt F) → (⟨S5000x256, .f32⟩ : BufTy).Contents (Elt F) → (⟨S5000x256, .f32⟩ : BufTy).Contents (Elt F)) ]

theorem s0a_sub : (s0a : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩

theorem s0a_fresh : (s0a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers these operations write. -/
abbrev s0a_W : List (Ref sig .tc) := [main_cst, main_v0, main_v1, main_cst_0, main_v2, main_v3, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v4, main_v5, main_v6, main_v7, main_v8, main_v9, main_cst_1, main_v10, main_v11, main_v12, main_v13, main_v14, main_v15, main_v16, main_v17]

theorem s0a_writes : (s0a : List (HloOp τ sig (Elt F))).Forall fun op =>
    op.writes ⊆ (s0a_W.map (Proc.devRef (τ := τ) .tc)).toFinset := by
  simp only [List.Forall]
  exact ⟨(by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide))⟩

/-- The buffer contents after these operations. -/
def s0a_step (V : Valuation τ sig (Elt F)) : Valuation τ sig (Elt F) := after s0a V

/-- A buffer none of them writes keeps its contents. -/
theorem s0a_keep (V : Valuation τ sig (Elt F)) {r : Ref sig .tc} (h : r ∉ s0a_W) :
    s0a_step V (no_index (Proc.devRef .tc r)) = V (Proc.devRef .tc r) :=
  after_of_writes_sub s0a V s0a_writes h

set_option maxHeartbeats 4000000 in
/-- The normalised input. -/
theorem s0a_v17 (V : Valuation τ sig (Elt F)) :
    s0a_step V (no_index (Proc.devRef .tc main_v17)) = bn256 (V (Proc.devRef .tc main_arg0)) (V (Proc.devRef .tc main_arg8)) (V (Proc.devRef .tc main_arg9)) := by
  unfold s0a_step
  after_results_simp
  rfl

/-- Operations 45 … 100: head 0's projection, its four channels and the first scores. -/
abbrev s0b : List (HloOp τ sig (Elt F)) :=
  [ unary main_arg6 main_v18 ((extractStridedSlice S1x256x32 ![0, 0, 0] · slices_S4x256x32_S1x256x32_0_0_0) : (⟨S4x256x32, .f32⟩ : BufTy).Contents (Elt F) → (⟨S1x256x32, .f32⟩ : BufTy).Contents (Elt F)),
    reshape main_v18 main_v19 rfl shapeCasts_S1x256x32_S256x32,
    unary main_arg7 main_v20 ((extractStridedSlice S1x64x1 ![0, 0, 0] · slices_S4x64x1_S1x64x1_0_0_0) : (⟨S4x64x1, .f32⟩ : BufTy).Contents (Elt F) → (⟨S1x64x1, .f32⟩ : BufTy).Contents (Elt F)),
    reshape main_v20 main_v21 rfl shapeCasts_S1x64x1_S64x1,
    binary main_v17 main_v19 main_v22 ((fun l r => Host.dotGeneral dot_S5000x256_S256x32_S5000x32_1_0_0_1_n_n none l r) : (⟨S5000x256, .f32⟩ : BufTy).Contents (Elt F) → (⟨S256x32, .f32⟩ : BufTy).Contents (Elt F) → (⟨S5000x32, .f32⟩ : BufTy).Contents (Elt F)),
    binary main_arg2 main_v22 main_v23 ((fun l r => Host.dotGeneral dot_S5000x5000_S5000x32_S5000x32_1_0_0_1_n_n none l r) : (⟨S5000x5000, .f32⟩ : BufTy).Contents (Elt F) → (⟨S5000x32, .f32⟩ : BufTy).Contents (Elt F) → (⟨S5000x32, .f32⟩ : BufTy).Contents (Elt F)),
    binary main_arg3 main_v22 main_v24 ((fun l r => Host.dotGeneral dot_S5000x5000_S5000x32_S5000x32_1_0_0_1_n_n none l r) : (⟨S5000x5000, .f32⟩ : BufTy).Contents (Elt F) → (⟨S5000x32, .f32⟩ : BufTy).Contents (Elt F) → (⟨S5000x32, .f32⟩ : BufTy).Contents (Elt F)),
    unary main_v24 main_v25 (Host.absf : (⟨S5000x32, .f32⟩ : BufTy).Contents (Elt F) → (⟨S5000x32, .f32⟩ : BufTy).Contents (Elt F)),
    binary main_v25 main_v25 main_v26 (mulf : (⟨S5000x32, .f32⟩ : BufTy).Contents (Elt F) → (⟨S5000x32, .f32⟩ : BufTy).Contents (Elt F) → (⟨S5000x32, .f32⟩ : BufTy).Contents (Elt F)),
    binary main_v26 main_v26 main_v27 (mulf : (⟨S5000x32, .f32⟩ : BufTy).Contents (Elt F) → (⟨S5000x32, .f32⟩ : BufTy).Contents (Elt F) → (⟨S5000x32, .f32⟩ : BufTy).Contents (Elt F)),
    binary main_arg4 main_v22 main_v28 ((fun l r => Host.dotGeneral dot_S5000x5000_S5000x32_S5000x32_1_0_0_1_n_n none l r) : (⟨S5000x5000, .f32⟩ : BufTy).Contents (Elt F) → (⟨S5000x32, .f32⟩ : BufTy).Contents (Elt F) → (⟨S5000x32, .f32⟩ : BufTy).Contents (Elt F)),
    unary main_v28 main_v29 (Host.absf : (⟨S5000x32, .f32⟩ : BufTy).Contents (Elt F) → (⟨S5000x32, .f32⟩ : BufTy).Contents (Elt F)),
    binary main_v29 main_v29 main_v30 (mulf : (⟨S5000x32, .f32⟩ : BufTy).Contents (Elt F) → (⟨S5000x32, .f32⟩ : BufTy).Contents (Elt F) → (⟨S5000x32, .f32⟩ : BufTy).Contents (Elt F)),
    binary main_v30 main_v30 main_v31 (mulf : (⟨S5000x32, .f32⟩ : BufTy).Contents (Elt F) → (⟨S5000x32, .f32⟩ : BufTy).Contents (Elt F) → (⟨S5000x32, .f32⟩ : BufTy).Contents (Elt F)),
    binary main_arg5 main_v22 main_v32 ((fun l r => Host.dotGeneral dot_S5000x5000_S5000x32_S5000x32_1_0_0_1_n_n none l r) : (⟨S5000x5000, .f32⟩ : BufTy).Contents (Elt F) → (⟨S5000x32, .f32⟩ : BufTy).Contents (Elt F) → (⟨S5000x32, .f32⟩ : BufTy).Contents (Elt F)),
    unary main_v32 main_v33 (Host.absf : (⟨S5000x32, .f32⟩ : BufTy).Contents (Elt F) → (⟨S5000x32, .f32⟩ : BufTy).Contents (Elt F)),
    binary main_v33 main_v33 main_v34 (mulf : (⟨S5000x32, .f32⟩ : BufTy).Contents (Elt F) → (⟨S5000x32, .f32⟩ : BufTy).Contents (Elt F) → (⟨S5000x32, .f32⟩ : BufTy).Contents (Elt F)),
    binary main_v34 main_v34 main_v35 (mulf : (⟨S5000x32, .f32⟩ : BufTy).Contents (Elt F) → (⟨S5000x32, .f32⟩ : BufTy).Contents (Elt F) → (⟨S5000x32, .f32⟩ : BufTy).Contents (Elt F)),
    unary main_v21 main_v36 ((extractStridedSlice S32x1 ![0, 0] · slices_S64x1_S32x1_0_0) : (⟨S64x1, .f32⟩ : BufTy).Contents (Elt F) → (⟨S32x1, .f32⟩ : BufTy).Contents (Elt F)),
    binary main_v22 main_v36 main_v37 ((fun l r => Host.dotGeneral dot_S5000x32_S32x1_S5000x1_1_0_0_1_n_n none l r) : (⟨S5000x32, .f32⟩ : BufTy).Contents (Elt F) → (⟨S32x1, .f32⟩ : BufTy).Contents (Elt F) → (⟨S5000x1, .f32⟩ : BufTy).Contents (Elt F)),
    unary main_v21 main_v38 ((extractStridedSlice S32x1 ![32, 0] · slices_S64x1_S32x1_32_0) : (⟨S64x1, .f32⟩ : BufTy).Contents (Elt F) → (⟨S32x1, .f32⟩ : BufTy).Contents (Elt F)),
    binary main_v23 main_v38 main_v39 ((fun l r => Host.dotGeneral dot_S5000x32_S32x1_S5000x1_1_0_0_1_n_n none l r) : (⟨S5000x32, .f32⟩ : BufTy).Contents (Elt F) → (⟨S32x1, .f32⟩ : BufTy).Contents (Elt F) → (⟨S5000x1, .f32⟩ : BufTy).Contents (Elt F)),
    binary main_v37 main_v39 main_v40 (addf : (⟨S5000x1, .f32⟩ : BufTy).Contents (Elt F) → (⟨S5000x1, .f32⟩ : BufTy).Contents (Elt F) → (⟨S5000x1, .f32⟩ : BufTy).Contents (Elt F)),
    nullary main_cst_2 (constant S_ .f32 0x3E4CCCCD#32),
    TRef.nullary main_call1.cst (constant S_ .f32 0x00000000#32),
    TRef.unary main_call1.cst main_call1.v0 (broadcastInDim S5000x1 ![] bcast_S_S5000x1),
    TRef.binary (.of main_v40) main_call1.v0 main_call1.v1 (cmpf .oge),
    TRef.unary (.of main_cst_2) main_call1.v2 id,
    TRef.unary main_call1.v2 main_call1.v3 (broadcastInDim S5000x1 ![] bcast_S_S5000x1),
    TRef.binary main_call1.v3 (.of main_v40) main_call1.v4 mulf,
    TRef.ternary main_call1.v1 (.of main_v40) main_call1.v4 main_call1.call0.v0 select,
    unary main_v21 main_v42 ((extractStridedSlice S32x1 ![32, 0] · slices_S64x1_S32x1_32_0) : (⟨S64x1, .f32⟩ : BufTy).Contents (Elt F) → (⟨S32x1, .f32⟩ : BufTy).Contents (Elt F)),
    binary main_v27 main_v42 main_v43 ((fun l r => Host.dotGeneral dot_S5000x32_S32x1_S5000x1_1_0_0_1_n_n none l r) : (⟨S5000x32, .f32⟩ : BufTy).Contents (Elt F) → (⟨S32x1, .f32⟩ : BufTy).Contents (Elt F) → (⟨S5000x1, .f32⟩ : BufTy).Contents (Elt F)),
    binary main_v37 main_v43 main_v44 (addf : (⟨S5000x1, .f32⟩ : BufTy).Contents (Elt F) → (⟨S5000x1, .f32⟩ : BufTy).Contents (Elt F) → (⟨S5000x1, .f32⟩ : BufTy).Contents (Elt F)),
    nullary main_cst_3 (constant S_ .f32 0x3E4CCCCD#32),
    TRef.nullary main_call2.cst (constant S_ .f32 0x00000000#32),
    TRef.unary main_call2.cst main_call2.v0 (broadcastInDim S5000x1 ![] bcast_S_S5000x1),
    TRef.binary (.of main_v44) main_call2.v0 main_call2.v1 (cmpf .oge),
    TRef.unary (.of main_cst_3) main_call2.v2 id,
    TRef.unary main_call2.v2 main_call2.v3 (broadcastInDim S5000x1 ![] bcast_S_S5000x1),
    TRef.binary main_call2.v3 (.of main_v44) main_call2.v4 mulf,
    TRef.ternary main_call2.v1 (.of main_v44) main_call2.v4 main_call2.call0.v0 select,
    unary main_v21 main_v46 ((extractStridedSlice S32x1 ![32, 0] · slices_S64x1_S32x1_32_0) : (⟨S64x1, .f32⟩ : BufTy).Contents (Elt F) → (⟨S32x1, .f32⟩ : BufTy).Contents (Elt F)),
    binary main_v31 main_v46 main_v47 ((fun l r => Host.dotGeneral dot_S5000x32_S32x1_S5000x1_1_0_0_1_n_n none l r) : (⟨S5000x32, .f32⟩ : BufTy).Contents (Elt F) → (⟨S32x1, .f32⟩ : BufTy).Contents (Elt F) → (⟨S5000x1, .f32⟩ : BufTy).Contents (Elt F)),
    binary main_v37 main_v47 main_v48 (addf : (⟨S5000x1, .f32⟩ : BufTy).Contents (Elt F) → (⟨S5000x1, .f32⟩ : BufTy).Contents (Elt F) → (⟨S5000x1, .f32⟩ : BufTy).Contents (Elt F)),
    nullary main_cst_4 (constant S_ .f32 0x3E4CCCCD#32),
    TRef.nullary main_call3.cst (constant S_ .f32 0x00000000#32),
    TRef.unary main_call3.cst main_call3.v0 (broadcastInDim S5000x1 ![] bcast_S_S5000x1),
    TRef.binary (.of main_v48) main_call3.v0 main_call3.v1 (cmpf .oge),
    TRef.unary (.of main_cst_4) main_call3.v2 id,
    TRef.unary main_call3.v2 main_call3.v3 (broadcastInDim S5000x1 ![] bcast_S_S5000x1),
    TRef.binary main_call3.v3 (.of main_v48) main_call3.v4 mulf,
    TRef.ternary main_call3.v1 (.of main_v48) main_call3.v4 main_call3.call0.v0 select,
    unary main_v21 main_v50 ((extractStridedSlice S32x1 ![32, 0] · slices_S64x1_S32x1_32_0) : (⟨S64x1, .f32⟩ : BufTy).Contents (Elt F) → (⟨S32x1, .f32⟩ : BufTy).Contents (Elt F)),
    binary main_v35 main_v50 main_v51 ((fun l r => Host.dotGeneral dot_S5000x32_S32x1_S5000x1_1_0_0_1_n_n none l r) : (⟨S5000x32, .f32⟩ : BufTy).Contents (Elt F) → (⟨S32x1, .f32⟩ : BufTy).Contents (Elt F) → (⟨S5000x1, .f32⟩ : BufTy).Contents (Elt F)),
    binary main_v37 main_v51 main_v52 (addf : (⟨S5000x1, .f32⟩ : BufTy).Contents (Elt F) → (⟨S5000x1, .f32⟩ : BufTy).Contents (Elt F) → (⟨S5000x1, .f32⟩ : BufTy).Contents (Elt F)) ]

theorem s0b_sub : (s0b : List (HloOp τ sig (Elt F))).Forall fun op => op.bufs ⊆ tcRefs τ sig :=
  ⟨unary_bufs_sub .., reshape_bufs_sub .., unary_bufs_sub .., reshape_bufs_sub .., binary_bufs_sub .., binary_bufs_sub .., binary_bufs_sub .., unary_bufs_sub .., binary_bufs_sub .., binary_bufs_sub .., binary_bufs_sub .., unary_bufs_sub .., binary_bufs_sub .., binary_bufs_sub .., binary_bufs_sub .., unary_bufs_sub .., binary_bufs_sub .., binary_bufs_sub .., unary_bufs_sub .., binary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., binary_bufs_sub ..⟩

theorem s0b_fresh : (s0b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers these operations write. -/
abbrev s0b_W : List (Ref sig .tc) := [main_v18, main_v19, main_v20, main_v21, main_v22, main_v23, main_v24, main_v25, main_v26, main_v27, main_v28, main_v29, main_v30, main_v31, main_v32, main_v33, main_v34, main_v35, main_v36, main_v37, main_v38, main_v39, main_v40, main_cst_2, main_call1_cst, main_call1_v0, main_call1_v1, main_call1_v2, main_call1_v3, main_call1_v4, main_v41, main_v42, main_v43, main_v44, main_cst_3, main_call2_cst, main_call2_v0, main_call2_v1, main_call2_v2, main_call2_v3, main_call2_v4, main_v45, main_v46, main_v47, main_v48, main_cst_4, main_call3_cst, main_call3_v0, main_call3_v1, main_call3_v2, main_call3_v3, main_call3_v4, main_v49, main_v50, main_v51, main_v52]

theorem s0b_writes : (s0b : List (HloOp τ sig (Elt F))).Forall fun op =>
    op.writes ⊆ (s0b_W.map (Proc.devRef (τ := τ) .tc)).toFinset := by
  simp only [List.Forall]
  exact ⟨(by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide))⟩

/-- The buffer contents after these operations. -/
def s0b_step (V : Valuation τ sig (Elt F)) : Valuation τ sig (Elt F) := after s0b V

/-- A buffer none of them writes keeps its contents. -/
theorem s0b_keep (V : Valuation τ sig (Elt F)) {r : Ref sig .tc} (h : r ∉ s0b_W) :
    s0b_step V (no_index (Proc.devRef .tc r)) = V (Proc.devRef .tc r) :=
  after_of_writes_sub s0b V s0b_writes h

set_option maxHeartbeats 4000000 in
/-- Head 0's low-pass channel. -/
theorem s0b_v23 (V : Valuation τ sig (Elt F)) :
    s0b_step V (no_index (Proc.devRef .tc main_v23)) = (prop (V (Proc.devRef .tc main_arg2)) (proj (V (Proc.devRef .tc main_v17)) (wSlice0 (V (Proc.devRef .tc main_arg6))))) := by
  unfold s0b_step
  after_results_simp
  rfl

set_option maxHeartbeats 4000000 in
/-- Head 0's first band-pass channel. -/
theorem s0b_v27 (V : Valuation τ sig (Elt F)) :
    s0b_step V (no_index (Proc.devRef .tc main_v27)) = (band (V (Proc.devRef .tc main_arg3)) (proj (V (Proc.devRef .tc main_v17)) (wSlice0 (V (Proc.devRef .tc main_arg6))))) := by
  unfold s0b_step
  after_results_simp
  rfl

set_option maxHeartbeats 4000000 in
/-- Head 0's second band-pass channel. -/
theorem s0b_v31 (V : Valuation τ sig (Elt F)) :
    s0b_step V (no_index (Proc.devRef .tc main_v31)) = (band (V (Proc.devRef .tc main_arg4)) (proj (V (Proc.devRef .tc main_v17)) (wSlice0 (V (Proc.devRef .tc main_arg6))))) := by
  unfold s0b_step
  after_results_simp
  rfl

set_option maxHeartbeats 4000000 in
/-- Head 0's third band-pass channel. -/
theorem s0b_v35 (V : Valuation τ sig (Elt F)) :
    s0b_step V (no_index (Proc.devRef .tc main_v35)) = (band (V (Proc.devRef .tc main_arg5)) (proj (V (Proc.devRef .tc main_v17)) (wSlice0 (V (Proc.devRef .tc main_arg6))))) := by
  unfold s0b_step
  after_results_simp
  rfl

set_option maxHeartbeats 4000000 in
/-- Head 0's low-pass score. -/
theorem s0b_v41 (V : Valuation τ sig (Elt F)) :
    s0b_step V (no_index (Proc.devRef .tc main_v41)) = score (eSelf (proj (V (Proc.devRef .tc main_v17)) (wSlice0 (V (Proc.devRef .tc main_arg6)))) (aSlice0 (V (Proc.devRef .tc main_arg7)))) (prop (V (Proc.devRef .tc main_arg2)) (proj (V (Proc.devRef .tc main_v17)) (wSlice0 (V (Proc.devRef .tc main_arg6))))) (aSlice0 (V (Proc.devRef .tc main_arg7))) := by
  unfold s0b_step
  after_results_simp
  rfl

set_option maxHeartbeats 4000000 in
/-- Head 0's first band-pass score. -/
theorem s0b_v45 (V : Valuation τ sig (Elt F)) :
    s0b_step V (no_index (Proc.devRef .tc main_v45)) = score (eSelf (proj (V (Proc.devRef .tc main_v17)) (wSlice0 (V (Proc.devRef .tc main_arg6)))) (aSlice0 (V (Proc.devRef .tc main_arg7)))) (band (V (Proc.devRef .tc main_arg3)) (proj (V (Proc.devRef .tc main_v17)) (wSlice0 (V (Proc.devRef .tc main_arg6))))) (aSlice0 (V (Proc.devRef .tc main_arg7))) := by
  unfold s0b_step
  after_results_simp
  rfl

set_option maxHeartbeats 4000000 in
/-- Head 0's second band-pass score. -/
theorem s0b_v49 (V : Valuation τ sig (Elt F)) :
    s0b_step V (no_index (Proc.devRef .tc main_v49)) = score (eSelf (proj (V (Proc.devRef .tc main_v17)) (wSlice0 (V (Proc.devRef .tc main_arg6)))) (aSlice0 (V (Proc.devRef .tc main_arg7)))) (band (V (Proc.devRef .tc main_arg4)) (proj (V (Proc.devRef .tc main_v17)) (wSlice0 (V (Proc.devRef .tc main_arg6))))) (aSlice0 (V (Proc.devRef .tc main_arg7))) := by
  unfold s0b_step
  after_results_simp
  rfl

set_option maxHeartbeats 4000000 in
/-- Head 0's third band-pass score before its activation. -/
theorem s0b_v52 (V : Valuation τ sig (Elt F)) :
    s0b_step V (no_index (Proc.devRef .tc main_v52)) = preScore (eSelf (proj (V (Proc.devRef .tc main_v17)) (wSlice0 (V (Proc.devRef .tc main_arg6)))) (aSlice0 (V (Proc.devRef .tc main_arg7)))) (band (V (Proc.devRef .tc main_arg5)) (proj (V (Proc.devRef .tc main_v17)) (wSlice0 (V (Proc.devRef .tc main_arg6))))) (aSlice0 (V (Proc.devRef .tc main_arg7))) := by
  unfold s0b_step
  after_results_simp
  rfl

set_option maxHeartbeats 4000000 in
/-- The window is that straight line: the functions' definitions unfolded at their calls, the records at their fields,
    and sequencing reassociated. -/
theorem main_part0_eq (c : Dev nD) : main_part0 (F := F) c = seq (s0a ++ s0b) := by
  simp only [main_part0, fn_where.body, fn_var.body, fn_where_0.body, fn_leaky_relu.body, fn_where_2.body, fn_var_1.body, fn_relu.body, fn_log_softmax.body, s0a, s0b, List.cons_append, List.nil_append, seq, bind_assoc, pure_bind]
  rfl

end Cert.ReferenceIdeal.HandRun

end
-- ==== Proof.RefRun.Ops1.lean ====
import proofs.«113748_g69337952026834_cont_sun_c4_16_16_alg».proof.Proof.RefRun.Stages

noncomputable section

namespace Cert.ReferenceIdeal.HandRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-! # @main's statements of window 1, the calls unfolded, and what they leave in the buffers read later -/

set_option Elab.async false

/-- Operations 101 … 185: head 0's last activation, its attention weights, the mix, batch normalisation and ReLU. -/
abbrev s1a : List (HloOp τ sig (Elt F)) :=
  [ nullary main_cst_5 (constant S_ .f32 0x3E4CCCCD#32),
    TRef.nullary main_call4.cst (constant S_ .f32 0x00000000#32),
    TRef.unary main_call4.cst main_call4.v0 (broadcastInDim S5000x1 ![] bcast_S_S5000x1),
    TRef.binary (.of main_v52) main_call4.v0 main_call4.v1 (cmpf .oge),
    TRef.unary (.of main_cst_5) main_call4.v2 id,
    TRef.unary main_call4.v2 main_call4.v3 (broadcastInDim S5000x1 ![] bcast_S_S5000x1),
    TRef.binary main_call4.v3 (.of main_v52) main_call4.v4 mulf,
    TRef.ternary main_call4.v1 (.of main_v52) main_call4.v4 main_call4.call0.v0 select,
    nary ![main_v41, main_v45, main_v49, main_v53] main_v54 (fun u => concatenate S5000x4 1 [⟨S5000x1, u 0⟩, ⟨S5000x1, u 1⟩, ⟨S5000x1, u 2⟩, ⟨S5000x1, u 3⟩] concatenates_S5000x1_S5000x1_S5000x1_S5000x1_S5000x4_d1),
    nullary main_cst_6 (constant S_ .f32 0xFF800000#32),
    binary main_v54 main_cst_6 main_v55 ((fun x v => Host.reduce FloatOps.maximumf x v reducesTo_S5000x4_S5000_d1 h_S_) : (⟨S5000x4, .f32⟩ : BufTy).Contents (Elt F) → (⟨S_, .f32⟩ : BufTy).Contents (Elt F) → (⟨S5000, .f32⟩ : BufTy).Contents (Elt F)),
    nullary main_cst_7 (constant S_ .f32 0xFF800000#32),
    unary main_cst_7 main_v56 (broadcastInDim S5000 ![] bcast_S_S5000 : (⟨S_, .f32⟩ : BufTy).Contents (Elt F) → (⟨S5000, .f32⟩ : BufTy).Contents (Elt F)),
    binary main_v56 main_v55 main_v57 (maximumf : (⟨S5000, .f32⟩ : BufTy).Contents (Elt F) → (⟨S5000, .f32⟩ : BufTy).Contents (Elt F) → (⟨S5000, .f32⟩ : BufTy).Contents (Elt F)),
    unary main_v57 main_v58 (broadcastInDim S5000x1 ![0] bcast_S5000_S5000x1_0 : (⟨S5000, .f32⟩ : BufTy).Contents (Elt F) → (⟨S5000x1, .f32⟩ : BufTy).Contents (Elt F)),
    unary main_v58 main_v59 (broadcastInDim S5000x4 ![0, 1] bcast_S5000x1_S5000x4_0_1 : (⟨S5000x1, .f32⟩ : BufTy).Contents (Elt F) → (⟨S5000x4, .f32⟩ : BufTy).Contents (Elt F)),
    binary main_v54 main_v59 main_v60 (subf : (⟨S5000x4, .f32⟩ : BufTy).Contents (Elt F) → (⟨S5000x4, .f32⟩ : BufTy).Contents (Elt F) → (⟨S5000x4, .f32⟩ : BufTy).Contents (Elt F)),
    unary main_v60 main_v61 (Host.exp : (⟨S5000x4, .f32⟩ : BufTy).Contents (Elt F) → (⟨S5000x4, .f32⟩ : BufTy).Contents (Elt F)),
    nullary main_cst_8 (constant S_ .f32 0x00000000#32),
    binary main_v61 main_cst_8 main_v62 ((fun x v => Host.reduceAdd x v reducesTo_S5000x4_S5000_d1 h_S_) : (⟨S5000x4, .f32⟩ : BufTy).Contents (Elt F) → (⟨S_, .f32⟩ : BufTy).Contents (Elt F) → (⟨S5000, .f32⟩ : BufTy).Contents (Elt F)),
    unary main_v62 main_v63 (broadcastInDim S5000x1 ![0] bcast_S5000_S5000x1_0 : (⟨S5000, .f32⟩ : BufTy).Contents (Elt F) → (⟨S5000x1, .f32⟩ : BufTy).Contents (Elt F)),
    unary main_v63 main_v64 (broadcastInDim S5000x4 ![0, 1] bcast_S5000x1_S5000x4_0_1 : (⟨S5000x1, .f32⟩ : BufTy).Contents (Elt F) → (⟨S5000x4, .f32⟩ : BufTy).Contents (Elt F)),
    binary main_v61 main_v64 main_v65 (Host.divf : (⟨S5000x4, .f32⟩ : BufTy).Contents (Elt F) → (⟨S5000x4, .f32⟩ : BufTy).Contents (Elt F) → (⟨S5000x4, .f32⟩ : BufTy).Contents (Elt F)),
    unary main_v65 main_v66 ((extractStridedSlice S5000x1 ![0, 0] · slices_S5000x4_S5000x1_0_0) : (⟨S5000x4, .f32⟩ : BufTy).Contents (Elt F) → (⟨S5000x1, .f32⟩ : BufTy).Contents (Elt F)),
    unary main_v66 main_v67 (broadcastInDim S5000x32 ![0, 1] bcast_S5000x1_S5000x32_0_1 : (⟨S5000x1, .f32⟩ : BufTy).Contents (Elt F) → (⟨S5000x32, .f32⟩ : BufTy).Contents (Elt F)),
    binary main_v67 main_v23 main_v68 (mulf : (⟨S5000x32, .f32⟩ : BufTy).Contents (Elt F) → (⟨S5000x32, .f32⟩ : BufTy).Contents (Elt F) → (⟨S5000x32, .f32⟩ : BufTy).Contents (Elt F)),
    unary main_v65 main_v69 ((extractStridedSlice S5000x1 ![0, 1] · slices_S5000x4_S5000x1_0_1) : (⟨S5000x4, .f32⟩ : BufTy).Contents (Elt F) → (⟨S5000x1, .f32⟩ : BufTy).Contents (Elt F)),
    unary main_v69 main_v70 (broadcastInDim S5000x32 ![0, 1] bcast_S5000x1_S5000x32_0_1 : (⟨S5000x1, .f32⟩ : BufTy).Contents (Elt F) → (⟨S5000x32, .f32⟩ : BufTy).Contents (Elt F)),
    binary main_v70 main_v27 main_v71 (mulf : (⟨S5000x32, .f32⟩ : BufTy).Contents (Elt F) → (⟨S5000x32, .f32⟩ : BufTy).Contents (Elt F) → (⟨S5000x32, .f32⟩ : BufTy).Contents (Elt F)),
    binary main_v68 main_v71 main_v72 (addf : (⟨S5000x32, .f32⟩ : BufTy).Contents (Elt F) → (⟨S5000x32, .f32⟩ : BufTy).Contents (Elt F) → (⟨S5000x32, .f32⟩ : BufTy).Contents (Elt F)),
    unary main_v65 main_v73 ((extractStridedSlice S5000x1 ![0, 2] · slices_S5000x4_S5000x1_0_2) : (⟨S5000x4, .f32⟩ : BufTy).Contents (Elt F) → (⟨S5000x1, .f32⟩ : BufTy).Contents (Elt F)),
    unary main_v73 main_v74 (broadcastInDim S5000x32 ![0, 1] bcast_S5000x1_S5000x32_0_1 : (⟨S5000x1, .f32⟩ : BufTy).Contents (Elt F) → (⟨S5000x32, .f32⟩ : BufTy).Contents (Elt F)),
    binary main_v74 main_v31 main_v75 (mulf : (⟨S5000x32, .f32⟩ : BufTy).Contents (Elt F) → (⟨S5000x32, .f32⟩ : BufTy).Contents (Elt F) → (⟨S5000x32, .f32⟩ : BufTy).Contents (Elt F)),
    binary main_v72 main_v75 main_v76 (addf : (⟨S5000x32, .f32⟩ : BufTy).Contents (Elt F) → (⟨S5000x32, .f32⟩ : BufTy).Contents (Elt F) → (⟨S5000x32, .f32⟩ : BufTy).Contents (Elt F)),
    unary main_v65 main_v77 ((extractStridedSlice S5000x1 ![0, 3] · slices_S5000x4_S5000x1_0_3) : (⟨S5000x4, .f32⟩ : BufTy).Contents (Elt F) → (⟨S5000x1, .f32⟩ : BufTy).Contents (Elt F)),
    unary main_v77 main_v78 (broadcastInDim S5000x32 ![0, 1] bcast_S5000x1_S5000x32_0_1 : (⟨S5000x1, .f32⟩ : BufTy).Contents (Elt F) → (⟨S5000x32, .f32⟩ : BufTy).Contents (Elt F)),
    binary main_v78 main_v35 main_v79 (mulf : (⟨S5000x32, .f32⟩ : BufTy).Contents (Elt F) → (⟨S5000x32, .f32⟩ : BufTy).Contents (Elt F) → (⟨S5000x32, .f32⟩ : BufTy).Contents (Elt F)),
    binary main_v76 main_v79 main_v80 (addf : (⟨S5000x32, .f32⟩ : BufTy).Contents (Elt F) → (⟨S5000x32, .f32⟩ : BufTy).Contents (Elt F) → (⟨S5000x32, .f32⟩ : BufTy).Contents (Elt F)),
    nullary main_cst_9 (constant S_ .f32 0x00000000#32),
    binary main_v80 main_cst_9 main_v81 ((fun x v => Host.reduceAdd x v reducesTo_S5000x32_S32_d0 h_S_) : (⟨S5000x32, .f32⟩ : BufTy).Contents (Elt F) → (⟨S_, .f32⟩ : BufTy).Contents (Elt F) → (⟨S32, .f32⟩ : BufTy).Contents (Elt F)),
    unary main_v81 main_v82 (broadcastInDim S1x32 ![1] bcast_S32_S1x32_1 : (⟨S32, .f32⟩ : BufTy).Contents (Elt F) → (⟨S1x32, .f32⟩ : BufTy).Contents (Elt F)),
    nullary main_cst_10 (constant S_ .f32 0x459C4000#32),
    unary main_cst_10 main_v83 (broadcastInDim S1x32 ![] bcast_S_S1x32 : (⟨S_, .f32⟩ : BufTy).Contents (Elt F) → (⟨S1x32, .f32⟩ : BufTy).Contents (Elt F)),
    binary main_v82 main_v83 main_v84 (Host.divf : (⟨S1x32, .f32⟩ : BufTy).Contents (Elt F) → (⟨S1x32, .f32⟩ : BufTy).Contents (Elt F) → (⟨S1x32, .f32⟩ : BufTy).Contents (Elt F)),
    nullary main_c_11 (constantI S_ 32 0#32),
    TRef.nullary main_call5.cst (constant S_ .f32 0x00000000#32),
    TRef.binary (.of main_v80) main_call5.cst main_call5.v0 (fun x v => Host.reduceAdd x v reducesTo_S5000x32_S32_d0 h_S_),
    TRef.unary main_call5.v0 main_call5.v1 (broadcastInDim S1x32 ![1] bcast_S32_S1x32_1),
    TRef.nullary main_call5.cst_0 (constant S_ .f32 0x459C4000#32),
    TRef.unary main_call5.cst_0 main_call5.v2 (broadcastInDim S1x32 ![] bcast_S_S1x32),
    TRef.binary main_call5.v1 main_call5.v2 main_call5.v3 Host.divf,
    TRef.unary main_call5.v3 main_call5.v4 (broadcastInDim S5000x32 ![0, 1] bcast_S1x32_S5000x32_0_1),
    TRef.binary (.of main_v80) main_call5.v4 main_call5.v5 subf,
    TRef.binary main_call5.v5 main_call5.v5 main_call5.v6 mulf,
    TRef.unary (.of main_c_11) main_call5.v7 (sitofp .f32),
    TRef.nullary main_call5.cst_1 (constant S_ .f32 0x459C4000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S5000x32_S32_d0 h_S_),
    TRef.unary main_call5.v9 main_call5.v10 (broadcastInDim S1x32 ![1] bcast_S32_S1x32_1),
    TRef.unary main_call5.v8 main_call5.v11 (broadcastInDim S1x32 ![] bcast_S_S1x32),
    TRef.binary main_call5.v10 main_call5.v11 main_call5.v12 Host.divf,
    TRef.nullary main_call5.cst_3 (constant S_ .f32 0x00000000#32),
    TRef.binary main_call5.v8 main_call5.cst_3 main_call5.v13 (cmpf .ogt),
    TRef.nullary main_call5.cst_4 (constant S_ .f32 0x7FC00000#32),
    TRef.unary main_call5.cst_4 main_call5.call0.v0 id,
    TRef.unary main_call5.call0.v0 main_call5.call0.v1 (broadcastInDim S1x32 ![] bcast_S_S1x32),
    TRef.ternary main_call5.v13 main_call5.v12 main_call5.call0.v1 main_call5.call0.v2 (fun p a b => select (broadcastInDim S1x32 ![] bcast_S_S1x32 p) a b),
    unary main_v84 main_v86 (broadcastInDim S5000x32 ![0, 1] bcast_S1x32_S5000x32_0_1 : (⟨S1x32, .f32⟩ : BufTy).Contents (Elt F) → (⟨S5000x32, .f32⟩ : BufTy).Contents (Elt F)),
    binary main_v80 main_v86 main_v87 (subf : (⟨S5000x32, .f32⟩ : BufTy).Contents (Elt F) → (⟨S5000x32, .f32⟩ : BufTy).Contents (Elt F) → (⟨S5000x32, .f32⟩ : BufTy).Contents (Elt F)),
    unary main_arg10 main_v88 (broadcastInDim S1x32 ![1] bcast_S32_S1x32_1 : (⟨S32, .f32⟩ : BufTy).Contents (Elt F) → (⟨S1x32, .f32⟩ : BufTy).Contents (Elt F)),
    unary main_v88 main_v89 (broadcastInDim S5000x32 ![0, 1] bcast_S1x32_S5000x32_0_1 : (⟨S1x32, .f32⟩ : BufTy).Contents (Elt F) → (⟨S5000x32, .f32⟩ : BufTy).Contents (Elt F)),
    binary main_v89 main_v87 main_v90 (mulf : (⟨S5000x32, .f32⟩ : BufTy).Contents (Elt F) → (⟨S5000x32, .f32⟩ : BufTy).Contents (Elt F) → (⟨S5000x32, .f32⟩ : BufTy).Contents (Elt F)),
    nullary main_cst_12 (constant S_ .f32 0x3727C5AC#32),
    unary main_cst_12 main_v91 (broadcastInDim S1x32 ![] bcast_S_S1x32 : (⟨S_, .f32⟩ : BufTy).Contents (Elt F) → (⟨S1x32, .f32⟩ : BufTy).Contents (Elt F)),
    binary main_v85 main_v91 main_v92 (addf : (⟨S1x32, .f32⟩ : BufTy).Contents (Elt F) → (⟨S1x32, .f32⟩ : BufTy).Contents (Elt F) → (⟨S1x32, .f32⟩ : BufTy).Contents (Elt F)),
    unary main_v92 main_v93 (Host.sqrt : (⟨S1x32, .f32⟩ : BufTy).Contents (Elt F) → (⟨S1x32, .f32⟩ : BufTy).Contents (Elt F)),
    unary main_v93 main_v94 (broadcastInDim S5000x32 ![0, 1] bcast_S1x32_S5000x32_0_1 : (⟨S1x32, .f32⟩ : BufTy).Contents (Elt F) → (⟨S5000x32, .f32⟩ : BufTy).Contents (Elt F)),
    binary main_v90 main_v94 main_v95 (Host.divf : (⟨S5000x32, .f32⟩ : BufTy).Contents (Elt F) → (⟨S5000x32, .f32⟩ : BufTy).Contents (Elt F) → (⟨S5000x32, .f32⟩ : BufTy).Contents (Elt F)),
    unary main_arg11 main_v96 (broadcastInDim S1x32 ![1] bcast_S32_S1x32_1 : (⟨S32, .f32⟩ : BufTy).Contents (Elt F) → (⟨S1x32, .f32⟩ : BufTy).Contents (Elt F)),
    unary main_v96 main_v97 (broadcastInDim S5000x32 ![0, 1] bcast_S1x32_S5000x32_0_1 : (⟨S1x32, .f32⟩ : BufTy).Contents (Elt F) → (⟨S5000x32, .f32⟩ : BufTy).Contents (Elt F)),
    binary main_v95 main_v97 main_v98 (addf : (⟨S5000x32, .f32⟩ : BufTy).Contents (Elt F) → (⟨S5000x32, .f32⟩ : BufTy).Contents (Elt F) → (⟨S5000x32, .f32⟩ : BufTy).Contents (Elt F)),
    TRef.nullary main_call6.cst (constant S_ .f32 0x00000000#32),
    TRef.unary main_call6.cst main_call6.v0 (broadcastInDim S5000x32 ![] bcast_S_S5000x32),
    TRef.binary (.of main_v98) main_call6.v0 main_call6.v1 maximumf ]

theorem s1a_sub : (s1a : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., ternary_bufs_sub .., nary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem s1a_fresh : (s1a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers these operations write. -/
abbrev s1a_W : List (Ref sig .tc) := [main_cst_5, main_call4_cst, main_call4_v0, main_call4_v1, main_call4_v2, main_call4_v3, main_call4_v4, main_v53, main_v54, main_cst_6, main_v55, main_cst_7, main_v56, main_v57, main_v58, main_v59, main_v60, main_v61, main_cst_8, main_v62, main_v63, main_v64, main_v65, main_v66, main_v67, main_v68, main_v69, main_v70, main_v71, main_v72, main_v73, main_v74, main_v75, main_v76, main_v77, main_v78, main_v79, main_v80, main_cst_9, main_v81, main_v82, main_cst_10, main_v83, main_v84, main_c_11, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v85, main_v86, main_v87, main_v88, main_v89, main_v90, main_cst_12, main_v91, main_v92, main_v93, main_v94, main_v95, main_v96, main_v97, main_v98, main_call6_cst, main_call6_v0, main_v99]

theorem s1a_writes : (s1a : List (HloOp τ sig (Elt F))).Forall fun op =>
    op.writes ⊆ (s1a_W.map (Proc.devRef (τ := τ) .tc)).toFinset := by
  simp only [List.Forall]
  exact ⟨(by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide))⟩

/-- The buffer contents after these operations. -/
def s1a_step (V : Valuation τ sig (Elt F)) : Valuation τ sig (Elt F) := after s1a V

/-- A buffer none of them writes keeps its contents. -/
theorem s1a_keep (V : Valuation τ sig (Elt F)) {r : Ref sig .tc} (h : r ∉ s1a_W) :
    s1a_step V (no_index (Proc.devRef .tc r)) = V (Proc.devRef .tc r) :=
  after_of_writes_sub s1a V s1a_writes h

set_option maxHeartbeats 4000000 in
/-- Head 0's output. -/
theorem s1a_v99 (V : Valuation τ sig (Elt F)) :
    s1a_step V (no_index (Proc.devRef .tc main_v99)) = relu32 (bn32 (mix (softmax4 (cat4 (V (Proc.devRef .tc main_v41)) (V (Proc.devRef .tc main_v45)) (V (Proc.devRef .tc main_v49)) (leaky (V (Proc.devRef .tc main_v52))))) (V (Proc.devRef .tc main_v23)) (V (Proc.devRef .tc main_v27)) (V (Proc.devRef .tc main_v31)) (V (Proc.devRef .tc main_v35))) (V (Proc.devRef .tc main_arg10)) (V (Proc.devRef .tc main_arg11))) := by
  unfold s1a_step
  after_results_simp
  rfl

/-- Operations 186 … 190: head 1's matrix, attention vector and projection. -/
abbrev s1b : List (HloOp τ sig (Elt F)) :=
  [ unary main_arg6 main_v100 ((extractStridedSlice S1x256x32 ![1, 0, 0] · slices_S4x256x32_S1x256x32_1_0_0) : (⟨S4x256x32, .f32⟩ : BufTy).Contents (Elt F) → (⟨S1x256x32, .f32⟩ : BufTy).Contents (Elt F)),
    reshape main_v100 main_v101 rfl shapeCasts_S1x256x32_S256x32,
    unary main_arg7 main_v102 ((extractStridedSlice S1x64x1 ![1, 0, 0] · slices_S4x64x1_S1x64x1_1_0_0) : (⟨S4x64x1, .f32⟩ : BufTy).Contents (Elt F) → (⟨S1x64x1, .f32⟩ : BufTy).Contents (Elt F)),
    reshape main_v102 main_v103 rfl shapeCasts_S1x64x1_S64x1,
    binary main_v17 main_v101 main_v104 ((fun l r => Host.dotGeneral dot_S5000x256_S256x32_S5000x32_1_0_0_1_n_n none l r) : (⟨S5000x256, .f32⟩ : BufTy).Contents (Elt F) → (⟨S256x32, .f32⟩ : BufTy).Contents (Elt F) → (⟨S5000x32, .f32⟩ : BufTy).Contents (Elt F)) ]

theorem s1b_sub : (s1b : List (HloOp τ sig (Elt F))).Forall fun op => op.bufs ⊆ tcRefs τ sig :=
  ⟨unary_bufs_sub .., reshape_bufs_sub .., unary_bufs_sub .., reshape_bufs_sub .., binary_bufs_sub ..⟩

theorem s1b_fresh : (s1b : List (HloOp τ sig (Elt F))).Forall fun op => op.fresh = ∅ :=
  ⟨rfl, rfl, rfl, rfl, rfl⟩

/-- The buffers these operations write. -/
abbrev s1b_W : List (Ref sig .tc) := [main_v100, main_v101, main_v102, main_v103, main_v104]

theorem s1b_writes : (s1b : List (HloOp τ sig (Elt F))).Forall fun op =>
    op.writes ⊆ (s1b_W.map (Proc.devRef (τ := τ) .tc)).toFinset := by
  simp only [List.Forall]
  exact ⟨(by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide))⟩

/-- The buffer contents after these operations. -/
def s1b_step (V : Valuation τ sig (Elt F)) : Valuation τ sig (Elt F) := after s1b V

/-- A buffer none of them writes keeps its contents. -/
theorem s1b_keep (V : Valuation τ sig (Elt F)) {r : Ref sig .tc} (h : r ∉ s1b_W) :
    s1b_step V (no_index (Proc.devRef .tc r)) = V (Proc.devRef .tc r) :=
  after_of_writes_sub s1b V s1b_writes h

set_option maxHeartbeats 4000000 in
/-- Head 1's attention vector. -/
theorem s1b_v103 (V : Valuation τ sig (Elt F)) :
    s1b_step V (no_index (Proc.devRef .tc main_v103)) = aSlice1 (V (Proc.devRef .tc main_arg7)) := by
  unfold s1b_step
  after_results_simp
  rfl

set_option maxHeartbeats 4000000 in
/-- Head 1's projected features. -/
theorem s1b_v104 (V : Valuation τ sig (Elt F)) :
    s1b_step V (no_index (Proc.devRef .tc main_v104)) = proj (V (Proc.devRef .tc main_v17)) (wSlice1 (V (Proc.devRef .tc main_arg6))) := by
  unfold s1b_step
  after_results_simp
  rfl

set_option maxHeartbeats 4000000 in
/-- The window is that straight line: the functions' definitions unfolded at their calls, the records at their fields,
    and sequencing reassociated. -/
theorem main_part1_eq (c : Dev nD) : main_part1 (F := F) c = seq (s1a ++ s1b) := by
  simp only [main_part1, fn_where.body, fn_var.body, fn_where_0.body, fn_leaky_relu.body, fn_where_2.body, fn_var_1.body, fn_relu.body, fn_log_softmax.body, s1a, s1b, List.cons_append, List.nil_append, seq, bind_assoc, pure_bind]
  rfl

end Cert.ReferenceIdeal.HandRun

end
-- ==== Proof.RefRun.Ops2.lean ====
import proofs.«113748_g69337952026834_cont_sun_c4_16_16_alg».proof.Proof.RefRun.Stages

noncomputable section

namespace Cert.ReferenceIdeal.HandRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-! # @main's statements of window 2, the calls unfolded, and what they leave in the buffers read later -/

set_option Elab.async false

/-- Operations 191 … 274: head 1's channels, scores, attention weights and the first three terms of the mix. -/
abbrev s2 : List (HloOp τ sig (Elt F)) :=
  [ binary main_arg2 main_v104 main_v105 ((fun l r => Host.dotGeneral dot_S5000x5000_S5000x32_S5000x32_1_0_0_1_n_n none l r) : (⟨S5000x5000, .f32⟩ : BufTy).Contents (Elt F) → (⟨S5000x32, .f32⟩ : BufTy).Contents (Elt F) → (⟨S5000x32, .f32⟩ : BufTy).Contents (Elt F)),
    binary main_arg3 main_v104 main_v106 ((fun l r => Host.dotGeneral dot_S5000x5000_S5000x32_S5000x32_1_0_0_1_n_n none l r) : (⟨S5000x5000, .f32⟩ : BufTy).Contents (Elt F) → (⟨S5000x32, .f32⟩ : BufTy).Contents (Elt F) → (⟨S5000x32, .f32⟩ : BufTy).Contents (Elt F)),
    unary main_v106 main_v107 (Host.absf : (⟨S5000x32, .f32⟩ : BufTy).Contents (Elt F) → (⟨S5000x32, .f32⟩ : BufTy).Contents (Elt F)),
    binary main_v107 main_v107 main_v108 (mulf : (⟨S5000x32, .f32⟩ : BufTy).Contents (Elt F) → (⟨S5000x32, .f32⟩ : BufTy).Contents (Elt F) → (⟨S5000x32, .f32⟩ : BufTy).Contents (Elt F)),
    binary main_v108 main_v108 main_v109 (mulf : (⟨S5000x32, .f32⟩ : BufTy).Contents (Elt F) → (⟨S5000x32, .f32⟩ : BufTy).Contents (Elt F) → (⟨S5000x32, .f32⟩ : BufTy).Contents (Elt F)),
    binary main_arg4 main_v104 main_v110 ((fun l r => Host.dotGeneral dot_S5000x5000_S5000x32_S5000x32_1_0_0_1_n_n none l r) : (⟨S5000x5000, .f32⟩ : BufTy).Contents (Elt F) → (⟨S5000x32, .f32⟩ : BufTy).Contents (Elt F) → (⟨S5000x32, .f32⟩ : BufTy).Contents (Elt F)),
    unary main_v110 main_v111 (Host.absf : (⟨S5000x32, .f32⟩ : BufTy).Contents (Elt F) → (⟨S5000x32, .f32⟩ : BufTy).Contents (Elt F)),
    binary main_v111 main_v111 main_v112 (mulf : (⟨S5000x32, .f32⟩ : BufTy).Contents (Elt F) → (⟨S5000x32, .f32⟩ : BufTy).Contents (Elt F) → (⟨S5000x32, .f32⟩ : BufTy).Contents (Elt F)),
    binary main_v112 main_v112 main_v113 (mulf : (⟨S5000x32, .f32⟩ : BufTy).Contents (Elt F) → (⟨S5000x32, .f32⟩ : BufTy).Contents (Elt F) → (⟨S5000x32, .f32⟩ : BufTy).Contents (Elt F)),
    binary main_arg5 main_v104 main_v114 ((fun l r => Host.dotGeneral dot_S5000x5000_S5000x32_S5000x32_1_0_0_1_n_n none l r) : (⟨S5000x5000, .f32⟩ : BufTy).Contents (Elt F) → (⟨S5000x32, .f32⟩ : BufTy).Contents (Elt F) → (⟨S5000x32, .f32⟩ : BufTy).Contents (Elt F)),
    unary main_v114 main_v115 (Host.absf : (⟨S5000x32, .f32⟩ : BufTy).Contents (Elt F) → (⟨S5000x32, .f32⟩ : BufTy).Contents (Elt F)),
    binary main_v115 main_v115 main_v116 (mulf : (⟨S5000x32, .f32⟩ : BufTy).Contents (Elt F) → (⟨S5000x32, .f32⟩ : BufTy).Contents (Elt F) → (⟨S5000x32, .f32⟩ : BufTy).Contents (Elt F)),
    binary main_v116 main_v116 main_v117 (mulf : (⟨S5000x32, .f32⟩ : BufTy).Contents (Elt F) → (⟨S5000x32, .f32⟩ : BufTy).Contents (Elt F) → (⟨S5000x32, .f32⟩ : BufTy).Contents (Elt F)),
    unary main_v103 main_v118 ((extractStridedSlice S32x1 ![0, 0] · slices_S64x1_S32x1_0_0) : (⟨S64x1, .f32⟩ : BufTy).Contents (Elt F) → (⟨S32x1, .f32⟩ : BufTy).Contents (Elt F)),
    binary main_v104 main_v118 main_v119 ((fun l r => Host.dotGeneral dot_S5000x32_S32x1_S5000x1_1_0_0_1_n_n none l r) : (⟨S5000x32, .f32⟩ : BufTy).Contents (Elt F) → (⟨S32x1, .f32⟩ : BufTy).Contents (Elt F) → (⟨S5000x1, .f32⟩ : BufTy).Contents (Elt F)),
    unary main_v103 main_v120 ((extractStridedSlice S32x1 ![32, 0] · slices_S64x1_S32x1_32_0) : (⟨S64x1, .f32⟩ : BufTy).Contents (Elt F) → (⟨S32x1, .f32⟩ : BufTy).Contents (Elt F)),
    binary main_v105 main_v120 main_v121 ((fun l r => Host.dotGeneral dot_S5000x32_S32x1_S5000x1_1_0_0_1_n_n none l r) : (⟨S5000x32, .f32⟩ : BufTy).Contents (Elt F) → (⟨S32x1, .f32⟩ : BufTy).Contents (Elt F) → (⟨S5000x1, .f32⟩ : BufTy).Contents (Elt F)),
    binary main_v119 main_v121 main_v122 (addf : (⟨S5000x1, .f32⟩ : BufTy).Contents (Elt F) → (⟨S5000x1, .f32⟩ : BufTy).Contents (Elt F) → (⟨S5000x1, .f32⟩ : BufTy).Contents (Elt F)),
    nullary main_cst_13 (constant S_ .f32 0x3E4CCCCD#32),
    TRef.nullary main_call7.cst (constant S_ .f32 0x00000000#32),
    TRef.unary main_call7.cst main_call7.v0 (broadcastInDim S5000x1 ![] bcast_S_S5000x1),
    TRef.binary (.of main_v122) main_call7.v0 main_call7.v1 (cmpf .oge),
    TRef.unary (.of main_cst_13) main_call7.v2 id,
    TRef.unary main_call7.v2 main_call7.v3 (broadcastInDim S5000x1 ![] bcast_S_S5000x1),
    TRef.binary main_call7.v3 (.of main_v122) main_call7.v4 mulf,
    TRef.ternary main_call7.v1 (.of main_v122) main_call7.v4 main_call7.call0.v0 select,
    unary main_v103 main_v124 ((extractStridedSlice S32x1 ![32, 0] · slices_S64x1_S32x1_32_0) : (⟨S64x1, .f32⟩ : BufTy).Contents (Elt F) → (⟨S32x1, .f32⟩ : BufTy).Contents (Elt F)),
    binary main_v109 main_v124 main_v125 ((fun l r => Host.dotGeneral dot_S5000x32_S32x1_S5000x1_1_0_0_1_n_n none l r) : (⟨S5000x32, .f32⟩ : BufTy).Contents (Elt F) → (⟨S32x1, .f32⟩ : BufTy).Contents (Elt F) → (⟨S5000x1, .f32⟩ : BufTy).Contents (Elt F)),
    binary main_v119 main_v125 main_v126 (addf : (⟨S5000x1, .f32⟩ : BufTy).Contents (Elt F) → (⟨S5000x1, .f32⟩ : BufTy).Contents (Elt F) → (⟨S5000x1, .f32⟩ : BufTy).Contents (Elt F)),
    nullary main_cst_14 (constant S_ .f32 0x3E4CCCCD#32),
    TRef.nullary main_call8.cst (constant S_ .f32 0x00000000#32),
    TRef.unary main_call8.cst main_call8.v0 (broadcastInDim S5000x1 ![] bcast_S_S5000x1),
    TRef.binary (.of main_v126) main_call8.v0 main_call8.v1 (cmpf .oge),
    TRef.unary (.of main_cst_14) main_call8.v2 id,
    TRef.unary main_call8.v2 main_call8.v3 (broadcastInDim S5000x1 ![] bcast_S_S5000x1),
    TRef.binary main_call8.v3 (.of main_v126) main_call8.v4 mulf,
    TRef.ternary main_call8.v1 (.of main_v126) main_call8.v4 main_call8.call0.v0 select,
    unary main_v103 main_v128 ((extractStridedSlice S32x1 ![32, 0] · slices_S64x1_S32x1_32_0) : (⟨S64x1, .f32⟩ : BufTy).Contents (Elt F) → (⟨S32x1, .f32⟩ : BufTy).Contents (Elt F)),
    binary main_v113 main_v128 main_v129 ((fun l r => Host.dotGeneral dot_S5000x32_S32x1_S5000x1_1_0_0_1_n_n none l r) : (⟨S5000x32, .f32⟩ : BufTy).Contents (Elt F) → (⟨S32x1, .f32⟩ : BufTy).Contents (Elt F) → (⟨S5000x1, .f32⟩ : BufTy).Contents (Elt F)),
    binary main_v119 main_v129 main_v130 (addf : (⟨S5000x1, .f32⟩ : BufTy).Contents (Elt F) → (⟨S5000x1, .f32⟩ : BufTy).Contents (Elt F) → (⟨S5000x1, .f32⟩ : BufTy).Contents (Elt F)),
    nullary main_cst_15 (constant S_ .f32 0x3E4CCCCD#32),
    TRef.nullary main_call9.cst (constant S_ .f32 0x00000000#32),
    TRef.unary main_call9.cst main_call9.v0 (broadcastInDim S5000x1 ![] bcast_S_S5000x1),
    TRef.binary (.of main_v130) main_call9.v0 main_call9.v1 (cmpf .oge),
    TRef.unary (.of main_cst_15) main_call9.v2 id,
    TRef.unary main_call9.v2 main_call9.v3 (broadcastInDim S5000x1 ![] bcast_S_S5000x1),
    TRef.binary main_call9.v3 (.of main_v130) main_call9.v4 mulf,
    TRef.ternary main_call9.v1 (.of main_v130) main_call9.v4 main_call9.call0.v0 select,
    unary main_v103 main_v132 ((extractStridedSlice S32x1 ![32, 0] · slices_S64x1_S32x1_32_0) : (⟨S64x1, .f32⟩ : BufTy).Contents (Elt F) → (⟨S32x1, .f32⟩ : BufTy).Contents (Elt F)),
    binary main_v117 main_v132 main_v133 ((fun l r => Host.dotGeneral dot_S5000x32_S32x1_S5000x1_1_0_0_1_n_n none l r) : (⟨S5000x32, .f32⟩ : BufTy).Contents (Elt F) → (⟨S32x1, .f32⟩ : BufTy).Contents (Elt F) → (⟨S5000x1, .f32⟩ : BufTy).Contents (Elt F)),
    binary main_v119 main_v133 main_v134 (addf : (⟨S5000x1, .f32⟩ : BufTy).Contents (Elt F) → (⟨S5000x1, .f32⟩ : BufTy).Contents (Elt F) → (⟨S5000x1, .f32⟩ : BufTy).Contents (Elt F)),
    nullary main_cst_16 (constant S_ .f32 0x3E4CCCCD#32),
    TRef.nullary main_call10.cst (constant S_ .f32 0x00000000#32),
    TRef.unary main_call10.cst main_call10.v0 (broadcastInDim S5000x1 ![] bcast_S_S5000x1),
    TRef.binary (.of main_v134) main_call10.v0 main_call10.v1 (cmpf .oge),
    TRef.unary (.of main_cst_16) main_call10.v2 id,
    TRef.unary main_call10.v2 main_call10.v3 (broadcastInDim S5000x1 ![] bcast_S_S5000x1),
    TRef.binary main_call10.v3 (.of main_v134) main_call10.v4 mulf,
    TRef.ternary main_call10.v1 (.of main_v134) main_call10.v4 main_call10.call0.v0 select,
    nary ![main_v123, main_v127, main_v131, main_v135] main_v136 (fun u => concatenate S5000x4 1 [⟨S5000x1, u 0⟩, ⟨S5000x1, u 1⟩, ⟨S5000x1, u 2⟩, ⟨S5000x1, u 3⟩] concatenates_S5000x1_S5000x1_S5000x1_S5000x1_S5000x4_d1),
    nullary main_cst_17 (constant S_ .f32 0xFF800000#32),
    binary main_v136 main_cst_17 main_v137 ((fun x v => Host.reduce FloatOps.maximumf x v reducesTo_S5000x4_S5000_d1 h_S_) : (⟨S5000x4, .f32⟩ : BufTy).Contents (Elt F) → (⟨S_, .f32⟩ : BufTy).Contents (Elt F) → (⟨S5000, .f32⟩ : BufTy).Contents (Elt F)),
    nullary main_cst_18 (constant S_ .f32 0xFF800000#32),
    unary main_cst_18 main_v138 (broadcastInDim S5000 ![] bcast_S_S5000 : (⟨S_, .f32⟩ : BufTy).Contents (Elt F) → (⟨S5000, .f32⟩ : BufTy).Contents (Elt F)),
    binary main_v138 main_v137 main_v139 (maximumf : (⟨S5000, .f32⟩ : BufTy).Contents (Elt F) → (⟨S5000, .f32⟩ : BufTy).Contents (Elt F) → (⟨S5000, .f32⟩ : BufTy).Contents (Elt F)),
    unary main_v139 main_v140 (broadcastInDim S5000x1 ![0] bcast_S5000_S5000x1_0 : (⟨S5000, .f32⟩ : BufTy).Contents (Elt F) → (⟨S5000x1, .f32⟩ : BufTy).Contents (Elt F)),
    unary main_v140 main_v141 (broadcastInDim S5000x4 ![0, 1] bcast_S5000x1_S5000x4_0_1 : (⟨S5000x1, .f32⟩ : BufTy).Contents (Elt F) → (⟨S5000x4, .f32⟩ : BufTy).Contents (Elt F)),
    binary main_v136 main_v141 main_v142 (subf : (⟨S5000x4, .f32⟩ : BufTy).Contents (Elt F) → (⟨S5000x4, .f32⟩ : BufTy).Contents (Elt F) → (⟨S5000x4, .f32⟩ : BufTy).Contents (Elt F)),
    unary main_v142 main_v143 (Host.exp : (⟨S5000x4, .f32⟩ : BufTy).Contents (Elt F) → (⟨S5000x4, .f32⟩ : BufTy).Contents (Elt F)),
    nullary main_cst_19 (constant S_ .f32 0x00000000#32),
    binary main_v143 main_cst_19 main_v144 ((fun x v => Host.reduceAdd x v reducesTo_S5000x4_S5000_d1 h_S_) : (⟨S5000x4, .f32⟩ : BufTy).Contents (Elt F) → (⟨S_, .f32⟩ : BufTy).Contents (Elt F) → (⟨S5000, .f32⟩ : BufTy).Contents (Elt F)),
    unary main_v144 main_v145 (broadcastInDim S5000x1 ![0] bcast_S5000_S5000x1_0 : (⟨S5000, .f32⟩ : BufTy).Contents (Elt F) → (⟨S5000x1, .f32⟩ : BufTy).Contents (Elt F)),
    unary main_v145 main_v146 (broadcastInDim S5000x4 ![0, 1] bcast_S5000x1_S5000x4_0_1 : (⟨S5000x1, .f32⟩ : BufTy).Contents (Elt F) → (⟨S5000x4, .f32⟩ : BufTy).Contents (Elt F)),
    binary main_v143 main_v146 main_v147 (Host.divf : (⟨S5000x4, .f32⟩ : BufTy).Contents (Elt F) → (⟨S5000x4, .f32⟩ : BufTy).Contents (Elt F) → (⟨S5000x4, .f32⟩ : BufTy).Contents (Elt F)),
    unary main_v147 main_v148 ((extractStridedSlice S5000x1 ![0, 0] · slices_S5000x4_S5000x1_0_0) : (⟨S5000x4, .f32⟩ : BufTy).Contents (Elt F) → (⟨S5000x1, .f32⟩ : BufTy).Contents (Elt F)),
    unary main_v148 main_v149 (broadcastInDim S5000x32 ![0, 1] bcast_S5000x1_S5000x32_0_1 : (⟨S5000x1, .f32⟩ : BufTy).Contents (Elt F) → (⟨S5000x32, .f32⟩ : BufTy).Contents (Elt F)),
    binary main_v149 main_v105 main_v150 (mulf : (⟨S5000x32, .f32⟩ : BufTy).Contents (Elt F) → (⟨S5000x32, .f32⟩ : BufTy).Contents (Elt F) → (⟨S5000x32, .f32⟩ : BufTy).Contents (Elt F)),
    unary main_v147 main_v151 ((extractStridedSlice S5000x1 ![0, 1] · slices_S5000x4_S5000x1_0_1) : (⟨S5000x4, .f32⟩ : BufTy).Contents (Elt F) → (⟨S5000x1, .f32⟩ : BufTy).Contents (Elt F)),
    unary main_v151 main_v152 (broadcastInDim S5000x32 ![0, 1] bcast_S5000x1_S5000x32_0_1 : (⟨S5000x1, .f32⟩ : BufTy).Contents (Elt F) → (⟨S5000x32, .f32⟩ : BufTy).Contents (Elt F)),
    binary main_v152 main_v109 main_v153 (mulf : (⟨S5000x32, .f32⟩ : BufTy).Contents (Elt F) → (⟨S5000x32, .f32⟩ : BufTy).Contents (Elt F) → (⟨S5000x32, .f32⟩ : BufTy).Contents (Elt F)),
    binary main_v150 main_v153 main_v154 (addf : (⟨S5000x32, .f32⟩ : BufTy).Contents (Elt F) → (⟨S5000x32, .f32⟩ : BufTy).Contents (Elt F) → (⟨S5000x32, .f32⟩ : BufTy).Contents (Elt F)),
    unary main_v147 main_v155 ((extractStridedSlice S5000x1 ![0, 2] · slices_S5000x4_S5000x1_0_2) : (⟨S5000x4, .f32⟩ : BufTy).Contents (Elt F) → (⟨S5000x1, .f32⟩ : BufTy).Contents (Elt F)),
    unary main_v155 main_v156 (broadcastInDim S5000x32 ![0, 1] bcast_S5000x1_S5000x32_0_1 : (⟨S5000x1, .f32⟩ : BufTy).Contents (Elt F) → (⟨S5000x32, .f32⟩ : BufTy).Contents (Elt F)),
    binary main_v156 main_v113 main_v157 (mulf : (⟨S5000x32, .f32⟩ : BufTy).Contents (Elt F) → (⟨S5000x32, .f32⟩ : BufTy).Contents (Elt F) → (⟨S5000x32, .f32⟩ : BufTy).Contents (Elt F)) ]

theorem s2_sub : (s2 : List (HloOp τ sig (Elt F))).Forall fun op => op.bufs ⊆ tcRefs τ sig :=
  ⟨binary_bufs_sub .., binary_bufs_sub .., unary_bufs_sub .., binary_bufs_sub .., binary_bufs_sub .., binary_bufs_sub .., unary_bufs_sub .., binary_bufs_sub .., binary_bufs_sub .., binary_bufs_sub .., unary_bufs_sub .., binary_bufs_sub .., binary_bufs_sub .., unary_bufs_sub .., binary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., nary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub ..⟩

theorem s2_fresh : (s2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers these operations write. -/
abbrev s2_W : List (Ref sig .tc) := [main_v105, main_v106, main_v107, main_v108, main_v109, main_v110, main_v111, main_v112, main_v113, main_v114, main_v115, main_v116, main_v117, main_v118, main_v119, main_v120, main_v121, main_v122, main_cst_13, main_call7_cst, main_call7_v0, main_call7_v1, main_call7_v2, main_call7_v3, main_call7_v4, main_v123, main_v124, main_v125, main_v126, main_cst_14, main_call8_cst, main_call8_v0, main_call8_v1, main_call8_v2, main_call8_v3, main_call8_v4, main_v127, main_v128, main_v129, main_v130, main_cst_15, main_call9_cst, main_call9_v0, main_call9_v1, main_call9_v2, main_call9_v3, main_call9_v4, main_v131, main_v132, main_v133, main_v134, main_cst_16, main_call10_cst, main_call10_v0, main_call10_v1, main_call10_v2, main_call10_v3, main_call10_v4, main_v135, main_v136, main_cst_17, main_v137, main_cst_18, main_v138, main_v139, main_v140, main_v141, main_v142, main_v143, main_cst_19, main_v144, main_v145, main_v146, main_v147, main_v148, main_v149, main_v150, main_v151, main_v152, main_v153, main_v154, main_v155, main_v156, main_v157]

theorem s2_writes : (s2 : List (HloOp τ sig (Elt F))).Forall fun op =>
    op.writes ⊆ (s2_W.map (Proc.devRef (τ := τ) .tc)).toFinset := by
  simp only [List.Forall]
  exact ⟨(by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide))⟩

/-- The buffer contents after these operations. -/
def s2_step (V : Valuation τ sig (Elt F)) : Valuation τ sig (Elt F) := after s2 V

/-- A buffer none of them writes keeps its contents. -/
theorem s2_keep (V : Valuation τ sig (Elt F)) {r : Ref sig .tc} (h : r ∉ s2_W) :
    s2_step V (no_index (Proc.devRef .tc r)) = V (Proc.devRef .tc r) :=
  after_of_writes_sub s2 V s2_writes h

set_option maxHeartbeats 4000000 in
/-- Head 1's third band-pass channel. -/
theorem s2_v117 (V : Valuation τ sig (Elt F)) :
    s2_step V (no_index (Proc.devRef .tc main_v117)) = (band (V (Proc.devRef .tc main_arg5)) (V (Proc.devRef .tc main_v104))) := by
  unfold s2_step
  after_results_simp
  rfl

set_option maxHeartbeats 4000000 in
/-- Head 1's attention weights. -/
theorem s2_v147 (V : Valuation τ sig (Elt F)) :
    s2_step V (no_index (Proc.devRef .tc main_v147)) = (softmax4 (headScores (V (Proc.devRef .tc main_v104)) (prop (V (Proc.devRef .tc main_arg2)) (V (Proc.devRef .tc main_v104))) (band (V (Proc.devRef .tc main_arg3)) (V (Proc.devRef .tc main_v104))) (band (V (Proc.devRef .tc main_arg4)) (V (Proc.devRef .tc main_v104))) (band (V (Proc.devRef .tc main_arg5)) (V (Proc.devRef .tc main_v104))) (V (Proc.devRef .tc main_v103)))) := by
  unfold s2_step
  after_results_simp
  rfl

set_option maxHeartbeats 4000000 in
/-- The first two terms of head 1's mix. -/
theorem s2_v154 (V : Valuation τ sig (Elt F)) :
    s2_step V (no_index (Proc.devRef .tc main_v154)) = mix2 (softmax4 (headScores (V (Proc.devRef .tc main_v104)) (prop (V (Proc.devRef .tc main_arg2)) (V (Proc.devRef .tc main_v104))) (band (V (Proc.devRef .tc main_arg3)) (V (Proc.devRef .tc main_v104))) (band (V (Proc.devRef .tc main_arg4)) (V (Proc.devRef .tc main_v104))) (band (V (Proc.devRef .tc main_arg5)) (V (Proc.devRef .tc main_v104))) (V (Proc.devRef .tc main_v103)))) (prop (V (Proc.devRef .tc main_arg2)) (V (Proc.devRef .tc main_v104))) (band (V (Proc.devRef .tc main_arg3)) (V (Proc.devRef .tc main_v104))) := by
  unfold s2_step
  after_results_simp
  rfl

set_option maxHeartbeats 4000000 in
/-- The third term of head 1's mix. -/
theorem s2_v157 (V : Valuation τ sig (Elt F)) :
    s2_step V (no_index (Proc.devRef .tc main_v157)) = wtd (attCol2 (softmax4 (headScores (V (Proc.devRef .tc main_v104)) (prop (V (Proc.devRef .tc main_arg2)) (V (Proc.devRef .tc main_v104))) (band (V (Proc.devRef .tc main_arg3)) (V (Proc.devRef .tc main_v104))) (band (V (Proc.devRef .tc main_arg4)) (V (Proc.devRef .tc main_v104))) (band (V (Proc.devRef .tc main_arg5)) (V (Proc.devRef .tc main_v104))) (V (Proc.devRef .tc main_v103))))) (band (V (Proc.devRef .tc main_arg4)) (V (Proc.devRef .tc main_v104))) := by
  unfold s2_step
  after_results_simp
  rfl

set_option maxHeartbeats 4000000 in
/-- The window is that straight line: the functions' definitions unfolded at their calls, the records at their fields,
    and sequencing reassociated. -/
theorem main_part2_eq (c : Dev nD) : main_part2 (F := F) c = seq (s2) := by
  simp only [main_part2, fn_where.body, fn_var.body, fn_where_0.body, fn_leaky_relu.body, fn_where_2.body, fn_var_1.body, fn_relu.body, fn_log_softmax.body, s2, List.cons_append, List.nil_append, seq, bind_assoc, pure_bind]
  rfl

end Cert.ReferenceIdeal.HandRun

end
-- ==== Proof.RefRun.Ops3.lean ====
import proofs.«113748_g69337952026834_cont_sun_c4_16_16_alg».proof.Proof.RefRun.Stages

noncomputable section

namespace Cert.ReferenceIdeal.HandRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-! # @main's statements of window 3, the calls unfolded, and what they leave in the buffers read later -/

set_option Elab.async false

/-- Operations 275 … 326: the rest of head 1's mix, batch normalisation and ReLU. -/
abbrev s3a : List (HloOp τ sig (Elt F)) :=
  [ binary main_v154 main_v157 main_v158 (addf : (⟨S5000x32, .f32⟩ : BufTy).Contents (Elt F) → (⟨S5000x32, .f32⟩ : BufTy).Contents (Elt F) → (⟨S5000x32, .f32⟩ : BufTy).Contents (Elt F)),
    unary main_v147 main_v159 ((extractStridedSlice S5000x1 ![0, 3] · slices_S5000x4_S5000x1_0_3) : (⟨S5000x4, .f32⟩ : BufTy).Contents (Elt F) → (⟨S5000x1, .f32⟩ : BufTy).Contents (Elt F)),
    unary main_v159 main_v160 (broadcastInDim S5000x32 ![0, 1] bcast_S5000x1_S5000x32_0_1 : (⟨S5000x1, .f32⟩ : BufTy).Contents (Elt F) → (⟨S5000x32, .f32⟩ : BufTy).Contents (Elt F)),
    binary main_v160 main_v117 main_v161 (mulf : (⟨S5000x32, .f32⟩ : BufTy).Contents (Elt F) → (⟨S5000x32, .f32⟩ : BufTy).Contents (Elt F) → (⟨S5000x32, .f32⟩ : BufTy).Contents (Elt F)),
    binary main_v158 main_v161 main_v162 (addf : (⟨S5000x32, .f32⟩ : BufTy).Contents (Elt F) → (⟨S5000x32, .f32⟩ : BufTy).Contents (Elt F) → (⟨S5000x32, .f32⟩ : BufTy).Contents (Elt F)),
    nullary main_cst_20 (constant S_ .f32 0x00000000#32),
    binary main_v162 main_cst_20 main_v163 ((fun x v => Host.reduceAdd x v reducesTo_S5000x32_S32_d0 h_S_) : (⟨S5000x32, .f32⟩ : BufTy).Contents (Elt F) → (⟨S_, .f32⟩ : BufTy).Contents (Elt F) → (⟨S32, .f32⟩ : BufTy).Contents (Elt F)),
    unary main_v163 main_v164 (broadcastInDim S1x32 ![1] bcast_S32_S1x32_1 : (⟨S32, .f32⟩ : BufTy).Contents (Elt F) → (⟨S1x32, .f32⟩ : BufTy).Contents (Elt F)),
    nullary main_cst_21 (constant S_ .f32 0x459C4000#32),
    unary main_cst_21 main_v165 (broadcastInDim S1x32 ![] bcast_S_S1x32 : (⟨S_, .f32⟩ : BufTy).Contents (Elt F) → (⟨S1x32, .f32⟩ : BufTy).Contents (Elt F)),
    binary main_v164 main_v165 main_v166 (Host.divf : (⟨S1x32, .f32⟩ : BufTy).Contents (Elt F) → (⟨S1x32, .f32⟩ : BufTy).Contents (Elt F) → (⟨S1x32, .f32⟩ : BufTy).Contents (Elt F)),
    nullary main_c_22 (constantI S_ 32 0#32),
    TRef.nullary main_call11.cst (constant S_ .f32 0x00000000#32),
    TRef.binary (.of main_v162) main_call11.cst main_call11.v0 (fun x v => Host.reduceAdd x v reducesTo_S5000x32_S32_d0 h_S_),
    TRef.unary main_call11.v0 main_call11.v1 (broadcastInDim S1x32 ![1] bcast_S32_S1x32_1),
    TRef.nullary main_call11.cst_0 (constant S_ .f32 0x459C4000#32),
    TRef.unary main_call11.cst_0 main_call11.v2 (broadcastInDim S1x32 ![] bcast_S_S1x32),
    TRef.binary main_call11.v1 main_call11.v2 main_call11.v3 Host.divf,
    TRef.unary main_call11.v3 main_call11.v4 (broadcastInDim S5000x32 ![0, 1] bcast_S1x32_S5000x32_0_1),
    TRef.binary (.of main_v162) main_call11.v4 main_call11.v5 subf,
    TRef.binary main_call11.v5 main_call11.v5 main_call11.v6 mulf,
    TRef.unary (.of main_c_22) main_call11.v7 (sitofp .f32),
    TRef.nullary main_call11.cst_1 (constant S_ .f32 0x459C4000#32),
    TRef.binary main_call11.cst_1 main_call11.v7 main_call11.v8 subf,
    TRef.nullary main_call11.cst_2 (constant S_ .f32 0x00000000#32),
    TRef.binary main_call11.v6 main_call11.cst_2 main_call11.v9 (fun x v => Host.reduceAdd x v reducesTo_S5000x32_S32_d0 h_S_),
    TRef.unary main_call11.v9 main_call11.v10 (broadcastInDim S1x32 ![1] bcast_S32_S1x32_1),
    TRef.unary main_call11.v8 main_call11.v11 (broadcastInDim S1x32 ![] bcast_S_S1x32),
    TRef.binary main_call11.v10 main_call11.v11 main_call11.v12 Host.divf,
    TRef.nullary main_call11.cst_3 (constant S_ .f32 0x00000000#32),
    TRef.binary main_call11.v8 main_call11.cst_3 main_call11.v13 (cmpf .ogt),
    TRef.nullary main_call11.cst_4 (constant S_ .f32 0x7FC00000#32),
    TRef.unary main_call11.cst_4 main_call11.call0.v0 id,
    TRef.unary main_call11.call0.v0 main_call11.call0.v1 (broadcastInDim S1x32 ![] bcast_S_S1x32),
    TRef.ternary main_call11.v13 main_call11.v12 main_call11.call0.v1 main_call11.call0.v2 (fun p a b => select (broadcastInDim S1x32 ![] bcast_S_S1x32 p) a b),
    unary main_v166 main_v168 (broadcastInDim S5000x32 ![0, 1] bcast_S1x32_S5000x32_0_1 : (⟨S1x32, .f32⟩ : BufTy).Contents (Elt F) → (⟨S5000x32, .f32⟩ : BufTy).Contents (Elt F)),
    binary main_v162 main_v168 main_v169 (subf : (⟨S5000x32, .f32⟩ : BufTy).Contents (Elt F) → (⟨S5000x32, .f32⟩ : BufTy).Contents (Elt F) → (⟨S5000x32, .f32⟩ : BufTy).Contents (Elt F)),
    unary main_arg10 main_v170 (broadcastInDim S1x32 ![1] bcast_S32_S1x32_1 : (⟨S32, .f32⟩ : BufTy).Contents (Elt F) → (⟨S1x32, .f32⟩ : BufTy).Contents (Elt F)),
    unary main_v170 main_v171 (broadcastInDim S5000x32 ![0, 1] bcast_S1x32_S5000x32_0_1 : (⟨S1x32, .f32⟩ : BufTy).Contents (Elt F) → (⟨S5000x32, .f32⟩ : BufTy).Contents (Elt F)),
    binary main_v171 main_v169 main_v172 (mulf : (⟨S5000x32, .f32⟩ : BufTy).Contents (Elt F) → (⟨S5000x32, .f32⟩ : BufTy).Contents (Elt F) → (⟨S5000x32, .f32⟩ : BufTy).Contents (Elt F)),
    nullary main_cst_23 (constant S_ .f32 0x3727C5AC#32),
    unary main_cst_23 main_v173 (broadcastInDim S1x32 ![] bcast_S_S1x32 : (⟨S_, .f32⟩ : BufTy).Contents (Elt F) → (⟨S1x32, .f32⟩ : BufTy).Contents (Elt F)),
    binary main_v167 main_v173 main_v174 (addf : (⟨S1x32, .f32⟩ : BufTy).Contents (Elt F) → (⟨S1x32, .f32⟩ : BufTy).Contents (Elt F) → (⟨S1x32, .f32⟩ : BufTy).Contents (Elt F)),
    unary main_v174 main_v175 (Host.sqrt : (⟨S1x32, .f32⟩ : BufTy).Contents (Elt F) → (⟨S1x32, .f32⟩ : BufTy).Contents (Elt F)),
    unary main_v175 main_v176 (broadcastInDim S5000x32 ![0, 1] bcast_S1x32_S5000x32_0_1 : (⟨S1x32, .f32⟩ : BufTy).Contents (Elt F) → (⟨S5000x32, .f32⟩ : BufTy).Contents (Elt F)),
    binary main_v172 main_v176 main_v177 (Host.divf : (⟨S5000x32, .f32⟩ : BufTy).Contents (Elt F) → (⟨S5000x32, .f32⟩ : BufTy).Contents (Elt F) → (⟨S5000x32, .f32⟩ : BufTy).Contents (Elt F)),
    unary main_arg11 main_v178 (broadcastInDim S1x32 ![1] bcast_S32_S1x32_1 : (⟨S32, .f32⟩ : BufTy).Contents (Elt F) → (⟨S1x32, .f32⟩ : BufTy).Contents (Elt F)),
    unary main_v178 main_v179 (broadcastInDim S5000x32 ![0, 1] bcast_S1x32_S5000x32_0_1 : (⟨S1x32, .f32⟩ : BufTy).Contents (Elt F) → (⟨S5000x32, .f32⟩ : BufTy).Contents (Elt F)),
    binary main_v177 main_v179 main_v180 (addf : (⟨S5000x32, .f32⟩ : BufTy).Contents (Elt F) → (⟨S5000x32, .f32⟩ : BufTy).Contents (Elt F) → (⟨S5000x32, .f32⟩ : BufTy).Contents (Elt F)),
    TRef.nullary main_call12.cst (constant S_ .f32 0x00000000#32),
    TRef.unary main_call12.cst main_call12.v0 (broadcastInDim S5000x32 ![] bcast_S_S5000x32),
    TRef.binary (.of main_v180) main_call12.v0 main_call12.v1 maximumf ]

theorem s3a_sub : (s3a : List (HloOp τ sig (Elt F))).Forall fun op => op.bufs ⊆ tcRefs τ sig :=
  ⟨binary_bufs_sub .., unary_bufs_sub .., unary_bufs_sub .., binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem s3a_fresh : (s3a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers these operations write. -/
abbrev s3a_W : List (Ref sig .tc) := [main_v158, main_v159, main_v160, main_v161, main_v162, main_cst_20, main_v163, main_v164, main_cst_21, main_v165, main_v166, main_c_22, main_call11_cst, main_call11_v0, main_call11_v1, main_call11_cst_0, main_call11_v2, main_call11_v3, main_call11_v4, main_call11_v5, main_call11_v6, main_call11_v7, main_call11_cst_1, main_call11_v8, main_call11_cst_2, main_call11_v9, main_call11_v10, main_call11_v11, main_call11_v12, main_call11_cst_3, main_call11_v13, main_call11_cst_4, main_call11_call0_v0, main_call11_call0_v1, main_v167, main_v168, main_v169, main_v170, main_v171, main_v172, main_cst_23, main_v173, main_v174, main_v175, main_v176, main_v177, main_v178, main_v179, main_v180, main_call12_cst, main_call12_v0, main_v181]

theorem s3a_writes : (s3a : List (HloOp τ sig (Elt F))).Forall fun op =>
    op.writes ⊆ (s3a_W.map (Proc.devRef (τ := τ) .tc)).toFinset := by
  simp only [List.Forall]
  exact ⟨(by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide))⟩

/-- The buffer contents after these operations. -/
def s3a_step (V : Valuation τ sig (Elt F)) : Valuation τ sig (Elt F) := after s3a V

/-- A buffer none of them writes keeps its contents. -/
theorem s3a_keep (V : Valuation τ sig (Elt F)) {r : Ref sig .tc} (h : r ∉ s3a_W) :
    s3a_step V (no_index (Proc.devRef .tc r)) = V (Proc.devRef .tc r) :=
  after_of_writes_sub s3a V s3a_writes h

set_option maxHeartbeats 4000000 in
/-- Head 1's output. -/
theorem s3a_v181 (V : Valuation τ sig (Elt F)) :
    s3a_step V (no_index (Proc.devRef .tc main_v181)) = relu32 (bn32 (addf (addf (V (Proc.devRef .tc main_v154)) (V (Proc.devRef .tc main_v157))) (wtd (attCol3 (V (Proc.devRef .tc main_v147))) (V (Proc.devRef .tc main_v117)))) (V (Proc.devRef .tc main_arg10)) (V (Proc.devRef .tc main_arg11))) := by
  unfold s3a_step
  after_results_simp
  rfl

/-- Operations 327 … 370: head 2's projection, channels and first scores. -/
abbrev s3b : List (HloOp τ sig (Elt F)) :=
  [ unary main_arg6 main_v182 ((extractStridedSlice S1x256x32 ![2, 0, 0] · slices_S4x256x32_S1x256x32_2_0_0) : (⟨S4x256x32, .f32⟩ : BufTy).Contents (Elt F) → (⟨S1x256x32, .f32⟩ : BufTy).Contents (Elt F)),
    reshape main_v182 main_v183 rfl shapeCasts_S1x256x32_S256x32,
    unary main_arg7 main_v184 ((extractStridedSlice S1x64x1 ![2, 0, 0] · slices_S4x64x1_S1x64x1_2_0_0) : (⟨S4x64x1, .f32⟩ : BufTy).Contents (Elt F) → (⟨S1x64x1, .f32⟩ : BufTy).Contents (Elt F)),
    reshape main_v184 main_v185 rfl shapeCasts_S1x64x1_S64x1,
    binary main_v17 main_v183 main_v186 ((fun l r => Host.dotGeneral dot_S5000x256_S256x32_S5000x32_1_0_0_1_n_n none l r) : (⟨S5000x256, .f32⟩ : BufTy).Contents (Elt F) → (⟨S256x32, .f32⟩ : BufTy).Contents (Elt F) → (⟨S5000x32, .f32⟩ : BufTy).Contents (Elt F)),
    binary main_arg2 main_v186 main_v187 ((fun l r => Host.dotGeneral dot_S5000x5000_S5000x32_S5000x32_1_0_0_1_n_n none l r) : (⟨S5000x5000, .f32⟩ : BufTy).Contents (Elt F) → (⟨S5000x32, .f32⟩ : BufTy).Contents (Elt F) → (⟨S5000x32, .f32⟩ : BufTy).Contents (Elt F)),
    binary main_arg3 main_v186 main_v188 ((fun l r => Host.dotGeneral dot_S5000x5000_S5000x32_S5000x32_1_0_0_1_n_n none l r) : (⟨S5000x5000, .f32⟩ : BufTy).Contents (Elt F) → (⟨S5000x32, .f32⟩ : BufTy).Contents (Elt F) → (⟨S5000x32, .f32⟩ : BufTy).Contents (Elt F)),
    unary main_v188 main_v189 (Host.absf : (⟨S5000x32, .f32⟩ : BufTy).Contents (Elt F) → (⟨S5000x32, .f32⟩ : BufTy).Contents (Elt F)),
    binary main_v189 main_v189 main_v190 (mulf : (⟨S5000x32, .f32⟩ : BufTy).Contents (Elt F) → (⟨S5000x32, .f32⟩ : BufTy).Contents (Elt F) → (⟨S5000x32, .f32⟩ : BufTy).Contents (Elt F)),
    binary main_v190 main_v190 main_v191 (mulf : (⟨S5000x32, .f32⟩ : BufTy).Contents (Elt F) → (⟨S5000x32, .f32⟩ : BufTy).Contents (Elt F) → (⟨S5000x32, .f32⟩ : BufTy).Contents (Elt F)),
    binary main_arg4 main_v186 main_v192 ((fun l r => Host.dotGeneral dot_S5000x5000_S5000x32_S5000x32_1_0_0_1_n_n none l r) : (⟨S5000x5000, .f32⟩ : BufTy).Contents (Elt F) → (⟨S5000x32, .f32⟩ : BufTy).Contents (Elt F) → (⟨S5000x32, .f32⟩ : BufTy).Contents (Elt F)),
    unary main_v192 main_v193 (Host.absf : (⟨S5000x32, .f32⟩ : BufTy).Contents (Elt F) → (⟨S5000x32, .f32⟩ : BufTy).Contents (Elt F)),
    binary main_v193 main_v193 main_v194 (mulf : (⟨S5000x32, .f32⟩ : BufTy).Contents (Elt F) → (⟨S5000x32, .f32⟩ : BufTy).Contents (Elt F) → (⟨S5000x32, .f32⟩ : BufTy).Contents (Elt F)),
    binary main_v194 main_v194 main_v195 (mulf : (⟨S5000x32, .f32⟩ : BufTy).Contents (Elt F) → (⟨S5000x32, .f32⟩ : BufTy).Contents (Elt F) → (⟨S5000x32, .f32⟩ : BufTy).Contents (Elt F)),
    binary main_arg5 main_v186 main_v196 ((fun l r => Host.dotGeneral dot_S5000x5000_S5000x32_S5000x32_1_0_0_1_n_n none l r) : (⟨S5000x5000, .f32⟩ : BufTy).Contents (Elt F) → (⟨S5000x32, .f32⟩ : BufTy).Contents (Elt F) → (⟨S5000x32, .f32⟩ : BufTy).Contents (Elt F)),
    unary main_v196 main_v197 (Host.absf : (⟨S5000x32, .f32⟩ : BufTy).Contents (Elt F) → (⟨S5000x32, .f32⟩ : BufTy).Contents (Elt F)),
    binary main_v197 main_v197 main_v198 (mulf : (⟨S5000x32, .f32⟩ : BufTy).Contents (Elt F) → (⟨S5000x32, .f32⟩ : BufTy).Contents (Elt F) → (⟨S5000x32, .f32⟩ : BufTy).Contents (Elt F)),
    binary main_v198 main_v198 main_v199 (mulf : (⟨S5000x32, .f32⟩ : BufTy).Contents (Elt F) → (⟨S5000x32, .f32⟩ : BufTy).Contents (Elt F) → (⟨S5000x32, .f32⟩ : BufTy).Contents (Elt F)),
    unary main_v185 main_v200 ((extractStridedSlice S32x1 ![0, 0] · slices_S64x1_S32x1_0_0) : (⟨S64x1, .f32⟩ : BufTy).Contents (Elt F) → (⟨S32x1, .f32⟩ : BufTy).Contents (Elt F)),
    binary main_v186 main_v200 main_v201 ((fun l r => Host.dotGeneral dot_S5000x32_S32x1_S5000x1_1_0_0_1_n_n none l r) : (⟨S5000x32, .f32⟩ : BufTy).Contents (Elt F) → (⟨S32x1, .f32⟩ : BufTy).Contents (Elt F) → (⟨S5000x1, .f32⟩ : BufTy).Contents (Elt F)),
    unary main_v185 main_v202 ((extractStridedSlice S32x1 ![32, 0] · slices_S64x1_S32x1_32_0) : (⟨S64x1, .f32⟩ : BufTy).Contents (Elt F) → (⟨S32x1, .f32⟩ : BufTy).Contents (Elt F)),
    binary main_v187 main_v202 main_v203 ((fun l r => Host.dotGeneral dot_S5000x32_S32x1_S5000x1_1_0_0_1_n_n none l r) : (⟨S5000x32, .f32⟩ : BufTy).Contents (Elt F) → (⟨S32x1, .f32⟩ : BufTy).Contents (Elt F) → (⟨S5000x1, .f32⟩ : BufTy).Contents (Elt F)),
    binary main_v201 main_v203 main_v204 (addf : (⟨S5000x1, .f32⟩ : BufTy).Contents (Elt F) → (⟨S5000x1, .f32⟩ : BufTy).Contents (Elt F) → (⟨S5000x1, .f32⟩ : BufTy).Contents (Elt F)),
    nullary main_cst_24 (constant S_ .f32 0x3E4CCCCD#32),
    TRef.nullary main_call13.cst (constant S_ .f32 0x00000000#32),
    TRef.unary main_call13.cst main_call13.v0 (broadcastInDim S5000x1 ![] bcast_S_S5000x1),
    TRef.binary (.of main_v204) main_call13.v0 main_call13.v1 (cmpf .oge),
    TRef.unary (.of main_cst_24) main_call13.v2 id,
    TRef.unary main_call13.v2 main_call13.v3 (broadcastInDim S5000x1 ![] bcast_S_S5000x1),
    TRef.binary main_call13.v3 (.of main_v204) main_call13.v4 mulf,
    TRef.ternary main_call13.v1 (.of main_v204) main_call13.v4 main_call13.call0.v0 select,
    unary main_v185 main_v206 ((extractStridedSlice S32x1 ![32, 0] · slices_S64x1_S32x1_32_0) : (⟨S64x1, .f32⟩ : BufTy).Contents (Elt F) → (⟨S32x1, .f32⟩ : BufTy).Contents (Elt F)),
    binary main_v191 main_v206 main_v207 ((fun l r => Host.dotGeneral dot_S5000x32_S32x1_S5000x1_1_0_0_1_n_n none l r) : (⟨S5000x32, .f32⟩ : BufTy).Contents (Elt F) → (⟨S32x1, .f32⟩ : BufTy).Contents (Elt F) → (⟨S5000x1, .f32⟩ : BufTy).Contents (Elt F)),
    binary main_v201 main_v207 main_v208 (addf : (⟨S5000x1, .f32⟩ : BufTy).Contents (Elt F) → (⟨S5000x1, .f32⟩ : BufTy).Contents (Elt F) → (⟨S5000x1, .f32⟩ : BufTy).Contents (Elt F)),
    nullary main_cst_25 (constant S_ .f32 0x3E4CCCCD#32),
    TRef.nullary main_call14.cst (constant S_ .f32 0x00000000#32),
    TRef.unary main_call14.cst main_call14.v0 (broadcastInDim S5000x1 ![] bcast_S_S5000x1),
    TRef.binary (.of main_v208) main_call14.v0 main_call14.v1 (cmpf .oge),
    TRef.unary (.of main_cst_25) main_call14.v2 id,
    TRef.unary main_call14.v2 main_call14.v3 (broadcastInDim S5000x1 ![] bcast_S_S5000x1),
    TRef.binary main_call14.v3 (.of main_v208) main_call14.v4 mulf,
    TRef.ternary main_call14.v1 (.of main_v208) main_call14.v4 main_call14.call0.v0 select,
    unary main_v185 main_v210 ((extractStridedSlice S32x1 ![32, 0] · slices_S64x1_S32x1_32_0) : (⟨S64x1, .f32⟩ : BufTy).Contents (Elt F) → (⟨S32x1, .f32⟩ : BufTy).Contents (Elt F)),
    binary main_v195 main_v210 main_v211 ((fun l r => Host.dotGeneral dot_S5000x32_S32x1_S5000x1_1_0_0_1_n_n none l r) : (⟨S5000x32, .f32⟩ : BufTy).Contents (Elt F) → (⟨S32x1, .f32⟩ : BufTy).Contents (Elt F) → (⟨S5000x1, .f32⟩ : BufTy).Contents (Elt F)) ]

theorem s3b_sub : (s3b : List (HloOp τ sig (Elt F))).Forall fun op => op.bufs ⊆ tcRefs τ sig :=
  ⟨unary_bufs_sub .., reshape_bufs_sub .., unary_bufs_sub .., reshape_bufs_sub .., binary_bufs_sub .., binary_bufs_sub .., binary_bufs_sub .., unary_bufs_sub .., binary_bufs_sub .., binary_bufs_sub .., binary_bufs_sub .., unary_bufs_sub .., binary_bufs_sub .., binary_bufs_sub .., binary_bufs_sub .., unary_bufs_sub .., binary_bufs_sub .., binary_bufs_sub .., unary_bufs_sub .., binary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub ..⟩

theorem s3b_fresh : (s3b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers these operations write. -/
abbrev s3b_W : List (Ref sig .tc) := [main_v182, main_v183, main_v184, main_v185, main_v186, main_v187, main_v188, main_v189, main_v190, main_v191, main_v192, main_v193, main_v194, main_v195, main_v196, main_v197, main_v198, main_v199, main_v200, main_v201, main_v202, main_v203, main_v204, main_cst_24, main_call13_cst, main_call13_v0, main_call13_v1, main_call13_v2, main_call13_v3, main_call13_v4, main_v205, main_v206, main_v207, main_v208, main_cst_25, main_call14_cst, main_call14_v0, main_call14_v1, main_call14_v2, main_call14_v3, main_call14_v4, main_v209, main_v210, main_v211]

theorem s3b_writes : (s3b : List (HloOp τ sig (Elt F))).Forall fun op =>
    op.writes ⊆ (s3b_W.map (Proc.devRef (τ := τ) .tc)).toFinset := by
  simp only [List.Forall]
  exact ⟨(by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide))⟩

/-- The buffer contents after these operations. -/
def s3b_step (V : Valuation τ sig (Elt F)) : Valuation τ sig (Elt F) := after s3b V

/-- A buffer none of them writes keeps its contents. -/
theorem s3b_keep (V : Valuation τ sig (Elt F)) {r : Ref sig .tc} (h : r ∉ s3b_W) :
    s3b_step V (no_index (Proc.devRef .tc r)) = V (Proc.devRef .tc r) :=
  after_of_writes_sub s3b V s3b_writes h

set_option maxHeartbeats 4000000 in
/-- Head 2's attention vector. -/
theorem s3b_v185 (V : Valuation τ sig (Elt F)) :
    s3b_step V (no_index (Proc.devRef .tc main_v185)) = aSlice2 (V (Proc.devRef .tc main_arg7)) := by
  unfold s3b_step
  after_results_simp
  rfl

set_option maxHeartbeats 4000000 in
/-- Head 2's low-pass channel. -/
theorem s3b_v187 (V : Valuation τ sig (Elt F)) :
    s3b_step V (no_index (Proc.devRef .tc main_v187)) = (prop (V (Proc.devRef .tc main_arg2)) (proj (V (Proc.devRef .tc main_v17)) (wSlice2 (V (Proc.devRef .tc main_arg6))))) := by
  unfold s3b_step
  after_results_simp
  rfl

set_option maxHeartbeats 4000000 in
/-- Head 2's first band-pass channel. -/
theorem s3b_v191 (V : Valuation τ sig (Elt F)) :
    s3b_step V (no_index (Proc.devRef .tc main_v191)) = (band (V (Proc.devRef .tc main_arg3)) (proj (V (Proc.devRef .tc main_v17)) (wSlice2 (V (Proc.devRef .tc main_arg6))))) := by
  unfold s3b_step
  after_results_simp
  rfl

set_option maxHeartbeats 4000000 in
/-- Head 2's second band-pass channel. -/
theorem s3b_v195 (V : Valuation τ sig (Elt F)) :
    s3b_step V (no_index (Proc.devRef .tc main_v195)) = (band (V (Proc.devRef .tc main_arg4)) (proj (V (Proc.devRef .tc main_v17)) (wSlice2 (V (Proc.devRef .tc main_arg6))))) := by
  unfold s3b_step
  after_results_simp
  rfl

set_option maxHeartbeats 4000000 in
/-- Head 2's third band-pass channel. -/
theorem s3b_v199 (V : Valuation τ sig (Elt F)) :
    s3b_step V (no_index (Proc.devRef .tc main_v199)) = (band (V (Proc.devRef .tc main_arg5)) (proj (V (Proc.devRef .tc main_v17)) (wSlice2 (V (Proc.devRef .tc main_arg6))))) := by
  unfold s3b_step
  after_results_simp
  rfl

set_option maxHeartbeats 4000000 in
/-- Head 2's self term. -/
theorem s3b_v201 (V : Valuation τ sig (Elt F)) :
    s3b_step V (no_index (Proc.devRef .tc main_v201)) = eSelf (proj (V (Proc.devRef .tc main_v17)) (wSlice2 (V (Proc.devRef .tc main_arg6)))) (aSlice2 (V (Proc.devRef .tc main_arg7))) := by
  unfold s3b_step
  after_results_simp
  rfl

set_option maxHeartbeats 4000000 in
/-- Head 2's low-pass score. -/
theorem s3b_v205 (V : Valuation τ sig (Elt F)) :
    s3b_step V (no_index (Proc.devRef .tc main_v205)) = score (eSelf (proj (V (Proc.devRef .tc main_v17)) (wSlice2 (V (Proc.devRef .tc main_arg6)))) (aSlice2 (V (Proc.devRef .tc main_arg7)))) (prop (V (Proc.devRef .tc main_arg2)) (proj (V (Proc.devRef .tc main_v17)) (wSlice2 (V (Proc.devRef .tc main_arg6))))) (aSlice2 (V (Proc.devRef .tc main_arg7))) := by
  unfold s3b_step
  after_results_simp
  rfl

set_option maxHeartbeats 4000000 in
/-- Head 2's first band-pass score. -/
theorem s3b_v209 (V : Valuation τ sig (Elt F)) :
    s3b_step V (no_index (Proc.devRef .tc main_v209)) = score (eSelf (proj (V (Proc.devRef .tc main_v17)) (wSlice2 (V (Proc.devRef .tc main_arg6)))) (aSlice2 (V (Proc.devRef .tc main_arg7)))) (band (V (Proc.devRef .tc main_arg3)) (proj (V (Proc.devRef .tc main_v17)) (wSlice2 (V (Proc.devRef .tc main_arg6))))) (aSlice2 (V (Proc.devRef .tc main_arg7))) := by
  unfold s3b_step
  after_results_simp
  rfl

set_option maxHeartbeats 4000000 in
/-- The channel term of head 2's second band-pass score. -/
theorem s3b_v211 (V : Valuation τ sig (Elt F)) :
    s3b_step V (no_index (Proc.devRef .tc main_v211)) = dotA (band (V (Proc.devRef .tc main_arg4)) (proj (V (Proc.devRef .tc main_v17)) (wSlice2 (V (Proc.devRef .tc main_arg6))))) (aNbr (aSlice2 (V (Proc.devRef .tc main_arg7)))) := by
  unfold s3b_step
  after_results_simp
  rfl

set_option maxHeartbeats 4000000 in
/-- The window is that straight line: the functions' definitions unfolded at their calls, the records at their fields,
    and sequencing reassociated. -/
theorem main_part3_eq (c : Dev nD) : main_part3 (F := F) c = seq (s3a ++ s3b) := by
  simp only [main_part3, fn_where.body, fn_var.body, fn_where_0.body, fn_leaky_relu.body, fn_where_2.body, fn_var_1.body, fn_relu.body, fn_log_softmax.body, s3a, s3b, List.cons_append, List.nil_append, seq, bind_assoc, pure_bind]
  rfl

end Cert.ReferenceIdeal.HandRun

end
-- ==== Proof.RefRun.Ops4.lean ====
import proofs.«113748_g69337952026834_cont_sun_c4_16_16_alg».proof.Proof.RefRun.Stages

noncomputable section

namespace Cert.ReferenceIdeal.HandRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-! # @main's statements of window 4, the calls unfolded, and what they leave in the buffers read later -/

set_option Elab.async false

/-- Operations 371 … 464: head 2's last two scores, attention weights, mix and batch normalisation. -/
abbrev s4 : List (HloOp τ sig (Elt F)) :=
  [ binary main_v201 main_v211 main_v212 (addf : (⟨S5000x1, .f32⟩ : BufTy).Contents (Elt F) → (⟨S5000x1, .f32⟩ : BufTy).Contents (Elt F) → (⟨S5000x1, .f32⟩ : BufTy).Contents (Elt F)),
    nullary main_cst_26 (constant S_ .f32 0x3E4CCCCD#32),
    TRef.nullary main_call15.cst (constant S_ .f32 0x00000000#32),
    TRef.unary main_call15.cst main_call15.v0 (broadcastInDim S5000x1 ![] bcast_S_S5000x1),
    TRef.binary (.of main_v212) main_call15.v0 main_call15.v1 (cmpf .oge),
    TRef.unary (.of main_cst_26) main_call15.v2 id,
    TRef.unary main_call15.v2 main_call15.v3 (broadcastInDim S5000x1 ![] bcast_S_S5000x1),
    TRef.binary main_call15.v3 (.of main_v212) main_call15.v4 mulf,
    TRef.ternary main_call15.v1 (.of main_v212) main_call15.v4 main_call15.call0.v0 select,
    unary main_v185 main_v214 ((extractStridedSlice S32x1 ![32, 0] · slices_S64x1_S32x1_32_0) : (⟨S64x1, .f32⟩ : BufTy).Contents (Elt F) → (⟨S32x1, .f32⟩ : BufTy).Contents (Elt F)),
    binary main_v199 main_v214 main_v215 ((fun l r => Host.dotGeneral dot_S5000x32_S32x1_S5000x1_1_0_0_1_n_n none l r) : (⟨S5000x32, .f32⟩ : BufTy).Contents (Elt F) → (⟨S32x1, .f32⟩ : BufTy).Contents (Elt F) → (⟨S5000x1, .f32⟩ : BufTy).Contents (Elt F)),
    binary main_v201 main_v215 main_v216 (addf : (⟨S5000x1, .f32⟩ : BufTy).Contents (Elt F) → (⟨S5000x1, .f32⟩ : BufTy).Contents (Elt F) → (⟨S5000x1, .f32⟩ : BufTy).Contents (Elt F)),
    nullary main_cst_27 (constant S_ .f32 0x3E4CCCCD#32),
    TRef.nullary main_call16.cst (constant S_ .f32 0x00000000#32),
    TRef.unary main_call16.cst main_call16.v0 (broadcastInDim S5000x1 ![] bcast_S_S5000x1),
    TRef.binary (.of main_v216) main_call16.v0 main_call16.v1 (cmpf .oge),
    TRef.unary (.of main_cst_27) main_call16.v2 id,
    TRef.unary main_call16.v2 main_call16.v3 (broadcastInDim S5000x1 ![] bcast_S_S5000x1),
    TRef.binary main_call16.v3 (.of main_v216) main_call16.v4 mulf,
    TRef.ternary main_call16.v1 (.of main_v216) main_call16.v4 main_call16.call0.v0 select,
    nary ![main_v205, main_v209, main_v213, main_v217] main_v218 (fun u => concatenate S5000x4 1 [⟨S5000x1, u 0⟩, ⟨S5000x1, u 1⟩, ⟨S5000x1, u 2⟩, ⟨S5000x1, u 3⟩] concatenates_S5000x1_S5000x1_S5000x1_S5000x1_S5000x4_d1),
    nullary main_cst_28 (constant S_ .f32 0xFF800000#32),
    binary main_v218 main_cst_28 main_v219 ((fun x v => Host.reduce FloatOps.maximumf x v reducesTo_S5000x4_S5000_d1 h_S_) : (⟨S5000x4, .f32⟩ : BufTy).Contents (Elt F) → (⟨S_, .f32⟩ : BufTy).Contents (Elt F) → (⟨S5000, .f32⟩ : BufTy).Contents (Elt F)),
    nullary main_cst_29 (constant S_ .f32 0xFF800000#32),
    unary main_cst_29 main_v220 (broadcastInDim S5000 ![] bcast_S_S5000 : (⟨S_, .f32⟩ : BufTy).Contents (Elt F) → (⟨S5000, .f32⟩ : BufTy).Contents (Elt F)),
    binary main_v220 main_v219 main_v221 (maximumf : (⟨S5000, .f32⟩ : BufTy).Contents (Elt F) → (⟨S5000, .f32⟩ : BufTy).Contents (Elt F) → (⟨S5000, .f32⟩ : BufTy).Contents (Elt F)),
    unary main_v221 main_v222 (broadcastInDim S5000x1 ![0] bcast_S5000_S5000x1_0 : (⟨S5000, .f32⟩ : BufTy).Contents (Elt F) → (⟨S5000x1, .f32⟩ : BufTy).Contents (Elt F)),
    unary main_v222 main_v223 (broadcastInDim S5000x4 ![0, 1] bcast_S5000x1_S5000x4_0_1 : (⟨S5000x1, .f32⟩ : BufTy).Contents (Elt F) → (⟨S5000x4, .f32⟩ : BufTy).Contents (Elt F)),
    binary main_v218 main_v223 main_v224 (subf : (⟨S5000x4, .f32⟩ : BufTy).Contents (Elt F) → (⟨S5000x4, .f32⟩ : BufTy).Contents (Elt F) → (⟨S5000x4, .f32⟩ : BufTy).Contents (Elt F)),
    unary main_v224 main_v225 (Host.exp : (⟨S5000x4, .f32⟩ : BufTy).Contents (Elt F) → (⟨S5000x4, .f32⟩ : BufTy).Contents (Elt F)),
    nullary main_cst_30 (constant S_ .f32 0x00000000#32),
    binary main_v225 main_cst_30 main_v226 ((fun x v => Host.reduceAdd x v reducesTo_S5000x4_S5000_d1 h_S_) : (⟨S5000x4, .f32⟩ : BufTy).Contents (Elt F) → (⟨S_, .f32⟩ : BufTy).Contents (Elt F) → (⟨S5000, .f32⟩ : BufTy).Contents (Elt F)),
    unary main_v226 main_v227 (broadcastInDim S5000x1 ![0] bcast_S5000_S5000x1_0 : (⟨S5000, .f32⟩ : BufTy).Contents (Elt F) → (⟨S5000x1, .f32⟩ : BufTy).Contents (Elt F)),
    unary main_v227 main_v228 (broadcastInDim S5000x4 ![0, 1] bcast_S5000x1_S5000x4_0_1 : (⟨S5000x1, .f32⟩ : BufTy).Contents (Elt F) → (⟨S5000x4, .f32⟩ : BufTy).Contents (Elt F)),
    binary main_v225 main_v228 main_v229 (Host.divf : (⟨S5000x4, .f32⟩ : BufTy).Contents (Elt F) → (⟨S5000x4, .f32⟩ : BufTy).Contents (Elt F) → (⟨S5000x4, .f32⟩ : BufTy).Contents (Elt F)),
    unary main_v229 main_v230 ((extractStridedSlice S5000x1 ![0, 0] · slices_S5000x4_S5000x1_0_0) : (⟨S5000x4, .f32⟩ : BufTy).Contents (Elt F) → (⟨S5000x1, .f32⟩ : BufTy).Contents (Elt F)),
    unary main_v230 main_v231 (broadcastInDim S5000x32 ![0, 1] bcast_S5000x1_S5000x32_0_1 : (⟨S5000x1, .f32⟩ : BufTy).Contents (Elt F) → (⟨S5000x32, .f32⟩ : BufTy).Contents (Elt F)),
    binary main_v231 main_v187 main_v232 (mulf : (⟨S5000x32, .f32⟩ : BufTy).Contents (Elt F) → (⟨S5000x32, .f32⟩ : BufTy).Contents (Elt F) → (⟨S5000x32, .f32⟩ : BufTy).Contents (Elt F)),
    unary main_v229 main_v233 ((extractStridedSlice S5000x1 ![0, 1] · slices_S5000x4_S5000x1_0_1) : (⟨S5000x4, .f32⟩ : BufTy).Contents (Elt F) → (⟨S5000x1, .f32⟩ : BufTy).Contents (Elt F)),
    unary main_v233 main_v234 (broadcastInDim S5000x32 ![0, 1] bcast_S5000x1_S5000x32_0_1 : (⟨S5000x1, .f32⟩ : BufTy).Contents (Elt F) → (⟨S5000x32, .f32⟩ : BufTy).Contents (Elt F)),
    binary main_v234 main_v191 main_v235 (mulf : (⟨S5000x32, .f32⟩ : BufTy).Contents (Elt F) → (⟨S5000x32, .f32⟩ : BufTy).Contents (Elt F) → (⟨S5000x32, .f32⟩ : BufTy).Contents (Elt F)),
    binary main_v232 main_v235 main_v236 (addf : (⟨S5000x32, .f32⟩ : BufTy).Contents (Elt F) → (⟨S5000x32, .f32⟩ : BufTy).Contents (Elt F) → (⟨S5000x32, .f32⟩ : BufTy).Contents (Elt F)),
    unary main_v229 main_v237 ((extractStridedSlice S5000x1 ![0, 2] · slices_S5000x4_S5000x1_0_2) : (⟨S5000x4, .f32⟩ : BufTy).Contents (Elt F) → (⟨S5000x1, .f32⟩ : BufTy).Contents (Elt F)),
    unary main_v237 main_v238 (broadcastInDim S5000x32 ![0, 1] bcast_S5000x1_S5000x32_0_1 : (⟨S5000x1, .f32⟩ : BufTy).Contents (Elt F) → (⟨S5000x32, .f32⟩ : BufTy).Contents (Elt F)),
    binary main_v238 main_v195 main_v239 (mulf : (⟨S5000x32, .f32⟩ : BufTy).Contents (Elt F) → (⟨S5000x32, .f32⟩ : BufTy).Contents (Elt F) → (⟨S5000x32, .f32⟩ : BufTy).Contents (Elt F)),
    binary main_v236 main_v239 main_v240 (addf : (⟨S5000x32, .f32⟩ : BufTy).Contents (Elt F) → (⟨S5000x32, .f32⟩ : BufTy).Contents (Elt F) → (⟨S5000x32, .f32⟩ : BufTy).Contents (Elt F)),
    unary main_v229 main_v241 ((extractStridedSlice S5000x1 ![0, 3] · slices_S5000x4_S5000x1_0_3) : (⟨S5000x4, .f32⟩ : BufTy).Contents (Elt F) → (⟨S5000x1, .f32⟩ : BufTy).Contents (Elt F)),
    unary main_v241 main_v242 (broadcastInDim S5000x32 ![0, 1] bcast_S5000x1_S5000x32_0_1 : (⟨S5000x1, .f32⟩ : BufTy).Contents (Elt F) → (⟨S5000x32, .f32⟩ : BufTy).Contents (Elt F)),
    binary main_v242 main_v199 main_v243 (mulf : (⟨S5000x32, .f32⟩ : BufTy).Contents (Elt F) → (⟨S5000x32, .f32⟩ : BufTy).Contents (Elt F) → (⟨S5000x32, .f32⟩ : BufTy).Contents (Elt F)),
    binary main_v240 main_v243 main_v244 (addf : (⟨S5000x32, .f32⟩ : BufTy).Contents (Elt F) → (⟨S5000x32, .f32⟩ : BufTy).Contents (Elt F) → (⟨S5000x32, .f32⟩ : BufTy).Contents (Elt F)),
    nullary main_cst_31 (constant S_ .f32 0x00000000#32),
    binary main_v244 main_cst_31 main_v245 ((fun x v => Host.reduceAdd x v reducesTo_S5000x32_S32_d0 h_S_) : (⟨S5000x32, .f32⟩ : BufTy).Contents (Elt F) → (⟨S_, .f32⟩ : BufTy).Contents (Elt F) → (⟨S32, .f32⟩ : BufTy).Contents (Elt F)),
    unary main_v245 main_v246 (broadcastInDim S1x32 ![1] bcast_S32_S1x32_1 : (⟨S32, .f32⟩ : BufTy).Contents (Elt F) → (⟨S1x32, .f32⟩ : BufTy).Contents (Elt F)),
    nullary main_cst_32 (constant S_ .f32 0x459C4000#32),
    unary main_cst_32 main_v247 (broadcastInDim S1x32 ![] bcast_S_S1x32 : (⟨S_, .f32⟩ : BufTy).Contents (Elt F) → (⟨S1x32, .f32⟩ : BufTy).Contents (Elt F)),
    binary main_v246 main_v247 main_v248 (Host.divf : (⟨S1x32, .f32⟩ : BufTy).Contents (Elt F) → (⟨S1x32, .f32⟩ : BufTy).Contents (Elt F) → (⟨S1x32, .f32⟩ : BufTy).Contents (Elt F)),
    nullary main_c_33 (constantI S_ 32 0#32),
    TRef.nullary main_call17.cst (constant S_ .f32 0x00000000#32),
    TRef.binary (.of main_v244) main_call17.cst main_call17.v0 (fun x v => Host.reduceAdd x v reducesTo_S5000x32_S32_d0 h_S_),
    TRef.unary main_call17.v0 main_call17.v1 (broadcastInDim S1x32 ![1] bcast_S32_S1x32_1),
    TRef.nullary main_call17.cst_0 (constant S_ .f32 0x459C4000#32),
    TRef.unary main_call17.cst_0 main_call17.v2 (broadcastInDim S1x32 ![] bcast_S_S1x32),
    TRef.binary main_call17.v1 main_call17.v2 main_call17.v3 Host.divf,
    TRef.unary main_call17.v3 main_call17.v4 (broadcastInDim S5000x32 ![0, 1] bcast_S1x32_S5000x32_0_1),
    TRef.binary (.of main_v244) main_call17.v4 main_call17.v5 subf,
    TRef.binary main_call17.v5 main_call17.v5 main_call17.v6 mulf,
    TRef.unary (.of main_c_33) main_call17.v7 (sitofp .f32),
    TRef.nullary main_call17.cst_1 (constant S_ .f32 0x459C4000#32),
    TRef.binary main_call17.cst_1 main_call17.v7 main_call17.v8 subf,
    TRef.nullary main_call17.cst_2 (constant S_ .f32 0x00000000#32),
    TRef.binary main_call17.v6 main_call17.cst_2 main_call17.v9 (fun x v => Host.reduceAdd x v reducesTo_S5000x32_S32_d0 h_S_),
    TRef.unary main_call17.v9 main_call17.v10 (broadcastInDim S1x32 ![1] bcast_S32_S1x32_1),
    TRef.unary main_call17.v8 main_call17.v11 (broadcastInDim S1x32 ![] bcast_S_S1x32),
    TRef.binary main_call17.v10 main_call17.v11 main_call17.v12 Host.divf,
    TRef.nullary main_call17.cst_3 (constant S_ .f32 0x00000000#32),
    TRef.binary main_call17.v8 main_call17.cst_3 main_call17.v13 (cmpf .ogt),
    TRef.nullary main_call17.cst_4 (constant S_ .f32 0x7FC00000#32),
    TRef.unary main_call17.cst_4 main_call17.call0.v0 id,
    TRef.unary main_call17.call0.v0 main_call17.call0.v1 (broadcastInDim S1x32 ![] bcast_S_S1x32),
    TRef.ternary main_call17.v13 main_call17.v12 main_call17.call0.v1 main_call17.call0.v2 (fun p a b => select (broadcastInDim S1x32 ![] bcast_S_S1x32 p) a b),
    unary main_v248 main_v250 (broadcastInDim S5000x32 ![0, 1] bcast_S1x32_S5000x32_0_1 : (⟨S1x32, .f32⟩ : BufTy).Contents (Elt F) → (⟨S5000x32, .f32⟩ : BufTy).Contents (Elt F)),
    binary main_v244 main_v250 main_v251 (subf : (⟨S5000x32, .f32⟩ : BufTy).Contents (Elt F) → (⟨S5000x32, .f32⟩ : BufTy).Contents (Elt F) → (⟨S5000x32, .f32⟩ : BufTy).Contents (Elt F)),
    unary main_arg10 main_v252 (broadcastInDim S1x32 ![1] bcast_S32_S1x32_1 : (⟨S32, .f32⟩ : BufTy).Contents (Elt F) → (⟨S1x32, .f32⟩ : BufTy).Contents (Elt F)),
    unary main_v252 main_v253 (broadcastInDim S5000x32 ![0, 1] bcast_S1x32_S5000x32_0_1 : (⟨S1x32, .f32⟩ : BufTy).Contents (Elt F) → (⟨S5000x32, .f32⟩ : BufTy).Contents (Elt F)),
    binary main_v253 main_v251 main_v254 (mulf : (⟨S5000x32, .f32⟩ : BufTy).Contents (Elt F) → (⟨S5000x32, .f32⟩ : BufTy).Contents (Elt F) → (⟨S5000x32, .f32⟩ : BufTy).Contents (Elt F)),
    nullary main_cst_34 (constant S_ .f32 0x3727C5AC#32),
    unary main_cst_34 main_v255 (broadcastInDim S1x32 ![] bcast_S_S1x32 : (⟨S_, .f32⟩ : BufTy).Contents (Elt F) → (⟨S1x32, .f32⟩ : BufTy).Contents (Elt F)),
    binary main_v249 main_v255 main_v256 (addf : (⟨S1x32, .f32⟩ : BufTy).Contents (Elt F) → (⟨S1x32, .f32⟩ : BufTy).Contents (Elt F) → (⟨S1x32, .f32⟩ : BufTy).Contents (Elt F)),
    unary main_v256 main_v257 (Host.sqrt : (⟨S1x32, .f32⟩ : BufTy).Contents (Elt F) → (⟨S1x32, .f32⟩ : BufTy).Contents (Elt F)),
    unary main_v257 main_v258 (broadcastInDim S5000x32 ![0, 1] bcast_S1x32_S5000x32_0_1 : (⟨S1x32, .f32⟩ : BufTy).Contents (Elt F) → (⟨S5000x32, .f32⟩ : BufTy).Contents (Elt F)),
    binary main_v254 main_v258 main_v259 (Host.divf : (⟨S5000x32, .f32⟩ : BufTy).Contents (Elt F) → (⟨S5000x32, .f32⟩ : BufTy).Contents (Elt F) → (⟨S5000x32, .f32⟩ : BufTy).Contents (Elt F)),
    unary main_arg11 main_v260 (broadcastInDim S1x32 ![1] bcast_S32_S1x32_1 : (⟨S32, .f32⟩ : BufTy).Contents (Elt F) → (⟨S1x32, .f32⟩ : BufTy).Contents (Elt F)),
    unary main_v260 main_v261 (broadcastInDim S5000x32 ![0, 1] bcast_S1x32_S5000x32_0_1 : (⟨S1x32, .f32⟩ : BufTy).Contents (Elt F) → (⟨S5000x32, .f32⟩ : BufTy).Contents (Elt F)),
    binary main_v259 main_v261 main_v262 (addf : (⟨S5000x32, .f32⟩ : BufTy).Contents (Elt F) → (⟨S5000x32, .f32⟩ : BufTy).Contents (Elt F) → (⟨S5000x32, .f32⟩ : BufTy).Contents (Elt F)) ]

theorem s4_sub : (s4 : List (HloOp τ sig (Elt F))).Forall fun op => op.bufs ⊆ tcRefs τ sig :=
  ⟨binary_bufs_sub .., nullary_bufs_sub .., nullary_bufs_sub .., unary_bufs_sub .., binary_bufs_sub .., unary_bufs_sub .., unary_bufs_sub .., binary_bufs_sub .., ternary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., nary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩

theorem s4_fresh : (s4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers these operations write. -/
abbrev s4_W : List (Ref sig .tc) := [main_v212, main_cst_26, main_call15_cst, main_call15_v0, main_call15_v1, main_call15_v2, main_call15_v3, main_call15_v4, main_v213, main_v214, main_v215, main_v216, main_cst_27, main_call16_cst, main_call16_v0, main_call16_v1, main_call16_v2, main_call16_v3, main_call16_v4, main_v217, main_v218, main_cst_28, main_v219, main_cst_29, main_v220, main_v221, main_v222, main_v223, main_v224, main_v225, main_cst_30, main_v226, main_v227, main_v228, main_v229, main_v230, main_v231, main_v232, main_v233, main_v234, main_v235, main_v236, main_v237, main_v238, main_v239, main_v240, main_v241, main_v242, main_v243, main_v244, main_cst_31, main_v245, main_v246, main_cst_32, main_v247, main_v248, main_c_33, main_call17_cst, main_call17_v0, main_call17_v1, main_call17_cst_0, main_call17_v2, main_call17_v3, main_call17_v4, main_call17_v5, main_call17_v6, main_call17_v7, main_call17_cst_1, main_call17_v8, main_call17_cst_2, main_call17_v9, main_call17_v10, main_call17_v11, main_call17_v12, main_call17_cst_3, main_call17_v13, main_call17_cst_4, main_call17_call0_v0, main_call17_call0_v1, main_v249, main_v250, main_v251, main_v252, main_v253, main_v254, main_cst_34, main_v255, main_v256, main_v257, main_v258, main_v259, main_v260, main_v261, main_v262]

theorem s4_writes : (s4 : List (HloOp τ sig (Elt F))).Forall fun op =>
    op.writes ⊆ (s4_W.map (Proc.devRef (τ := τ) .tc)).toFinset := by
  simp only [List.Forall]
  exact ⟨(by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide))⟩

/-- The buffer contents after these operations. -/
def s4_step (V : Valuation τ sig (Elt F)) : Valuation τ sig (Elt F) := after s4 V

/-- A buffer none of them writes keeps its contents. -/
theorem s4_keep (V : Valuation τ sig (Elt F)) {r : Ref sig .tc} (h : r ∉ s4_W) :
    s4_step V (no_index (Proc.devRef .tc r)) = V (Proc.devRef .tc r) :=
  after_of_writes_sub s4 V s4_writes h

set_option maxHeartbeats 4000000 in
/-- Head 2's normalised mix. -/
theorem s4_v262 (V : Valuation τ sig (Elt F)) :
    s4_step V (no_index (Proc.devRef .tc main_v262)) = bn32 (mix (softmax4 (cat4 (V (Proc.devRef .tc main_v205)) (V (Proc.devRef .tc main_v209)) (leaky (addf (V (Proc.devRef .tc main_v201)) (V (Proc.devRef .tc main_v211)))) (score (V (Proc.devRef .tc main_v201)) (V (Proc.devRef .tc main_v199)) (V (Proc.devRef .tc main_v185))))) (V (Proc.devRef .tc main_v187)) (V (Proc.devRef .tc main_v191)) (V (Proc.devRef .tc main_v195)) (V (Proc.devRef .tc main_v199))) (V (Proc.devRef .tc main_arg10)) (V (Proc.devRef .tc main_arg11)) := by
  unfold s4_step
  after_results_simp
  rfl

set_option maxHeartbeats 4000000 in
/-- The window is that straight line: the functions' definitions unfolded at their calls, the records at their fields,
    and sequencing reassociated. -/
theorem main_part4_eq (c : Dev nD) : main_part4 (F := F) c = seq (s4) := by
  simp only [main_part4, fn_where.body, fn_var.body, fn_where_0.body, fn_leaky_relu.body, fn_where_2.body, fn_var_1.body, fn_relu.body, fn_log_softmax.body, s4, List.cons_append, List.nil_append, seq, bind_assoc, pure_bind]
  rfl

end Cert.ReferenceIdeal.HandRun

end
-- ==== Proof.RefRun.Ops5.lean ====
import proofs.«113748_g69337952026834_cont_sun_c4_16_16_alg».proof.Proof.RefRun.Stages

noncomputable section

namespace Cert.ReferenceIdeal.HandRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-! # @main's statements of window 5, the calls unfolded, and what they leave in the buffers read later -/

set_option Elab.async false

/-- Operations 465 … 467: head 2's ReLU. -/
abbrev s5a : List (HloOp τ sig (Elt F)) :=
  [ TRef.nullary main_call18.cst (constant S_ .f32 0x00000000#32),
    TRef.unary main_call18.cst main_call18.v0 (broadcastInDim S5000x32 ![] bcast_S_S5000x32),
    TRef.binary (.of main_v262) main_call18.v0 main_call18.v1 maximumf ]

theorem s5a_sub : (s5a : List (HloOp τ sig (Elt F))).Forall fun op => op.bufs ⊆ tcRefs τ sig :=
  ⟨nullary_bufs_sub .., unary_bufs_sub .., binary_bufs_sub ..⟩

theorem s5a_fresh : (s5a : List (HloOp τ sig (Elt F))).Forall fun op => op.fresh = ∅ :=
  ⟨rfl, rfl, rfl⟩

/-- The buffers these operations write. -/
abbrev s5a_W : List (Ref sig .tc) := [main_call18_cst, main_call18_v0, main_v263]

theorem s5a_writes : (s5a : List (HloOp τ sig (Elt F))).Forall fun op =>
    op.writes ⊆ (s5a_W.map (Proc.devRef (τ := τ) .tc)).toFinset := by
  simp only [List.Forall]
  exact ⟨(by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide))⟩

/-- The buffer contents after these operations. -/
def s5a_step (V : Valuation τ sig (Elt F)) : Valuation τ sig (Elt F) := after s5a V

/-- A buffer none of them writes keeps its contents. -/
theorem s5a_keep (V : Valuation τ sig (Elt F)) {r : Ref sig .tc} (h : r ∉ s5a_W) :
    s5a_step V (no_index (Proc.devRef .tc r)) = V (Proc.devRef .tc r) :=
  after_of_writes_sub s5a V s5a_writes h

set_option maxHeartbeats 4000000 in
/-- Head 2's output. -/
theorem s5a_v263 (V : Valuation τ sig (Elt F)) :
    s5a_step V (no_index (Proc.devRef .tc main_v263)) = relu32 (V (Proc.devRef .tc main_v262)) := by
  unfold s5a_step
  after_results_simp
  rfl

/-- Operations 468 … 550: head 3's channels, scores, attention weights and the first term of the mix. -/
abbrev s5b : List (HloOp τ sig (Elt F)) :=
  [ unary main_arg6 main_v264 ((extractStridedSlice S1x256x32 ![3, 0, 0] · slices_S4x256x32_S1x256x32_3_0_0) : (⟨S4x256x32, .f32⟩ : BufTy).Contents (Elt F) → (⟨S1x256x32, .f32⟩ : BufTy).Contents (Elt F)),
    reshape main_v264 main_v265 rfl shapeCasts_S1x256x32_S256x32,
    unary main_arg7 main_v266 ((extractStridedSlice S1x64x1 ![3, 0, 0] · slices_S4x64x1_S1x64x1_3_0_0) : (⟨S4x64x1, .f32⟩ : BufTy).Contents (Elt F) → (⟨S1x64x1, .f32⟩ : BufTy).Contents (Elt F)),
    reshape main_v266 main_v267 rfl shapeCasts_S1x64x1_S64x1,
    binary main_v17 main_v265 main_v268 ((fun l r => Host.dotGeneral dot_S5000x256_S256x32_S5000x32_1_0_0_1_n_n none l r) : (⟨S5000x256, .f32⟩ : BufTy).Contents (Elt F) → (⟨S256x32, .f32⟩ : BufTy).Contents (Elt F) → (⟨S5000x32, .f32⟩ : BufTy).Contents (Elt F)),
    binary main_arg2 main_v268 main_v269 ((fun l r => Host.dotGeneral dot_S5000x5000_S5000x32_S5000x32_1_0_0_1_n_n none l r) : (⟨S5000x5000, .f32⟩ : BufTy).Contents (Elt F) → (⟨S5000x32, .f32⟩ : BufTy).Contents (Elt F) → (⟨S5000x32, .f32⟩ : BufTy).Contents (Elt F)),
    binary main_arg3 main_v268 main_v270 ((fun l r => Host.dotGeneral dot_S5000x5000_S5000x32_S5000x32_1_0_0_1_n_n none l r) : (⟨S5000x5000, .f32⟩ : BufTy).Contents (Elt F) → (⟨S5000x32, .f32⟩ : BufTy).Contents (Elt F) → (⟨S5000x32, .f32⟩ : BufTy).Contents (Elt F)),
    unary main_v270 main_v271 (Host.absf : (⟨S5000x32, .f32⟩ : BufTy).Contents (Elt F) → (⟨S5000x32, .f32⟩ : BufTy).Contents (Elt F)),
    binary main_v271 main_v271 main_v272 (mulf : (⟨S5000x32, .f32⟩ : BufTy).Contents (Elt F) → (⟨S5000x32, .f32⟩ : BufTy).Contents (Elt F) → (⟨S5000x32, .f32⟩ : BufTy).Contents (Elt F)),
    binary main_v272 main_v272 main_v273 (mulf : (⟨S5000x32, .f32⟩ : BufTy).Contents (Elt F) → (⟨S5000x32, .f32⟩ : BufTy).Contents (Elt F) → (⟨S5000x32, .f32⟩ : BufTy).Contents (Elt F)),
    binary main_arg4 main_v268 main_v274 ((fun l r => Host.dotGeneral dot_S5000x5000_S5000x32_S5000x32_1_0_0_1_n_n none l r) : (⟨S5000x5000, .f32⟩ : BufTy).Contents (Elt F) → (⟨S5000x32, .f32⟩ : BufTy).Contents (Elt F) → (⟨S5000x32, .f32⟩ : BufTy).Contents (Elt F)),
    unary main_v274 main_v275 (Host.absf : (⟨S5000x32, .f32⟩ : BufTy).Contents (Elt F) → (⟨S5000x32, .f32⟩ : BufTy).Contents (Elt F)),
    binary main_v275 main_v275 main_v276 (mulf : (⟨S5000x32, .f32⟩ : BufTy).Contents (Elt F) → (⟨S5000x32, .f32⟩ : BufTy).Contents (Elt F) → (⟨S5000x32, .f32⟩ : BufTy).Contents (Elt F)),
    binary main_v276 main_v276 main_v277 (mulf : (⟨S5000x32, .f32⟩ : BufTy).Contents (Elt F) → (⟨S5000x32, .f32⟩ : BufTy).Contents (Elt F) → (⟨S5000x32, .f32⟩ : BufTy).Contents (Elt F)),
    binary main_arg5 main_v268 main_v278 ((fun l r => Host.dotGeneral dot_S5000x5000_S5000x32_S5000x32_1_0_0_1_n_n none l r) : (⟨S5000x5000, .f32⟩ : BufTy).Contents (Elt F) → (⟨S5000x32, .f32⟩ : BufTy).Contents (Elt F) → (⟨S5000x32, .f32⟩ : BufTy).Contents (Elt F)),
    unary main_v278 main_v279 (Host.absf : (⟨S5000x32, .f32⟩ : BufTy).Contents (Elt F) → (⟨S5000x32, .f32⟩ : BufTy).Contents (Elt F)),
    binary main_v279 main_v279 main_v280 (mulf : (⟨S5000x32, .f32⟩ : BufTy).Contents (Elt F) → (⟨S5000x32, .f32⟩ : BufTy).Contents (Elt F) → (⟨S5000x32, .f32⟩ : BufTy).Contents (Elt F)),
    binary main_v280 main_v280 main_v281 (mulf : (⟨S5000x32, .f32⟩ : BufTy).Contents (Elt F) → (⟨S5000x32, .f32⟩ : BufTy).Contents (Elt F) → (⟨S5000x32, .f32⟩ : BufTy).Contents (Elt F)),
    unary main_v267 main_v282 ((extractStridedSlice S32x1 ![0, 0] · slices_S64x1_S32x1_0_0) : (⟨S64x1, .f32⟩ : BufTy).Contents (Elt F) → (⟨S32x1, .f32⟩ : BufTy).Contents (Elt F)),
    binary main_v268 main_v282 main_v283 ((fun l r => Host.dotGeneral dot_S5000x32_S32x1_S5000x1_1_0_0_1_n_n none l r) : (⟨S5000x32, .f32⟩ : BufTy).Contents (Elt F) → (⟨S32x1, .f32⟩ : BufTy).Contents (Elt F) → (⟨S5000x1, .f32⟩ : BufTy).Contents (Elt F)),
    unary main_v267 main_v284 ((extractStridedSlice S32x1 ![32, 0] · slices_S64x1_S32x1_32_0) : (⟨S64x1, .f32⟩ : BufTy).Contents (Elt F) → (⟨S32x1, .f32⟩ : BufTy).Contents (Elt F)),
    binary main_v269 main_v284 main_v285 ((fun l r => Host.dotGeneral dot_S5000x32_S32x1_S5000x1_1_0_0_1_n_n none l r) : (⟨S5000x32, .f32⟩ : BufTy).Contents (Elt F) → (⟨S32x1, .f32⟩ : BufTy).Contents (Elt F) → (⟨S5000x1, .f32⟩ : BufTy).Contents (Elt F)),
    binary main_v283 main_v285 main_v286 (addf : (⟨S5000x1, .f32⟩ : BufTy).Contents (Elt F) → (⟨S5000x1, .f32⟩ : BufTy).Contents (Elt F) → (⟨S5000x1, .f32⟩ : BufTy).Contents (Elt F)),
    nullary main_cst_35 (constant S_ .f32 0x3E4CCCCD#32),
    TRef.nullary main_call19.cst (constant S_ .f32 0x00000000#32),
    TRef.unary main_call19.cst main_call19.v0 (broadcastInDim S5000x1 ![] bcast_S_S5000x1),
    TRef.binary (.of main_v286) main_call19.v0 main_call19.v1 (cmpf .oge),
    TRef.unary (.of main_cst_35) main_call19.v2 id,
    TRef.unary main_call19.v2 main_call19.v3 (broadcastInDim S5000x1 ![] bcast_S_S5000x1),
    TRef.binary main_call19.v3 (.of main_v286) main_call19.v4 mulf,
    TRef.ternary main_call19.v1 (.of main_v286) main_call19.v4 main_call19.call0.v0 select,
    unary main_v267 main_v288 ((extractStridedSlice S32x1 ![32, 0] · slices_S64x1_S32x1_32_0) : (⟨S64x1, .f32⟩ : BufTy).Contents (Elt F) → (⟨S32x1, .f32⟩ : BufTy).Contents (Elt F)),
    binary main_v273 main_v288 main_v289 ((fun l r => Host.dotGeneral dot_S5000x32_S32x1_S5000x1_1_0_0_1_n_n none l r) : (⟨S5000x32, .f32⟩ : BufTy).Contents (Elt F) → (⟨S32x1, .f32⟩ : BufTy).Contents (Elt F) → (⟨S5000x1, .f32⟩ : BufTy).Contents (Elt F)),
    binary main_v283 main_v289 main_v290 (addf : (⟨S5000x1, .f32⟩ : BufTy).Contents (Elt F) → (⟨S5000x1, .f32⟩ : BufTy).Contents (Elt F) → (⟨S5000x1, .f32⟩ : BufTy).Contents (Elt F)),
    nullary main_cst_36 (constant S_ .f32 0x3E4CCCCD#32),
    TRef.nullary main_call20.cst (constant S_ .f32 0x00000000#32),
    TRef.unary main_call20.cst main_call20.v0 (broadcastInDim S5000x1 ![] bcast_S_S5000x1),
    TRef.binary (.of main_v290) main_call20.v0 main_call20.v1 (cmpf .oge),
    TRef.unary (.of main_cst_36) main_call20.v2 id,
    TRef.unary main_call20.v2 main_call20.v3 (broadcastInDim S5000x1 ![] bcast_S_S5000x1),
    TRef.binary main_call20.v3 (.of main_v290) main_call20.v4 mulf,
    TRef.ternary main_call20.v1 (.of main_v290) main_call20.v4 main_call20.call0.v0 select,
    unary main_v267 main_v292 ((extractStridedSlice S32x1 ![32, 0] · slices_S64x1_S32x1_32_0) : (⟨S64x1, .f32⟩ : BufTy).Contents (Elt F) → (⟨S32x1, .f32⟩ : BufTy).Contents (Elt F)),
    binary main_v277 main_v292 main_v293 ((fun l r => Host.dotGeneral dot_S5000x32_S32x1_S5000x1_1_0_0_1_n_n none l r) : (⟨S5000x32, .f32⟩ : BufTy).Contents (Elt F) → (⟨S32x1, .f32⟩ : BufTy).Contents (Elt F) → (⟨S5000x1, .f32⟩ : BufTy).Contents (Elt F)),
    binary main_v283 main_v293 main_v294 (addf : (⟨S5000x1, .f32⟩ : BufTy).Contents (Elt F) → (⟨S5000x1, .f32⟩ : BufTy).Contents (Elt F) → (⟨S5000x1, .f32⟩ : BufTy).Contents (Elt F)),
    nullary main_cst_37 (constant S_ .f32 0x3E4CCCCD#32),
    TRef.nullary main_call21.cst (constant S_ .f32 0x00000000#32),
    TRef.unary main_call21.cst main_call21.v0 (broadcastInDim S5000x1 ![] bcast_S_S5000x1),
    TRef.binary (.of main_v294) main_call21.v0 main_call21.v1 (cmpf .oge),
    TRef.unary (.of main_cst_37) main_call21.v2 id,
    TRef.unary main_call21.v2 main_call21.v3 (broadcastInDim S5000x1 ![] bcast_S_S5000x1),
    TRef.binary main_call21.v3 (.of main_v294) main_call21.v4 mulf,
    TRef.ternary main_call21.v1 (.of main_v294) main_call21.v4 main_call21.call0.v0 select,
    unary main_v267 main_v296 ((extractStridedSlice S32x1 ![32, 0] · slices_S64x1_S32x1_32_0) : (⟨S64x1, .f32⟩ : BufTy).Contents (Elt F) → (⟨S32x1, .f32⟩ : BufTy).Contents (Elt F)),
    binary main_v281 main_v296 main_v297 ((fun l r => Host.dotGeneral dot_S5000x32_S32x1_S5000x1_1_0_0_1_n_n none l r) : (⟨S5000x32, .f32⟩ : BufTy).Contents (Elt F) → (⟨S32x1, .f32⟩ : BufTy).Contents (Elt F) → (⟨S5000x1, .f32⟩ : BufTy).Contents (Elt F)),
    binary main_v283 main_v297 main_v298 (addf : (⟨S5000x1, .f32⟩ : BufTy).Contents (Elt F) → (⟨S5000x1, .f32⟩ : BufTy).Contents (Elt F) → (⟨S5000x1, .f32⟩ : BufTy).Contents (Elt F)),
    nullary main_cst_38 (constant S_ .f32 0x3E4CCCCD#32),
    TRef.nullary main_call22.cst (constant S_ .f32 0x00000000#32),
    TRef.unary main_call22.cst main_call22.v0 (broadcastInDim S5000x1 ![] bcast_S_S5000x1),
    TRef.binary (.of main_v298) main_call22.v0 main_call22.v1 (cmpf .oge),
    TRef.unary (.of main_cst_38) main_call22.v2 id,
    TRef.unary main_call22.v2 main_call22.v3 (broadcastInDim S5000x1 ![] bcast_S_S5000x1),
    TRef.binary main_call22.v3 (.of main_v298) main_call22.v4 mulf,
    TRef.ternary main_call22.v1 (.of main_v298) main_call22.v4 main_call22.call0.v0 select,
    nary ![main_v287, main_v291, main_v295, main_v299] main_v300 (fun u => concatenate S5000x4 1 [⟨S5000x1, u 0⟩, ⟨S5000x1, u 1⟩, ⟨S5000x1, u 2⟩, ⟨S5000x1, u 3⟩] concatenates_S5000x1_S5000x1_S5000x1_S5000x1_S5000x4_d1),
    nullary main_cst_39 (constant S_ .f32 0xFF800000#32),
    binary main_v300 main_cst_39 main_v301 ((fun x v => Host.reduce FloatOps.maximumf x v reducesTo_S5000x4_S5000_d1 h_S_) : (⟨S5000x4, .f32⟩ : BufTy).Contents (Elt F) → (⟨S_, .f32⟩ : BufTy).Contents (Elt F) → (⟨S5000, .f32⟩ : BufTy).Contents (Elt F)),
    nullary main_cst_40 (constant S_ .f32 0xFF800000#32),
    unary main_cst_40 main_v302 (broadcastInDim S5000 ![] bcast_S_S5000 : (⟨S_, .f32⟩ : BufTy).Contents (Elt F) → (⟨S5000, .f32⟩ : BufTy).Contents (Elt F)),
    binary main_v302 main_v301 main_v303 (maximumf : (⟨S5000, .f32⟩ : BufTy).Contents (Elt F) → (⟨S5000, .f32⟩ : BufTy).Contents (Elt F) → (⟨S5000, .f32⟩ : BufTy).Contents (Elt F)),
    unary main_v303 main_v304 (broadcastInDim S5000x1 ![0] bcast_S5000_S5000x1_0 : (⟨S5000, .f32⟩ : BufTy).Contents (Elt F) → (⟨S5000x1, .f32⟩ : BufTy).Contents (Elt F)),
    unary main_v304 main_v305 (broadcastInDim S5000x4 ![0, 1] bcast_S5000x1_S5000x4_0_1 : (⟨S5000x1, .f32⟩ : BufTy).Contents (Elt F) → (⟨S5000x4, .f32⟩ : BufTy).Contents (Elt F)),
    binary main_v300 main_v305 main_v306 (subf : (⟨S5000x4, .f32⟩ : BufTy).Contents (Elt F) → (⟨S5000x4, .f32⟩ : BufTy).Contents (Elt F) → (⟨S5000x4, .f32⟩ : BufTy).Contents (Elt F)),
    unary main_v306 main_v307 (Host.exp : (⟨S5000x4, .f32⟩ : BufTy).Contents (Elt F) → (⟨S5000x4, .f32⟩ : BufTy).Contents (Elt F)),
    nullary main_cst_41 (constant S_ .f32 0x00000000#32),
    binary main_v307 main_cst_41 main_v308 ((fun x v => Host.reduceAdd x v reducesTo_S5000x4_S5000_d1 h_S_) : (⟨S5000x4, .f32⟩ : BufTy).Contents (Elt F) → (⟨S_, .f32⟩ : BufTy).Contents (Elt F) → (⟨S5000, .f32⟩ : BufTy).Contents (Elt F)),
    unary main_v308 main_v309 (broadcastInDim S5000x1 ![0] bcast_S5000_S5000x1_0 : (⟨S5000, .f32⟩ : BufTy).Contents (Elt F) → (⟨S5000x1, .f32⟩ : BufTy).Contents (Elt F)),
    unary main_v309 main_v310 (broadcastInDim S5000x4 ![0, 1] bcast_S5000x1_S5000x4_0_1 : (⟨S5000x1, .f32⟩ : BufTy).Contents (Elt F) → (⟨S5000x4, .f32⟩ : BufTy).Contents (Elt F)),
    binary main_v307 main_v310 main_v311 (Host.divf : (⟨S5000x4, .f32⟩ : BufTy).Contents (Elt F) → (⟨S5000x4, .f32⟩ : BufTy).Contents (Elt F) → (⟨S5000x4, .f32⟩ : BufTy).Contents (Elt F)),
    unary main_v311 main_v312 ((extractStridedSlice S5000x1 ![0, 0] · slices_S5000x4_S5000x1_0_0) : (⟨S5000x4, .f32⟩ : BufTy).Contents (Elt F) → (⟨S5000x1, .f32⟩ : BufTy).Contents (Elt F)),
    unary main_v312 main_v313 (broadcastInDim S5000x32 ![0, 1] bcast_S5000x1_S5000x32_0_1 : (⟨S5000x1, .f32⟩ : BufTy).Contents (Elt F) → (⟨S5000x32, .f32⟩ : BufTy).Contents (Elt F)),
    binary main_v313 main_v269 main_v314 (mulf : (⟨S5000x32, .f32⟩ : BufTy).Contents (Elt F) → (⟨S5000x32, .f32⟩ : BufTy).Contents (Elt F) → (⟨S5000x32, .f32⟩ : BufTy).Contents (Elt F)),
    unary main_v311 main_v315 ((extractStridedSlice S5000x1 ![0, 1] · slices_S5000x4_S5000x1_0_1) : (⟨S5000x4, .f32⟩ : BufTy).Contents (Elt F) → (⟨S5000x1, .f32⟩ : BufTy).Contents (Elt F)) ]

theorem s5b_sub : (s5b : List (HloOp τ sig (Elt F))).Forall fun op => op.bufs ⊆ tcRefs τ sig :=
  ⟨unary_bufs_sub .., reshape_bufs_sub .., unary_bufs_sub .., reshape_bufs_sub .., binary_bufs_sub .., binary_bufs_sub .., binary_bufs_sub .., unary_bufs_sub .., binary_bufs_sub .., binary_bufs_sub .., binary_bufs_sub .., unary_bufs_sub .., binary_bufs_sub .., binary_bufs_sub .., binary_bufs_sub .., unary_bufs_sub .., binary_bufs_sub .., binary_bufs_sub .., unary_bufs_sub .., binary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., nary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., binary_bufs_sub .., unary_bufs_sub ..⟩

theorem s5b_fresh : (s5b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers these operations write. -/
abbrev s5b_W : List (Ref sig .tc) := [main_v264, main_v265, main_v266, main_v267, main_v268, main_v269, main_v270, main_v271, main_v272, main_v273, main_v274, main_v275, main_v276, main_v277, main_v278, main_v279, main_v280, main_v281, main_v282, main_v283, main_v284, main_v285, main_v286, main_cst_35, main_call19_cst, main_call19_v0, main_call19_v1, main_call19_v2, main_call19_v3, main_call19_v4, main_v287, main_v288, main_v289, main_v290, main_cst_36, main_call20_cst, main_call20_v0, main_call20_v1, main_call20_v2, main_call20_v3, main_call20_v4, main_v291, main_v292, main_v293, main_v294, main_cst_37, main_call21_cst, main_call21_v0, main_call21_v1, main_call21_v2, main_call21_v3, main_call21_v4, main_v295, main_v296, main_v297, main_v298, main_cst_38, main_call22_cst, main_call22_v0, main_call22_v1, main_call22_v2, main_call22_v3, main_call22_v4, main_v299, main_v300, main_cst_39, main_v301, main_cst_40, main_v302, main_v303, main_v304, main_v305, main_v306, main_v307, main_cst_41, main_v308, main_v309, main_v310, main_v311, main_v312, main_v313, main_v314, main_v315]

theorem s5b_writes : (s5b : List (HloOp τ sig (Elt F))).Forall fun op =>
    op.writes ⊆ (s5b_W.map (Proc.devRef (τ := τ) .tc)).toFinset := by
  simp only [List.Forall]
  exact ⟨(by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide))⟩

/-- The buffer contents after these operations. -/
def s5b_step (V : Valuation τ sig (Elt F)) : Valuation τ sig (Elt F) := after s5b V

/-- A buffer none of them writes keeps its contents. -/
theorem s5b_keep (V : Valuation τ sig (Elt F)) {r : Ref sig .tc} (h : r ∉ s5b_W) :
    s5b_step V (no_index (Proc.devRef .tc r)) = V (Proc.devRef .tc r) :=
  after_of_writes_sub s5b V s5b_writes h

set_option maxHeartbeats 4000000 in
/-- Head 3's first band-pass channel. -/
theorem s5b_v273 (V : Valuation τ sig (Elt F)) :
    s5b_step V (no_index (Proc.devRef .tc main_v273)) = (band (V (Proc.devRef .tc main_arg3)) (proj (V (Proc.devRef .tc main_v17)) (wSlice3 (V (Proc.devRef .tc main_arg6))))) := by
  unfold s5b_step
  after_results_simp
  rfl

set_option maxHeartbeats 4000000 in
/-- Head 3's second band-pass channel. -/
theorem s5b_v277 (V : Valuation τ sig (Elt F)) :
    s5b_step V (no_index (Proc.devRef .tc main_v277)) = (band (V (Proc.devRef .tc main_arg4)) (proj (V (Proc.devRef .tc main_v17)) (wSlice3 (V (Proc.devRef .tc main_arg6))))) := by
  unfold s5b_step
  after_results_simp
  rfl

set_option maxHeartbeats 4000000 in
/-- Head 3's third band-pass channel. -/
theorem s5b_v281 (V : Valuation τ sig (Elt F)) :
    s5b_step V (no_index (Proc.devRef .tc main_v281)) = (band (V (Proc.devRef .tc main_arg5)) (proj (V (Proc.devRef .tc main_v17)) (wSlice3 (V (Proc.devRef .tc main_arg6))))) := by
  unfold s5b_step
  after_results_simp
  rfl

set_option maxHeartbeats 4000000 in
/-- Head 3's attention weights. -/
theorem s5b_v311 (V : Valuation τ sig (Elt F)) :
    s5b_step V (no_index (Proc.devRef .tc main_v311)) = (softmax4 (headScores (proj (V (Proc.devRef .tc main_v17)) (wSlice3 (V (Proc.devRef .tc main_arg6)))) (prop (V (Proc.devRef .tc main_arg2)) (proj (V (Proc.devRef .tc main_v17)) (wSlice3 (V (Proc.devRef .tc main_arg6))))) (band (V (Proc.devRef .tc main_arg3)) (proj (V (Proc.devRef .tc main_v17)) (wSlice3 (V (Proc.devRef .tc main_arg6))))) (band (V (Proc.devRef .tc main_arg4)) (proj (V (Proc.devRef .tc main_v17)) (wSlice3 (V (Proc.devRef .tc main_arg6))))) (band (V (Proc.devRef .tc main_arg5)) (proj (V (Proc.devRef .tc main_v17)) (wSlice3 (V (Proc.devRef .tc main_arg6))))) (aSlice3 (V (Proc.devRef .tc main_arg7))))) := by
  unfold s5b_step
  after_results_simp
  rfl

set_option maxHeartbeats 4000000 in
/-- The first term of head 3's mix. -/
theorem s5b_v314 (V : Valuation τ sig (Elt F)) :
    s5b_step V (no_index (Proc.devRef .tc main_v314)) = wtd (attCol0 (softmax4 (headScores (proj (V (Proc.devRef .tc main_v17)) (wSlice3 (V (Proc.devRef .tc main_arg6)))) (prop (V (Proc.devRef .tc main_arg2)) (proj (V (Proc.devRef .tc main_v17)) (wSlice3 (V (Proc.devRef .tc main_arg6))))) (band (V (Proc.devRef .tc main_arg3)) (proj (V (Proc.devRef .tc main_v17)) (wSlice3 (V (Proc.devRef .tc main_arg6))))) (band (V (Proc.devRef .tc main_arg4)) (proj (V (Proc.devRef .tc main_v17)) (wSlice3 (V (Proc.devRef .tc main_arg6))))) (band (V (Proc.devRef .tc main_arg5)) (proj (V (Proc.devRef .tc main_v17)) (wSlice3 (V (Proc.devRef .tc main_arg6))))) (aSlice3 (V (Proc.devRef .tc main_arg7)))))) (prop (V (Proc.devRef .tc main_arg2)) (proj (V (Proc.devRef .tc main_v17)) (wSlice3 (V (Proc.devRef .tc main_arg6))))) := by
  unfold s5b_step
  after_results_simp
  rfl

set_option maxHeartbeats 4000000 in
/-- The second column of head 3's attention weights. -/
theorem s5b_v315 (V : Valuation τ sig (Elt F)) :
    s5b_step V (no_index (Proc.devRef .tc main_v315)) = attCol1 (softmax4 (headScores (proj (V (Proc.devRef .tc main_v17)) (wSlice3 (V (Proc.devRef .tc main_arg6)))) (prop (V (Proc.devRef .tc main_arg2)) (proj (V (Proc.devRef .tc main_v17)) (wSlice3 (V (Proc.devRef .tc main_arg6))))) (band (V (Proc.devRef .tc main_arg3)) (proj (V (Proc.devRef .tc main_v17)) (wSlice3 (V (Proc.devRef .tc main_arg6))))) (band (V (Proc.devRef .tc main_arg4)) (proj (V (Proc.devRef .tc main_v17)) (wSlice3 (V (Proc.devRef .tc main_arg6))))) (band (V (Proc.devRef .tc main_arg5)) (proj (V (Proc.devRef .tc main_v17)) (wSlice3 (V (Proc.devRef .tc main_arg6))))) (aSlice3 (V (Proc.devRef .tc main_arg7))))) := by
  unfold s5b_step
  after_results_simp
  rfl

set_option maxHeartbeats 4000000 in
/-- The window is that straight line: the functions' definitions unfolded at their calls, the records at their fields,
    and sequencing reassociated. -/
theorem main_part5_eq (c : Dev nD) : main_part5 (F := F) c = seq (s5a ++ s5b) := by
  simp only [main_part5, fn_where.body, fn_var.body, fn_where_0.body, fn_leaky_relu.body, fn_where_2.body, fn_var_1.body, fn_relu.body, fn_log_softmax.body, s5a, s5b, List.cons_append, List.nil_append, seq, bind_assoc, pure_bind]
  rfl

end Cert.ReferenceIdeal.HandRun

end
-- ==== Proof.RefRun.Ops6.lean ====
import proofs.«113748_g69337952026834_cont_sun_c4_16_16_alg».proof.Proof.RefRun.Stages

noncomputable section

namespace Cert.ReferenceIdeal.HandRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-! # @main's statements of window 6, the calls unfolded, and what they leave in the buffers read later -/

set_option Elab.async false

/-- Operations 551 … 608: the rest of head 3's mix, batch normalisation and ReLU. -/
abbrev s6a : List (HloOp τ sig (Elt F)) :=
  [ unary main_v315 main_v316 (broadcastInDim S5000x32 ![0, 1] bcast_S5000x1_S5000x32_0_1 : (⟨S5000x1, .f32⟩ : BufTy).Contents (Elt F) → (⟨S5000x32, .f32⟩ : BufTy).Contents (Elt F)),
    binary main_v316 main_v273 main_v317 (mulf : (⟨S5000x32, .f32⟩ : BufTy).Contents (Elt F) → (⟨S5000x32, .f32⟩ : BufTy).Contents (Elt F) → (⟨S5000x32, .f32⟩ : BufTy).Contents (Elt F)),
    binary main_v314 main_v317 main_v318 (addf : (⟨S5000x32, .f32⟩ : BufTy).Contents (Elt F) → (⟨S5000x32, .f32⟩ : BufTy).Contents (Elt F) → (⟨S5000x32, .f32⟩ : BufTy).Contents (Elt F)),
    unary main_v311 main_v319 ((extractStridedSlice S5000x1 ![0, 2] · slices_S5000x4_S5000x1_0_2) : (⟨S5000x4, .f32⟩ : BufTy).Contents (Elt F) → (⟨S5000x1, .f32⟩ : BufTy).Contents (Elt F)),
    unary main_v319 main_v320 (broadcastInDim S5000x32 ![0, 1] bcast_S5000x1_S5000x32_0_1 : (⟨S5000x1, .f32⟩ : BufTy).Contents (Elt F) → (⟨S5000x32, .f32⟩ : BufTy).Contents (Elt F)),
    binary main_v320 main_v277 main_v321 (mulf : (⟨S5000x32, .f32⟩ : BufTy).Contents (Elt F) → (⟨S5000x32, .f32⟩ : BufTy).Contents (Elt F) → (⟨S5000x32, .f32⟩ : BufTy).Contents (Elt F)),
    binary main_v318 main_v321 main_v322 (addf : (⟨S5000x32, .f32⟩ : BufTy).Contents (Elt F) → (⟨S5000x32, .f32⟩ : BufTy).Contents (Elt F) → (⟨S5000x32, .f32⟩ : BufTy).Contents (Elt F)),
    unary main_v311 main_v323 ((extractStridedSlice S5000x1 ![0, 3] · slices_S5000x4_S5000x1_0_3) : (⟨S5000x4, .f32⟩ : BufTy).Contents (Elt F) → (⟨S5000x1, .f32⟩ : BufTy).Contents (Elt F)),
    unary main_v323 main_v324 (broadcastInDim S5000x32 ![0, 1] bcast_S5000x1_S5000x32_0_1 : (⟨S5000x1, .f32⟩ : BufTy).Contents (Elt F) → (⟨S5000x32, .f32⟩ : BufTy).Contents (Elt F)),
    binary main_v324 main_v281 main_v325 (mulf : (⟨S5000x32, .f32⟩ : BufTy).Contents (Elt F) → (⟨S5000x32, .f32⟩ : BufTy).Contents (Elt F) → (⟨S5000x32, .f32⟩ : BufTy).Contents (Elt F)),
    binary main_v322 main_v325 main_v326 (addf : (⟨S5000x32, .f32⟩ : BufTy).Contents (Elt F) → (⟨S5000x32, .f32⟩ : BufTy).Contents (Elt F) → (⟨S5000x32, .f32⟩ : BufTy).Contents (Elt F)),
    nullary main_cst_42 (constant S_ .f32 0x00000000#32),
    binary main_v326 main_cst_42 main_v327 ((fun x v => Host.reduceAdd x v reducesTo_S5000x32_S32_d0 h_S_) : (⟨S5000x32, .f32⟩ : BufTy).Contents (Elt F) → (⟨S_, .f32⟩ : BufTy).Contents (Elt F) → (⟨S32, .f32⟩ : BufTy).Contents (Elt F)),
    unary main_v327 main_v328 (broadcastInDim S1x32 ![1] bcast_S32_S1x32_1 : (⟨S32, .f32⟩ : BufTy).Contents (Elt F) → (⟨S1x32, .f32⟩ : BufTy).Contents (Elt F)),
    nullary main_cst_43 (constant S_ .f32 0x459C4000#32),
    unary main_cst_43 main_v329 (broadcastInDim S1x32 ![] bcast_S_S1x32 : (⟨S_, .f32⟩ : BufTy).Contents (Elt F) → (⟨S1x32, .f32⟩ : BufTy).Contents (Elt F)),
    binary main_v328 main_v329 main_v330 (Host.divf : (⟨S1x32, .f32⟩ : BufTy).Contents (Elt F) → (⟨S1x32, .f32⟩ : BufTy).Contents (Elt F) → (⟨S1x32, .f32⟩ : BufTy).Contents (Elt F)),
    nullary main_c_44 (constantI S_ 32 0#32),
    TRef.nullary main_call23.cst (constant S_ .f32 0x00000000#32),
    TRef.binary (.of main_v326) main_call23.cst main_call23.v0 (fun x v => Host.reduceAdd x v reducesTo_S5000x32_S32_d0 h_S_),
    TRef.unary main_call23.v0 main_call23.v1 (broadcastInDim S1x32 ![1] bcast_S32_S1x32_1),
    TRef.nullary main_call23.cst_0 (constant S_ .f32 0x459C4000#32),
    TRef.unary main_call23.cst_0 main_call23.v2 (broadcastInDim S1x32 ![] bcast_S_S1x32),
    TRef.binary main_call23.v1 main_call23.v2 main_call23.v3 Host.divf,
    TRef.unary main_call23.v3 main_call23.v4 (broadcastInDim S5000x32 ![0, 1] bcast_S1x32_S5000x32_0_1),
    TRef.binary (.of main_v326) main_call23.v4 main_call23.v5 subf,
    TRef.binary main_call23.v5 main_call23.v5 main_call23.v6 mulf,
    TRef.unary (.of main_c_44) main_call23.v7 (sitofp .f32),
    TRef.nullary main_call23.cst_1 (constant S_ .f32 0x459C4000#32),
    TRef.binary main_call23.cst_1 main_call23.v7 main_call23.v8 subf,
    TRef.nullary main_call23.cst_2 (constant S_ .f32 0x00000000#32),
    TRef.binary main_call23.v6 main_call23.cst_2 main_call23.v9 (fun x v => Host.reduceAdd x v reducesTo_S5000x32_S32_d0 h_S_),
    TRef.unary main_call23.v9 main_call23.v10 (broadcastInDim S1x32 ![1] bcast_S32_S1x32_1),
    TRef.unary main_call23.v8 main_call23.v11 (broadcastInDim S1x32 ![] bcast_S_S1x32),
    TRef.binary main_call23.v10 main_call23.v11 main_call23.v12 Host.divf,
    TRef.nullary main_call23.cst_3 (constant S_ .f32 0x00000000#32),
    TRef.binary main_call23.v8 main_call23.cst_3 main_call23.v13 (cmpf .ogt),
    TRef.nullary main_call23.cst_4 (constant S_ .f32 0x7FC00000#32),
    TRef.unary main_call23.cst_4 main_call23.call0.v0 id,
    TRef.unary main_call23.call0.v0 main_call23.call0.v1 (broadcastInDim S1x32 ![] bcast_S_S1x32),
    TRef.ternary main_call23.v13 main_call23.v12 main_call23.call0.v1 main_call23.call0.v2 (fun p a b => select (broadcastInDim S1x32 ![] bcast_S_S1x32 p) a b),
    unary main_v330 main_v332 (broadcastInDim S5000x32 ![0, 1] bcast_S1x32_S5000x32_0_1 : (⟨S1x32, .f32⟩ : BufTy).Contents (Elt F) → (⟨S5000x32, .f32⟩ : BufTy).Contents (Elt F)),
    binary main_v326 main_v332 main_v333 (subf : (⟨S5000x32, .f32⟩ : BufTy).Contents (Elt F) → (⟨S5000x32, .f32⟩ : BufTy).Contents (Elt F) → (⟨S5000x32, .f32⟩ : BufTy).Contents (Elt F)),
    unary main_arg10 main_v334 (broadcastInDim S1x32 ![1] bcast_S32_S1x32_1 : (⟨S32, .f32⟩ : BufTy).Contents (Elt F) → (⟨S1x32, .f32⟩ : BufTy).Contents (Elt F)),
    unary main_v334 main_v335 (broadcastInDim S5000x32 ![0, 1] bcast_S1x32_S5000x32_0_1 : (⟨S1x32, .f32⟩ : BufTy).Contents (Elt F) → (⟨S5000x32, .f32⟩ : BufTy).Contents (Elt F)),
    binary main_v335 main_v333 main_v336 (mulf : (⟨S5000x32, .f32⟩ : BufTy).Contents (Elt F) → (⟨S5000x32, .f32⟩ : BufTy).Contents (Elt F) → (⟨S5000x32, .f32⟩ : BufTy).Contents (Elt F)),
    nullary main_cst_45 (constant S_ .f32 0x3727C5AC#32),
    unary main_cst_45 main_v337 (broadcastInDim S1x32 ![] bcast_S_S1x32 : (⟨S_, .f32⟩ : BufTy).Contents (Elt F) → (⟨S1x32, .f32⟩ : BufTy).Contents (Elt F)),
    binary main_v331 main_v337 main_v338 (addf : (⟨S1x32, .f32⟩ : BufTy).Contents (Elt F) → (⟨S1x32, .f32⟩ : BufTy).Contents (Elt F) → (⟨S1x32, .f32⟩ : BufTy).Contents (Elt F)),
    unary main_v338 main_v339 (Host.sqrt : (⟨S1x32, .f32⟩ : BufTy).Contents (Elt F) → (⟨S1x32, .f32⟩ : BufTy).Contents (Elt F)),
    unary main_v339 main_v340 (broadcastInDim S5000x32 ![0, 1] bcast_S1x32_S5000x32_0_1 : (⟨S1x32, .f32⟩ : BufTy).Contents (Elt F) → (⟨S5000x32, .f32⟩ : BufTy).Contents (Elt F)),
    binary main_v336 main_v340 main_v341 (Host.divf : (⟨S5000x32, .f32⟩ : BufTy).Contents (Elt F) → (⟨S5000x32, .f32⟩ : BufTy).Contents (Elt F) → (⟨S5000x32, .f32⟩ : BufTy).Contents (Elt F)),
    unary main_arg11 main_v342 (broadcastInDim S1x32 ![1] bcast_S32_S1x32_1 : (⟨S32, .f32⟩ : BufTy).Contents (Elt F) → (⟨S1x32, .f32⟩ : BufTy).Contents (Elt F)),
    unary main_v342 main_v343 (broadcastInDim S5000x32 ![0, 1] bcast_S1x32_S5000x32_0_1 : (⟨S1x32, .f32⟩ : BufTy).Contents (Elt F) → (⟨S5000x32, .f32⟩ : BufTy).Contents (Elt F)),
    binary main_v341 main_v343 main_v344 (addf : (⟨S5000x32, .f32⟩ : BufTy).Contents (Elt F) → (⟨S5000x32, .f32⟩ : BufTy).Contents (Elt F) → (⟨S5000x32, .f32⟩ : BufTy).Contents (Elt F)),
    TRef.nullary main_call24.cst (constant S_ .f32 0x00000000#32),
    TRef.unary main_call24.cst main_call24.v0 (broadcastInDim S5000x32 ![] bcast_S_S5000x32),
    TRef.binary (.of main_v344) main_call24.v0 main_call24.v1 maximumf ]

theorem s6a_sub : (s6a : List (HloOp τ sig (Elt F))).Forall fun op => op.bufs ⊆ tcRefs τ sig :=
  ⟨unary_bufs_sub .., binary_bufs_sub .., binary_bufs_sub .., unary_bufs_sub .., unary_bufs_sub .., binary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem s6a_fresh : (s6a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers these operations write. -/
abbrev s6a_W : List (Ref sig .tc) := [main_v316, main_v317, main_v318, main_v319, main_v320, main_v321, main_v322, main_v323, main_v324, main_v325, main_v326, main_cst_42, main_v327, main_v328, main_cst_43, main_v329, main_v330, main_c_44, main_call23_cst, main_call23_v0, main_call23_v1, main_call23_cst_0, main_call23_v2, main_call23_v3, main_call23_v4, main_call23_v5, main_call23_v6, main_call23_v7, main_call23_cst_1, main_call23_v8, main_call23_cst_2, main_call23_v9, main_call23_v10, main_call23_v11, main_call23_v12, main_call23_cst_3, main_call23_v13, main_call23_cst_4, main_call23_call0_v0, main_call23_call0_v1, main_v331, main_v332, main_v333, main_v334, main_v335, main_v336, main_cst_45, main_v337, main_v338, main_v339, main_v340, main_v341, main_v342, main_v343, main_v344, main_call24_cst, main_call24_v0, main_v345]

theorem s6a_writes : (s6a : List (HloOp τ sig (Elt F))).Forall fun op =>
    op.writes ⊆ (s6a_W.map (Proc.devRef (τ := τ) .tc)).toFinset := by
  simp only [List.Forall]
  exact ⟨(by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide))⟩

/-- The buffer contents after these operations. -/
def s6a_step (V : Valuation τ sig (Elt F)) : Valuation τ sig (Elt F) := after s6a V

/-- A buffer none of them writes keeps its contents. -/
theorem s6a_keep (V : Valuation τ sig (Elt F)) {r : Ref sig .tc} (h : r ∉ s6a_W) :
    s6a_step V (no_index (Proc.devRef .tc r)) = V (Proc.devRef .tc r) :=
  after_of_writes_sub s6a V s6a_writes h

set_option maxRecDepth 200000 in
set_option maxHeartbeats 4000000 in
/-- Head 3's output. -/
theorem s6a_v345 (V : Valuation τ sig (Elt F)) :
    s6a_step V (no_index (Proc.devRef .tc main_v345)) = relu32 (bn32 (addf (addf (addf (V (Proc.devRef .tc main_v314)) (wtd (V (Proc.devRef .tc main_v315)) (V (Proc.devRef .tc main_v273)))) (wtd (attCol2 (V (Proc.devRef .tc main_v311))) (V (Proc.devRef .tc main_v277)))) (wtd (attCol3 (V (Proc.devRef .tc main_v311))) (V (Proc.devRef .tc main_v281)))) (V (Proc.devRef .tc main_arg10)) (V (Proc.devRef .tc main_arg11))) := by
  unfold s6a_step
  after_results_simp
  rfl

/-- Operations 609 … 636: the heads side by side, the graph convolution with residual smoothing, and log-softmax. -/
abbrev s6b : List (HloOp τ sig (Elt F)) :=
  [ nary ![main_v99, main_v181, main_v263, main_v345] main_v346 (fun u => concatenate S5000x128 1 [⟨S5000x32, u 0⟩, ⟨S5000x32, u 1⟩, ⟨S5000x32, u 2⟩, ⟨S5000x32, u 3⟩] concatenates_S5000x32_S5000x32_S5000x32_S5000x32_S5000x128_d1),
    binary main_v346 main_arg12 main_v347 ((fun l r => Host.dotGeneral dot_S5000x128_S128x10_S5000x10_1_0_0_1_n_n none l r) : (⟨S5000x128, .f32⟩ : BufTy).Contents (Elt F) → (⟨S128x10, .f32⟩ : BufTy).Contents (Elt F) → (⟨S5000x10, .f32⟩ : BufTy).Contents (Elt F)),
    unary main_arg13 main_v348 (broadcastInDim S1x10 ![1] bcast_S10_S1x10_1 : (⟨S10, .f32⟩ : BufTy).Contents (Elt F) → (⟨S1x10, .f32⟩ : BufTy).Contents (Elt F)),
    unary main_v348 main_v349 (broadcastInDim S5000x10 ![0, 1] bcast_S1x10_S5000x10_0_1 : (⟨S1x10, .f32⟩ : BufTy).Contents (Elt F) → (⟨S5000x10, .f32⟩ : BufTy).Contents (Elt F)),
    binary main_v347 main_v349 main_v350 (addf : (⟨S5000x10, .f32⟩ : BufTy).Contents (Elt F) → (⟨S5000x10, .f32⟩ : BufTy).Contents (Elt F) → (⟨S5000x10, .f32⟩ : BufTy).Contents (Elt F)),
    binary main_arg1 main_v350 main_v351 ((fun l r => Host.dotGeneral dot_S5000x5000_S5000x10_S5000x10_1_0_0_1_n_n none l r) : (⟨S5000x5000, .f32⟩ : BufTy).Contents (Elt F) → (⟨S5000x10, .f32⟩ : BufTy).Contents (Elt F) → (⟨S5000x10, .f32⟩ : BufTy).Contents (Elt F)),
    nullary main_cst_46 (constant S_ .f32 0x3F000000#32),
    unary main_cst_46 main_v352 (broadcastInDim S5000x10 ![] bcast_S_S5000x10 : (⟨S_, .f32⟩ : BufTy).Contents (Elt F) → (⟨S5000x10, .f32⟩ : BufTy).Contents (Elt F)),
    binary main_v352 main_v351 main_v353 (mulf : (⟨S5000x10, .f32⟩ : BufTy).Contents (Elt F) → (⟨S5000x10, .f32⟩ : BufTy).Contents (Elt F) → (⟨S5000x10, .f32⟩ : BufTy).Contents (Elt F)),
    binary main_v353 main_v350 main_v354 (addf : (⟨S5000x10, .f32⟩ : BufTy).Contents (Elt F) → (⟨S5000x10, .f32⟩ : BufTy).Contents (Elt F) → (⟨S5000x10, .f32⟩ : BufTy).Contents (Elt F)),
    nullary main_cst_47 (constant S_ .f32 0x3FC00000#32),
    unary main_cst_47 main_v355 (broadcastInDim S5000x10 ![] bcast_S_S5000x10 : (⟨S_, .f32⟩ : BufTy).Contents (Elt F) → (⟨S5000x10, .f32⟩ : BufTy).Contents (Elt F)),
    binary main_v354 main_v355 main_v356 (Host.divf : (⟨S5000x10, .f32⟩ : BufTy).Contents (Elt F) → (⟨S5000x10, .f32⟩ : BufTy).Contents (Elt F) → (⟨S5000x10, .f32⟩ : BufTy).Contents (Elt F)),
    TRef.nullary main_call25.cst (constant S_ .f32 0xFF800000#32),
    TRef.binary (.of main_v356 : TRef sig ⟨S5000x10, .f32⟩) main_call25.cst main_call25.v0 (fun x v => Host.reduce FloatOps.maximumf x v reducesTo_S5000x10_S5000_d1 h_S_),
    TRef.nullary main_call25.cst_0 (constant S_ .f32 0xFF800000#32),
    TRef.unary main_call25.cst_0 main_call25.v1 (broadcastInDim S5000 ![] bcast_S_S5000),
    TRef.binary main_call25.v1 main_call25.v0 main_call25.v2 maximumf,
    TRef.unary main_call25.v2 main_call25.v3 (broadcastInDim S5000x1 ![0] bcast_S5000_S5000x1_0),
    TRef.unary main_call25.v3 main_call25.v4 (broadcastInDim S5000x10 ![0, 1] bcast_S5000x1_S5000x10_0_1),
    TRef.binary (.of main_v356 : TRef sig ⟨S5000x10, .f32⟩) main_call25.v4 main_call25.v5 subf,
    TRef.unary main_call25.v5 main_call25.v6 Host.exp,
    TRef.nullary main_call25.cst_1 (constant S_ .f32 0x00000000#32),
    TRef.binary main_call25.v6 main_call25.cst_1 main_call25.v7 (fun x v => Host.reduceAdd x v reducesTo_S5000x10_S5000_d1 h_S_),
    TRef.unary main_call25.v7 main_call25.v8 (broadcastInDim S5000x1 ![0] bcast_S5000_S5000x1_0),
    TRef.unary main_call25.v8 main_call25.v9 Host.log,
    TRef.unary main_call25.v9 main_call25.v10 (broadcastInDim S5000x10 ![0, 1] bcast_S5000x1_S5000x10_0_1),
    TRef.binary main_call25.v5 main_call25.v10 main_call25.v11 subf ]

theorem s6b_sub : (s6b : List (HloOp τ sig (Elt F))).Forall fun op => op.bufs ⊆ tcRefs τ sig :=
  ⟨nary_bufs_sub .., binary_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem s6b_fresh : (s6b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

/-- The buffers these operations write. -/
abbrev s6b_W : List (Ref sig .tc) := [main_v346, main_v347, main_v348, main_v349, main_v350, main_v351, main_cst_46, main_v352, main_v353, main_v354, main_cst_47, main_v355, main_v356, main_call25_cst, main_call25_v0, main_call25_cst_0, main_call25_v1, main_call25_v2, main_call25_v3, main_call25_v4, main_call25_v5, main_call25_v6, main_call25_cst_1, main_call25_v7, main_call25_v8, main_call25_v9, main_call25_v10, main_v357]

theorem s6b_writes : (s6b : List (HloOp τ sig (Elt F))).Forall fun op =>
    op.writes ⊆ (s6b_W.map (Proc.devRef (τ := τ) .tc)).toFinset := by
  simp only [List.Forall]
  exact ⟨(by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide)),
   (by simp only [nullary_writes, unary_writes, binary_writes, ternary_writes, reshape_writes, nary_writes, Finset.singleton_subset_iff, List.mem_toFinset]; exact List.mem_map_of_mem (by decide))⟩

/-- The buffer contents after these operations. -/
def s6b_step (V : Valuation τ sig (Elt F)) : Valuation τ sig (Elt F) := after s6b V

/-- A buffer none of them writes keeps its contents. -/
theorem s6b_keep (V : Valuation τ sig (Elt F)) {r : Ref sig .tc} (h : r ∉ s6b_W) :
    s6b_step V (no_index (Proc.devRef .tc r)) = V (Proc.devRef .tc r) :=
  after_of_writes_sub s6b V s6b_writes h

set_option maxRecDepth 200000 in
set_option maxHeartbeats 4000000 in
/-- The result. -/
theorem s6b_v357 (V : Valuation τ sig (Elt F)) :
    s6b_step V (no_index (Proc.devRef .tc main_v357)) = logSoftmax10 (smooth (V (Proc.devRef .tc main_arg1)) (support (xcat (V (Proc.devRef .tc main_v99)) (V (Proc.devRef .tc main_v181)) (V (Proc.devRef .tc main_v263)) (V (Proc.devRef .tc main_v345))) (V (Proc.devRef .tc main_arg12)) (V (Proc.devRef .tc main_arg13)))) := by
  unfold s6b_step
  after_results_simp
  rfl

set_option maxHeartbeats 4000000 in
/-- The window is that straight line: the functions' definitions unfolded at their calls, the records at their fields,
    and sequencing reassociated. -/
theorem main_part6_eq (c : Dev nD) : main_part6 (F := F) c = seq (s6a ++ s6b) := by
  simp only [main_part6, fn_where.body, fn_var.body, fn_where_0.body, fn_leaky_relu.body, fn_where_2.body, fn_var_1.body, fn_relu.body, fn_log_softmax.body, s6a, s6b, List.cons_append, List.nil_append, seq, bind_assoc, pure_bind]

end Cert.ReferenceIdeal.HandRun

end
-- ==== Proof.RefRun.lean ====
import proofs.«113748_g69337952026834_cont_sun_c4_16_16_alg».proof.Proof.RefRun.Ops0
import proofs.«113748_g69337952026834_cont_sun_c4_16_16_alg».proof.Proof.RefRun.Ops1
import proofs.«113748_g69337952026834_cont_sun_c4_16_16_alg».proof.Proof.RefRun.Ops2
import proofs.«113748_g69337952026834_cont_sun_c4_16_16_alg».proof.Proof.RefRun.Ops3
import proofs.«113748_g69337952026834_cont_sun_c4_16_16_alg».proof.Proof.RefRun.Ops4
import proofs.«113748_g69337952026834_cont_sun_c4_16_16_alg».proof.Proof.RefRun.Ops5
import proofs.«113748_g69337952026834_cont_sun_c4_16_16_alg».proof.Proof.RefRun.Ops6

noncomputable section

namespace Cert.ReferenceIdeal.HandRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-! # The reference's run

@main's seven windows in a row are one straight line of 636 operations; its run from any memory ends with the result
buffer at `result` of the fourteen argument arrays' launch contents and the arguments unchanged. -/

set_option Elab.async false

/-- Two lines one after the other leave what the second leaves after the first. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- A property of every operation of two lines holds of every operation of their concatenation. -/
theorem forall_app {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-- @main's 636 operations, the calls unfolded: the seven windows' lines in order. -/
abbrev ops : List (HloOp τ sig (Elt F)) :=
  (s0a ++ s0b) ++ ((s1a ++ s1b) ++ (s2 ++ ((s3a ++ s3b) ++ (s4 ++ ((s5a ++ s5b) ++ (s6a ++ s6b))))))

theorem main_eq (c : Dev nD) : main (F := F) c = seq ops := by
  simp only [main, main_part0_eq, main_part1_eq, main_part2_eq, main_part3_eq, main_part4_eq, main_part5_eq, main_part6_eq,
    ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_app (forall_app s0a_sub s0b_sub) (forall_app (forall_app s1a_sub s1b_sub) (forall_app s2_sub (forall_app (forall_app s3a_sub s3b_sub)
    (forall_app s4_sub (forall_app (forall_app s5a_sub s5b_sub) (forall_app s6a_sub s6b_sub))))))

theorem ops_fresh : (ops : List (HloOp τ sig (Elt F))).Forall fun op => op.fresh = ∅ :=
  forall_app (forall_app s0a_fresh s0b_fresh) (forall_app (forall_app s1a_fresh s1b_fresh) (forall_app s2_fresh (forall_app (forall_app s3a_fresh s3b_fresh)
    (forall_app s4_fresh (forall_app (forall_app s5a_fresh s5b_fresh) (forall_app s6a_fresh s6b_fresh))))))

/-- The whole line's contents are the twelve stretches' steps in order. -/
theorem after_ops (V : Valuation τ sig (Elt F)) : after ops V = (s6b_step (s6a_step (s5b_step (s5a_step (s4_step (s3b_step (s3a_step (s2_step (s1b_step (s1a_step (s0b_step (s0a_step V)))))))))))) := by
  simp only [ops, after_app]
  rfl

set_option maxHeartbeats 4000000 in
/-- The result buffer after the whole line: each stretch's value read at the values of the stretches before it, down to the
    arguments' contents; the composition is `result` with its head, mix and score stages unfolded. -/
theorem out_eq (V : Valuation τ sig (Elt F)) :
    after ops V (Proc.devRef .tc main_v357) = result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [after_ops]
  simp (disch := decide) only [s0a_v17, s0b_v23, s0b_v27, s0b_v31, s0b_v35, s0b_v41, s0b_v45, s0b_v49, s0b_v52, s1a_v99, s1b_v103, s1b_v104, s2_v117, s2_v147, s2_v154, s2_v157, s3a_v181, s3b_v185, s3b_v187, s3b_v191, s3b_v195, s3b_v199, s3b_v201, s3b_v205, s3b_v209, s3b_v211, s4_v262, s5a_v263, s5b_v273, s5b_v277, s5b_v281, s5b_v311, s5b_v314, s5b_v315, s6a_v345, s6b_v357,
    s0a_keep, s0b_keep, s1a_keep, s1b_keep, s2_keep, s3a_keep, s3b_keep, s4_keep, s5a_keep, s5b_keep, s6a_keep, s6b_keep]
  rfl

theorem arg0_eq (V : Valuation τ sig (Elt F)) : after ops V (Proc.devRef .tc main_arg0) = V (Proc.devRef .tc main_arg0) := by
  rw [after_ops]
  simp (disch := decide) only [s0a_keep, s0b_keep, s1a_keep, s1b_keep, s2_keep, s3a_keep, s3b_keep, s4_keep, s5a_keep, s5b_keep, s6a_keep, s6b_keep]
theorem arg1_eq (V : Valuation τ sig (Elt F)) : after ops V (Proc.devRef .tc main_arg1) = V (Proc.devRef .tc main_arg1) := by
  rw [after_ops]
  simp (disch := decide) only [s0a_keep, s0b_keep, s1a_keep, s1b_keep, s2_keep, s3a_keep, s3b_keep, s4_keep, s5a_keep, s5b_keep, s6a_keep, s6b_keep]
theorem arg2_eq (V : Valuation τ sig (Elt F)) : after ops V (Proc.devRef .tc main_arg2) = V (Proc.devRef .tc main_arg2) := by
  rw [after_ops]
  simp (disch := decide) only [s0a_keep, s0b_keep, s1a_keep, s1b_keep, s2_keep, s3a_keep, s3b_keep, s4_keep, s5a_keep, s5b_keep, s6a_keep, s6b_keep]
theorem arg3_eq (V : Valuation τ sig (Elt F)) : after ops V (Proc.devRef .tc main_arg3) = V (Proc.devRef .tc main_arg3) := by
  rw [after_ops]
  simp (disch := decide) only [s0a_keep, s0b_keep, s1a_keep, s1b_keep, s2_keep, s3a_keep, s3b_keep, s4_keep, s5a_keep, s5b_keep, s6a_keep, s6b_keep]
theorem arg4_eq (V : Valuation τ sig (Elt F)) : after ops V (Proc.devRef .tc main_arg4) = V (Proc.devRef .tc main_arg4) := by
  rw [after_ops]
  simp (disch := decide) only [s0a_keep, s0b_keep, s1a_keep, s1b_keep, s2_keep, s3a_keep, s3b_keep, s4_keep, s5a_keep, s5b_keep, s6a_keep, s6b_keep]
theorem arg5_eq (V : Valuation τ sig (Elt F)) : after ops V (Proc.devRef .tc main_arg5) = V (Proc.devRef .tc main_arg5) := by
  rw [after_ops]
  simp (disch := decide) only [s0a_keep, s0b_keep, s1a_keep, s1b_keep, s2_keep, s3a_keep, s3b_keep, s4_keep, s5a_keep, s5b_keep, s6a_keep, s6b_keep]
theorem arg6_eq (V : Valuation τ sig (Elt F)) : after ops V (Proc.devRef .tc main_arg6) = V (Proc.devRef .tc main_arg6) := by
  rw [after_ops]
  simp (disch := decide) only [s0a_keep, s0b_keep, s1a_keep, s1b_keep, s2_keep, s3a_keep, s3b_keep, s4_keep, s5a_keep, s5b_keep, s6a_keep, s6b_keep]
theorem arg7_eq (V : Valuation τ sig (Elt F)) : after ops V (Proc.devRef .tc main_arg7) = V (Proc.devRef .tc main_arg7) := by
  rw [after_ops]
  simp (disch := decide) only [s0a_keep, s0b_keep, s1a_keep, s1b_keep, s2_keep, s3a_keep, s3b_keep, s4_keep, s5a_keep, s5b_keep, s6a_keep, s6b_keep]
theorem arg8_eq (V : Valuation τ sig (Elt F)) : after ops V (Proc.devRef .tc main_arg8) = V (Proc.devRef .tc main_arg8) := by
  rw [after_ops]
  simp (disch := decide) only [s0a_keep, s0b_keep, s1a_keep, s1b_keep, s2_keep, s3a_keep, s3b_keep, s4_keep, s5a_keep, s5b_keep, s6a_keep, s6b_keep]
theorem arg9_eq (V : Valuation τ sig (Elt F)) : after ops V (Proc.devRef .tc main_arg9) = V (Proc.devRef .tc main_arg9) := by
  rw [after_ops]
  simp (disch := decide) only [s0a_keep, s0b_keep, s1a_keep, s1b_keep, s2_keep, s3a_keep, s3b_keep, s4_keep, s5a_keep, s5b_keep, s6a_keep, s6b_keep]
theorem arg10_eq (V : Valuation τ sig (Elt F)) : after ops V (Proc.devRef .tc main_arg10) = V (Proc.devRef .tc main_arg10) := by
  rw [after_ops]
  simp (disch := decide) only [s0a_keep, s0b_keep, s1a_keep, s1b_keep, s2_keep, s3a_keep, s3b_keep, s4_keep, s5a_keep, s5b_keep, s6a_keep, s6b_keep]
theorem arg11_eq (V : Valuation τ sig (Elt F)) : after ops V (Proc.devRef .tc main_arg11) = V (Proc.devRef .tc main_arg11) := by
  rw [after_ops]
  simp (disch := decide) only [s0a_keep, s0b_keep, s1a_keep, s1b_keep, s2_keep, s3a_keep, s3b_keep, s4_keep, s5a_keep, s5b_keep, s6a_keep, s6b_keep]
theorem arg12_eq (V : Valuation τ sig (Elt F)) : after ops V (Proc.devRef .tc main_arg12) = V (Proc.devRef .tc main_arg12) := by
  rw [after_ops]
  simp (disch := decide) only [s0a_keep, s0b_keep, s1a_keep, s1b_keep, s2_keep, s3a_keep, s3b_keep, s4_keep, s5a_keep, s5b_keep, s6a_keep, s6b_keep]
theorem arg13_eq (V : Valuation τ sig (Elt F)) : after ops V (Proc.devRef .tc main_arg13) = V (Proc.devRef .tc main_arg13) := by
  rw [after_ops]
  simp (disch := decide) only [s0a_keep, s0b_keep, s1a_keep, s1b_keep, s2_keep, s3a_keep, s3b_keep, s4_keep, s5a_keep, s5b_keep, s6a_keep, s6b_keep]

/-- On every device, for any float values, from any memory with zero counters: every weakly fair execution of @main terminates
    with the result buffer at `result` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v357) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v357).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _)⟩)
    (run_seq scopedRefs_eq scopedSems_eq defs main (fun _ => ops) main_eq (fun _ => ops_sub) m ρ
      (fun _ => List.forall_iff_forall_mem.mp ops_fresh))

end Cert.ReferenceIdeal.HandRun

end
-- ==== Proof.KI.Algebraic.lean ====
/-
  The two idealized programs, run from memories that agree on the arguments, end with equal results.

  The kernel program's run ends with its result array at the reference's `result` of its own argument arrays (the value
  bridge, under the precondition: every input entry a real number); the reference's run ends with its result array at
  `result` of its argument arrays, which are the kernel program's by hypothesis.
-/
import proofs.«113748_g69337952026834_cont_sun_c4_16_16_alg».proof.Defs
import proofs.«113748_g69337952026834_cont_sun_c4_16_16_alg».proof.Proof.KI.Value
import proofs.«113748_g69337952026834_cont_sun_c4_16_16_alg».proof.Proof.RefRun
import proofs.«113748_g69337952026834_cont_sun_c4_16_16_alg».proof.Proof.Gen.KernelIdeal
import proofs.«113748_g69337952026834_cont_sun_c4_16_16_alg».proof.Proof.Gen.ReferenceIdeal
import proofs.«113748_g69337952026834_cont_sun_c4_16_16_alg».proof.Proof.Gen.Pre_finite_inputs

set_option maxRecDepth 16384

noncomputable section

namespace Cert.KernelIdeal.Hand

open Cert.KernelIdeal.Val
open Idealize.ShloMosaic Idealize.ShloMosaic.TcCoe Idealize.SL.Sem

/-- From the precondition to realness of every argument array, as a statement. -/
def PreReal : Prop :=
  ∀ (a0 : FVec Ideal Cert.Pre_finite_inputs.S5000x256 .f32) (a1 a2 a3 a4 a5 : FVec Ideal Cert.Pre_finite_inputs.S5000x5000 .f32)
    (a6 : FVec Ideal Cert.Pre_finite_inputs.S4x256x32 .f32) (a7 : FVec Ideal Cert.Pre_finite_inputs.S4x64x1 .f32)
    (a8 a9 : FVec Ideal Cert.Pre_finite_inputs.S256 .f32) (a10 a11 : FVec Ideal Cert.Pre_finite_inputs.S32 .f32)
    (a12 : FVec Ideal Cert.Pre_finite_inputs.S128x10 .f32) (a13 : FVec Ideal Cert.Pre_finite_inputs.S10 .f32),
    Cert.Pre_finite_inputs.fn (F := Ideal) a0 a1 a2 a3 a4 a5 a6 a7 a8 a9 a10 a11 a12 a13 = (fun _ => 1#1) →
    AllReal a0 ∧ AllReal a1 ∧ AllReal a2 ∧ AllReal a3 ∧ AllReal a4 ∧ AllReal a5 ∧ AllReal a6 ∧ AllReal a7
      ∧ AllReal a8 ∧ AllReal a9 ∧ AllReal a10 ∧ AllReal a11 ∧ AllReal a12 ∧ AllReal a13

set_option maxHeartbeats 1000000 in
theorem algebraic_of (hA : FeatHead) (hB : AttHead) (hC1 : SupEq) (hC2 : SmEq) (hF : PreReal) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' hpre hagree
  refine ⟨fun c => Cert.ReferenceIdeal.HandRun.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono (fun r h c => by
      obtain ⟨r0, r1, r2, r3, r4, r5, r6, r7, r8, r9, r10, r11, r12, r13⟩ := hF _ _ _ _ _ _ _ _ _ _ _ _ _ _ (hpre c)
      exact ⟨(h c).1.trans (kernel_value m ρ hA hB hC1 hC2 c r0 r1 r2 r3 r4 r5 r6 r7 r8 r9 r10 r11 r12 r13), (h c).2⟩)
      (run_result m ρ)
  · exact (θ_run Cert.ReferenceIdeal.defs _ _).mono (fun r h c => by
      obtain ⟨e0, e1, e2, e3, e4, e5, e6, e7, e8, e9, e10, e11, e12, e13⟩ := hagree c
      refine ⟨(h c).1.trans ?_, (h c).2⟩
      rw [e0, e1, e2, e3, e4, e5, e6, e7, e8, e9, e10, e11, e12, e13])
      (Cert.ReferenceIdeal.HandRun.run (F := Ideal) m' ρ')

end Cert.KernelIdeal.Hand

end
-- ==== Proof.Math.A0.lean ====
/-
  Real numbers inside the extended reals: the few facts the batch-norm bridge needs once every input entry is a real
  number. A finite sum of real numbers is the real sum; a quotient by a real divisor that is not zero is the real
  quotient; the reciprocal square root and the square root of a positive real are the real ones; and the two bit
  patterns the batch norm names, 5000.0 and the f32 nearest 1e-5, are the reals 5000 and 10995116 / 2^40.
-/
import Idealize.ShloMosaic.PureOps.Ideal.Laws
import Idealize.ShloMosaic.Lib.IdealHost

noncomputable section

open scoped BigOperators

namespace Cert.KernelIdeal.Val

open Idealize.ShloMosaic

/-- A finite sum of real numbers read as extended reals is the real sum. -/
theorem Acoe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The quotient of two reals, the divisor not zero. -/
theorem Adiv_coe (a : ℝ) {y : ℝ} (hy : y ≠ 0) : Ideal.div (a : EReal) (y : EReal) = ((a / y : ℝ) : EReal) := by
  rw [Ideal.div_coe hy, ← EReal.coe_mul, mul_one_div]

/-- The reciprocal square root of a positive real. -/
theorem Arsqrt_coe {v : ℝ} (hv : 0 < v) : Ideal.rsqrt (v : EReal) = (((Real.sqrt v)⁻¹ : ℝ) : EReal) := by
  rw [Ideal.rsqrt_coe, if_neg (not_lt.mpr hv.le), if_neg hv.ne']

/-- The square root of a positive real. -/
theorem Asqrt_coe {v : ℝ} (hv : 0 < v) : Ideal.sqrt (v : EReal) = ((Real.sqrt v : ℝ) : EReal) := by
  rw [Ideal.sqrt_coe, if_neg (not_lt.mpr hv.le)]

/-- The f32 pattern of 5000.0 is the real 5000. -/
theorem AofBits_5000 : Ideal.ofBits .f32 0x459C4000#32 = ((5000 : ℝ) : EReal) := by
  simp [Ideal.ofBits, Ideal.ieee, -EReal.coe_mul]; norm_num

/-- The batch norm's ε: the f32 nearest 1e-5. -/
def Aeps : ℝ := 10995116 / 2 ^ 40

theorem Aeps_pos : 0 < Aeps := by unfold Aeps; positivity

/-- The f32 pattern of ε is that real. -/
theorem AofBits_eps : Ideal.ofBits .f32 0x3727C5AC#32 = ((Aeps : ℝ) : EReal) := by
  unfold Aeps
  simp [Ideal.ofBits, Ideal.ieee, -EReal.coe_mul]; norm_num

/-! ## Batch normalisation over the 5000 rows of a 5000 x 256 array of real numbers -/

/-- The mean of column c. -/
def AmeanR (xr : Fin 5000 → Fin 256 → ℝ) (c : Fin 256) : ℝ := (∑ r, xr r c) / 5000
/-- The entry less its column's mean. -/
def AcenR (xr : Fin 5000 → Fin 256 → ℝ) (r : Fin 5000) (c : Fin 256) : ℝ := xr r c - AmeanR xr c
/-- The variance of column c (no degrees of freedom removed): the mean of the squared centred entries. -/
def AvarR (xr : Fin 5000 → Fin 256 → ℝ) (c : Fin 256) : ℝ := AmeanR (fun r c => AcenR xr r c * AcenR xr r c) c
/-- The batch-normalised entry: γ (x - mean) / sqrt (var + ε) + β. -/
def AbnR (xr : Fin 5000 → Fin 256 → ℝ) (gr br : Fin 256 → ℝ) (r : Fin 5000) (c : Fin 256) : ℝ :=
  gr c * AcenR xr r c / Real.sqrt (AvarR xr c + Aeps) + br c

/-- A variance is not negative, so with ε added it is positive. -/
theorem AvarR_eps_pos (xr : Fin 5000 → Fin 256 → ℝ) (c : Fin 256) : 0 < AvarR xr c + Aeps := by
  have h : 0 ≤ AvarR xr c := by
    unfold AvarR AmeanR
    exact div_nonneg (Finset.sum_nonneg fun _ _ => mul_self_nonneg _) (by norm_num)
  exact add_pos_of_nonneg_of_pos h Aeps_pos

end Cert.KernelIdeal.Val

end
-- ==== Proof.Math.A1.lean ====
/-
  The attention kernel's batch norm of x, read entry by entry when every input entry is a real number: the column sums
  over the 5000 rows, their quotient by 5000, the centred entries, the variance, and
  γ (x - mean) rsqrt (var + ε) + β with the reciprocal square root of a positive real. The projected features are
  one matrix product of that array with the concatenated projections.
-/
import proofs.«113748_g69337952026834_cont_sun_c4_16_16_alg».proof.Proof.KI.Spec
import proofs.«113748_g69337952026834_cont_sun_c4_16_16_alg».proof.Proof.Math.A0
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen
open Idealize.ShloMosaic Idealize.ShloMosaic.ValueIdx

/-- A sum over the rows of a 5000 x 256 array, at column c. -/
theorem AkSum_apply (h : S5000x256.Reduces [0] S256) (hφ : FKind.Formats .f32)
    (hacc : (0x00000000#32 : BitVec 32) = FKind.add.neutral .f32 hφ) (x : FVec Ideal S5000x256 .f32) (c : Fin 256) :
    multiReduction .add [0] S256 x 0x00000000#32 h hφ hacc (ix1 c) = ∑ r : Fin 5000, x (ix2 r c) := by
  rw [Ideal.multiReduction_add_single]
  exact Finset.sum_congr rfl fun k _ => congrArg x (funext fun a => match a with | ⟨0, _⟩ => rfl | ⟨1, _⟩ => rfl)

/-- The kernel's column sums. -/
def AkSum (x : FVec Ideal S5000x256 .f32) : FVec Ideal S256 .f32 :=
  multiReduction .add [0] S256 x 0x00000000#32 reduces_S5000x256_S256 (.inl rfl) rfl
/-- The column sums at column c. -/
theorem AkSum_eq (x : FVec Ideal S5000x256 .f32) (c : Fin 256) : AkSum x (ix1 c) = ∑ r : Fin 5000, x (ix2 r c) := by
  unfold AkSum
  exact AkSum_apply _ _ _ x c
/-- The kernel's column means as a 1 x 256 row. -/
def AkMean (x : FVec Ideal S5000x256 .f32) : FVec Ideal S1x256 .f32 :=
  divf (shapeCast S1x256 (AkSum x) shapeCasts_S256_S1x256) (broadcast S1x256 (Scalar.ofBits .f32 0x459C4000#32))
/-- The array less its column means. -/
def AkCen (x : FVec Ideal S5000x256 .f32) : FVec Ideal S5000x256 .f32 :=
  subf x (broadcastTo S5000x256 (AkMean x) broadcasts_S1x256_S5000x256)
/-- The kernel's column variances as a 1 x 256 row. -/
def AkVar (x : FVec Ideal S5000x256 .f32) : FVec Ideal S1x256 .f32 := AkMean (mulf (AkCen x) (AkCen x))
/-- The kernel's batch norm. -/
def AkBn (x : FVec Ideal S5000x256 .f32) (G B : FVec Ideal S1x256 .f32) : FVec Ideal S5000x256 .f32 :=
  addf (mulf (mulf (broadcastTo S5000x256 G broadcasts_S1x256_S5000x256) (AkCen x))
      (broadcastTo S5000x256 (rsqrt (addf (AkVar x) (broadcast S1x256 (Scalar.ofBits .f32 0x3727C5AC#32)))) broadcasts_S1x256_S5000x256))
    (broadcastTo S5000x256 B broadcasts_S1x256_S5000x256)

/-- The projected features are the batch norm times the concatenated projections. -/
theorem Afeat_eq (x : FVec Ideal S5000x256 .f32) (G B : FVec Ideal S1x256 .f32) (Wc : FVec Ideal S256x128 .f32) :
    feat (F := Ideal) x G B Wc
      = matmul dot_S5000x256_S256x128_S5000x128_1_0_0_1_n_n none (AkBn x G B) Wc (constant S5000x128 .f32 0x00000000#32) := by
  unfold feat k0_pay2 AkBn AkVar AkCen AkMean AkSum
  simp only [shapeCast_self]

variable (x : FVec Ideal S5000x256 .f32) (xr : Fin 5000 → Fin 256 → ℝ)
  (hx : ∀ r c, x (ix2 r c) = ((xr r c : ℝ) : EReal))

include hx in
/-- The column means of an array of reals. -/
theorem AkMean_apply (u : Fin 1) (c : Fin 256) : AkMean x (ix2 u c) = ((AmeanR xr c : ℝ) : EReal) := by
  unfold AkMean
  rw [divf_apply, broadcast_apply, shapeCast_a_1a_apply, AkSum_eq]
  show Ideal.div (∑ r : Fin 5000, x (ix2 r c)) (Ideal.ofBits .f32 0x459C4000#32) = _
  rw [AofBits_5000, (Finset.sum_congr rfl (fun r _ => hx r c) : ∑ r : Fin 5000, x (ix2 r c) = ∑ r : Fin 5000, ((xr r c : ℝ) : EReal)),
    Acoe_sum, Adiv_coe _ (by norm_num)]
  rfl

include hx in
/-- The centred entries. -/
theorem AkCen_apply (r : Fin 5000) (c : Fin 256) : AkCen x (ix2 r c) = ((AcenR xr r c : ℝ) : EReal) := by
  unfold AkCen
  rw [subf_apply, broadcastTo_1b_ab_apply, AkMean_apply x xr hx, hx, ← EReal.coe_sub]
  rfl

include hx in
/-- The column variances. -/
theorem AkVar_apply (u : Fin 1) (c : Fin 256) : AkVar x (ix2 u c) = ((AvarR xr c : ℝ) : EReal) := by
  unfold AkVar
  rw [AkMean_apply _ (fun r c => AcenR xr r c * AcenR xr r c) (fun r c => by
    rw [mulf_apply, AkCen_apply x xr hx, ← EReal.coe_mul])]
  rfl

include hx in
/-- The batch-normalised entries. -/
theorem AkBn_apply (G B : FVec Ideal S1x256 .f32) (gr br : Fin 256 → ℝ)
    (hG : ∀ c, G (ix2 (0 : Fin 1) c) = ((gr c : ℝ) : EReal)) (hB : ∀ c, B (ix2 (0 : Fin 1) c) = ((br c : ℝ) : EReal))
    (r : Fin 5000) (c : Fin 256) : AkBn x G B (ix2 r c) = ((AbnR xr gr br r c : ℝ) : EReal) := by
  unfold AkBn
  rw [addf_apply, mulf_apply, mulf_apply, broadcastTo_1b_ab_apply, broadcastTo_1b_ab_apply, broadcastTo_1b_ab_apply,
    AkCen_apply x xr hx, hG, hB]
  show ((gr c : ℝ) : EReal) * ((AcenR xr r c : ℝ) : EReal)
      * Ideal.rsqrt (AkVar x (ix2 (0 : Fin 1) c) + Ideal.ofBits .f32 0x3727C5AC#32) + ((br c : ℝ) : EReal) = _
  rw [AkVar_apply x xr hx, AofBits_eps, ← EReal.coe_add, Arsqrt_coe (AvarR_eps_pos xr c), ← EReal.coe_mul, ← EReal.coe_mul,
    ← EReal.coe_add]
  unfold AbnR
  rw [div_eq_mul_inv]

end Cert.KernelIdeal.Val

end
-- ==== Proof.Math.A2.lean ====
/-
  The reference's batch norm of x, read entry by entry when every input entry is a real number: the host's column sums
  from the initial value zero, their quotient by 5000, the centred entries, the variance (whose select on the count
  5000 - 0 > 0 always takes the quotient), and γ (x - mean) / sqrt (var + ε) + β with the square root of a positive real.
-/
import proofs.«113748_g69337952026834_cont_sun_c4_16_16_alg».proof.Proof.RefRun.Stages
import proofs.«113748_g69337952026834_cont_sun_c4_16_16_alg».proof.Proof.Gen.ReferenceIdeal
import proofs.«113748_g69337952026834_cont_sun_c4_16_16_alg».proof.Proof.Math.A0
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.KernelIdeal.Val

open Idealize.ShloMosaic Idealize.ShloMosaic.ValueIdx
open Cert.ReferenceIdeal Cert.ReferenceIdeal.HandRun
open Cert.ReferenceIdeal.Facts₀ Cert.ReferenceIdeal.Facts

attribute [local instance] Cert.ReferenceIdeal.Gen.facts

/-- A 256-vector broadcast to a 1 x 256 row reads the vector. -/
theorem ArVec_apply (h : S256.BroadcastsInDim S1x256 (![1] : Fin 1 → Fin S1x256.rank)) (v : S256.Idx → EReal) (u : Fin 1) (c : Fin 256) :
    broadcastInDim S1x256 ![1] h v (ix2 u c) = v (ix1 c) :=
  broadcastInDim_apply _ h v _ _ fun a => match a with | ⟨0, _⟩ => rfl

/-- A 1 x 256 row broadcast over the 5000 rows reads the row. -/
theorem ArRow_apply (h : S1x256.BroadcastsInDim S5000x256 (![0, 1] : Fin 2 → Fin S5000x256.rank)) (v : S1x256.Idx → EReal)
    (r : Fin 5000) (c : Fin 256) : broadcastInDim S5000x256 ![0, 1] h v (ix2 r c) = v (ix2 (0 : Fin 1) c) :=
  broadcastInDim_apply _ h v _ _ fun a => match a with | ⟨0, _⟩ => rfl | ⟨1, _⟩ => rfl

/-- The host's sum over the rows from the initial value zero, at column c. -/
theorem ArSum_apply (h' : S5000x256.ReducesTo [0] S256) (hu : 0 < S_.numel) (x : FVec Ideal S5000x256 .f32) (c : Fin 256) :
    Host.reduceAdd x (constant S_ .f32 0x00000000#32) h' hu (ix1 c) = ∑ r : Fin 5000, x (ix2 r c) := by
  rw [hostReduceAdd_apply, Ideal.hostReduceAdd_single h' (by decide : S5000x256.Reduces [0] S256), constant_apply,
    Ideal.ofBits_zero_f32, zero_add]
  exact Finset.sum_congr rfl fun k _ => congrArg x (funext fun a => match a with | ⟨0, _⟩ => rfl | ⟨1, _⟩ => rfl)

/-- The same sum when the entries are real numbers. -/
theorem ArSum_real (h' : S5000x256.ReducesTo [0] S256) (hu : 0 < S_.numel) (y : FVec Ideal S5000x256 .f32)
    (yr : Fin 5000 → Fin 256 → ℝ) (hy : ∀ r c, y (ix2 r c) = ((yr r c : ℝ) : EReal)) (c : Fin 256) :
    Host.reduceAdd y (constant S_ .f32 0x00000000#32) h' hu (ix1 c) = ((∑ r, yr r c : ℝ) : EReal) := by
  rw [ArSum_apply, ← Acoe_sum]
  exact Finset.sum_congr rfl fun r _ => hy r c

/-- The variance's divisor, 5000 less no degrees of freedom, is the real 5000. -/
theorem AvarCount : varCount (F := Ideal) ix0 = ((5000 : ℝ) : EReal) := by
  unfold varCount
  show Ideal.ofBits .f32 0x459C4000#32 - ((((0#32 : BitVec 32).toInt : ℤ) : ℝ) : EReal) = _
  rw [AofBits_5000, BitVec.toInt_zero, Int.cast_zero, EReal.coe_zero, sub_zero]

/-- The host's square root at an index. -/
theorem AhostSqrt_apply {s : Shape} (a : FVec Ideal s .f32) (i : s.Idx) : Host.sqrt a i = Ideal.sqrt (a i) := rfl

variable (x : Arr Ideal S5000x256) (xr : Fin 5000 → Fin 256 → ℝ)
  (hx : ∀ r c, x (ix2 r c) = ((xr r c : ℝ) : EReal))

include hx in
/-- The column means of an array of reals. -/
theorem ArMean_apply (u : Fin 1) (c : Fin 256) : colMean256 (F := Ideal) x (ix2 u c) = ((AmeanR xr c : ℝ) : EReal) := by
  unfold colMean256
  rw [hostDivf_apply, ArVec_apply, broadcastInDim_scalar_apply, constant_apply, ArSum_real _ _ x xr hx, AofBits_5000,
    Adiv_coe _ (by norm_num)]
  rfl

include hx in
/-- The centred entries. -/
theorem ArCen_apply (r : Fin 5000) (c : Fin 256) : center256 (F := Ideal) x (ix2 r c) = ((AcenR xr r c : ℝ) : EReal) := by
  unfold center256
  rw [subf_apply, ArRow_apply, ArMean_apply x xr hx, hx, ← EReal.coe_sub]
  rfl

include hx in
/-- The column variances: the count is positive, so the select takes the quotient. -/
theorem ArVar_apply (u : Fin 1) (c : Fin 256) : colVar256 (F := Ideal) x (ix2 u c) = ((AvarR xr c : ℝ) : EReal) := by
  unfold colVar256
  rw [select_apply, broadcastInDim_scalar_apply, cmpf_apply, AvarCount, constant_apply, Ideal.ofBits_zero_f32]
  have hc : FloatOps.cmpf (F := Ideal) (φ := .f32) .ogt ((5000 : ℝ) : EReal) 0 = 1#1 := by
    show BitVec.ofBool (decide ((0 : EReal) < ((5000 : ℝ) : EReal))) = 1#1
    rw [decide_eq_true (by exact_mod_cast (by norm_num : (0 : ℝ) < 5000))]
    rfl
  rw [hc, select_one, hostDivf_apply, ArVec_apply, broadcastInDim_scalar_apply, AvarCount,
    ArSum_real _ _ _ (fun r c => AcenR xr r c * AcenR xr r c) (fun r c => by
      rw [mulf_apply, ArCen_apply x xr hx, ← EReal.coe_mul]),
    Adiv_coe _ (by norm_num)]
  rfl

include hx in
/-- The batch-normalised entries. -/
theorem ArBn_apply (g b : Arr Ideal S256) (gr br : Fin 256 → ℝ)
    (hg : ∀ c, g (ix1 c) = ((gr c : ℝ) : EReal)) (hb : ∀ c, b (ix1 c) = ((br c : ℝ) : EReal))
    (r : Fin 5000) (c : Fin 256) : bn256 (F := Ideal) x g b (ix2 r c) = ((AbnR xr gr br r c : ℝ) : EReal) := by
  unfold bn256
  rw [addf_apply, hostDivf_apply, mulf_apply, ArRow_apply, ArRow_apply, ArRow_apply, ArVec_apply, ArVec_apply,
    ArCen_apply x xr hx, hg, hb]
  rw [AhostSqrt_apply, addf_apply, ArVar_apply x xr hx, broadcastInDim_scalar_apply, constant_apply, AofBits_eps, ← EReal.coe_add,
    Asqrt_coe (AvarR_eps_pos xr c), ← EReal.coe_mul,
    Adiv_coe _ (Real.sqrt_ne_zero'.mpr (AvarR_eps_pos xr c)), ← EReal.coe_add]
  rfl

end Cert.KernelIdeal.Val

end
-- ==== Proof.Math.A3.lean ====
/-
  The projection weights both ways: the kernel's 256 x 128 concatenation (the stacked 4 x 256 x 32 array with its first
  two axes exchanged, then the last two merged row-major) has head k's column j at column 32 k + j; the reference's head k
  (slab k cut out, its unit axis dropped) has it at column j.
-/
import proofs.«113748_g69337952026834_cont_sun_c4_16_16_alg».proof.Proof.KI.SpecRef
import Idealize.ShloMosaic.Lib.ValueIdx
import Idealize.ShloMosaic.Lib.ValueLayout

noncomputable section

open scoped BigOperators

namespace Cert.KernelIdeal.Val

open Idealize.ShloMosaic Idealize.ShloMosaic.ValueIdx
open Cert.ReferenceIdeal.HandRun

attribute [local instance] Cert.ReferenceIdeal.Gen.facts

/-- Column 32 k + j of the concatenated projections is head k's column j. -/
theorem Awcat_apply (Wh : Arr Ideal Cert.ReferenceIdeal.S4x256x32) (c : Fin 256) (k : Fin 4) (j : Fin 32) :
    wcat (F := Ideal) Wh (ix2 c (lane k j)) = Wh (ix3 k c j) := by
  unfold wcat
  refine (shapeCast_apply _ _ (ix2 c (lane k j)) (ix3 c k j) ?_).trans ?_
  · rw [Shape.rowMajor_val_three, Shape.rowMajor_val_two]
    show (c.val * 4 + k.val) * 32 + j.val = c.val * 128 + (32 * k.val + j.val)
    omega
  · exact transpose_apply _ _ _ _ _ fun b => match b with | ⟨0, _⟩ => rfl | ⟨1, _⟩ => rfl | ⟨2, _⟩ => rfl

/-- Slab i of the stacked projections, its unit axis dropped, at (c, j). -/
theorem Aslab_apply (i : Nat) (hi : i < 4) (Wh : Arr Ideal Cert.ReferenceIdeal.S4x256x32)
    (h : Cert.ReferenceIdeal.S4x256x32.Slices ![i, 0, 0] Cert.ReferenceIdeal.S1x256x32)
    (h' : Cert.ReferenceIdeal.S1x256x32.ShapeCasts Cert.ReferenceIdeal.S256x32) (c : Fin 256) (j : Fin 32) :
    shapeCast Cert.ReferenceIdeal.S256x32 (extractStridedSlice Cert.ReferenceIdeal.S1x256x32 ![i, 0, 0] Wh h) h' (ix2 c j)
      = Wh (ix3 (⟨i, hi⟩ : Fin 4) c j) := by
  rw [shapeCast_1ab_ab_apply]
  exact extractStridedSlice_apply _ _ _ _ _ fun a => match a with
    | ⟨0, _⟩ => (Nat.add_zero i).symm
    | ⟨1, _⟩ => (Nat.zero_add _).symm
    | ⟨2, _⟩ => (Nat.zero_add _).symm

/-- Head k's projection at (c, j). -/
theorem AwHead_apply (Wh : Arr Ideal Cert.ReferenceIdeal.S4x256x32) (k : Fin 4) (c : Fin 256) (j : Fin 32) :
    wHead Wh k (ix2 c j) = Wh (ix3 k c j) := by
  match k with
  | ⟨0, _⟩ => show wSlice0 Wh (ix2 c j) = _; unfold wSlice0; exact Aslab_apply 0 (by omega) Wh _ _ c j
  | ⟨1, _⟩ => show wSlice1 Wh (ix2 c j) = _; unfold wSlice1; exact Aslab_apply 1 (by omega) Wh _ _ c j
  | ⟨2, _⟩ => show wSlice2 Wh (ix2 c j) = _; unfold wSlice2; exact Aslab_apply 2 (by omega) Wh _ _ c j
  | ⟨3, _⟩ => show wSlice3 Wh (ix2 c j) = _; unfold wSlice3; exact Aslab_apply 3 (by omega) Wh _ _ c j

end Cert.KernelIdeal.Val

end
-- ==== Proof.Math.A4.lean ====
/-
  The two matrix products read at an entry as sums over the 256 columns of the left factor: the kernel's product with
  the 256 x 128 concatenation, and the reference's product with one head's 256 x 32 projection. Each contraction has one
  axis; its index is that axis's coordinate.
-/
import proofs.«113748_g69337952026834_cont_sun_c4_16_16_alg».proof.Proof.KI.SpecRef
import Idealize.ShloMosaic.Lib.ValueIdx
import Idealize.ShloMosaic.PureOps.Ideal.Laws

noncomputable section

open scoped BigOperators

namespace Cert.KernelIdeal.Val

open Idealize.ShloMosaic Idealize.ShloMosaic.ValueIdx

attribute [local instance] Cert.ReferenceIdeal.Gen.facts

/-- The kernel's product's dimension numbers. -/
abbrev AD128 := Cert.KernelIdeal.dot_S5000x256_S256x128_S5000x128_1_0_0_1_n_n
/-- The reference's product's dimension numbers. -/
abbrev AD32 := Cert.ReferenceIdeal.dot_S5000x256_S256x32_S5000x32_1_0_0_1_n_n

theorem AD128_rank : AD128.contr.rank = 1 := rfl
theorem AD128_size : AD128.contr.size ⟨0, by rw [AD128_rank]; exact Nat.one_pos⟩ = 256 := rfl
theorem AD32_rank : AD32.contr.rank = 1 := rfl
theorem AD32_size : AD32.contr.size ⟨0, by rw [AD32_rank]; exact Nat.one_pos⟩ = 256 := rfl

theorem AD128_lhs0 (j : Cert.KernelIdeal.S5000x128.Idx) (q : AD128.contr.Idx) : (AD128.lhsIdx j q 0 : ℕ) = j 0 := by
  simp [DotDims.lhsIdx, AD128, Cert.KernelIdeal.dot_S5000x256_S256x128_S5000x128_1_0_0_1_n_n]; rfl
theorem AD128_rhs1 (j : Cert.KernelIdeal.S5000x128.Idx) (q : AD128.contr.Idx) : (AD128.rhsIdx j q 1 : ℕ) = j 1 := by
  simp [DotDims.rhsIdx, AD128, Cert.KernelIdeal.dot_S5000x256_S256x128_S5000x128_1_0_0_1_n_n]; rfl
theorem AD32_lhs0 (j : Cert.ReferenceIdeal.S5000x32.Idx) (q : AD32.contr.Idx) : (AD32.lhsIdx j q 0 : ℕ) = j 0 := by
  simp [DotDims.lhsIdx, AD32, Cert.ReferenceIdeal.dot_S5000x256_S256x32_S5000x32_1_0_0_1_n_n]; rfl
theorem AD32_rhs1 (j : Cert.ReferenceIdeal.S5000x32.Idx) (q : AD32.contr.Idx) : (AD32.rhsIdx j q 1 : ℕ) = j 1 := by
  simp [DotDims.rhsIdx, AD32, Cert.ReferenceIdeal.dot_S5000x256_S256x32_S5000x32_1_0_0_1_n_n]; rfl

/-- The kernel's contraction sum at (r, l) is the sum over the 256 columns. -/
theorem AD128_sum (f : Cert.KernelIdeal.S5000x256.Idx → EReal) (w : Cert.KernelIdeal.S256x128.Idx → EReal) (r : Fin 5000) (l : Fin 128) :
    ∑ q : AD128.contr.Idx, f (AD128.lhsIdx (ix2 r l) q) * w (AD128.rhsIdx (ix2 r l) q) = ∑ c : Fin 256, f (ix2 r c) * w (ix2 c l) := by
  rw [← Equiv.sum_comp (contrEquiv1 AD128 256 AD128_rank AD128_size).symm]
  refine Finset.sum_congr rfl fun c _ => ?_
  congr 2
  · funext a
    match a with
    | ⟨0, _⟩ => exact Fin.ext (AD128_lhs0 _ _)
    | ⟨1, _⟩ => exact Fin.ext ((AD128.lhsIdx_val_of_single rfl _ _).trans (contrEquiv1_symm_val AD128 256 AD128_rank AD128_size c))
  · funext a
    match a with
    | ⟨0, _⟩ => exact Fin.ext ((AD128.rhsIdx_val_of_single rfl _ _).trans (contrEquiv1_symm_val AD128 256 AD128_rank AD128_size c))
    | ⟨1, _⟩ => exact Fin.ext (AD128_rhs1 _ _)

/-- The reference's contraction sum at (r, j) is the sum over the 256 columns. -/
theorem AD32_sum (f : Cert.ReferenceIdeal.S5000x256.Idx → EReal) (w : Cert.ReferenceIdeal.S256x32.Idx → EReal) (r : Fin 5000) (j : Fin 32) :
    ∑ q : AD32.contr.Idx, f (AD32.lhsIdx (ix2 r j) q) * w (AD32.rhsIdx (ix2 r j) q) = ∑ c : Fin 256, f (ix2 r c) * w (ix2 c j) := by
  rw [← Equiv.sum_comp (contrEquiv1 AD32 256 AD32_rank AD32_size).symm]
  refine Finset.sum_congr rfl fun c _ => ?_
  congr 2
  · funext a
    match a with
    | ⟨0, _⟩ => exact Fin.ext (AD32_lhs0 _ _)
    | ⟨1, _⟩ => exact Fin.ext ((AD32.lhsIdx_val_of_single rfl _ _).trans (contrEquiv1_symm_val AD32 256 AD32_rank AD32_size c))
  · funext a
    match a with
    | ⟨0, _⟩ => exact Fin.ext ((AD32.rhsIdx_val_of_single rfl _ _).trans (contrEquiv1_symm_val AD32 256 AD32_rank AD32_size c))
    | ⟨1, _⟩ => exact Fin.ext (AD32_rhs1 _ _)

end Cert.KernelIdeal.Val

end
-- ==== Proof.Math.A.lean ====
/-
  PART A of the bridge: the attention kernel's projected features against the reference's per-head ones. With every
  input entry a real number, both batch norms are the same real numbers entry by entry (the kernel's
  a rsqrt(v) and the reference's a / sqrt(v) agree because v = var + ε is positive); lane 32 k + j of the kernel's
  product with the concatenated projections and column j of the reference's product with head k's projection are then
  the same sum over the 256 columns, a real number.
-/
import proofs.«113748_g69337952026834_cont_sun_c4_16_16_alg».proof.Proof.KI.SpecRef
import proofs.«113748_g69337952026834_cont_sun_c4_16_16_alg».proof.Proof.Math.A1
import proofs.«113748_g69337952026834_cont_sun_c4_16_16_alg».proof.Proof.Math.A2
import proofs.«113748_g69337952026834_cont_sun_c4_16_16_alg».proof.Proof.Math.A3
import proofs.«113748_g69337952026834_cont_sun_c4_16_16_alg».proof.Proof.Math.A4

noncomputable section

open scoped BigOperators

namespace Cert.KernelIdeal.Val

open Idealize.ShloMosaic Idealize.ShloMosaic.ValueIdx
open Cert.ReferenceIdeal.HandRun

attribute [local instance] Cert.ReferenceIdeal.Gen.facts

/-- A 256-vector as a 1 x 256 row reads the vector. -/
theorem Arow256_apply (g : Arr Ideal Cert.ReferenceIdeal.S256) (u : Fin 1) (c : Fin 256) :
    row256 (F := Ideal) g (ix2 u c) = g (ix1 c) := by
  unfold row256
  exact shapeCast_a_1a_apply _ _ u c

/-- PART A (features). The kernel's projected features, lane 32 k + j, are head k's projected features, column j; and
    every entry is a real number. -/
theorem feat_head (x : Arr Ideal Cert.ReferenceIdeal.S5000x256) (g0 b0 : Arr Ideal Cert.ReferenceIdeal.S256) (Wh : Arr Ideal Cert.ReferenceIdeal.S4x256x32)
    (hx : AllReal x) (hg : AllReal g0) (hb : AllReal b0) (hW : AllReal Wh) :
    (∀ (k : Fin 4) (r : Fin 5000) (j : Fin 32),
        feat (F := Ideal) x (row256 g0) (row256 b0) (wcat Wh) (ix2 r (lane k j)) = hHead x g0 b0 Wh k (ix2 r j))
      ∧ AllReal (feat (F := Ideal) x (row256 g0) (row256 b0) (wcat Wh)) := by
  -- the inputs' entries as real numbers
  choose xr hxr using fun (r : Fin 5000) (c : Fin 256) => hx (ix2 r c)
  choose gr hgr using fun (c : Fin 256) => hg (ix1 c)
  choose br hbr using fun (c : Fin 256) => hb (ix1 c)
  choose wr hwr using fun (k : Fin 4) (c : Fin 256) (j : Fin 32) => hW (ix3 k c j)
  -- the kernel's entry at lane 32 k + j
  have hK : ∀ (k : Fin 4) (r : Fin 5000) (j : Fin 32),
      feat (F := Ideal) x (row256 g0) (row256 b0) (wcat Wh) (ix2 r (lane k j))
        = ((∑ c : Fin 256, AbnR xr gr br r c * wr k c j : ℝ) : EReal) := by
    intro k r j
    rw [Afeat_eq]
    refine (Ideal.matmul_constant_zero_apply _ none _ _ _).trans ?_
    rw [AD128_sum, ← Acoe_sum]
    refine Finset.sum_congr rfl fun c _ => ?_
    rw [AkBn_apply x xr hxr _ _ gr br (fun c => (Arow256_apply g0 0 c).trans (hgr c))
      (fun c => (Arow256_apply b0 0 c).trans (hbr c)) r c, Awcat_apply, hwr, ← EReal.coe_mul]
  -- the reference's entry at head k, column j
  have hR : ∀ (k : Fin 4) (r : Fin 5000) (j : Fin 32),
      hHead x g0 b0 Wh k (ix2 r j) = ((∑ c : Fin 256, AbnR xr gr br r c * wr k c j : ℝ) : EReal) := by
    intro k r j
    unfold hHead proj
    refine (Ideal.dotGeneral_apply _ none _ _ _ _).trans ?_
    rw [AD32_sum, ← Acoe_sum]
    refine Finset.sum_congr rfl fun c _ => ?_
    rw [ArBn_apply x xr hxr g0 b0 gr br hgr hbr r c, AwHead_apply, hwr, ← EReal.coe_mul]
  refine ⟨fun k r j => (hK k r j).trans (hR k r j).symm, fun i => ?_⟩
  obtain ⟨r, l, rfl⟩ : ∃ (r : Fin 5000) (l : Fin 128), i = ix2 r l := ⟨i 0, i 1, eq_ix2 i⟩
  obtain ⟨k, j, rfl⟩ : ∃ (k : Fin 4) (j : Fin 32), l = lane k j :=
    ⟨⟨l.val / 32, by omega⟩, ⟨l.val % 32, Nat.mod_lt _ (by norm_num)⟩,
      Fin.ext (by show l.val = 32 * (l.val / 32) + l.val % 32; omega)⟩
  exact ⟨_, hK k r j⟩

end Cert.KernelIdeal.Val

end
-- ==== Proof.Math.BRow.lean ====
/-
  The attention block on ONE ROW of ONE HEAD, over the extended reals: the facts of arithmetic the bridge between the
  kernel's 128-lane layout and the reference's per-head arrays rests on. A sum over the 128 lanes against a 0/1 group
  column is the sum over the group's 32 lanes; a sum over the four heads against a 0/1 row picks one head; the square of
  an absolute value is the square; a weight times the reciprocal of the weights' sum is the quotient, because the sum
  of exponentials of real numbers is a positive real; and every operation of the block keeps real numbers real.
-/
import Idealize.ShloMosaic.PureOps.Ideal
import Idealize.ShloMosaic.PureOps.Ideal.Laws
import Idealize.ShloMosaic.Lib.ValueIdx
import Mathlib.Algebra.BigOperators.Fin
import Mathlib.Data.Finset.Fold

noncomputable section

open scoped BigOperators
open Idealize.ShloMosaic Idealize.ShloMosaic.ValueIdx

namespace Cert.KernelIdeal.Val

/-! ## Real numbers among the extended reals -/

/-- The extended real is a real number. -/
abbrev BReal (x : EReal) : Prop := ∃ r : ℝ, x = (r : EReal)

theorem B_real_zero : BReal 0 := ⟨0, rfl⟩
theorem B_real_one : BReal 1 := ⟨1, rfl⟩
theorem B_real_add {x y : EReal} (hx : BReal x) (hy : BReal y) : BReal (x + y) := by
  obtain ⟨a, rfl⟩ := hx; obtain ⟨b, rfl⟩ := hy; exact ⟨a + b, (EReal.coe_add a b).symm⟩
theorem B_real_mul {x y : EReal} (hx : BReal x) (hy : BReal y) : BReal (x * y) := by
  obtain ⟨a, rfl⟩ := hx; obtain ⟨b, rfl⟩ := hy; exact ⟨a * b, (EReal.coe_mul a b).symm⟩
theorem B_real_sub {x y : EReal} (hx : BReal x) (hy : BReal y) : BReal (x - y) := by
  obtain ⟨a, rfl⟩ := hx; obtain ⟨b, rfl⟩ := hy; exact ⟨a - b, (EReal.coe_sub a b).symm⟩
theorem B_real_max {x y : EReal} (hx : BReal x) (hy : BReal y) : BReal (max x y) := by
  obtain ⟨a, rfl⟩ := hx; obtain ⟨b, rfl⟩ := hy
  rcases le_total a b with h | h
  · exact ⟨b, max_eq_right (EReal.coe_le_coe_iff.mpr h)⟩
  · exact ⟨a, max_eq_left (EReal.coe_le_coe_iff.mpr h)⟩
theorem B_real_exp {x : EReal} (hx : BReal x) : BReal (Ideal.exp x) := by
  obtain ⟨a, rfl⟩ := hx; exact ⟨Real.exp a, rfl⟩
theorem B_real_sum {ι : Type} (s : Finset ι) (f : ι → EReal) (h : ∀ i ∈ s, BReal (f i)) : BReal (∑ i ∈ s, f i) := by
  classical
  induction s using Finset.induction_on with
  | empty => exact ⟨0, by simp⟩
  | insert a s ha ih =>
    rw [Finset.sum_insert ha]
    exact B_real_add (h a (Finset.mem_insert_self a s)) (ih fun i hi => h i (Finset.mem_insert_of_mem hi))
theorem B_real_select (c : BitVec 1) {x y : EReal} (hx : BReal x) (hy : BReal y) : BReal (Scalar.select c x y) := by
  rcases BitVec.eq_zero_or_eq_one c with h | h
  · subst h; rw [select_zero]; exact hy
  · subst h; rw [select_one]; exact hx

/-! ## The float words the block names -/

theorem B_ofBits_one : Ideal.ofBits .f32 0x3F800000#32 = 1 := by
  have h : Ideal.ofBits .f32 0x3F800000#32 = (((8388608 : ℝ) * ((2 : ℝ) ^ 23)⁻¹ : ℝ) : EReal) := by
    simp [Ideal.ofBits, Ideal.ieee]
  rw [h, show ((8388608 : ℝ) * ((2 : ℝ) ^ 23)⁻¹) = 1 by norm_num]
  rfl
theorem B_ofBits_ninf : Ideal.ofBits .f32 0xFF800000#32 = ⊥ := by
  simp [Ideal.ofBits, Ideal.ieee]
theorem B_slope_real : BReal (Ideal.ofBits .f32 0x3E4CCCCD#32) :=
  ⟨(13421773 : ℝ) * ((2 : ℝ) ^ 26)⁻¹, by simp [Ideal.ofBits, Ideal.ieee]⟩

/-! ## Squares of absolute values -/

theorem B_abs_sq (y : EReal) : max y (-y) * max y (-y) = y * y := by
  rcases le_total 0 y with h | h
  · have h1 : -y ≤ y := le_trans (by rw [← neg_zero]; exact EReal.neg_le_neg_iff.mpr h) h
    rw [max_eq_left h1]
  · have h1 : y ≤ -y := le_trans h (by rw [← neg_zero]; exact EReal.neg_le_neg_iff.mpr h)
    rw [max_eq_right h1, neg_mul_neg]

/-! ## Sums against the 0/1 group matrices -/

/-- Lane `32 a + b` of the 128 from its head `a` and feature `b`. -/
def B_laneEquiv : Fin 4 × Fin 32 ≃ Fin 128 where
  toFun p := ⟨32 * p.1.val + p.2.val, by have := p.1.isLt; have := p.2.isLt; omega⟩
  invFun l := (⟨l.val / 32, by have := l.isLt; omega⟩, ⟨l.val % 32, Nat.mod_lt _ (by decide)⟩)
  left_inv p := by
    have h1 := p.1.isLt; have h2 := p.2.isLt
    exact Prod.ext (Fin.ext (by show (32 * p.1.val + p.2.val) / 32 = p.1.val; omega))
      (Fin.ext (by show (32 * p.1.val + p.2.val) % 32 = p.2.val; omega))
  right_inv l := Fin.ext (by show 32 * (l.val / 32) + l.val % 32 = l.val; omega)

/-- A sum over the 128 lanes of the terms of head `k`'s lanes is the sum over that head's 32 lanes. -/
theorem B_sum_group (k : Fin 4) (f : Fin 128 → EReal) :
    ∑ l : Fin 128, (if l.val / 32 = k.val then f l else 0)
      = ∑ j : Fin 32, f ⟨32 * k.val + j.val, by have := k.isLt; have := j.isLt; omega⟩ := by
  rw [← Equiv.sum_comp B_laneEquiv, Fintype.sum_prod_type]
  rw [Finset.sum_eq_single k]
  · refine Finset.sum_congr rfl fun b _ => ?_
    have hb := b.isLt; have hk := k.isLt
    rw [if_pos (by show (32 * k.val + b.val) / 32 = k.val; omega)]
    rfl
  · intro a _ hne
    refine Finset.sum_eq_zero fun b _ => ?_
    have hb := b.isLt; have ha := a.isLt
    rw [if_neg]
    show ¬ (32 * a.val + b.val) / 32 = k.val
    intro h
    exact hne (Fin.ext (by omega))
  · intro h; exact absurd (Finset.mem_univ k) h

/-- A sum over the four heads against the 0/1 row of head `k` picks head `k`'s term. -/
theorem B_sum_pick (k : Fin 4) (w : Fin 4 → EReal) (m : Nat) (hm : m = k.val) :
    ∑ c : Fin 4, w c * (if m = c.val then (1 : EReal) else 0) = w k := by
  subst hm
  rw [Finset.sum_eq_single k]
  · rw [if_pos rfl, mul_one]
  · intro c _ hne
    rw [if_neg (fun h => hne (Fin.ext h.symm)), mul_zero]
  · intro h; exact absurd (Finset.mem_univ k) h

/-! ## The maximum of four, and the attention weights -/

/-- The host's row maximum over four entries, joined with −∞ before and after, is the maximum of the four. -/
theorem B_fold_max4 (f : Fin 4 → EReal) :
    max ⊥ ((Finset.univ : Finset (Fin 4)).fold max ⊥ f) = max (max (f 0) (f 1)) (max (f 2) (f 3)) := by
  rw [max_eq_right bot_le]
  apply le_antisymm
  · refine (Finset.fold_max_le _).mpr ⟨bot_le, fun x _ => ?_⟩
    fin_cases x
    · exact le_max_of_le_left (le_max_left _ _)
    · exact le_max_of_le_left (le_max_right _ _)
    · exact le_max_of_le_right (le_max_left _ _)
    · exact le_max_of_le_right (le_max_right _ _)
  · have h : ∀ i : Fin 4, f i ≤ (Finset.univ : Finset (Fin 4)).fold max ⊥ f :=
      fun i => (Finset.le_fold_max _).mpr (Or.inr ⟨i, Finset.mem_univ i, le_rfl⟩)
    exact max_le (max_le (h 0) (h 1)) (max_le (h 2) (h 3))

/-- A sum of four exponentials of real numbers is a real number, and not zero. -/
theorem B_den_real {m e0 e1 e2 e3 : EReal} (hm : BReal m) (h0 : BReal e0) (h1 : BReal e1) (h2 : BReal e2) (h3 : BReal e3) :
    ∃ x : ℝ, x ≠ 0 ∧ Ideal.exp (e0 - m) + Ideal.exp (e1 - m) + Ideal.exp (e2 - m) + Ideal.exp (e3 - m) = (x : EReal) := by
  obtain ⟨rm, rfl⟩ := hm; obtain ⟨a0, rfl⟩ := h0; obtain ⟨a1, rfl⟩ := h1; obtain ⟨a2, rfl⟩ := h2; obtain ⟨a3, rfl⟩ := h3
  refine ⟨Real.exp (a0 - rm) + Real.exp (a1 - rm) + Real.exp (a2 - rm) + Real.exp (a3 - rm), ?_, ?_⟩
  · have := Real.exp_pos (a0 - rm); have := Real.exp_pos (a1 - rm); have := Real.exp_pos (a2 - rm); have := Real.exp_pos (a3 - rm)
    positivity
  · rw [← EReal.coe_sub, ← EReal.coe_sub, ← EReal.coe_sub, ← EReal.coe_sub, Ideal.exp_coe, Ideal.exp_coe, Ideal.exp_coe, Ideal.exp_coe,
      EReal.coe_add, EReal.coe_add, EReal.coe_add]

/-- The reciprocal of a nonzero real number is a real number. -/
theorem B_real_div_one {x : ℝ} (hx : x ≠ 0) : BReal (Ideal.div (Ideal.ofBits .f32 0x3F800000#32) (x : EReal)) := by
  rw [Ideal.div_coe hx, B_ofBits_one, one_mul]
  exact ⟨1 / x, rfl⟩

/-- A weight times the reciprocal of the weights' sum is the host's quotient by that sum (taken from a zero initial value). -/
theorem B_att_eq {m e0 e1 e2 e3 : EReal} (hm : BReal m) (h0 : BReal e0) (h1 : BReal e1) (h2 : BReal e2) (h3 : BReal e3) (w : EReal) :
    w * Ideal.div (Ideal.ofBits .f32 0x3F800000#32) (Ideal.exp (e0 - m) + Ideal.exp (e1 - m) + Ideal.exp (e2 - m) + Ideal.exp (e3 - m))
      = Ideal.div w (Ideal.ofBits .f32 0x00000000#32 + (Ideal.exp (e0 - m) + Ideal.exp (e1 - m) + Ideal.exp (e2 - m) + Ideal.exp (e3 - m))) := by
  obtain ⟨x, hx, hs⟩ := B_den_real hm h0 h1 h2 h3
  rw [hs, Ideal.ofBits_zero_f32, zero_add, Ideal.div_coe hx, Ideal.div_coe hx, B_ofBits_one, one_mul]

/-- The leaky rectifier of slope 0.2 (its f32 neighbour) on one extended real, as both programs spell it. -/
def Blk (x : EReal) : EReal :=
  Scalar.select (Ideal.cmp .oge x (Ideal.ofBits .f32 0x00000000#32)) x (Ideal.ofBits .f32 0x3E4CCCCD#32 * x)

theorem B_real_lk {x : EReal} (hx : BReal x) : BReal (Blk x) :=
  B_real_select _ hx (B_real_mul B_slope_real hx)

/-! ## The attention weights of four scores, the two programs' ways -/

/-- The maximum of four scores, as the kernel nests it. -/
def Bmax4 (x0 x1 x2 x3 : EReal) : EReal := max (max x0 x1) (max x2 x3)
/-- The sum of the four shifted exponentials, summed from the left. -/
def Bden (x0 x1 x2 x3 : EReal) : EReal :=
  Ideal.exp (x0 - Bmax4 x0 x1 x2 x3) + Ideal.exp (x1 - Bmax4 x0 x1 x2 x3) + Ideal.exp (x2 - Bmax4 x0 x1 x2 x3) + Ideal.exp (x3 - Bmax4 x0 x1 x2 x3)
/-- The weight of the score `x` the reference's way: the shifted exponential over the sum taken from a zero initial value. -/
def BattH (x0 x1 x2 x3 x : EReal) : EReal :=
  Ideal.div (Ideal.exp (x - Bmax4 x0 x1 x2 x3)) (Ideal.ofBits .f32 0x00000000#32 + Bden x0 x1 x2 x3)
/-- The weight of the score `x` the kernel's way: the shifted exponential times the reciprocal of the sum. -/
def BattK (x0 x1 x2 x3 x : EReal) : EReal :=
  Ideal.exp (x - Bmax4 x0 x1 x2 x3) * Ideal.div (Ideal.ofBits .f32 0x3F800000#32) (Bden x0 x1 x2 x3)

theorem B_real_max4 {x0 x1 x2 x3 : EReal} (h0 : BReal x0) (h1 : BReal x1) (h2 : BReal x2) (h3 : BReal x3) : BReal (Bmax4 x0 x1 x2 x3) :=
  B_real_max (B_real_max h0 h1) (B_real_max h2 h3)

/-- On real scores the two ways agree. -/
theorem BattK_eq_BattH {x0 x1 x2 x3 : EReal} (h0 : BReal x0) (h1 : BReal x1) (h2 : BReal x2) (h3 : BReal x3) (x : EReal) :
    BattK x0 x1 x2 x3 x = BattH x0 x1 x2 x3 x :=
  B_att_eq (B_real_max4 h0 h1 h2 h3) h0 h1 h2 h3 _

/-- On real scores the weights are real numbers. -/
theorem B_real_attK {x0 x1 x2 x3 x : EReal} (h0 : BReal x0) (h1 : BReal x1) (h2 : BReal x2) (h3 : BReal x3) (hx : BReal x) :
    BReal (BattK x0 x1 x2 x3 x) := by
  obtain ⟨y, hy, hs⟩ := B_den_real (B_real_max4 h0 h1 h2 h3) h0 h1 h2 h3
  unfold BattK Bden
  rw [hs]
  exact B_real_mul (B_real_exp (B_real_sub hx (B_real_max4 h0 h1 h2 h3))) (B_real_div_one hy)

end Cert.KernelIdeal.Val

end
-- ==== Proof.Math.BIdx.lean ====
/-
  The attention kernel's layout operands read at an index: the 200 rows of the features a grid point loads are the
  array's rows from 200 t on; the two 0/1 group matrices (128 x 4 and 4 x 128) hold 1 exactly where the lane's head,
  its number divided by 32, is the column (the row); and the two rows of attention weights hold, at lane 32 k + j,
  head k's weight j (the self part) and weight 32 + j (the neighbour part).
-/
import proofs.«113748_g69337952026834_cont_sun_c4_16_16_alg».proof.Proof.KI.SpecRef
import proofs.«113748_g69337952026834_cont_sun_c4_16_16_alg».proof.Proof.Math.BRow
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen
open Idealize.ShloMosaic Idealize.ShloMosaic.ValueIdx Idealize.SL.Sem
open Cert.ReferenceIdeal.HandRun
open scoped BigOperators

attribute [local instance] Cert.ReferenceIdeal.Gen.facts

/-! ## The rows of the features at a grid point -/

theorem B_coords0 : ∀ t : Fin cfg0.N, (grid0.coords t 0).val = t.val :=
  (by decide +kernel : ∀ t : Fin grid0.N, (grid0.coords t 0).val = t.val)

/-- The rows of the features a grid point loads are the array's rows from 200 t on. -/
theorem B_featRows_apply (t : Fin cfg0.N) (ht : t.val < 25) (H : Vec Ideal Cert.KernelIdeal.S5000x128 .f32) (p : Fin 200) (l : Fin 128) :
    featRows (F := Ideal) (grid0.coords t) H (ix2 p l) = H (ix2 (row0 ⟨t.val, ht⟩ p) l) := by
  unfold featRows
  show H _ = H _
  congr 1
  funext a
  apply Fin.ext
  match a with
  | ⟨0, _⟩ =>
    show k0_off1 (grid0.coords t) 0 + 1 * p.val = 200 * t.val + p.val
    rw [k0_off1_eq, ← B_coords0 t]; simp
  | ⟨1, _⟩ =>
    show k0_off1 (grid0.coords t) 1 + 1 * l.val = l.val
    rw [k0_off1_eq]; simp

/-! ## The group matrices and the attention rows -/

theorem B_select_ereal (c : BitVec 1) (a b : EReal) : Scalar.select c a b = if c = 1#1 then a else b := rfl

/-- The 128 x 4 group matrix: 1 where the lane's head is the column. -/
theorem B_pay3_apply (l : Fin 128) (k : Fin 4) :
    k0_pay3 (F := Ideal) (ix2 l k) = if l.val / 32 = k.val then (1 : EReal) else 0 := by
  have h0 := iota_single_apply .tc S128x4 32 0 iota_S128x4_d0_w32 (ix2 l k)
  have h1 := iota_single_apply .tc S128x4 32 1 iota_S128x4_d1_w32 (ix2 l k)
  unfold k0_pay3
  simp only [select, cmpi, divsi, remsi, subi, andi, extui, broadcast, h0, h1]
  clear h0 h1
  rw [B_select_ereal]
  refine if_congr ?_ B_ofBits_one Ideal.ofBits_zero_f32
  revert l k
  decide +kernel

/-- The 4 x 128 group matrix: 1 where the lane's head is the row. -/
theorem B_pay5_apply (k : Fin 4) (l : Fin 128) :
    k0_pay5 (F := Ideal) (iota .tc S4x128 32 [0] iota_S4x128_d0_w32) (iota .tc S4x128 32 [1] iota_S4x128_d1_w32) 32#32 k0_pay4 0#32 (ix2 k l)
      = if l.val / 32 = k.val then (1 : EReal) else 0 := by
  have h0 := iota_single_apply .tc S4x128 32 0 iota_S4x128_d0_w32 (ix2 k l)
  have h1 := iota_single_apply .tc S4x128 32 1 iota_S4x128_d1_w32 (ix2 k l)
  unfold k0_pay5 k0_pay4
  simp only [select, cmpi, divsi, remsi, subi, andi, extui, broadcast, h0, h1]
  clear h0 h1
  rw [B_select_ereal]
  refine if_congr ?_ B_ofBits_one Ideal.ofBits_zero_f32
  revert k l
  decide +kernel

/-- Entry `32 k + j` of the row of self-attention weights is head `k`'s weight `j`. -/
theorem B_aselfRow_apply (ah : Arr Ideal Cert.ReferenceIdeal.S4x64x1) (k : Fin 4) (j : Fin 32) :
    aselfRow (F := Ideal) ah (ix2 (0 : Fin 1) (lane k j)) = ah (ix3 k (⟨j.val, by omega⟩ : Fin 64) (0 : Fin 1)) := by
  unfold aselfRow
  have hk := k.isLt; have hj := j.isLt
  refine (shapeCast_apply _ _ (ix2 (0 : Fin 1) (lane k j)) (ix2 k j) ?_).trans ?_
  · rw [Shape.rowMajor_val_two, Shape.rowMajor_val_two]
    show k.val * 32 + j.val = 0 * 128 + (32 * k.val + j.val)
    omega
  refine (shapeCast_apply _ _ (ix2 k j) (ix3 k j (0 : Fin 1)) ?_).trans ?_
  · rw [Shape.rowMajor_val_three, Shape.rowMajor_val_two]
    show (k.val * 32 + j.val) * 1 + 0 = k.val * 32 + j.val
    omega
  refine extractStridedSlice_apply _ _ _ (ix3 k j (0 : Fin 1)) _ fun a => ?_
  match a with
  | ⟨0, _⟩ => show k.val = 0 + k.val; omega
  | ⟨1, _⟩ => show j.val = 0 + j.val; omega
  | ⟨2, _⟩ => show 0 = 0 + 0; rfl

/-- Entry `32 k + j` of the row of neighbour-attention weights is head `k`'s weight `32 + j`. -/
theorem B_anbRow_apply (ah : Arr Ideal Cert.ReferenceIdeal.S4x64x1) (k : Fin 4) (j : Fin 32) :
    anbRow (F := Ideal) ah (ix2 (0 : Fin 1) (lane k j)) = ah (ix3 k (⟨32 + j.val, by omega⟩ : Fin 64) (0 : Fin 1)) := by
  unfold anbRow
  have hk := k.isLt; have hj := j.isLt
  refine (shapeCast_apply _ _ (ix2 (0 : Fin 1) (lane k j)) (ix2 k j) ?_).trans ?_
  · rw [Shape.rowMajor_val_two, Shape.rowMajor_val_two]
    show k.val * 32 + j.val = 0 * 128 + (32 * k.val + j.val)
    omega
  refine (shapeCast_apply _ _ (ix2 k j) (ix3 k j (0 : Fin 1)) ?_).trans ?_
  · rw [Shape.rowMajor_val_three, Shape.rowMajor_val_two]
    show (k.val * 32 + j.val) * 1 + 0 = k.val * 32 + j.val
    omega
  refine extractStridedSlice_apply _ _ _ (ix3 k j (0 : Fin 1)) _ fun a => ?_
  match a with
  | ⟨0, _⟩ => show k.val = 0 + k.val; omega
  | ⟨1, _⟩ => show 32 + j.val = 32 + j.val; rfl
  | ⟨2, _⟩ => show 0 = 0 + 0; rfl

end Cert.KernelIdeal.Val

end
-- ==== Proof.Math.BMat.lean ====
/-
  The attention kernel's three matrix products read at an index, as plain sums over the contracted coordinate: a block
  of 200 rows of a 5000 x 5000 operator times the 5000 x 128 features; a 200 x 128 block times the 128 x 4 group
  matrix; a 200 x 4 block of weights times the 4 x 128 group matrix.
-/
import proofs.«113748_g69337952026834_cont_sun_c4_16_16_alg».proof.Proof.KI.Spec
import Idealize.ShloMosaic.Lib.ValueIdx
import Idealize.ShloMosaic.PureOps.Ideal.Laws

noncomputable section

namespace Cert.KernelIdeal.Val

open Cert.KernelIdeal Cert.KernelIdeal.Gen
open Idealize.ShloMosaic Idealize.ShloMosaic.ValueIdx Idealize.SL.Sem
open scoped BigOperators

/-! ## 200 x 5000 by 5000 x 128 -/

theorem B_d1_lhs0 (j : S200x128.Idx) (k : dot_S200x5000_S5000x128_S200x128_1_0_0_1_n_n.contr.Idx) :
    (dot_S200x5000_S5000x128_S200x128_1_0_0_1_n_n.lhsIdx j k 0 : ℕ) = j 0 := by
  simp [DotDims.lhsIdx, dot_S200x5000_S5000x128_S200x128_1_0_0_1_n_n]; rfl
theorem B_d1_lhs1 (j : S200x128.Idx) (k : dot_S200x5000_S5000x128_S200x128_1_0_0_1_n_n.contr.Idx) :
    (dot_S200x5000_S5000x128_S200x128_1_0_0_1_n_n.lhsIdx j k 1 : ℕ) = k ⟨0, by decide⟩ := by
  simp [DotDims.lhsIdx, dot_S200x5000_S5000x128_S200x128_1_0_0_1_n_n]; rfl
theorem B_d1_rhs0 (j : S200x128.Idx) (k : dot_S200x5000_S5000x128_S200x128_1_0_0_1_n_n.contr.Idx) :
    (dot_S200x5000_S5000x128_S200x128_1_0_0_1_n_n.rhsIdx j k 0 : ℕ) = k ⟨0, by decide⟩ := by
  simp [DotDims.rhsIdx, dot_S200x5000_S5000x128_S200x128_1_0_0_1_n_n]; rfl
theorem B_d1_rhs1 (j : S200x128.Idx) (k : dot_S200x5000_S5000x128_S200x128_1_0_0_1_n_n.contr.Idx) :
    (dot_S200x5000_S5000x128_S200x128_1_0_0_1_n_n.rhsIdx j k 1 : ℕ) = j 1 := by
  simp [DotDims.rhsIdx, dot_S200x5000_S5000x128_S200x128_1_0_0_1_n_n]; rfl

/-- A block of 200 rows of an operator times the features, at row `p` and lane `l`: the sum over the 5000 columns. -/
theorem B_mm1_apply (X : FVec Ideal S200x5000 .f32) (H : FVec Ideal S5000x128 .f32) (p : Fin 200) (l : Fin 128) :
    matmul (F := Ideal) dot_S200x5000_S5000x128_S200x128_1_0_0_1_n_n none X H (constant (F := Ideal) S200x128 .f32 0x00000000#32) (ix2 p l)
      = ∑ q : Fin 5000, X (ix2 p q) * H (ix2 q l) := by
  refine (Ideal.matmul_constant_zero_apply _ none X H (ix2 p l)).trans ?_
  rw [← Equiv.sum_comp (contrEquiv1 dot_S200x5000_S5000x128_S200x128_1_0_0_1_n_n 5000 rfl rfl).symm]
  refine Finset.sum_congr rfl fun q _ => ?_
  refine congrArg₂ (· * ·) (congrArg X ?_) (congrArg H ?_)
  · funext a
    apply Fin.ext
    match a with
    | ⟨0, _⟩ => exact B_d1_lhs0 _ _
    | ⟨1, _⟩ => exact (B_d1_lhs1 _ _).trans (contrEquiv1_symm_val _ 5000 rfl rfl q)
  · funext a
    apply Fin.ext
    match a with
    | ⟨0, _⟩ => exact (B_d1_rhs0 _ _).trans (contrEquiv1_symm_val _ 5000 rfl rfl q)
    | ⟨1, _⟩ => exact B_d1_rhs1 _ _

/-! ## 200 x 128 by 128 x 4 -/

theorem B_d2_lhs0 (j : S200x4.Idx) (k : dot_S200x128_S128x4_S200x4_1_0_0_1_n_n.contr.Idx) :
    (dot_S200x128_S128x4_S200x4_1_0_0_1_n_n.lhsIdx j k 0 : ℕ) = j 0 := by
  simp [DotDims.lhsIdx, dot_S200x128_S128x4_S200x4_1_0_0_1_n_n]; rfl
theorem B_d2_lhs1 (j : S200x4.Idx) (k : dot_S200x128_S128x4_S200x4_1_0_0_1_n_n.contr.Idx) :
    (dot_S200x128_S128x4_S200x4_1_0_0_1_n_n.lhsIdx j k 1 : ℕ) = k ⟨0, by decide⟩ := by
  simp [DotDims.lhsIdx, dot_S200x128_S128x4_S200x4_1_0_0_1_n_n]; rfl
theorem B_d2_rhs0 (j : S200x4.Idx) (k : dot_S200x128_S128x4_S200x4_1_0_0_1_n_n.contr.Idx) :
    (dot_S200x128_S128x4_S200x4_1_0_0_1_n_n.rhsIdx j k 0 : ℕ) = k ⟨0, by decide⟩ := by
  simp [DotDims.rhsIdx, dot_S200x128_S128x4_S200x4_1_0_0_1_n_n]; rfl
theorem B_d2_rhs1 (j : S200x4.Idx) (k : dot_S200x128_S128x4_S200x4_1_0_0_1_n_n.contr.Idx) :
    (dot_S200x128_S128x4_S200x4_1_0_0_1_n_n.rhsIdx j k 1 : ℕ) = j 1 := by
  simp [DotDims.rhsIdx, dot_S200x128_S128x4_S200x4_1_0_0_1_n_n]; rfl

/-- A 200 x 128 block times a 128 x 4 matrix, at row `p` and column `k`: the sum over the 128 lanes. -/
theorem B_mm2_apply (V : FVec Ideal S200x128 .f32) (G : FVec Ideal S128x4 .f32) (p : Fin 200) (k : Fin 4) :
    matmul (F := Ideal) dot_S200x128_S128x4_S200x4_1_0_0_1_n_n none V G (constant (F := Ideal) S200x4 .f32 0x00000000#32) (ix2 p k)
      = ∑ l : Fin 128, V (ix2 p l) * G (ix2 l k) := by
  refine (Ideal.matmul_constant_zero_apply _ none V G (ix2 p k)).trans ?_
  rw [← Equiv.sum_comp (contrEquiv1 dot_S200x128_S128x4_S200x4_1_0_0_1_n_n 128 rfl rfl).symm]
  refine Finset.sum_congr rfl fun q _ => ?_
  refine congrArg₂ (· * ·) (congrArg V ?_) (congrArg G ?_)
  · funext a
    apply Fin.ext
    match a with
    | ⟨0, _⟩ => exact B_d2_lhs0 _ _
    | ⟨1, _⟩ => exact (B_d2_lhs1 _ _).trans (contrEquiv1_symm_val _ 128 rfl rfl q)
  · funext a
    apply Fin.ext
    match a with
    | ⟨0, _⟩ => exact (B_d2_rhs0 _ _).trans (contrEquiv1_symm_val _ 128 rfl rfl q)
    | ⟨1, _⟩ => exact B_d2_rhs1 _ _

/-! ## 200 x 4 by 4 x 128 -/

theorem B_d3_lhs0 (j : S200x128.Idx) (k : dot_S200x4_S4x128_S200x128_1_0_0_1_n_n.contr.Idx) :
    (dot_S200x4_S4x128_S200x128_1_0_0_1_n_n.lhsIdx j k 0 : ℕ) = j 0 := by
  simp [DotDims.lhsIdx, dot_S200x4_S4x128_S200x128_1_0_0_1_n_n]; rfl
theorem B_d3_lhs1 (j : S200x128.Idx) (k : dot_S200x4_S4x128_S200x128_1_0_0_1_n_n.contr.Idx) :
    (dot_S200x4_S4x128_S200x128_1_0_0_1_n_n.lhsIdx j k 1 : ℕ) = k ⟨0, by decide⟩ := by
  simp [DotDims.lhsIdx, dot_S200x4_S4x128_S200x128_1_0_0_1_n_n]; rfl
theorem B_d3_rhs0 (j : S200x128.Idx) (k : dot_S200x4_S4x128_S200x128_1_0_0_1_n_n.contr.Idx) :
    (dot_S200x4_S4x128_S200x128_1_0_0_1_n_n.rhsIdx j k 0 : ℕ) = k ⟨0, by decide⟩ := by
  simp [DotDims.rhsIdx, dot_S200x4_S4x128_S200x128_1_0_0_1_n_n]; rfl
theorem B_d3_rhs1 (j : S200x128.Idx) (k : dot_S200x4_S4x128_S200x128_1_0_0_1_n_n.contr.Idx) :
    (dot_S200x4_S4x128_S200x128_1_0_0_1_n_n.rhsIdx j k 1 : ℕ) = j 1 := by
  simp [DotDims.rhsIdx, dot_S200x4_S4x128_S200x128_1_0_0_1_n_n]; rfl

/-- A 200 x 4 block times a 4 x 128 matrix, at row `p` and lane `l`: the sum over the four heads. -/
theorem B_mm3_apply (W : FVec Ideal S200x4 .f32) (G : FVec Ideal S4x128 .f32) (p : Fin 200) (l : Fin 128) :
    matmul (F := Ideal) dot_S200x4_S4x128_S200x128_1_0_0_1_n_n none W G (constant (F := Ideal) S200x128 .f32 0x00000000#32) (ix2 p l)
      = ∑ c : Fin 4, W (ix2 p c) * G (ix2 c l) := by
  refine (Ideal.matmul_constant_zero_apply _ none W G (ix2 p l)).trans ?_
  rw [← Equiv.sum_comp (contrEquiv1 dot_S200x4_S4x128_S200x128_1_0_0_1_n_n 4 rfl rfl).symm]
  refine Finset.sum_congr rfl fun q _ => ?_
  refine congrArg₂ (· * ·) (congrArg W ?_) (congrArg G ?_)
  · funext a
    apply Fin.ext
    match a with
    | ⟨0, _⟩ => exact B_d3_lhs0 _ _
    | ⟨1, _⟩ => exact (B_d3_lhs1 _ _).trans (contrEquiv1_symm_val _ 4 rfl rfl q)
  · funext a
    apply Fin.ext
    match a with
    | ⟨0, _⟩ => exact (B_d3_rhs0 _ _).trans (contrEquiv1_symm_val _ 4 rfl rfl q)
    | ⟨1, _⟩ => exact B_d3_rhs1 _ _

end Cert.KernelIdeal.Val

end
-- ==== Proof.Math.BKer.lean ====
/-
  The attention kernel's stored values, stage by stage, read at an index of the 200-row block: the four channels
  (an operator's 200 rows times the features; for the band-pass channels that product squared twice), the per-head scores
  (the features and a channel, each weighted by its row of attention weights and summed over the head's lanes by the
  128 x 4 group matrix, then the leaky rectifier), and the mixed block (each channel times its softmax weight, spread back
  over the head's lanes by the 4 x 128 group matrix).
-/
import proofs.«113748_g69337952026834_cont_sun_c4_16_16_alg».proof.Proof.KI.Spec
import proofs.«113748_g69337952026834_cont_sun_c4_16_16_alg».proof.Proof.Math.BRow
import proofs.«113748_g69337952026834_cont_sun_c4_16_16_alg».proof.Proof.Math.BMat
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen
open Idealize.ShloMosaic Idealize.ShloMosaic.ValueIdx Idealize.SL.Sem
open scoped BigOperators

/-! ## The channels -/

theorem B_pay7_apply (H : Vec Ideal S5000x128 .f32) (X : Vec Ideal S200x5000 .f32) (p : Fin 200) (l : Fin 128) :
    k0_pay7 (F := Ideal) H X (ix2 p l) = ∑ q : Fin 5000, X (ix2 p q) * H (ix2 q l) := by
  unfold k0_pay7
  exact B_mm1_apply X H p l

theorem B_pay8_apply (H : Vec Ideal S5000x128 .f32) (X : Vec Ideal S200x5000 .f32) (p : Fin 200) (l : Fin 128) :
    k0_pay8 (F := Ideal) H X (ix2 p l) = k0_pay7 (F := Ideal) H X (ix2 p l) * k0_pay7 (F := Ideal) H X (ix2 p l) := rfl
theorem B_pay9_apply (H : Vec Ideal S5000x128 .f32) (X : Vec Ideal S200x5000 .f32) (p : Fin 200) (l : Fin 128) :
    k0_pay9 (F := Ideal) H X (ix2 p l) = k0_pay7 (F := Ideal) H X (ix2 p l) * k0_pay7 (F := Ideal) H X (ix2 p l) := rfl
theorem B_pay10_apply (H : Vec Ideal S5000x128 .f32) (X : Vec Ideal S200x5000 .f32) (p : Fin 200) (l : Fin 128) :
    k0_pay10 (F := Ideal) H X (ix2 p l) = k0_pay7 (F := Ideal) H X (ix2 p l) * k0_pay7 (F := Ideal) H X (ix2 p l) := rfl
theorem B_pay11_apply (V : FVec Ideal S200x128 .f32) (i : S200x128.Idx) : k0_pay11 (F := Ideal) V i = V i * V i := rfl
theorem B_pay12_apply (V : FVec Ideal S200x128 .f32) (i : S200x128.Idx) : k0_pay12 (F := Ideal) V i = V i * V i := rfl
theorem B_pay13_apply (V : FVec Ideal S200x128 .f32) (i : S200x128.Idx) : k0_pay13 (F := Ideal) V i = V i * V i := rfl

/-- The self part of the four heads' scores at row `p`, head `k`. -/
theorem B_pay14_apply (Fv : Vec Ideal S200x128 .f32) (G : FVec Ideal S128x4 .f32) (sf : Vec Ideal S1x128 .f32) (p : Fin 200) (k : Fin 4) :
    k0_pay14 (F := Ideal) Fv G sf (ix2 p k) = ∑ l : Fin 128, (Fv (ix2 p l) * sf (ix2 (0 : Fin 1) l)) * G (ix2 l k) := by
  unfold k0_pay14
  refine (B_mm2_apply _ G p k).trans ?_
  refine Finset.sum_congr rfl fun l _ => ?_
  exact congrArg (fun x => (Fv (ix2 p l) * x) * G (ix2 l k)) ((broadcastTo_1b_ab_apply _ _ p l).trans (congrFun (shapeCast_self sf _) _))

/-- The low-pass channel's score. -/
theorem B_pay15_apply (Fv : Vec Ideal S200x128 .f32) (G : FVec Ideal S128x4 .f32) (nb : FVec Ideal S1x128 .f32) (C : FVec Ideal S200x128 .f32)
    (sf : Vec Ideal S1x128 .f32) (p : Fin 200) (k : Fin 4) :
    k0_pay15 (F := Ideal) Fv G nb C sf (ix2 p k)
      = Blk (k0_pay14 (F := Ideal) Fv G sf (ix2 p k) + ∑ l : Fin 128, (C (ix2 p l) * nb (ix2 (0 : Fin 1) l)) * G (ix2 l k)) := by
  unfold k0_pay15
  show Blk (k0_pay14 (F := Ideal) Fv G sf (ix2 p k) + _) = _
  refine congrArg (fun x => Blk (k0_pay14 (F := Ideal) Fv G sf (ix2 p k) + x)) ?_
  refine (B_mm2_apply _ G p k).trans (Finset.sum_congr rfl fun l _ => ?_)
  exact congrArg (fun x => (C (ix2 p l) * x) * G (ix2 l k)) (broadcastTo_1b_ab_apply _ _ p l)

/-- A band-pass channel's score: the channel is the square of the squared product it is given. -/
theorem B_pay16_apply (Fv : Vec Ideal S200x128 .f32) (G : FVec Ideal S128x4 .f32) (nb : FVec Ideal S1x128 .f32) (V : FVec Ideal S200x128 .f32)
    (sf : Vec Ideal S1x128 .f32) (p : Fin 200) (k : Fin 4) :
    k0_pay16 (F := Ideal) Fv G nb V sf (ix2 p k)
      = Blk (k0_pay14 (F := Ideal) Fv G sf (ix2 p k) + ∑ l : Fin 128, ((V (ix2 p l) * V (ix2 p l)) * nb (ix2 (0 : Fin 1) l)) * G (ix2 l k)) := by
  unfold k0_pay16
  show Blk (k0_pay14 (F := Ideal) Fv G sf (ix2 p k) + _) = _
  refine congrArg (fun x => Blk (k0_pay14 (F := Ideal) Fv G sf (ix2 p k) + x)) ?_
  refine (B_mm2_apply _ G p k).trans (Finset.sum_congr rfl fun l _ => ?_)
  exact congrArg (fun x => ((V (ix2 p l) * V (ix2 p l)) * x) * G (ix2 l k)) (broadcastTo_1b_ab_apply _ _ p l)

theorem B_pay17_apply (Fv : Vec Ideal S200x128 .f32) (G : FVec Ideal S128x4 .f32) (nb : FVec Ideal S1x128 .f32) (V : FVec Ideal S200x128 .f32)
    (sf : Vec Ideal S1x128 .f32) (p : Fin 200) (k : Fin 4) :
    k0_pay17 (F := Ideal) Fv G nb V sf (ix2 p k)
      = Blk (k0_pay14 (F := Ideal) Fv G sf (ix2 p k) + ∑ l : Fin 128, ((V (ix2 p l) * V (ix2 p l)) * nb (ix2 (0 : Fin 1) l)) * G (ix2 l k)) := by
  unfold k0_pay17
  show Blk (k0_pay14 (F := Ideal) Fv G sf (ix2 p k) + _) = _
  refine congrArg (fun x => Blk (k0_pay14 (F := Ideal) Fv G sf (ix2 p k) + x)) ?_
  refine (B_mm2_apply _ G p k).trans (Finset.sum_congr rfl fun l _ => ?_)
  exact congrArg (fun x => ((V (ix2 p l) * V (ix2 p l)) * x) * G (ix2 l k)) (broadcastTo_1b_ab_apply _ _ p l)

theorem B_pay18_apply (Fv : Vec Ideal S200x128 .f32) (G : FVec Ideal S128x4 .f32) (nb : FVec Ideal S1x128 .f32) (V : FVec Ideal S200x128 .f32)
    (sf : Vec Ideal S1x128 .f32) (p : Fin 200) (k : Fin 4) :
    k0_pay18 (F := Ideal) Fv G nb V sf (ix2 p k)
      = Blk (k0_pay14 (F := Ideal) Fv G sf (ix2 p k) + ∑ l : Fin 128, ((V (ix2 p l) * V (ix2 p l)) * nb (ix2 (0 : Fin 1) l)) * G (ix2 l k)) := by
  unfold k0_pay18
  show Blk (k0_pay14 (F := Ideal) Fv G sf (ix2 p k) + _) = _
  refine congrArg (fun x => Blk (k0_pay14 (F := Ideal) Fv G sf (ix2 p k) + x)) ?_
  refine (B_mm2_apply _ G p k).trans (Finset.sum_congr rfl fun l _ => ?_)
  exact congrArg (fun x => ((V (ix2 p l) * V (ix2 p l)) * x) * G (ix2 l k)) (broadcastTo_1b_ab_apply _ _ p l)

/-- The first two scores' maximum. -/
theorem B_pay19_apply (Fv : Vec Ideal S200x128 .f32) (G : FVec Ideal S128x4 .f32) (nb : FVec Ideal S1x128 .f32) (C V : FVec Ideal S200x128 .f32)
    (sf : Vec Ideal S1x128 .f32) (i : S200x4.Idx) :
    k0_pay19 (F := Ideal) Fv G nb C V sf i = max (k0_pay15 (F := Ideal) Fv G nb C sf i) (k0_pay16 (F := Ideal) Fv G nb V sf i) := rfl

/-- The mixed block at row `p`, lane `l`: each channel times its weight spread over the head's lanes. -/
theorem B_pay1_apply (GT : FVec Ideal S4x128 .f32) (c0 c1 c2 c3 : FVec Ideal S200x128 .f32) (E0 E1 E2 E3 M01 : FVec Ideal S200x4 .f32)
    (p : Fin 200) (l : Fin 128) (hM : ∀ c : Fin 4, M01 (ix2 p c) = max (E0 (ix2 p c)) (E1 (ix2 p c))) :
    k0_pay1 (F := Ideal) GT c0 c1 c2 c3 E0 E1 E2 E3 M01 (ix2 p l)
      = (∑ c : Fin 4, BattK (E0 (ix2 p c)) (E1 (ix2 p c)) (E2 (ix2 p c)) (E3 (ix2 p c)) (E0 (ix2 p c)) * GT (ix2 c l)) * c0 (ix2 p l)
        + (∑ c : Fin 4, BattK (E0 (ix2 p c)) (E1 (ix2 p c)) (E2 (ix2 p c)) (E3 (ix2 p c)) (E1 (ix2 p c)) * GT (ix2 c l)) * c1 (ix2 p l)
        + (∑ c : Fin 4, BattK (E0 (ix2 p c)) (E1 (ix2 p c)) (E2 (ix2 p c)) (E3 (ix2 p c)) (E2 (ix2 p c)) * GT (ix2 c l)) * c2 (ix2 p l)
        + (∑ c : Fin 4, BattK (E0 (ix2 p c)) (E1 (ix2 p c)) (E2 (ix2 p c)) (E3 (ix2 p c)) (E3 (ix2 p c)) * GT (ix2 c l)) * c3 (ix2 p l) := by
  unfold k0_pay1
  refine congrArg₂ (· + ·) (congrArg₂ (· + ·) (congrArg₂ (· + ·) ?_ ?_) ?_) ?_
  · refine congrArg (· * c0 (ix2 p l)) ?_
    refine (B_mm3_apply _ GT p l).trans (Finset.sum_congr rfl fun c _ => ?_)
    refine congrArg (· * GT (ix2 c l)) ?_
    unfold BattK Bden Bmax4
    rw [← hM c]
    rfl
  · refine congrArg (· * c1 (ix2 p l)) ?_
    refine (B_mm3_apply _ GT p l).trans (Finset.sum_congr rfl fun c _ => ?_)
    refine congrArg (· * GT (ix2 c l)) ?_
    unfold BattK Bden Bmax4
    rw [← hM c]
    rfl
  · refine congrArg (· * c2 (ix2 p l)) ?_
    refine (B_mm3_apply _ GT p l).trans (Finset.sum_congr rfl fun c _ => ?_)
    refine congrArg (· * GT (ix2 c l)) ?_
    unfold BattK Bden Bmax4
    rw [← hM c]
    rfl
  · refine congrArg (· * c3 (ix2 p l)) ?_
    refine (B_mm3_apply _ GT p l).trans (Finset.sum_congr rfl fun c _ => ?_)
    refine congrArg (· * GT (ix2 c l)) ?_
    unfold BattK Bden Bmax4
    rw [← hM c]
    rfl

end Cert.KernelIdeal.Val

end
-- ==== Proof.Math.CRead.lean ====
/-
  Reading the two programs' layout operations, reductions and products at an index given by coordinates: a row or a
  column broadcast over a matrix, a vector turned into a one-row or one-column matrix, a sum or a maximum along one
  axis of a matrix as a sum or a fold over that axis's coordinates, and a matrix product as the sum over the shared
  axis. Every statement is over literal ranks with the extents as variables, so that it applies to any of the shapes
  the two programs use.
-/
import Idealize.ShloMosaic.Lib.ValueLayout
import Idealize.ShloMosaic.Lib.IdealHost
import Idealize.ShloMosaic.PureOps.Ideal.Laws

noncomputable section

open scoped BigOperators

namespace Cert.KernelIdeal.Val

open Idealize.ShloMosaic Idealize.ShloMosaic.ValueIdx

section Layout
variable {α : Type}

/-- A one-row matrix broadcast down the rows (the host's form) reads the row. -/
theorem C_bIn_row {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A vector as a one-row matrix (the host's form) reads the vector. -/
theorem C_bIn_vecrow {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-column matrix broadcast along the rows (the host's form) reads the column. -/
theorem C_bIn_col {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- A vector as a one-column matrix (the host's form) reads the vector. -/
theorem C_bIn_veccol {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A vector cast to a one-column matrix (the kernel's form) reads the vector. -/
theorem C_cast_veccol {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A one-column matrix broadcast along the rows (the kernel's form) reads the column. -/
theorem C_bTo_col {a b : ℕ} (x : (⟨2, ![a, 1]⟩ : Shape).Idx → α)
    (h : (⟨2, ![a, 1]⟩ : Shape).Broadcasts ⟨2, ![a, b]⟩) (p : Fin a) (c : Fin b) :
    broadcastTo ⟨2, ![a, b]⟩ x h (ix2 p c) = x (ix2 p (0 : Fin 1)) := by
  refine broadcastTo_apply x h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The one-operand operations at an index -/

section Unary
variable {s : Shape} {φ : FTy}

theorem C_exp_apply (a : FVec Ideal s φ) (i : s.Idx) : exp a i = Ideal.exp (a i) := rfl
theorem C_log_apply (a : FVec Ideal s φ) (i : s.Idx) : log a i = Ideal.log (a i) := rfl
theorem C_rsqrt_apply (a : FVec Ideal s φ) (i : s.Idx) : rsqrt a i = Ideal.rsqrt (a i) := rfl
theorem C_hexp_apply (a : FVec Ideal s φ) (i : s.Idx) : Host.exp a i = Ideal.exp (a i) := rfl
theorem C_hlog_apply (a : FVec Ideal s φ) (i : s.Idx) : Host.log a i = Ideal.log (a i) := rfl
theorem C_hsqrt_apply (a : FVec Ideal s φ) (i : s.Idx) : Host.sqrt a i = Ideal.sqrt (a i) := rfl

end Unary

/-! ## Sums and maxima along one axis of a matrix -/

section Reductions
variable {a b : ℕ}

/-- The kernel's sum down the columns. -/
theorem C_colSum (X : FVec Ideal ⟨2, ![a, b]⟩ .f32) (h : (⟨2, ![a, b]⟩ : Shape).Reduces [0] ⟨1, ![b]⟩)
    (hφ : FKind.Formats .f32) (hacc : (0x00000000#32 : BitVec 32) = 0x00000000#32) (c : Fin b) :
    multiReduction .add [0] ⟨1, ![b]⟩ X 0x00000000#32 h hφ hacc (ix1 c) = ∑ r : Fin a, X (ix2 r c) :=
  (Ideal.multiReduction_add_single X 0x00000000#32 h hφ hacc (ix1 c)).trans
    (Finset.sum_congr rfl fun k _ => congrArg X (funext fun ax => match ax with | ⟨0, _⟩ => rfl | ⟨1, _⟩ => rfl))

/-- The kernel's sum along the rows. -/
theorem C_rowSum (X : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ X 0x00000000#32 h hφ hacc (ix1 p) = ∑ c : Fin b, X (ix2 p c) :=
  (Ideal.multiReduction_add_single X 0x00000000#32 h hφ hacc (ix1 p)).trans
    (Finset.sum_congr rfl fun k _ => congrArg X (funext fun ax => match ax with | ⟨0, _⟩ => rfl | ⟨1, _⟩ => rfl))

/-- The kernel's maximum along the rows, from the word of minus infinity. -/
theorem C_rowMax (X : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ X 0xFF800000#32 h hφ hacc (ix1 p)
      = (Finset.univ : Finset (Fin b)).fold max (Ideal.ofBits .f32 0xFF800000#32) (fun c => X (ix2 p c)) :=
  (Ideal.multiReduction_maximumf_single X 0xFF800000#32 h hφ hacc (ix1 p)).trans
    (congrArg (fun f => (Finset.univ : Finset (Fin b)).fold max (Ideal.ofBits .f32 0xFF800000#32) f)
      (funext fun k => congrArg X (funext fun ax => match ax with | ⟨0, _⟩ => rfl | ⟨1, _⟩ => rfl)))

/-- The host's sum down the columns: the initial value plus the sum. -/
theorem C_hostColSum {u : Shape} (X : FVec Ideal ⟨2, ![a, b]⟩ .f32) (init : u.Idx → Ideal .f32)
    (h' : (⟨2, ![a, b]⟩ : Shape).ReducesTo [0] ⟨1, ![b]⟩) (hu : 0 < u.numel) (c : Fin b) :
    Host.reduceAdd X init h' hu (ix1 c) = init (Shape.Idx.first hu) + ∑ r : Fin a, X (ix2 r c) :=
  (Ideal.hostReduceAdd_single h' ⟨h'.1, Nat.one_pos, h'.2⟩ X (init (Shape.Idx.first hu)) (ix1 c)).trans
    (congrArg (fun s => init (Shape.Idx.first hu) + s)
      (Finset.sum_congr rfl fun k _ => congrArg X (funext fun ax => match ax with | ⟨0, _⟩ => rfl | ⟨1, _⟩ => rfl)))

/-- The host's sum along the rows: the initial value plus the sum. -/
theorem C_hostRowSum {u : Shape} (X : FVec Ideal ⟨2, ![a, b]⟩ .f32) (init : u.Idx → Ideal .f32)
    (h' : (⟨2, ![a, b]⟩ : Shape).ReducesTo [1] ⟨1, ![a]⟩) (hu : 0 < u.numel) (p : Fin a) :
    Host.reduceAdd X init h' hu (ix1 p) = init (Shape.Idx.first hu) + ∑ c : Fin b, X (ix2 p c) :=
  (Ideal.hostReduceAdd_single h' ⟨h'.1, Nat.one_pos, h'.2⟩ X (init (Shape.Idx.first hu)) (ix1 p)).trans
    (congrArg (fun s => init (Shape.Idx.first hu) + s)
      (Finset.sum_congr rfl fun k _ => congrArg X (funext fun ax => match ax with | ⟨0, _⟩ => rfl | ⟨1, _⟩ => rfl)))

/-- The host's maximum along the rows: the fold of the maximum from the initial value. -/
theorem C_hostRowMax {u : Shape} (X : FVec Ideal ⟨2, ![a, b]⟩ .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) X init h' hu (ix1 p)
      = (Finset.univ : Finset (Fin b)).fold max (init (Shape.Idx.first hu)) (fun c => X (ix2 p c)) :=
  (Host.reduce_eq_fold_single (FloatOps.maximumf (F := Ideal) (φ := .f32)) X init h' ⟨h'.1, Nat.one_pos, h'.2⟩ hu (ix1 p)).trans
    (congrArg (fun f => (Finset.univ : Finset (Fin b)).fold max (init (Shape.Idx.first hu)) f)
      (funext fun k => congrArg X (funext fun ax => match ax with | ⟨0, _⟩ => rfl | ⟨1, _⟩ => rfl)))

end Reductions

end Cert.KernelIdeal.Val

end
-- ==== Proof.Math.CDot.lean ====
/-
  The four matrix products of the smoothing stage read at an index: the kernel's two products into a zero accumulator
  and the reference's two products, each the sum over the shared axis of the products of the entries.
-/
import proofs.«113748_g69337952026834_cont_sun_c4_16_16_alg».proof.Proof.KI.SpecRef
import proofs.«113748_g69337952026834_cont_sun_c4_16_16_alg».proof.Proof.Math.CRead

noncomputable section

open scoped BigOperators

namespace Cert.KernelIdeal.Val

open Idealize.ShloMosaic Idealize.ShloMosaic.ValueIdx
open Cert.ReferenceIdeal.HandRun

attribute [local instance] Cert.ReferenceIdeal.Gen.facts

/-- A product over one shared axis, read through the contraction's coordinate. -/
theorem C_dot_sum {m n k : ℕ} (D : DotDims ⟨2, ![m, n]⟩ ⟨2, ![n, k]⟩ ⟨2, ![m, k]⟩) (hr : D.contr.rank = 1)
    (hs : D.contr.size ⟨0, by omega⟩ = n)
    (hl0 : ∀ j κ, (D.lhsIdx j κ 0).val = (j 0).val) (hl1 : ∀ j κ, (D.lhsIdx j κ 1).val = (κ ⟨0, by omega⟩).val)
    (hr0 : ∀ j κ, (D.rhsIdx j κ 0).val = (κ ⟨0, by omega⟩).val) (hr1 : ∀ j κ, (D.rhsIdx j κ 1).val = (j 1).val)
    (A : (⟨2, ![m, n]⟩ : Shape).Idx → EReal) (B : (⟨2, ![n, k]⟩ : Shape).Idx → EReal) (r : Fin m) (q : Fin k) :
    ∑ κ : D.contr.Idx, A (D.lhsIdx (ix2 r q) κ) * B (D.rhsIdx (ix2 r q) κ) = ∑ l : Fin n, A (ix2 r l) * B (ix2 l q) := by
  rw [← Equiv.sum_comp (contrEquiv1 D n hr hs).symm]
  refine Finset.sum_congr rfl fun l _ => ?_
  have e1 : D.lhsIdx (ix2 r q) ((contrEquiv1 D n hr hs).symm l) = ix2 r l := by
    funext ax; apply Fin.ext
    match ax with
    | ⟨0, _⟩ => exact hl0 _ _
    | ⟨1, _⟩ => exact (hl1 _ _).trans (contrEquiv1_symm_val D n hr hs l)
  have e2 : D.rhsIdx (ix2 r q) ((contrEquiv1 D n hr hs).symm l) = ix2 l q := by
    funext ax; apply Fin.ext
    match ax with
    | ⟨0, _⟩ => exact (hr0 _ _).trans (contrEquiv1_symm_val D n hr hs l)
    | ⟨1, _⟩ => exact hr1 _ _
  rw [e1, e2]

/-! ### The kernel's product with the classifier weights -/

theorem C_kW_l0 (j) (κ) : ((Cert.KernelIdeal.dot_S5000x128_S128x10_S5000x10_1_0_0_1_n_n).lhsIdx j κ 0).val = (j 0).val := by
  simp [DotDims.lhsIdx, Cert.KernelIdeal.dot_S5000x128_S128x10_S5000x10_1_0_0_1_n_n]; rfl
theorem C_kW_r1 (j) (κ) : ((Cert.KernelIdeal.dot_S5000x128_S128x10_S5000x10_1_0_0_1_n_n).rhsIdx j κ 1).val = (j 1).val := by
  simp [DotDims.rhsIdx, Cert.KernelIdeal.dot_S5000x128_S128x10_S5000x10_1_0_0_1_n_n]; rfl

theorem C_kmatW (A : FVec Ideal Cert.KernelIdeal.S5000x128 .f32) (B : FVec Ideal Cert.KernelIdeal.S128x10 .f32) (r : Fin 5000) (q : Fin 10) :
    matmul Cert.KernelIdeal.dot_S5000x128_S128x10_S5000x10_1_0_0_1_n_n none A B (constant Cert.KernelIdeal.S5000x10 .f32 0x00000000#32) (ix2 r q)
      = ∑ l : Fin 128, A (ix2 r l) * B (ix2 l q) :=
  (Ideal.matmul_constant_zero_apply _ none A B (ix2 r q)).trans
    (C_dot_sum _ rfl rfl C_kW_l0 (fun j κ => DotDims.lhsIdx_val_of_single _ rfl j κ) (fun j κ => DotDims.rhsIdx_val_of_single _ rfl j κ) C_kW_r1 A B r q)

/-! ### The kernel's product of an operator block with the support matrix -/

theorem C_kA_l0 (j) (κ) : ((Cert.KernelIdeal.dot_S1000x5000_S5000x10_S1000x10_1_0_0_1_n_n).lhsIdx j κ 0).val = (j 0).val := by
  simp [DotDims.lhsIdx, Cert.KernelIdeal.dot_S1000x5000_S5000x10_S1000x10_1_0_0_1_n_n]; rfl
theorem C_kA_r1 (j) (κ) : ((Cert.KernelIdeal.dot_S1000x5000_S5000x10_S1000x10_1_0_0_1_n_n).rhsIdx j κ 1).val = (j 1).val := by
  simp [DotDims.rhsIdx, Cert.KernelIdeal.dot_S1000x5000_S5000x10_S1000x10_1_0_0_1_n_n]; rfl

theorem C_kmatA (A : FVec Ideal Cert.KernelIdeal.S1000x5000 .f32) (B : FVec Ideal Cert.KernelIdeal.S5000x10 .f32) (p : Fin 1000) (q : Fin 10) :
    matmul Cert.KernelIdeal.dot_S1000x5000_S5000x10_S1000x10_1_0_0_1_n_n none A B (constant Cert.KernelIdeal.S1000x10 .f32 0x00000000#32) (ix2 p q)
      = ∑ l : Fin 5000, A (ix2 p l) * B (ix2 l q) :=
  (Ideal.matmul_constant_zero_apply _ none A B (ix2 p q)).trans
    (C_dot_sum _ rfl rfl C_kA_l0 (fun j κ => DotDims.lhsIdx_val_of_single _ rfl j κ) (fun j κ => DotDims.rhsIdx_val_of_single _ rfl j κ) C_kA_r1 A B p q)

/-! ### The reference's product with the classifier weights -/

theorem C_rW_l0 (j) (κ) : ((Cert.ReferenceIdeal.dot_S5000x128_S128x10_S5000x10_1_0_0_1_n_n).lhsIdx j κ 0).val = (j 0).val := by
  simp [DotDims.lhsIdx, Cert.ReferenceIdeal.dot_S5000x128_S128x10_S5000x10_1_0_0_1_n_n]; rfl
theorem C_rW_r1 (j) (κ) : ((Cert.ReferenceIdeal.dot_S5000x128_S128x10_S5000x10_1_0_0_1_n_n).rhsIdx j κ 1).val = (j 1).val := by
  simp [DotDims.rhsIdx, Cert.ReferenceIdeal.dot_S5000x128_S128x10_S5000x10_1_0_0_1_n_n]; rfl

theorem C_rdotW (A : Arr Ideal Cert.ReferenceIdeal.S5000x128) (B : Arr Ideal Cert.ReferenceIdeal.S128x10) (r : Fin 5000) (q : Fin 10) :
    Host.dotGeneral (F := Ideal) (φ₁ := .f32) (φ₂ := .f32) Cert.ReferenceIdeal.dot_S5000x128_S128x10_S5000x10_1_0_0_1_n_n none A B (ix2 r q) = ∑ l : Fin 128, A (ix2 r l) * B (ix2 l q) :=
  (Ideal.dotGeneral_apply _ none .single A B (ix2 r q)).trans
    (C_dot_sum _ rfl rfl C_rW_l0 (fun j κ => DotDims.lhsIdx_val_of_single _ rfl j κ) (fun j κ => DotDims.rhsIdx_val_of_single _ rfl j κ) C_rW_r1 A B r q)

/-! ### The reference's product of the operator with the support matrix -/

theorem C_rA_l0 (j) (κ) : ((Cert.ReferenceIdeal.dot_S5000x5000_S5000x10_S5000x10_1_0_0_1_n_n).lhsIdx j κ 0).val = (j 0).val := by
  simp [DotDims.lhsIdx, Cert.ReferenceIdeal.dot_S5000x5000_S5000x10_S5000x10_1_0_0_1_n_n]; rfl
theorem C_rA_r1 (j) (κ) : ((Cert.ReferenceIdeal.dot_S5000x5000_S5000x10_S5000x10_1_0_0_1_n_n).rhsIdx j κ 1).val = (j 1).val := by
  simp [DotDims.rhsIdx, Cert.ReferenceIdeal.dot_S5000x5000_S5000x10_S5000x10_1_0_0_1_n_n]; rfl

theorem C_rdotA (A : Arr Ideal Cert.ReferenceIdeal.S5000x5000) (B : Arr Ideal Cert.ReferenceIdeal.S5000x10) (r : Fin 5000) (q : Fin 10) :
    Host.dotGeneral (F := Ideal) (φ₁ := .f32) (φ₂ := .f32) Cert.ReferenceIdeal.dot_S5000x5000_S5000x10_S5000x10_1_0_0_1_n_n none A B (ix2 r q) = ∑ l : Fin 5000, A (ix2 r l) * B (ix2 l q) :=
  (Ideal.dotGeneral_apply _ none .single A B (ix2 r q)).trans
    (C_dot_sum _ rfl rfl C_rA_l0 (fun j κ => DotDims.lhsIdx_val_of_single _ rfl j κ) (fun j κ => DotDims.rhsIdx_val_of_single _ rfl j κ) C_rA_r1 A B r q)

end Cert.KernelIdeal.Val

end
-- ==== Proof.Math.BRef.lean ====
/-
  PART B, reference side: the reference's stages of one head read at an index. A propagation and a product with an
  attention column are sums over the shared axis; the two halves of a head's attention vector are entries of the
  stacked vectors; a band-pass channel is the fourth power of the propagated entry (the square of an absolute value is
  the square); a score is the leaky rectifier of the self term plus the channel term; and the attention mix at (r, j)
  is the sum, from the left, of the four channels' entries weighted by the softmax over the row's four scores: the
  row maximum joined with minus infinity is the maximum of the four, and the row sum from the initial value zero is the
  sum of the four shifted exponentials.
-/
import proofs.«113748_g69337952026834_cont_sun_c4_16_16_alg».proof.Proof.KI.SpecRef
import Idealize.ShloMosaic.Lib.ValueIdx
import Idealize.ShloMosaic.Lib.ValueLayout
import Idealize.ShloMosaic.Lib.Pipeline.Value
import Idealize.ShloMosaic.PureOps.Ideal.Laws
import proofs.«113748_g69337952026834_cont_sun_c4_16_16_alg».proof.Proof.Math.BRow
import proofs.«113748_g69337952026834_cont_sun_c4_16_16_alg».proof.Proof.Math.CRead
import proofs.«113748_g69337952026834_cont_sun_c4_16_16_alg».proof.Proof.Math.CDot
set_option pp.maxSteps 5000
set_option pp.deepTerms false
noncomputable section
open scoped BigOperators
namespace Cert.KernelIdeal.Val
open Cert.KernelIdeal Cert.KernelIdeal.Gen
open Idealize.ShloMosaic Idealize.ShloMosaic.ValueIdx Idealize.SL.Sem
open Cert.ReferenceIdeal.HandRun
attribute [local instance] Cert.ReferenceIdeal.Gen.facts

/-! ## The two products -/

theorem BR_dP_l0 (j) (κ) : ((Cert.ReferenceIdeal.dot_S5000x5000_S5000x32_S5000x32_1_0_0_1_n_n).lhsIdx j κ 0).val = (j 0).val := by
  simp [DotDims.lhsIdx, Cert.ReferenceIdeal.dot_S5000x5000_S5000x32_S5000x32_1_0_0_1_n_n]; rfl
theorem BR_dP_r1 (j) (κ) : ((Cert.ReferenceIdeal.dot_S5000x5000_S5000x32_S5000x32_1_0_0_1_n_n).rhsIdx j κ 1).val = (j 1).val := by
  simp [DotDims.rhsIdx, Cert.ReferenceIdeal.dot_S5000x5000_S5000x32_S5000x32_1_0_0_1_n_n]; rfl
theorem BR_dA_l0 (j) (κ) : ((Cert.ReferenceIdeal.dot_S5000x32_S32x1_S5000x1_1_0_0_1_n_n).lhsIdx j κ 0).val = (j 0).val := by
  simp [DotDims.lhsIdx, Cert.ReferenceIdeal.dot_S5000x32_S32x1_S5000x1_1_0_0_1_n_n]; rfl
theorem BR_dA_r1 (j) (κ) : ((Cert.ReferenceIdeal.dot_S5000x32_S32x1_S5000x1_1_0_0_1_n_n).rhsIdx j κ 1).val = (j 1).val := by
  have h1 : (j 1).val < 1 := idx2_lt1 j
  simp [DotDims.rhsIdx, Cert.ReferenceIdeal.dot_S5000x32_S32x1_S5000x1_1_0_0_1_n_n]
  omega

/-- One propagation at (r, j): the sum over the operator's 5000 columns. -/
theorem BR_prop_apply (A : Arr Ideal Cert.ReferenceIdeal.S5000x5000) (h : Arr Ideal Cert.ReferenceIdeal.S5000x32) (r : Fin 5000) (j : Fin 32) :
    prop A h (ix2 r j) = ∑ q : Fin 5000, A (ix2 r q) * h (ix2 q j) := by
  unfold prop
  refine (Ideal.dotGeneral_apply _ none _ _ _ _).trans ?_
  exact C_dot_sum _ rfl rfl BR_dP_l0 (fun j κ => DotDims.lhsIdx_val_of_single _ rfl j κ)
    (fun j κ => DotDims.rhsIdx_val_of_single _ rfl j κ) BR_dP_r1 A h r j

/-- A 5000 x 32 array against a 32 x 1 column at row r: the sum over the 32 features. -/
theorem BR_dotA_apply (c : Arr Ideal Cert.ReferenceIdeal.S5000x32) (v : Arr Ideal Cert.ReferenceIdeal.S32x1) (r : Fin 5000) :
    dotA c v (ix2 r (0 : Fin 1)) = ∑ j : Fin 32, c (ix2 r j) * v (ix2 j (0 : Fin 1)) := by
  unfold dotA
  refine (Ideal.dotGeneral_apply _ none _ _ _ _).trans ?_
  exact C_dot_sum _ rfl rfl BR_dA_l0 (fun j κ => DotDims.lhsIdx_val_of_single _ rfl j κ)
    (fun j κ => DotDims.rhsIdx_val_of_single _ rfl j κ) BR_dA_r1 c v r (0 : Fin 1)

/-! ## A head's attention vector -/

/-- Slab i of the stacked attention vectors, its unit axis dropped, at (c, u). -/
theorem BR_aslab_apply (i : Nat) (hi : i < 4) (ah : Arr Ideal Cert.ReferenceIdeal.S4x64x1)
    (h : Cert.ReferenceIdeal.S4x64x1.Slices ![i, 0, 0] Cert.ReferenceIdeal.S1x64x1) (h' : Cert.ReferenceIdeal.S1x64x1.ShapeCasts Cert.ReferenceIdeal.S64x1) (c : Fin 64) (u : Fin 1) :
    shapeCast Cert.ReferenceIdeal.S64x1 (extractStridedSlice Cert.ReferenceIdeal.S1x64x1 ![i, 0, 0] ah h) h' (ix2 c u) = ah (ix3 (⟨i, hi⟩ : Fin 4) c u) := by
  rw [shapeCast_1ab_ab_apply]
  exact extractStridedSlice_apply _ _ _ _ _ fun a => match a with
    | ⟨0, _⟩ => (Nat.add_zero i).symm
    | ⟨1, _⟩ => (Nat.zero_add _).symm
    | ⟨2, _⟩ => (Nat.zero_add _).symm

/-- Head k's attention vector at (c, u). -/
theorem BR_aHead_apply (ah : Arr Ideal Cert.ReferenceIdeal.S4x64x1) (k : Fin 4) (c : Fin 64) (u : Fin 1) :
    aHead ah k (ix2 c u) = ah (ix3 k c u) := by
  match k with
  | ⟨0, _⟩ => show aSlice0 ah (ix2 c u) = _; unfold aSlice0; exact BR_aslab_apply 0 (by omega) ah _ _ c u
  | ⟨1, _⟩ => show aSlice1 ah (ix2 c u) = _; unfold aSlice1; exact BR_aslab_apply 1 (by omega) ah _ _ c u
  | ⟨2, _⟩ => show aSlice2 ah (ix2 c u) = _; unfold aSlice2; exact BR_aslab_apply 2 (by omega) ah _ _ c u
  | ⟨3, _⟩ => show aSlice3 ah (ix2 c u) = _; unfold aSlice3; exact BR_aslab_apply 3 (by omega) ah _ _ c u

/-- The first 32 entries of head k's attention vector. -/
theorem BR_aSelf_apply (ah : Arr Ideal Cert.ReferenceIdeal.S4x64x1) (k : Fin 4) (j : Fin 32) :
    aSelf (aHead ah k) (ix2 j (0 : Fin 1)) = ah (ix3 k (⟨j.val, by omega⟩ : Fin 64) (0 : Fin 1)) := by
  unfold aSelf
  refine (slice2_axis0_apply 0 _ _ j (0 : Fin 1) (⟨j.val, by omega⟩ : Fin 64) (Nat.zero_add _).symm).trans ?_
  exact BR_aHead_apply ah k _ _

/-- The last 32 entries of head k's attention vector. -/
theorem BR_aNbr_apply (ah : Arr Ideal Cert.ReferenceIdeal.S4x64x1) (k : Fin 4) (j : Fin 32) :
    aNbr (aHead ah k) (ix2 j (0 : Fin 1)) = ah (ix3 k (⟨32 + j.val, by omega⟩ : Fin 64) (0 : Fin 1)) := by
  unfold aNbr
  refine (slice2_axis0_apply 32 _ _ j (0 : Fin 1) (⟨32 + j.val, by omega⟩ : Fin 64) rfl).trans ?_
  exact BR_aHead_apply ah k _ _

/-! ## A band-pass channel and a score -/

/-- A band-pass channel at (r, j): the fourth power of the propagated entry. -/
theorem BR_band_apply (s : Arr Ideal Cert.ReferenceIdeal.S5000x5000) (h : Arr Ideal Cert.ReferenceIdeal.S5000x32) (r : Fin 5000) (j : Fin 32) :
    band s h (ix2 r j) = (prop s h (ix2 r j) * prop s h (ix2 r j)) * (prop s h (ix2 r j) * prop s h (ix2 r j)) := by
  unfold band pow4abs
  generalize prop (F := Ideal) s h = y
  rw [mulf_apply, mulf_apply]
  show (max (y (ix2 r j)) (-(y (ix2 r j))) * max (y (ix2 r j)) (-(y (ix2 r j))))
      * (max (y (ix2 r j)) (-(y (ix2 r j))) * max (y (ix2 r j)) (-(y (ix2 r j)))) = _
  rw [B_abs_sq]

/-- A channel's score at row r: the leaky rectifier of the self term plus the channel's product with the last 32
    entries of the attention vector. -/
theorem BR_score_apply (es : Arr Ideal Cert.ReferenceIdeal.S5000x1) (c : Arr Ideal Cert.ReferenceIdeal.S5000x32) (a : Arr Ideal Cert.ReferenceIdeal.S64x1) (r : Fin 5000) :
    score es c a (ix2 r (0 : Fin 1)) = Blk (es (ix2 r (0 : Fin 1)) + dotA c (aNbr a) (ix2 r (0 : Fin 1))) := by
  unfold score leaky preScore
  generalize dotA (F := Ideal) c (aNbr a) = d
  rw [select_apply, cmpf_apply, mulf_apply, broadcastInDim_scalar_apply, broadcastInDim_scalar_apply, addf_apply]
  rfl

/-! ## Four score columns side by side -/

theorem BR_cat4_apply0 (e0 e1 e2 e3 : Arr Ideal Cert.ReferenceIdeal.S5000x1) (r : Fin 5000) :
    cat4 e0 e1 e2 e3 (ix2 r (0 : Fin 4)) = e0 (ix2 r (0 : Fin 1)) := by
  unfold cat4
  refine concatenate_apply_piece (t := Cert.ReferenceIdeal.S5000x4) _ _ _ _ 0 ?_ Cert.ReferenceIdeal.S5000x1 e0 ?_
    (rfl : Cert.ReferenceIdeal.S5000x1.rank = Cert.ReferenceIdeal.S5000x4.rank) 0 ?_ (ix2 r (0 : Fin 1)) ?_ ?_
  all_goals first
    | rfl
    | decide
    | (simp only [List.length_cons, List.length_nil]; omega)
    | (intro b hb
       match b, hb with
       | ⟨0, _⟩, _ => rfl
       | ⟨1, _⟩, hb => exact absurd (Fin.ext rfl) hb)
theorem BR_cat4_apply1 (e0 e1 e2 e3 : Arr Ideal Cert.ReferenceIdeal.S5000x1) (r : Fin 5000) :
    cat4 e0 e1 e2 e3 (ix2 r (1 : Fin 4)) = e1 (ix2 r (0 : Fin 1)) := by
  unfold cat4
  refine concatenate_apply_piece (t := Cert.ReferenceIdeal.S5000x4) _ _ _ _ 1 ?_ Cert.ReferenceIdeal.S5000x1 e1 ?_
    (rfl : Cert.ReferenceIdeal.S5000x1.rank = Cert.ReferenceIdeal.S5000x4.rank) 1 ?_ (ix2 r (0 : Fin 1)) ?_ ?_
  all_goals first
    | rfl
    | decide
    | (simp only [List.length_cons, List.length_nil]; omega)
    | (intro b hb
       match b, hb with
       | ⟨0, _⟩, _ => rfl
       | ⟨1, _⟩, hb => exact absurd (Fin.ext rfl) hb)
theorem BR_cat4_apply2 (e0 e1 e2 e3 : Arr Ideal Cert.ReferenceIdeal.S5000x1) (r : Fin 5000) :
    cat4 e0 e1 e2 e3 (ix2 r (2 : Fin 4)) = e2 (ix2 r (0 : Fin 1)) := by
  unfold cat4
  refine concatenate_apply_piece (t := Cert.ReferenceIdeal.S5000x4) _ _ _ _ 2 ?_ Cert.ReferenceIdeal.S5000x1 e2 ?_
    (rfl : Cert.ReferenceIdeal.S5000x1.rank = Cert.ReferenceIdeal.S5000x4.rank) 2 ?_ (ix2 r (0 : Fin 1)) ?_ ?_
  all_goals first
    | rfl
    | decide
    | (simp only [List.length_cons, List.length_nil]; omega)
    | (intro b hb
       match b, hb with
       | ⟨0, _⟩, _ => rfl
       | ⟨1, _⟩, hb => exact absurd (Fin.ext rfl) hb)
theorem BR_cat4_apply3 (e0 e1 e2 e3 : Arr Ideal Cert.ReferenceIdeal.S5000x1) (r : Fin 5000) :
    cat4 e0 e1 e2 e3 (ix2 r (3 : Fin 4)) = e3 (ix2 r (0 : Fin 1)) := by
  unfold cat4
  refine concatenate_apply_piece (t := Cert.ReferenceIdeal.S5000x4) _ _ _ _ 3 ?_ Cert.ReferenceIdeal.S5000x1 e3 ?_
    (rfl : Cert.ReferenceIdeal.S5000x1.rank = Cert.ReferenceIdeal.S5000x4.rank) 3 ?_ (ix2 r (0 : Fin 1)) ?_ ?_
  all_goals first
    | rfl
    | decide
    | (simp only [List.length_cons, List.length_nil]; omega)
    | (intro b hb
       match b, hb with
       | ⟨0, _⟩, _ => rfl
       | ⟨1, _⟩, hb => exact absurd (Fin.ext rfl) hb)

/-! ## The softmax over a row's four scores -/

/-- The row maximum joined with minus infinity is the maximum of the four. -/
theorem BR_rowMax4_apply (e : Arr Ideal Cert.ReferenceIdeal.S5000x4) (r : Fin 5000) :
    rowMax4 e (ix1 r) = Bmax4 (e (ix2 r (0 : Fin 4))) (e (ix2 r (1 : Fin 4))) (e (ix2 r (2 : Fin 4))) (e (ix2 r (3 : Fin 4))) := by
  unfold rowMax4
  rw [maximumf_apply, broadcastInDim_scalar_apply, constant_apply, C_hostRowMax, constant_apply, B_ofBits_ninf]
  exact B_fold_max4 fun c => e (ix2 r c)

/-- The shifted exponential at (r, c). -/
theorem BR_expShift4_apply (e : Arr Ideal Cert.ReferenceIdeal.S5000x4) (r : Fin 5000) (c : Fin 4) :
    expShift4 e (ix2 r c)
      = Ideal.exp (e (ix2 r c) - Bmax4 (e (ix2 r (0 : Fin 4))) (e (ix2 r (1 : Fin 4))) (e (ix2 r (2 : Fin 4))) (e (ix2 r (3 : Fin 4)))) := by
  unfold expShift4
  rw [C_hexp_apply, subf_apply, C_bIn_col, C_bIn_veccol, BR_rowMax4_apply]

/-- The softmax weight at (r, c). -/
theorem BR_softmax4_apply (e : Arr Ideal Cert.ReferenceIdeal.S5000x4) (r : Fin 5000) (c : Fin 4) :
    softmax4 e (ix2 r c)
      = BattH (e (ix2 r (0 : Fin 4))) (e (ix2 r (1 : Fin 4))) (e (ix2 r (2 : Fin 4))) (e (ix2 r (3 : Fin 4))) (e (ix2 r c)) := by
  unfold softmax4
  rw [hostDivf_apply, C_bIn_col, C_bIn_veccol, C_hostRowSum, constant_apply, Fin.sum_univ_four, BR_expShift4_apply,
    BR_expShift4_apply, BR_expShift4_apply, BR_expShift4_apply, BR_expShift4_apply]
  rfl

/-! ## The attention mix -/

theorem BR_attCol0_apply (att : Arr Ideal Cert.ReferenceIdeal.S5000x4) (r : Fin 5000) : attCol0 att (ix2 r (0 : Fin 1)) = att (ix2 r (0 : Fin 4)) := by
  unfold attCol0; exact slice2_axis1_apply 0 _ _ r (0 : Fin 1) (0 : Fin 4) rfl
theorem BR_attCol1_apply (att : Arr Ideal Cert.ReferenceIdeal.S5000x4) (r : Fin 5000) : attCol1 att (ix2 r (0 : Fin 1)) = att (ix2 r (1 : Fin 4)) := by
  unfold attCol1; exact slice2_axis1_apply 1 _ _ r (0 : Fin 1) (1 : Fin 4) rfl
theorem BR_attCol2_apply (att : Arr Ideal Cert.ReferenceIdeal.S5000x4) (r : Fin 5000) : attCol2 att (ix2 r (0 : Fin 1)) = att (ix2 r (2 : Fin 4)) := by
  unfold attCol2; exact slice2_axis1_apply 2 _ _ r (0 : Fin 1) (2 : Fin 4) rfl
theorem BR_attCol3_apply (att : Arr Ideal Cert.ReferenceIdeal.S5000x4) (r : Fin 5000) : attCol3 att (ix2 r (0 : Fin 1)) = att (ix2 r (3 : Fin 4)) := by
  unfold attCol3; exact slice2_axis1_apply 3 _ _ r (0 : Fin 1) (3 : Fin 4) rfl

/-- A channel weighted row by row by one column of weights, at (r, j). -/
theorem BR_wtd_apply (col : Arr Ideal Cert.ReferenceIdeal.S5000x1) (c : Arr Ideal Cert.ReferenceIdeal.S5000x32) (r : Fin 5000) (j : Fin 32) :
    wtd col c (ix2 r j) = col (ix2 r (0 : Fin 1)) * c (ix2 r j) := by
  unfold wtd
  rw [mulf_apply, C_bIn_col]

/-- The attention mix at (r, j): the four channels' entries weighted by the softmax over the row's four scores, summed
    from the left. -/
theorem BR_mix_apply (e0 e1 e2 e3 : Arr Ideal Cert.ReferenceIdeal.S5000x1) (c0 c1 c2 c3 : Arr Ideal Cert.ReferenceIdeal.S5000x32) (r : Fin 5000) (j : Fin 32) :
    mix (softmax4 (cat4 e0 e1 e2 e3)) c0 c1 c2 c3 (ix2 r j)
      = BattH (e0 (ix2 r (0 : Fin 1))) (e1 (ix2 r (0 : Fin 1))) (e2 (ix2 r (0 : Fin 1))) (e3 (ix2 r (0 : Fin 1))) (e0 (ix2 r (0 : Fin 1))) * c0 (ix2 r j)
        + BattH (e0 (ix2 r (0 : Fin 1))) (e1 (ix2 r (0 : Fin 1))) (e2 (ix2 r (0 : Fin 1))) (e3 (ix2 r (0 : Fin 1))) (e1 (ix2 r (0 : Fin 1))) * c1 (ix2 r j)
        + BattH (e0 (ix2 r (0 : Fin 1))) (e1 (ix2 r (0 : Fin 1))) (e2 (ix2 r (0 : Fin 1))) (e3 (ix2 r (0 : Fin 1))) (e2 (ix2 r (0 : Fin 1))) * c2 (ix2 r j)
        + BattH (e0 (ix2 r (0 : Fin 1))) (e1 (ix2 r (0 : Fin 1))) (e2 (ix2 r (0 : Fin 1))) (e3 (ix2 r (0 : Fin 1))) (e3 (ix2 r (0 : Fin 1))) * c3 (ix2 r j) := by
  unfold mix mix3 mix2
  rw [addf_apply, addf_apply, addf_apply, BR_wtd_apply, BR_wtd_apply, BR_wtd_apply, BR_wtd_apply,
    BR_attCol0_apply, BR_attCol1_apply, BR_attCol2_apply, BR_attCol3_apply,
    BR_softmax4_apply, BR_softmax4_apply, BR_softmax4_apply, BR_softmax4_apply,
    BR_cat4_apply0, BR_cat4_apply1, BR_cat4_apply2, BR_cat4_apply3]

end Cert.KernelIdeal.Val
end
-- ==== Proof.Math.BAsm.lean ====
/-
  The attention block, kernel against reference, head by head. On the lanes of head k the kernel's stored block is the
  four channels there, each times head k's softmax weight for it; each channel on those lanes is the reference's channel
  of head k's features (the 5000-term sums agree term by term); each score is the reference's score (the sums over the
  128 lanes against the group matrix are the sums over the head's 32 lanes); and every stage keeps real numbers real, so
  that the weights, taken the kernel's way, are the reference's quotients.
-/
import proofs.«113748_g69337952026834_cont_sun_c4_16_16_alg».proof.Proof.KI.SpecRef
import proofs.«113748_g69337952026834_cont_sun_c4_16_16_alg».proof.Proof.Math.BRow
import proofs.«113748_g69337952026834_cont_sun_c4_16_16_alg».proof.Proof.Math.BIdx
import proofs.«113748_g69337952026834_cont_sun_c4_16_16_alg».proof.Proof.Math.BMat
import proofs.«113748_g69337952026834_cont_sun_c4_16_16_alg».proof.Proof.Math.BKer
import proofs.«113748_g69337952026834_cont_sun_c4_16_16_alg».proof.Proof.Math.BRef
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen
open Idealize.ShloMosaic Idealize.ShloMosaic.ValueIdx Idealize.SL.Sem
open Cert.ReferenceIdeal.HandRun
open scoped BigOperators

attribute [local instance] Cert.ReferenceIdeal.Gen.facts

/-! ## Lanes and heads -/

theorem B_lane_surj (l : Fin 128) : ∃ (k : Fin 4) (j : Fin 32), l = lane k j :=
  ⟨⟨l.val / 32, by have := l.isLt; omega⟩, ⟨l.val % 32, Nat.mod_lt _ (by decide)⟩,
    Fin.ext (by show l.val = 32 * (l.val / 32) + l.val % 32; omega)⟩

theorem B_lane_div (k : Fin 4) (j : Fin 32) : (lane k j).val / 32 = k.val := by
  show (32 * k.val + j.val) / 32 = k.val
  have := j.isLt
  omega

theorem B_pay6_eq (v : Vec Ideal S1x128 .f32) : k0_pay6 (F := Ideal) v = v := shapeCast_self v _

theorem B_real_pay3 (l : Fin 128) (k : Fin 4) : BReal (k0_pay3 (F := Ideal) (ix2 l k)) := by
  rw [B_pay3_apply]
  split
  · exact B_real_one
  · exact B_real_zero

/-- A block weighted lane by lane and summed over head `k`'s lanes by the group matrix. -/
theorem B_group_sum (V : FVec Ideal S200x128 .f32) (w : FVec Ideal S1x128 .f32) (p : Fin 200) (k : Fin 4) :
    ∑ l : Fin 128, (V (ix2 p l) * w (ix2 (0 : Fin 1) l)) * k0_pay3 (F := Ideal) (ix2 l k)
      = ∑ j : Fin 32, V (ix2 p (lane k j)) * w (ix2 (0 : Fin 1) (lane k j)) := by
  refine Eq.trans ?_ (B_sum_group k fun l => V (ix2 p l) * w (ix2 (0 : Fin 1) l))
  refine Finset.sum_congr rfl fun l _ => ?_
  rw [B_pay3_apply, mul_ite, mul_one, mul_zero]

/-- The 4 x 128 group matrix spreads head `k`'s weight over head `k`'s lanes. -/
theorem B_spread (k : Fin 4) (j : Fin 32) (w : Fin 4 → EReal) :
    ∑ c : Fin 4, w c * k0_pay5 (F := Ideal) (iota .tc S4x128 32 [0] iota_S4x128_d0_w32) (iota .tc S4x128 32 [1] iota_S4x128_d1_w32) 32#32 k0_pay4 0#32 (ix2 c (lane k j))
      = w k := by
  refine Eq.trans (Finset.sum_congr rfl fun c _ => ?_) (B_sum_pick k w ((lane k j).val / 32) (B_lane_div k j))
  rw [B_pay5_apply]

/-! ## The kernel's scores and the stored block on a head's lanes -/

/-- The low-pass channel's scores at a grid point. -/
def Bsc0 (i : grid0.Coords) (sf nbr : Vec Ideal S1x128 .f32) (H : Vec Ideal S5000x128 .f32) (X : Vec Ideal S200x5000 .f32) : FVec Ideal S200x4 .f32 :=
  k0_pay15 (F := Ideal) (featRows (F := Ideal) i H) k0_pay3 (k0_pay6 (F := Ideal) nbr) (k0_pay7 (F := Ideal) H X) sf
/-- The band-pass channels' scores at a grid point. -/
def Bsc1 (i : grid0.Coords) (sf nbr : Vec Ideal S1x128 .f32) (H : Vec Ideal S5000x128 .f32) (X : Vec Ideal S200x5000 .f32) : FVec Ideal S200x4 .f32 :=
  k0_pay16 (F := Ideal) (featRows (F := Ideal) i H) k0_pay3 (k0_pay6 (F := Ideal) nbr) (k0_pay8 (F := Ideal) H X) sf
def Bsc2 (i : grid0.Coords) (sf nbr : Vec Ideal S1x128 .f32) (H : Vec Ideal S5000x128 .f32) (X : Vec Ideal S200x5000 .f32) : FVec Ideal S200x4 .f32 :=
  k0_pay17 (F := Ideal) (featRows (F := Ideal) i H) k0_pay3 (k0_pay6 (F := Ideal) nbr) (k0_pay9 (F := Ideal) H X) sf
def Bsc3 (i : grid0.Coords) (sf nbr : Vec Ideal S1x128 .f32) (H : Vec Ideal S5000x128 .f32) (X : Vec Ideal S200x5000 .f32) : FVec Ideal S200x4 .f32 :=
  k0_pay18 (F := Ideal) (featRows (F := Ideal) i H) k0_pay3 (k0_pay6 (F := Ideal) nbr) (k0_pay10 (F := Ideal) H X) sf

/-- What the kernel stores at row `p`, lane `32 k + j`: the four channels there, each times head `k`'s weight for it. -/
theorem B_attOut_lane (i : grid0.Coords) (sf nbr : Vec Ideal S1x128 .f32) (Ab s1b s2b s3b : Vec Ideal S200x5000 .f32) (H : Vec Ideal S5000x128 .f32)
    (p : Fin 200) (k : Fin 4) (j : Fin 32) :
    attOut (F := Ideal) i sf nbr Ab s1b s2b s3b H (ix2 p (lane k j))
      = BattK (Bsc0 i sf nbr H Ab (ix2 p k)) (Bsc1 i sf nbr H s1b (ix2 p k)) (Bsc2 i sf nbr H s2b (ix2 p k)) (Bsc3 i sf nbr H s3b (ix2 p k)) (Bsc0 i sf nbr H Ab (ix2 p k))
            * k0_pay7 (F := Ideal) H Ab (ix2 p (lane k j))
        + BattK (Bsc0 i sf nbr H Ab (ix2 p k)) (Bsc1 i sf nbr H s1b (ix2 p k)) (Bsc2 i sf nbr H s2b (ix2 p k)) (Bsc3 i sf nbr H s3b (ix2 p k)) (Bsc1 i sf nbr H s1b (ix2 p k))
            * k0_pay11 (F := Ideal) (k0_pay8 (F := Ideal) H s1b) (ix2 p (lane k j))
        + BattK (Bsc0 i sf nbr H Ab (ix2 p k)) (Bsc1 i sf nbr H s1b (ix2 p k)) (Bsc2 i sf nbr H s2b (ix2 p k)) (Bsc3 i sf nbr H s3b (ix2 p k)) (Bsc2 i sf nbr H s2b (ix2 p k))
            * k0_pay12 (F := Ideal) (k0_pay9 (F := Ideal) H s2b) (ix2 p (lane k j))
        + BattK (Bsc0 i sf nbr H Ab (ix2 p k)) (Bsc1 i sf nbr H s1b (ix2 p k)) (Bsc2 i sf nbr H s2b (ix2 p k)) (Bsc3 i sf nbr H s3b (ix2 p k)) (Bsc3 i sf nbr H s3b (ix2 p k))
            * k0_pay13 (F := Ideal) (k0_pay10 (F := Ideal) H s3b) (ix2 p (lane k j)) := by
  unfold attOut
  refine (B_pay1_apply _ _ _ _ _ _ _ _ _ _ p (lane k j) (fun c => rfl)).trans ?_
  rw [B_spread, B_spread, B_spread, B_spread]
  rfl

/-! ## Channels: the kernel's on a head's lanes against the reference's -/

/-- An operator's block times the features, on head `k`'s lanes, is the operator applied to head `k`'s features. -/
theorem B_ch_lane (X : Arr Ideal Cert.ReferenceIdeal.S5000x5000) (Xb : Vec Ideal S200x5000 .f32) (H : Vec Ideal S5000x128 .f32)
    (h : Fin 4 → Arr Ideal Cert.ReferenceIdeal.S5000x32) (p : Fin 200) (r : Fin 5000)
    (hXb : ∀ q : Fin 5000, Xb (ix2 p q) = X (ix2 r q))
    (hH : ∀ (k : Fin 4) (r : Fin 5000) (j : Fin 32), H (ix2 r (lane k j)) = h k (ix2 r j)) (k : Fin 4) (j : Fin 32) :
    k0_pay7 (F := Ideal) H Xb (ix2 p (lane k j)) = prop X (h k) (ix2 r j) := by
  rw [B_pay7_apply, BR_prop_apply]
  exact Finset.sum_congr rfl fun q _ => by rw [hXb, hH]

/-- A band-pass channel on head `k`'s lanes is the reference's. -/
theorem B_band_lane (X : Arr Ideal Cert.ReferenceIdeal.S5000x5000) (Xb : Vec Ideal S200x5000 .f32) (H : Vec Ideal S5000x128 .f32)
    (h : Fin 4 → Arr Ideal Cert.ReferenceIdeal.S5000x32) (p : Fin 200) (r : Fin 5000)
    (hXb : ∀ q : Fin 5000, Xb (ix2 p q) = X (ix2 r q))
    (hH : ∀ (k : Fin 4) (r : Fin 5000) (j : Fin 32), H (ix2 r (lane k j)) = h k (ix2 r j)) (k : Fin 4) (j : Fin 32) :
    k0_pay11 (F := Ideal) (k0_pay8 (F := Ideal) H Xb) (ix2 p (lane k j)) = band X (h k) (ix2 r j) := by
  rw [BR_band_apply, ← B_ch_lane X Xb H h p r hXb hH k j]
  rfl

/-! ## Scores: the kernel's against the reference's -/

/-- The self part of head `k`'s scores at row `p` of grid point `t`. -/
theorem B_self_lane (t : Fin cfg0.N) (ht : t.val < 25) (ah : Arr Ideal Cert.ReferenceIdeal.S4x64x1) (H : Vec Ideal S5000x128 .f32)
    (h : Fin 4 → Arr Ideal Cert.ReferenceIdeal.S5000x32)
    (hH : ∀ (k : Fin 4) (r : Fin 5000) (j : Fin 32), H (ix2 r (lane k j)) = h k (ix2 r j)) (p : Fin 200) (k : Fin 4) :
    k0_pay14 (F := Ideal) (featRows (F := Ideal) (grid0.coords t) H) k0_pay3 (aselfRow (F := Ideal) ah) (ix2 p k)
      = eSelf (h k) (aHead ah k) (ix2 (row0 ⟨t.val, ht⟩ p) (0 : Fin 1)) := by
  rw [B_pay14_apply, B_group_sum]
  show _ = dotA (h k) (aSelf (aHead ah k)) (ix2 (row0 ⟨t.val, ht⟩ p) (0 : Fin 1))
  rw [BR_dotA_apply]
  exact Finset.sum_congr rfl fun j _ => by rw [B_featRows_apply t ht, hH, B_aselfRow_apply, BR_aSelf_apply]

/-- The neighbour part of head `k`'s score of a channel that on head `k`'s lanes is the reference's channel `c`. -/
theorem B_nbr_lane (ah : Arr Ideal Cert.ReferenceIdeal.S4x64x1) (C : FVec Ideal S200x128 .f32) (c : Arr Ideal Cert.ReferenceIdeal.S5000x32)
    (p : Fin 200) (k : Fin 4) (r : Fin 5000) (hC : ∀ j : Fin 32, C (ix2 p (lane k j)) = c (ix2 r j)) :
    ∑ l : Fin 128, (C (ix2 p l) * k0_pay6 (F := Ideal) (anbRow (F := Ideal) ah) (ix2 (0 : Fin 1) l)) * k0_pay3 (F := Ideal) (ix2 l k)
      = dotA c (aNbr (aHead ah k)) (ix2 r (0 : Fin 1)) := by
  rw [B_group_sum, BR_dotA_apply, B_pay6_eq]
  exact Finset.sum_congr rfl fun j _ => by rw [hC, B_anbRow_apply, BR_aNbr_apply]

theorem B_sc0_lane (t : Fin cfg0.N) (ht : t.val < 25) (ah : Arr Ideal Cert.ReferenceIdeal.S4x64x1)
    (A : Arr Ideal Cert.ReferenceIdeal.S5000x5000) (Ab : Vec Ideal S200x5000 .f32) (H : Vec Ideal S5000x128 .f32)
    (h : Fin 4 → Arr Ideal Cert.ReferenceIdeal.S5000x32)
    (hAb : ∀ (p : Fin 200) (q : Fin 5000), Ab (ix2 p q) = A (ix2 (row0 ⟨t.val, ht⟩ p) q))
    (hH : ∀ (k : Fin 4) (r : Fin 5000) (j : Fin 32), H (ix2 r (lane k j)) = h k (ix2 r j)) (p : Fin 200) (k : Fin 4) :
    Bsc0 (grid0.coords t) (aselfRow (F := Ideal) ah) (anbRow (F := Ideal) ah) H Ab (ix2 p k)
      = score (eSelf (h k) (aHead ah k)) (prop A (h k)) (aHead ah k) (ix2 (row0 ⟨t.val, ht⟩ p) (0 : Fin 1)) := by
  unfold Bsc0
  rw [B_pay15_apply, BR_score_apply, B_self_lane t ht ah H h hH p k]
  refine congrArg (fun x => Blk (_ + x)) ?_
  exact B_nbr_lane ah (k0_pay7 (F := Ideal) H Ab) (prop A (h k)) p k _ (fun j => B_ch_lane A Ab H h p _ (hAb p) hH k j)

theorem B_sc1_lane (t : Fin cfg0.N) (ht : t.val < 25) (ah : Arr Ideal Cert.ReferenceIdeal.S4x64x1)
    (s : Arr Ideal Cert.ReferenceIdeal.S5000x5000) (sb : Vec Ideal S200x5000 .f32) (H : Vec Ideal S5000x128 .f32)
    (h : Fin 4 → Arr Ideal Cert.ReferenceIdeal.S5000x32)
    (hsb : ∀ (p : Fin 200) (q : Fin 5000), sb (ix2 p q) = s (ix2 (row0 ⟨t.val, ht⟩ p) q))
    (hH : ∀ (k : Fin 4) (r : Fin 5000) (j : Fin 32), H (ix2 r (lane k j)) = h k (ix2 r j)) (p : Fin 200) (k : Fin 4) :
    Bsc1 (grid0.coords t) (aselfRow (F := Ideal) ah) (anbRow (F := Ideal) ah) H sb (ix2 p k)
      = score (eSelf (h k) (aHead ah k)) (band s (h k)) (aHead ah k) (ix2 (row0 ⟨t.val, ht⟩ p) (0 : Fin 1)) := by
  unfold Bsc1
  rw [B_pay16_apply, BR_score_apply, B_self_lane t ht ah H h hH p k]
  refine congrArg (fun x => Blk (_ + x)) ?_
  exact B_nbr_lane ah (k0_pay11 (F := Ideal) (k0_pay8 (F := Ideal) H sb)) (band s (h k)) p k _ (fun j => B_band_lane s sb H h p _ (hsb p) hH k j)

theorem B_sc2_lane (t : Fin cfg0.N) (ht : t.val < 25) (ah : Arr Ideal Cert.ReferenceIdeal.S4x64x1)
    (s : Arr Ideal Cert.ReferenceIdeal.S5000x5000) (sb : Vec Ideal S200x5000 .f32) (H : Vec Ideal S5000x128 .f32)
    (h : Fin 4 → Arr Ideal Cert.ReferenceIdeal.S5000x32)
    (hsb : ∀ (p : Fin 200) (q : Fin 5000), sb (ix2 p q) = s (ix2 (row0 ⟨t.val, ht⟩ p) q))
    (hH : ∀ (k : Fin 4) (r : Fin 5000) (j : Fin 32), H (ix2 r (lane k j)) = h k (ix2 r j)) (p : Fin 200) (k : Fin 4) :
    Bsc2 (grid0.coords t) (aselfRow (F := Ideal) ah) (anbRow (F := Ideal) ah) H sb (ix2 p k)
      = score (eSelf (h k) (aHead ah k)) (band s (h k)) (aHead ah k) (ix2 (row0 ⟨t.val, ht⟩ p) (0 : Fin 1)) := by
  unfold Bsc2
  rw [B_pay17_apply, BR_score_apply, B_self_lane t ht ah H h hH p k]
  refine congrArg (fun x => Blk (_ + x)) ?_
  exact B_nbr_lane ah (k0_pay11 (F := Ideal) (k0_pay8 (F := Ideal) H sb)) (band s (h k)) p k _ (fun j => B_band_lane s sb H h p _ (hsb p) hH k j)

theorem B_sc3_lane (t : Fin cfg0.N) (ht : t.val < 25) (ah : Arr Ideal Cert.ReferenceIdeal.S4x64x1)
    (s : Arr Ideal Cert.ReferenceIdeal.S5000x5000) (sb : Vec Ideal S200x5000 .f32) (H : Vec Ideal S5000x128 .f32)
    (h : Fin 4 → Arr Ideal Cert.ReferenceIdeal.S5000x32)
    (hsb : ∀ (p : Fin 200) (q : Fin 5000), sb (ix2 p q) = s (ix2 (row0 ⟨t.val, ht⟩ p) q))
    (hH : ∀ (k : Fin 4) (r : Fin 5000) (j : Fin 32), H (ix2 r (lane k j)) = h k (ix2 r j)) (p : Fin 200) (k : Fin 4) :
    Bsc3 (grid0.coords t) (aselfRow (F := Ideal) ah) (anbRow (F := Ideal) ah) H sb (ix2 p k)
      = score (eSelf (h k) (aHead ah k)) (band s (h k)) (aHead ah k) (ix2 (row0 ⟨t.val, ht⟩ p) (0 : Fin 1)) := by
  unfold Bsc3
  rw [B_pay18_apply, BR_score_apply, B_self_lane t ht ah H h hH p k]
  refine congrArg (fun x => Blk (_ + x)) ?_
  exact B_nbr_lane ah (k0_pay11 (F := Ideal) (k0_pay8 (F := Ideal) H sb)) (band s (h k)) p k _ (fun j => B_band_lane s sb H h p _ (hsb p) hH k j)

/-! ## Every stage keeps real numbers real -/

theorem B_real_pay7 (H : Vec Ideal S5000x128 .f32) (X : Vec Ideal S200x5000 .f32) (p : Fin 200) (l : Fin 128)
    (hH : ∀ i, BReal (H i)) (hX : ∀ q : Fin 5000, BReal (X (ix2 p q))) : BReal (k0_pay7 (F := Ideal) H X (ix2 p l)) := by
  rw [B_pay7_apply]
  exact B_real_sum _ _ fun q _ => B_real_mul (hX q) (hH _)

theorem B_real_band (H : Vec Ideal S5000x128 .f32) (X : Vec Ideal S200x5000 .f32) (p : Fin 200) (l : Fin 128)
    (hH : ∀ i, BReal (H i)) (hX : ∀ q : Fin 5000, BReal (X (ix2 p q))) :
    BReal (k0_pay11 (F := Ideal) (k0_pay8 (F := Ideal) H X) (ix2 p l)) := by
  have h7 := B_real_pay7 H X p l hH hX
  exact B_real_mul (B_real_mul h7 h7) (B_real_mul h7 h7)

theorem B_real_groupsum (C : FVec Ideal S200x128 .f32) (w : FVec Ideal S1x128 .f32) (p : Fin 200) (k : Fin 4)
    (hC : ∀ l : Fin 128, BReal (C (ix2 p l))) (hw : ∀ l : Fin 128, BReal (w (ix2 (0 : Fin 1) l))) :
    BReal (∑ l : Fin 128, (C (ix2 p l) * w (ix2 (0 : Fin 1) l)) * k0_pay3 (F := Ideal) (ix2 l k)) :=
  B_real_sum _ _ fun l _ => B_real_mul (B_real_mul (hC l) (hw l)) (B_real_pay3 l k)

theorem B_real_sc0 (i : grid0.Coords) (sf nbr : Vec Ideal S1x128 .f32) (H : Vec Ideal S5000x128 .f32) (X : Vec Ideal S200x5000 .f32)
    (p : Fin 200) (k : Fin 4) (hF : ∀ l : Fin 128, BReal (featRows (F := Ideal) i H (ix2 p l)))
    (hsf : ∀ l : Fin 128, BReal (sf (ix2 (0 : Fin 1) l))) (hnb : ∀ l : Fin 128, BReal (nbr (ix2 (0 : Fin 1) l)))
    (hH : ∀ i, BReal (H i)) (hX : ∀ q : Fin 5000, BReal (X (ix2 p q))) : BReal (Bsc0 i sf nbr H X (ix2 p k)) := by
  unfold Bsc0
  rw [B_pay15_apply, B_pay14_apply, B_pay6_eq]
  exact B_real_lk (B_real_add (B_real_groupsum _ _ p k hF hsf) (B_real_groupsum _ _ p k (fun l => B_real_pay7 H X p l hH hX) hnb))

theorem B_real_sc1 (i : grid0.Coords) (sf nbr : Vec Ideal S1x128 .f32) (H : Vec Ideal S5000x128 .f32) (X : Vec Ideal S200x5000 .f32)
    (p : Fin 200) (k : Fin 4) (hF : ∀ l : Fin 128, BReal (featRows (F := Ideal) i H (ix2 p l)))
    (hsf : ∀ l : Fin 128, BReal (sf (ix2 (0 : Fin 1) l))) (hnb : ∀ l : Fin 128, BReal (nbr (ix2 (0 : Fin 1) l)))
    (hH : ∀ i, BReal (H i)) (hX : ∀ q : Fin 5000, BReal (X (ix2 p q))) : BReal (Bsc1 i sf nbr H X (ix2 p k)) := by
  unfold Bsc1
  rw [B_pay16_apply, B_pay14_apply, B_pay6_eq]
  exact B_real_lk (B_real_add (B_real_groupsum _ _ p k hF hsf)
    (B_real_groupsum (k0_pay11 (F := Ideal) (k0_pay8 (F := Ideal) H X)) _ p k (fun l => B_real_band H X p l hH hX) hnb))

theorem B_real_sc2 (i : grid0.Coords) (sf nbr : Vec Ideal S1x128 .f32) (H : Vec Ideal S5000x128 .f32) (X : Vec Ideal S200x5000 .f32)
    (p : Fin 200) (k : Fin 4) (hF : ∀ l : Fin 128, BReal (featRows (F := Ideal) i H (ix2 p l)))
    (hsf : ∀ l : Fin 128, BReal (sf (ix2 (0 : Fin 1) l))) (hnb : ∀ l : Fin 128, BReal (nbr (ix2 (0 : Fin 1) l)))
    (hH : ∀ i, BReal (H i)) (hX : ∀ q : Fin 5000, BReal (X (ix2 p q))) : BReal (Bsc2 i sf nbr H X (ix2 p k)) := by
  unfold Bsc2
  rw [B_pay17_apply, B_pay14_apply, B_pay6_eq]
  exact B_real_lk (B_real_add (B_real_groupsum _ _ p k hF hsf)
    (B_real_groupsum (k0_pay11 (F := Ideal) (k0_pay8 (F := Ideal) H X)) _ p k (fun l => B_real_band H X p l hH hX) hnb))

theorem B_real_sc3 (i : grid0.Coords) (sf nbr : Vec Ideal S1x128 .f32) (H : Vec Ideal S5000x128 .f32) (X : Vec Ideal S200x5000 .f32)
    (p : Fin 200) (k : Fin 4) (hF : ∀ l : Fin 128, BReal (featRows (F := Ideal) i H (ix2 p l)))
    (hsf : ∀ l : Fin 128, BReal (sf (ix2 (0 : Fin 1) l))) (hnb : ∀ l : Fin 128, BReal (nbr (ix2 (0 : Fin 1) l)))
    (hH : ∀ i, BReal (H i)) (hX : ∀ q : Fin 5000, BReal (X (ix2 p q))) : BReal (Bsc3 i sf nbr H X (ix2 p k)) := by
  unfold Bsc3
  rw [B_pay18_apply, B_pay14_apply, B_pay6_eq]
  exact B_real_lk (B_real_add (B_real_groupsum _ _ p k hF hsf)
    (B_real_groupsum (k0_pay11 (F := Ideal) (k0_pay8 (F := Ideal) H X)) _ p k (fun l => B_real_band H X p l hH hX) hnb))

end Cert.KernelIdeal.Val

end
-- ==== Proof.Math.B.lean ====
/-
  PART B of the bridge: what the attention kernel stores at a grid point, on the lanes of head k, is head k's attention mix
  of the reference at the point's rows; and every entry of the stored block is a real number.
-/
import proofs.«113748_g69337952026834_cont_sun_c4_16_16_alg».proof.Proof.KI.SpecRef
import proofs.«113748_g69337952026834_cont_sun_c4_16_16_alg».proof.Proof.Math.BRow
import proofs.«113748_g69337952026834_cont_sun_c4_16_16_alg».proof.Proof.Math.BIdx
import proofs.«113748_g69337952026834_cont_sun_c4_16_16_alg».proof.Proof.Math.BMat
import proofs.«113748_g69337952026834_cont_sun_c4_16_16_alg».proof.Proof.Math.BKer
import proofs.«113748_g69337952026834_cont_sun_c4_16_16_alg».proof.Proof.Math.BRef
import proofs.«113748_g69337952026834_cont_sun_c4_16_16_alg».proof.Proof.Math.BAsm
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen
open Idealize.ShloMosaic Idealize.ShloMosaic.ValueIdx Idealize.SL.Sem
open Cert.ReferenceIdeal.HandRun
open scoped BigOperators

attribute [local instance] Cert.ReferenceIdeal.Gen.facts

/-! ## PART B -/

/-- PART B (the attention block). Given features H whose lane 32 k + j is h k's column j, what the attention kernel stores at
    grid point t, block row p, lane 32 k + j, is head k's mix at array row 200 t + p, column j; and every entry is real. -/
theorem attOut_head (t : Fin cfg0.N) (ht : t.val < 25) (ah : Arr Ideal Cert.ReferenceIdeal.S4x64x1)
    (A s1 s2 s3 : Arr Ideal Cert.ReferenceIdeal.S5000x5000) (Ab s1b s2b s3b : Vec Ideal Cert.KernelIdeal.S200x5000 .f32)
    (H : Vec Ideal Cert.KernelIdeal.S5000x128 .f32) (h : Fin 4 → Arr Ideal Cert.ReferenceIdeal.S5000x32)
    (hAb : ∀ (p : Fin 200) (q : Fin 5000), Ab (ix2 p q) = A (ix2 (row0 ⟨t.val, ht⟩ p) q))
    (hs1b : ∀ (p : Fin 200) (q : Fin 5000), s1b (ix2 p q) = s1 (ix2 (row0 ⟨t.val, ht⟩ p) q))
    (hs2b : ∀ (p : Fin 200) (q : Fin 5000), s2b (ix2 p q) = s2 (ix2 (row0 ⟨t.val, ht⟩ p) q))
    (hs3b : ∀ (p : Fin 200) (q : Fin 5000), s3b (ix2 p q) = s3 (ix2 (row0 ⟨t.val, ht⟩ p) q))
    (hH : ∀ (k : Fin 4) (r : Fin 5000) (j : Fin 32), H (ix2 r (lane k j)) = h k (ix2 r j))
    (ra : AllReal ah) (rA : AllReal A) (r1 : AllReal s1) (r2 : AllReal s2) (r3 : AllReal s3) (rH : AllReal H) :
    (∀ (k : Fin 4) (p : Fin 200) (j : Fin 32),
        attOut (F := Ideal) (grid0.coords t) (aselfRow ah) (anbRow ah) Ab s1b s2b s3b H (ix2 p (lane k j))
          = mixOf (h k) (aHead ah k) A s1 s2 s3 (ix2 (row0 ⟨t.val, ht⟩ p) j))
      ∧ AllReal (attOut (F := Ideal) (grid0.coords t) (aselfRow ah) (anbRow ah) Ab s1b s2b s3b H) := by
  -- the operands are real
  have hsf : ∀ l : Fin 128, BReal (aselfRow (F := Ideal) ah (ix2 (0 : Fin 1) l)) := fun l => by
    obtain ⟨k, j, rfl⟩ := B_lane_surj l
    rw [B_aselfRow_apply]; exact ra _
  have hnb : ∀ l : Fin 128, BReal (anbRow (F := Ideal) ah (ix2 (0 : Fin 1) l)) := fun l => by
    obtain ⟨k, j, rfl⟩ := B_lane_surj l
    rw [B_anbRow_apply]; exact ra _
  have hF : ∀ (p : Fin 200) (l : Fin 128), BReal (featRows (F := Ideal) (grid0.coords t) H (ix2 p l)) := fun p l => by
    rw [B_featRows_apply t ht]; exact rH _
  have hAr : ∀ (p : Fin 200) (q : Fin 5000), BReal (Ab (ix2 p q)) := fun p q => by rw [hAb]; exact rA _
  have h1r : ∀ (p : Fin 200) (q : Fin 5000), BReal (s1b (ix2 p q)) := fun p q => by rw [hs1b]; exact r1 _
  have h2r : ∀ (p : Fin 200) (q : Fin 5000), BReal (s2b (ix2 p q)) := fun p q => by rw [hs2b]; exact r2 _
  have h3r : ∀ (p : Fin 200) (q : Fin 5000), BReal (s3b (ix2 p q)) := fun p q => by rw [hs3b]; exact r3 _
  -- so are the scores
  have hx0 := fun (p : Fin 200) (k : Fin 4) => B_real_sc0 (grid0.coords t) (aselfRow (F := Ideal) ah) (anbRow (F := Ideal) ah) H Ab p k (hF p) hsf hnb rH (hAr p)
  have hx1 := fun (p : Fin 200) (k : Fin 4) => B_real_sc1 (grid0.coords t) (aselfRow (F := Ideal) ah) (anbRow (F := Ideal) ah) H s1b p k (hF p) hsf hnb rH (h1r p)
  have hx2 := fun (p : Fin 200) (k : Fin 4) => B_real_sc2 (grid0.coords t) (aselfRow (F := Ideal) ah) (anbRow (F := Ideal) ah) H s2b p k (hF p) hsf hnb rH (h2r p)
  have hx3 := fun (p : Fin 200) (k : Fin 4) => B_real_sc3 (grid0.coords t) (aselfRow (F := Ideal) ah) (anbRow (F := Ideal) ah) H s3b p k (hF p) hsf hnb rH (h3r p)
  refine ⟨fun k p j => ?_, fun i => ?_⟩
  · rw [B_attOut_lane]
    simp only [BattK_eq_BattH (hx0 p k) (hx1 p k) (hx2 p k) (hx3 p k)]
    rw [B_sc0_lane t ht ah A Ab H h hAb hH p k, B_sc1_lane t ht ah s1 s1b H h hs1b hH p k,
      B_sc2_lane t ht ah s2 s2b H h hs2b hH p k, B_sc3_lane t ht ah s3 s3b H h hs3b hH p k,
      B_ch_lane A Ab H h p _ (hAb p) hH k j, B_band_lane s1 s1b H h p _ (hs1b p) hH k j]
    rw [show k0_pay12 (F := Ideal) (k0_pay9 (F := Ideal) H s2b) (ix2 p (lane k j)) = band s2 (h k) (ix2 (row0 ⟨t.val, ht⟩ p) j) from
        B_band_lane s2 s2b H h p _ (hs2b p) hH k j,
      show k0_pay13 (F := Ideal) (k0_pay10 (F := Ideal) H s3b) (ix2 p (lane k j)) = band s3 (h k) (ix2 (row0 ⟨t.val, ht⟩ p) j) from
        B_band_lane s3 s3b H h p _ (hs3b p) hH k j]
    unfold mixOf headMix headScores
    rw [BR_mix_apply]
  · obtain ⟨p, l, rfl⟩ : ∃ (p : Fin 200) (l : Fin 128), i = ix2 p l := ⟨i 0, i 1, eq_ix2 i⟩
    obtain ⟨k, j, rfl⟩ := B_lane_surj l
    rw [B_attOut_lane]
    exact B_real_add (B_real_add (B_real_add
      (B_real_mul (B_real_attK (hx0 p k) (hx1 p k) (hx2 p k) (hx3 p k) (hx0 p k)) (B_real_pay7 H Ab p _ rH (hAr p)))
      (B_real_mul (B_real_attK (hx0 p k) (hx1 p k) (hx2 p k) (hx3 p k) (hx1 p k)) (B_real_band H s1b p _ rH (h1r p))))
      (B_real_mul (B_real_attK (hx0 p k) (hx1 p k) (hx2 p k) (hx3 p k) (hx2 p k)) (B_real_band H s2b p _ rH (h2r p))))
      (B_real_mul (B_real_attK (hx0 p k) (hx1 p k) (hx2 p k) (hx3 p k) (hx3 p k)) (B_real_band H s3b p _ rH (h3r p)))

end Cert.KernelIdeal.Val

end
-- ==== Proof.Math.CSup.lean ====
/-
  The operands and the reference's last stages of the support matrix read at an index: the 32 scale values repeated
  four times as a 1 x 128 row, the bias as a 1 x 10 row, the four heads laid side by side, and the classifier's
  product plus the bias.
-/
import proofs.«113748_g69337952026834_cont_sun_c4_16_16_alg».proof.Proof.KI.SpecRef
import proofs.«113748_g69337952026834_cont_sun_c4_16_16_alg».proof.Proof.Math.CDot

noncomputable section

open scoped BigOperators

namespace Cert.KernelIdeal.Val

open Idealize.ShloMosaic Idealize.ShloMosaic.ValueIdx
open Cert.ReferenceIdeal.HandRun

attribute [local instance] Cert.ReferenceIdeal.Gen.facts

/-- A lane's feature: the lane modulo 32. -/
def C_lo (l : Fin 128) : Fin 32 := ⟨l.val % 32, Nat.mod_lt _ (by norm_num)⟩

/-- The 32-vector repeated four times reads, at lane l, the vector at l modulo 32. -/
theorem C_tile4_apply (g : Vec Ideal Cert.KernelIdeal.S32 .f32) (l : Fin 128) :
    tile4 (F := Ideal) g (ix2 (0 : Fin 1) l) = g (ix1 (C_lo l)) := by
  unfold tile4 C_lo
  rw [shapeCast_a_1a_apply]
  refine (shapeCast_apply _ _ (ix1 l) (ix2 (⟨l.val / 32, by have := l.isLt; omega⟩ : Fin 4) (⟨l.val % 32, Nat.mod_lt _ (by norm_num)⟩ : Fin 32)) (by
    rw [Shape.rowMajor_val_two, Shape.rowMajor_val_one]
    show l.val / 32 * 32 + l.val % 32 = l.val
    omega)).trans ?_
  rw [C_bIn_row, shapeCast_a_1a_apply]

/-- The bias as a one-row matrix reads the bias. -/
theorem C_row10_apply (b : Vec Ideal Cert.KernelIdeal.S10 .f32) (q : Fin 10) :
    row10 (F := Ideal) b (ix2 (0 : Fin 1) q) = b (ix1 q) := by
  unfold row10
  rw [shapeCast_a_1a_apply]

/-- Lane 32 k + j modulo 32 is j. -/
theorem C_lane_mod (k : Fin 4) (j : Fin 32) : C_lo (lane k j) = j :=
  Fin.ext (by show (32 * k.val + j.val) % 32 = j.val; have := j.isLt; omega)

/-- Every lane is 32 k + j for a head k and a feature j. -/
theorem C_lane_surj (l : Fin 128) : ∃ (k : Fin 4) (j : Fin 32), l = lane k j :=
  ⟨⟨l.val / 32, by have := l.isLt; omega⟩, ⟨l.val % 32, Nat.mod_lt _ (by norm_num)⟩,
    Fin.ext (by show l.val = 32 * (l.val / 32) + l.val % 32; omega)⟩

section Cat
variable (o0 o1 o2 o3 : Arr Ideal Cert.ReferenceIdeal.S5000x32) (r : Fin 5000) (j : Fin 32)

/-- The four heads side by side read, at lane 32 k + j, head k at column j. -/
theorem C_xcat_0 : xcat o0 o1 o2 o3 (ix2 r (lane 0 j)) = o0 (ix2 r j) := by
  unfold xcat
  refine concatenate_apply_piece 1 _ _ (ix2 r (lane 0 j)) 0 (by show (0 : ℕ) < 4; omega) Cert.ReferenceIdeal.S5000x32 o0 rfl rfl 0 rfl (ix2 r j)
    (fun b hb => ?_) ?_
  · match b with
    | ⟨0, _⟩ => rfl
    | ⟨1, _⟩ => exact absurd rfl hb
  · show 0 + j.val = 32 * 0 + j.val
    omega
theorem C_xcat_1 : xcat o0 o1 o2 o3 (ix2 r (lane 1 j)) = o1 (ix2 r j) := by
  unfold xcat
  refine concatenate_apply_piece 1 _ _ (ix2 r (lane 1 j)) 1 (by show (1 : ℕ) < 4; omega) Cert.ReferenceIdeal.S5000x32 o1 rfl rfl 32 rfl (ix2 r j)
    (fun b hb => ?_) ?_
  · match b with
    | ⟨0, _⟩ => rfl
    | ⟨1, _⟩ => exact absurd rfl hb
  · show 32 + j.val = 32 * 1 + j.val
    omega
theorem C_xcat_2 : xcat o0 o1 o2 o3 (ix2 r (lane 2 j)) = o2 (ix2 r j) := by
  unfold xcat
  refine concatenate_apply_piece 1 _ _ (ix2 r (lane 2 j)) 2 (by show (2 : ℕ) < 4; omega) Cert.ReferenceIdeal.S5000x32 o2 rfl rfl 64 rfl (ix2 r j)
    (fun b hb => ?_) ?_
  · match b with
    | ⟨0, _⟩ => rfl
    | ⟨1, _⟩ => exact absurd rfl hb
  · show 64 + j.val = 32 * 2 + j.val
    omega
theorem C_xcat_3 : xcat o0 o1 o2 o3 (ix2 r (lane 3 j)) = o3 (ix2 r j) := by
  unfold xcat
  refine concatenate_apply_piece 1 _ _ (ix2 r (lane 3 j)) 3 (by show (3 : ℕ) < 4; omega) Cert.ReferenceIdeal.S5000x32 o3 rfl rfl 96 rfl (ix2 r j)
    (fun b hb => ?_) ?_
  · match b with
    | ⟨0, _⟩ => rfl
    | ⟨1, _⟩ => exact absurd rfl hb
  · show 96 + j.val = 32 * 3 + j.val
    omega

/-- The same for any head. -/
theorem C_xcat_pick (o : Fin 4 → Arr Ideal Cert.ReferenceIdeal.S5000x32) (k : Fin 4) (r : Fin 5000) (j : Fin 32) :
    xcat (o 0) (o 1) (o 2) (o 3) (ix2 r (lane k j)) = o k (ix2 r j) := by
  match k with
  | ⟨0, _⟩ => exact C_xcat_0 _ _ _ _ r j
  | ⟨1, _⟩ => exact C_xcat_1 _ _ _ _ r j
  | ⟨2, _⟩ => exact C_xcat_2 _ _ _ _ r j
  | ⟨3, _⟩ => exact C_xcat_3 _ _ _ _ r j

end Cat

/-- The classifier's product plus the bias at an entry. -/
theorem C_support_apply (xc : Arr Ideal Cert.ReferenceIdeal.S5000x128) (gcW : Arr Ideal Cert.ReferenceIdeal.S128x10)
    (gcb : Arr Ideal Cert.ReferenceIdeal.S10) (r : Fin 5000) (q : Fin 10) :
    support xc gcW gcb (ix2 r q) = (∑ l : Fin 128, xc (ix2 r l) * gcW (ix2 l q)) + gcb (ix1 q) := by
  unfold support
  rw [addf_apply, C_rdotW, C_bIn_row, C_bIn_vecrow]

end Cert.KernelIdeal.Val

end
-- ==== Proof.Math.CBn0.lean ====
/-
  Batch normalisation of one column of 5000 real numbers: its mean, its variance (no degrees of freedom removed) and the
  normalised entries γ (c r - mean) / sqrt (var + ε) + β; and the maximum of two real numbers read in the extended reals.
-/
import proofs.«113748_g69337952026834_cont_sun_c4_16_16_alg».proof.Proof.Math.A0

noncomputable section

open scoped BigOperators

namespace Cert.KernelIdeal.Val

open Idealize.ShloMosaic

/-- The mean of a column. -/
def CbMean (c : Fin 5000 → ℝ) : ℝ := (∑ r, c r) / 5000
/-- The variance of a column: the mean of the squared centred entries. -/
def CbVar (c : Fin 5000 → ℝ) : ℝ := (∑ r, (c r - CbMean c) * (c r - CbMean c)) / 5000
/-- The batch-normalised entry of a column with scale γ and shift β. -/
def CbBn (c : Fin 5000 → ℝ) (γ β : ℝ) (r : Fin 5000) : ℝ := γ * (c r - CbMean c) / Real.sqrt (CbVar c + Aeps) + β

/-- A variance is not negative, so with ε added it is positive. -/
theorem CbVar_eps_pos (c : Fin 5000 → ℝ) : 0 < CbVar c + Aeps := by
  have h : 0 ≤ CbVar c := by
    unfold CbVar
    exact div_nonneg (Finset.sum_nonneg fun _ _ => mul_self_nonneg _) (by norm_num)
  exact add_pos_of_nonneg_of_pos h Aeps_pos

/-- The maximum of two real numbers read as extended reals is the real maximum. -/
theorem Cbcoe_max (a b : ℝ) : max (a : EReal) (b : EReal) = ((max a b : ℝ) : EReal) :=
  (Monotone.map_max EReal.coe_strictMono.monotone).symm

/-- The maximum of a real number and the extended real zero. -/
theorem Cbcoe_max_zero (a : ℝ) : max (a : EReal) 0 = ((max a 0 : ℝ) : EReal) := by
  rw [← EReal.coe_zero, Cbcoe_max]

end Cert.KernelIdeal.Val

end
-- ==== Proof.Math.CBnR.lean ====
/-
  The reference's second batch norm and relu on a 5000 x 32 array of real numbers, read entry by entry: the host's
  column sums from the initial value zero, their quotient by 5000, the centred entries, the variance (whose select on
  the count 5000 - 0 > 0 always takes the quotient), γ (x - mean) / sqrt (var + ε) + β with the square root of a
  positive real, and the maximum with zero. Each column's values are the batch norm of that column alone.
-/
import proofs.«113748_g69337952026834_cont_sun_c4_16_16_alg».proof.Proof.RefRun.Stages
import proofs.«113748_g69337952026834_cont_sun_c4_16_16_alg».proof.Proof.Gen.ReferenceIdeal
import proofs.«113748_g69337952026834_cont_sun_c4_16_16_alg».proof.Proof.Math.A2
import proofs.«113748_g69337952026834_cont_sun_c4_16_16_alg».proof.Proof.Math.CBn0
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.KernelIdeal.Val

open Idealize.ShloMosaic Idealize.ShloMosaic.ValueIdx
open Cert.ReferenceIdeal Cert.ReferenceIdeal.HandRun
open Cert.ReferenceIdeal.Facts₀ Cert.ReferenceIdeal.Facts

attribute [local instance] Cert.ReferenceIdeal.Gen.facts

/-- A 32-vector broadcast to a 1 x 32 row reads the vector. -/
theorem CbrVec_apply (h : S32.BroadcastsInDim S1x32 (![1] : Fin 1 → Fin S1x32.rank)) (v : S32.Idx → EReal) (u : Fin 1) (c : Fin 32) :
    broadcastInDim S1x32 ![1] h v (ix2 u c) = v (ix1 c) :=
  broadcastInDim_apply _ h v _ _ fun a => match a with | ⟨0, _⟩ => rfl

/-- A 1 x 32 row broadcast over the 5000 rows reads the row. -/
theorem CbrRow_apply (h : S1x32.BroadcastsInDim S5000x32 (![0, 1] : Fin 2 → Fin S5000x32.rank)) (v : S1x32.Idx → EReal)
    (r : Fin 5000) (c : Fin 32) : broadcastInDim S5000x32 ![0, 1] h v (ix2 r c) = v (ix2 (0 : Fin 1) c) :=
  broadcastInDim_apply _ h v _ _ fun a => match a with | ⟨0, _⟩ => rfl | ⟨1, _⟩ => rfl

/-- The host's sum over the rows from the initial value zero, at column c. -/
theorem CbrSum_apply (h' : S5000x32.ReducesTo [0] S32) (hu : 0 < S_.numel) (x : FVec Ideal S5000x32 .f32) (c : Fin 32) :
    Host.reduceAdd x (constant S_ .f32 0x00000000#32) h' hu (ix1 c) = ∑ r : Fin 5000, x (ix2 r c) := by
  rw [hostReduceAdd_apply, Ideal.hostReduceAdd_single h' (by decide : S5000x32.Reduces [0] S32), constant_apply,
    Ideal.ofBits_zero_f32, zero_add]
  exact Finset.sum_congr rfl fun k _ => congrArg x (funext fun a => match a with | ⟨0, _⟩ => rfl | ⟨1, _⟩ => rfl)

/-- The same sum when the entries are real numbers. -/
theorem CbrSum_real (h' : S5000x32.ReducesTo [0] S32) (hu : 0 < S_.numel) (y : FVec Ideal S5000x32 .f32)
    (yr : Fin 5000 → Fin 32 → ℝ) (hy : ∀ r c, y (ix2 r c) = ((yr r c : ℝ) : EReal)) (c : Fin 32) :
    Host.reduceAdd y (constant S_ .f32 0x00000000#32) h' hu (ix1 c) = ((∑ r, yr r c : ℝ) : EReal) := by
  rw [CbrSum_apply, ← Acoe_sum]
  exact Finset.sum_congr rfl fun r _ => hy r c

variable (x : Arr Ideal S5000x32) (xr : Fin 5000 → Fin 32 → ℝ)
  (hx : ∀ r c, x (ix2 r c) = ((xr r c : ℝ) : EReal))

include hx in
/-- The column means of an array of reals. -/
theorem CbrMean_apply (u : Fin 1) (c : Fin 32) :
    colMean32 (F := Ideal) x (ix2 u c) = ((CbMean (fun r' => xr r' c) : ℝ) : EReal) := by
  unfold colMean32
  rw [hostDivf_apply, CbrVec_apply, broadcastInDim_scalar_apply, constant_apply, CbrSum_real _ _ x xr hx, AofBits_5000,
    Adiv_coe _ (by norm_num)]
  rfl

include hx in
/-- The centred entries. -/
theorem CbrCen_apply (r : Fin 5000) (c : Fin 32) :
    center32 (F := Ideal) x (ix2 r c) = ((xr r c - CbMean (fun r' => xr r' c) : ℝ) : EReal) := by
  unfold center32
  rw [subf_apply, CbrRow_apply, CbrMean_apply x xr hx, hx, ← EReal.coe_sub]

include hx in
/-- The column variances: the count is positive, so the select takes the quotient. -/
theorem CbrVar_apply (u : Fin 1) (c : Fin 32) :
    colVar32 (F := Ideal) x (ix2 u c) = ((CbVar (fun r' => xr r' c) : ℝ) : EReal) := by
  unfold colVar32
  rw [select_apply, broadcastInDim_scalar_apply, cmpf_apply, AvarCount, constant_apply, Ideal.ofBits_zero_f32]
  have hc : FloatOps.cmpf (F := Ideal) (φ := .f32) .ogt ((5000 : ℝ) : EReal) 0 = 1#1 := by
    show BitVec.ofBool (decide ((0 : EReal) < ((5000 : ℝ) : EReal))) = 1#1
    rw [decide_eq_true (by exact_mod_cast (by norm_num : (0 : ℝ) < 5000))]
    rfl
  rw [hc, select_one, hostDivf_apply, CbrVec_apply, broadcastInDim_scalar_apply, AvarCount,
    CbrSum_real _ _ _ (fun r c => (xr r c - CbMean (fun r' => xr r' c)) * (xr r c - CbMean (fun r' => xr r' c))) (fun r c => by
      rw [mulf_apply, CbrCen_apply x xr hx, ← EReal.coe_mul]),
    Adiv_coe _ (by norm_num)]
  rfl

include hx in
/-- The batch-normalised entries. -/
theorem CbrBn_apply (g b : Arr Ideal S32) (gr br : Fin 32 → ℝ)
    (hg : ∀ c, g (ix1 c) = ((gr c : ℝ) : EReal)) (hb : ∀ c, b (ix1 c) = ((br c : ℝ) : EReal))
    (r : Fin 5000) (c : Fin 32) :
    bn32 (F := Ideal) x g b (ix2 r c) = ((CbBn (fun r' => xr r' c) (gr c) (br c) r : ℝ) : EReal) := by
  unfold bn32
  rw [addf_apply, hostDivf_apply, mulf_apply, CbrRow_apply, CbrRow_apply, CbrRow_apply, CbrVec_apply, CbrVec_apply,
    CbrCen_apply x xr hx, hg, hb]
  rw [AhostSqrt_apply, addf_apply, CbrVar_apply x xr hx, broadcastInDim_scalar_apply, constant_apply, AofBits_eps, ← EReal.coe_add,
    Asqrt_coe (CbVar_eps_pos _), ← EReal.coe_mul,
    Adiv_coe _ (Real.sqrt_ne_zero'.mpr (CbVar_eps_pos _)), ← EReal.coe_add]
  rfl

/-- The reference's relu of its batch norm of a 5000 x 32 array of reals, entry by entry. -/
theorem CbRef_relu_bn32 (x : Arr Ideal Cert.ReferenceIdeal.S5000x32) (xr : Fin 5000 → Fin 32 → ℝ)
    (hx : ∀ r c, x (ix2 r c) = ((xr r c : ℝ) : EReal)) (g b : Arr Ideal Cert.ReferenceIdeal.S32) (gr br : Fin 32 → ℝ)
    (hg : ∀ c, g (ix1 c) = ((gr c : ℝ) : EReal)) (hb : ∀ c, b (ix1 c) = ((br c : ℝ) : EReal)) (r : Fin 5000) (c : Fin 32) :
    relu32 (bn32 (F := Ideal) x g b) (ix2 r c) = ((max (CbBn (fun r' => xr r' c) (gr c) (br c) r) 0 : ℝ) : EReal) := by
  unfold relu32
  rw [maximumf_apply, broadcastInDim_scalar_apply, constant_apply, Ideal.ofBits_zero_f32, CbrBn_apply x xr hx g b gr br hg hb,
    Cbcoe_max_zero]

end Cert.KernelIdeal.Val

end
-- ==== Proof.Math.CBnK.lean ====
/-
  The smoothing kernel's support matrix read entry by entry when the mixed channels, the scale row and the shift row
  are real numbers: the batch norm of the 5000 x 128 array over its rows (column sums, their quotient by 5000, the
  centred entries, the variance, γ (x - mean) rsqrt (var + ε) + β with the reciprocal square root of a positive
  real), its maximum with zero, the product with the 128 x 10 classifier weights and the bias row added. Lane l of the
  batch norm is the batch norm of that lane's column alone.
-/
import proofs.«113748_g69337952026834_cont_sun_c4_16_16_alg».proof.Proof.KI.Spec
import proofs.«113748_g69337952026834_cont_sun_c4_16_16_alg».proof.Proof.Math.CBn0
import proofs.«113748_g69337952026834_cont_sun_c4_16_16_alg».proof.Proof.Math.CDot
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen
open Idealize.ShloMosaic Idealize.ShloMosaic.ValueIdx

/-- A sum over the rows of a 5000 x 128 array, at lane l. -/
theorem CbkSum_apply (h : S5000x128.Reduces [0] S128) (hφ : FKind.Formats .f32)
    (hacc : (0x00000000#32 : BitVec 32) = FKind.add.neutral .f32 hφ) (x : FVec Ideal S5000x128 .f32) (l : Fin 128) :
    multiReduction .add [0] S128 x 0x00000000#32 h hφ hacc (ix1 l) = ∑ r : Fin 5000, x (ix2 r l) := by
  rw [Ideal.multiReduction_add_single]
  exact Finset.sum_congr rfl fun k _ => congrArg x (funext fun a => match a with | ⟨0, _⟩ => rfl | ⟨1, _⟩ => rfl)

/-- The kernel's column sums. -/
def CbkSum (x : FVec Ideal S5000x128 .f32) : FVec Ideal S128 .f32 :=
  multiReduction .add [0] S128 x 0x00000000#32 reduces_S5000x128_S128 (.inl rfl) rfl
/-- The column sums at lane l. -/
theorem CbkSum_eq (x : FVec Ideal S5000x128 .f32) (l : Fin 128) : CbkSum x (ix1 l) = ∑ r : Fin 5000, x (ix2 r l) := by
  unfold CbkSum
  exact CbkSum_apply _ _ _ x l
/-- The kernel's column means as a 1 x 128 row. -/
def CbkMean (x : FVec Ideal S5000x128 .f32) : FVec Ideal S1x128 .f32 :=
  divf (shapeCast S1x128 (CbkSum x) shapeCasts_S128_S1x128) (broadcast S1x128 (Scalar.ofBits .f32 0x459C4000#32))
/-- The array less its column means. -/
def CbkCen (x : FVec Ideal S5000x128 .f32) : FVec Ideal S5000x128 .f32 :=
  subf x (broadcastTo S5000x128 (CbkMean x) broadcasts_S1x128_S5000x128)
/-- The kernel's column variances as a 1 x 128 row. -/
def CbkVar (x : FVec Ideal S5000x128 .f32) : FVec Ideal S1x128 .f32 := CbkMean (mulf (CbkCen x) (CbkCen x))
/-- The kernel's batch norm. -/
def CbkBn (x : FVec Ideal S5000x128 .f32) (G B : FVec Ideal S1x128 .f32) : FVec Ideal S5000x128 .f32 :=
  addf (mulf (mulf (broadcastTo S5000x128 G broadcasts_S1x128_S5000x128) (CbkCen x))
      (broadcastTo S5000x128 (rsqrt (addf (CbkVar x) (broadcast S1x128 (Scalar.ofBits .f32 0x3727C5AC#32)))) broadcasts_S1x128_S5000x128))
    (broadcastTo S5000x128 B broadcasts_S1x128_S5000x128)

/-- The support matrix is the relu of the batch norm times the classifier weights, plus the bias row. -/
theorem CbKer_eq (mx : FVec Ideal S5000x128 .f32) (G B : FVec Ideal S1x128 .f32) (w : FVec Ideal S128x10 .f32)
    (bias : FVec Ideal S1x10 .f32) :
    k1_pay1 (F := Ideal) mx G B w bias
      = addf (matmul dot_S5000x128_S128x10_S5000x10_1_0_0_1_n_n none
          (maximumf (CbkBn mx G B) (broadcast S5000x128 (Scalar.ofBits .f32 0x00000000#32))) w (constant S5000x10 .f32 0x00000000#32))
        (broadcastTo S5000x10 bias broadcasts_S1x10_S5000x10) := by
  unfold k1_pay1 CbkBn CbkVar CbkCen CbkMean CbkSum
  simp only [shapeCast_self]

variable (x : FVec Ideal S5000x128 .f32) (xr : Fin 5000 → Fin 128 → ℝ)
  (hx : ∀ r l, x (ix2 r l) = ((xr r l : ℝ) : EReal))

include hx in
/-- The column means of an array of reals. -/
theorem CbkMean_apply (u : Fin 1) (l : Fin 128) : CbkMean x (ix2 u l) = ((CbMean (fun r' => xr r' l) : ℝ) : EReal) := by
  unfold CbkMean
  rw [divf_apply, broadcast_apply, shapeCast_a_1a_apply, CbkSum_eq]
  show Ideal.div (∑ r : Fin 5000, x (ix2 r l)) (Ideal.ofBits .f32 0x459C4000#32) = _
  rw [AofBits_5000, (Finset.sum_congr rfl (fun r _ => hx r l) : ∑ r : Fin 5000, x (ix2 r l) = ∑ r : Fin 5000, ((xr r l : ℝ) : EReal)),
    Acoe_sum, Adiv_coe _ (by norm_num)]
  rfl

include hx in
/-- The centred entries. -/
theorem CbkCen_apply (r : Fin 5000) (l : Fin 128) :
    CbkCen x (ix2 r l) = ((xr r l - CbMean (fun r' => xr r' l) : ℝ) : EReal) := by
  unfold CbkCen
  rw [subf_apply, broadcastTo_1b_ab_apply, CbkMean_apply x xr hx, hx, ← EReal.coe_sub]

include hx in
/-- The column variances. -/
theorem CbkVar_apply (u : Fin 1) (l : Fin 128) : CbkVar x (ix2 u l) = ((CbVar (fun r' => xr r' l) : ℝ) : EReal) := by
  unfold CbkVar
  rw [CbkMean_apply _ (fun r l => (xr r l - CbMean (fun r' => xr r' l)) * (xr r l - CbMean (fun r' => xr r' l))) (fun r l => by
    rw [mulf_apply, CbkCen_apply x xr hx, ← EReal.coe_mul])]
  rfl

include hx in
/-- The batch-normalised entries. -/
theorem CbkBn_apply (G B : FVec Ideal S1x128 .f32) (gl bl : Fin 128 → ℝ)
    (hG : ∀ l, G (ix2 (0 : Fin 1) l) = ((gl l : ℝ) : EReal)) (hB : ∀ l, B (ix2 (0 : Fin 1) l) = ((bl l : ℝ) : EReal))
    (r : Fin 5000) (l : Fin 128) :
    CbkBn x G B (ix2 r l) = ((CbBn (fun r' => xr r' l) (gl l) (bl l) r : ℝ) : EReal) := by
  unfold CbkBn
  rw [addf_apply, mulf_apply, mulf_apply, broadcastTo_1b_ab_apply, broadcastTo_1b_ab_apply, broadcastTo_1b_ab_apply,
    CbkCen_apply x xr hx, hG, hB]
  show ((gl l : ℝ) : EReal) * ((xr r l - CbMean (fun r' => xr r' l) : ℝ) : EReal)
      * Ideal.rsqrt (CbkVar x (ix2 (0 : Fin 1) l) + Ideal.ofBits .f32 0x3727C5AC#32) + ((bl l : ℝ) : EReal) = _
  rw [CbkVar_apply x xr hx, AofBits_eps, ← EReal.coe_add, Arsqrt_coe (CbVar_eps_pos _), ← EReal.coe_mul, ← EReal.coe_mul,
    ← EReal.coe_add]
  unfold CbBn
  rw [div_eq_mul_inv]

/-- The kernel's support matrix at row r, class q. -/
theorem CbKer_pay1 (mx : Vec Ideal Cert.KernelIdeal.S5000x128 .f32) (g b : Vec Ideal Cert.KernelIdeal.S1x128 .f32)
    (w : Vec Ideal Cert.KernelIdeal.S128x10 .f32) (bias : Vec Ideal Cert.KernelIdeal.S1x10 .f32)
    (mr : Fin 5000 → Fin 128 → ℝ) (gl bl : Fin 128 → ℝ)
    (hm : ∀ r l, mx (ix2 r l) = ((mr r l : ℝ) : EReal)) (hg : ∀ l, g (ix2 (0 : Fin 1) l) = ((gl l : ℝ) : EReal))
    (hb : ∀ l, b (ix2 (0 : Fin 1) l) = ((bl l : ℝ) : EReal)) (r : Fin 5000) (q : Fin 10) :
    Cert.KernelIdeal.Gen.k1_pay1 (F := Ideal) mx g b w bias (ix2 r q)
      = (∑ l : Fin 128, ((max (CbBn (fun r' => mr r' l) (gl l) (bl l) r) 0 : ℝ) : EReal) * w (ix2 l q)) + bias (ix2 (0 : Fin 1) q) := by
  rw [CbKer_eq, addf_apply, C_kmatW, broadcastTo_1b_ab_apply]
  congr 1
  refine Finset.sum_congr rfl fun l _ => ?_
  rw [maximumf_apply, broadcast_apply, CbkBn_apply mx mr hm g b gl bl hg hb r l]
  show max ((CbBn (fun r' => mr r' l) (gl l) (bl l) r : ℝ) : EReal) (Ideal.ofBits .f32 0x00000000#32) * w (ix2 l q) = _
  rw [Ideal.ofBits_zero_f32, Cbcoe_max_zero]

end Cert.KernelIdeal.Val

end
-- ==== Proof.Math.C1.lean ====
/-
  PART C1: the kernel's support matrix is the reference's. Every entry of both is the same real number: per lane the
  batch norm and relu of that lane's 5000 reals, a lane of the mixed channels being a column of its head; the 128 lanes
  against the classifier weights; the bias.
-/
import proofs.«113748_g69337952026834_cont_sun_c4_16_16_alg».proof.Proof.KI.SpecRef
import proofs.«113748_g69337952026834_cont_sun_c4_16_16_alg».proof.Proof.Math.CSup
import proofs.«113748_g69337952026834_cont_sun_c4_16_16_alg».proof.Proof.Math.CBnR
import proofs.«113748_g69337952026834_cont_sun_c4_16_16_alg».proof.Proof.Math.CBnK

noncomputable section

open scoped BigOperators

namespace Cert.KernelIdeal.Val

open Idealize.ShloMosaic Idealize.ShloMosaic.ValueIdx
open Cert.ReferenceIdeal.HandRun

attribute [local instance] Cert.ReferenceIdeal.Gen.facts

/-- PART C1 (the support matrix). Given mixed channels mx whose lane 32 k + j is mh k's column j, the kernel's support matrix
    is the reference's: batch norm and relu head by head, the four heads side by side, times the classifier weights plus the bias. -/
theorem supMat_eq (mx : Vec Ideal Cert.KernelIdeal.S5000x128 .f32) (mh : Fin 4 → Arr Ideal Cert.ReferenceIdeal.S5000x32)
    (g1 b1 : Arr Ideal Cert.ReferenceIdeal.S32) (gcW : Arr Ideal Cert.ReferenceIdeal.S128x10) (gcb : Arr Ideal Cert.ReferenceIdeal.S10)
    (hm : ∀ (k : Fin 4) (r : Fin 5000) (j : Fin 32), mx (ix2 r (lane k j)) = mh k (ix2 r j))
    (rm : AllReal mx) (rg : AllReal g1) (rb : AllReal b1) (rW : AllReal gcW) (rc : AllReal gcb) :
    (supMat (F := Ideal) mx (tile4 g1) (tile4 b1) gcW (row10 gcb)
        = support (xcat (relu32 (bn32 (mh 0) g1 b1)) (relu32 (bn32 (mh 1) g1 b1)) (relu32 (bn32 (mh 2) g1 b1)) (relu32 (bn32 (mh 3) g1 b1))) gcW gcb)
      ∧ AllReal (supMat (F := Ideal) mx (tile4 g1) (tile4 b1) gcW (row10 gcb)) := by
  -- the real numbers behind the inputs
  choose mr hmr using (fun (r : Fin 5000) (l : Fin 128) => rm (ix2 r l))
  choose gr hgr using (fun (j : Fin 32) => rg (ix1 j))
  choose br hbr using (fun (j : Fin 32) => rb (ix1 j))
  choose wr hwr using (fun (l : Fin 128) (q : Fin 10) => rW (ix2 l q))
  choose cr hcr using (fun (q : Fin 10) => rc (ix1 q))
  -- the repeated scale and shift at a lane
  have hgl : ∀ l : Fin 128, tile4 (F := Ideal) g1 (ix2 (0 : Fin 1) l) = ((gr (C_lo l) : ℝ) : EReal) := fun l => by
    rw [C_tile4_apply, hgr]
  have hbl : ∀ l : Fin 128, tile4 (F := Ideal) b1 (ix2 (0 : Fin 1) l) = ((br (C_lo l) : ℝ) : EReal) := fun l => by
    rw [C_tile4_apply, hbr]
  -- the kernel's entry
  have hK : ∀ (r : Fin 5000) (q : Fin 10), supMat (F := Ideal) mx (tile4 g1) (tile4 b1) gcW (row10 gcb) (ix2 r q)
      = (∑ l : Fin 128, ((max (CbBn (fun r' => mr r' l) (gr (C_lo l)) (br (C_lo l)) r) 0 : ℝ) : EReal) * gcW (ix2 l q))
        + gcb (ix1 q) := fun r q => by
    unfold supMat
    rw [CbKer_pay1 mx (tile4 g1) (tile4 b1) gcW (row10 gcb) mr (fun l => gr (C_lo l)) (fun l => br (C_lo l)) hmr hgl hbl r q,
      C_row10_apply]
  refine ⟨?_, ?_⟩
  · funext i
    obtain ⟨r, q, rfl⟩ : ∃ (r : Fin 5000) (q : Fin 10), i = ix2 r q := ⟨i 0, i 1, eq_ix2 i⟩
    rw [hK, C_support_apply]
    refine congrArg (· + gcb (ix1 q)) (Finset.sum_congr rfl fun l _ => congrArg (· * gcW (ix2 l q)) ?_)
    obtain ⟨k, j, rfl⟩ := C_lane_surj l
    have hx : ∀ (r' : Fin 5000) (c : Fin 32), mh k (ix2 r' c) = ((mr r' (lane k c) : ℝ) : EReal) := fun r' c => by
      rw [← hm, hmr]
    have hR := CbRef_relu_bn32 (mh k) (fun r' c => mr r' (lane k c)) hx g1 b1 gr br hgr hbr r j
    rw [C_lane_mod]
    exact ((C_xcat_pick (fun k => relu32 (bn32 (mh k) g1 b1)) k r j).trans hR).symm
  · intro i
    obtain ⟨r, q, rfl⟩ : ∃ (r : Fin 5000) (q : Fin 10), i = ix2 r q := ⟨i 0, i 1, eq_ix2 i⟩
    refine ⟨(∑ l : Fin 128, max (CbBn (fun r' => mr r' l) (gr (C_lo l)) (br (C_lo l)) r) 0 * wr l q) + cr q, ?_⟩
    rw [hK, hcr, EReal.coe_add, ← Acoe_sum]
    refine congrArg (· + ((cr q : ℝ) : EReal)) (Finset.sum_congr rfl fun l _ => ?_)
    rw [hwr, EReal.coe_mul]

end Cert.KernelIdeal.Val

end
-- ==== Proof.Math.CLsm.lean ====
/-
  The row log-softmax as a function of one row's ten entries: each entry less the row's maximum (taken from minus
  infinity), less the logarithm of the sum of the exponentials of those differences.
-/
import Idealize.ShloMosaic.PureOps.Ideal

noncomputable section

open scoped BigOperators

namespace Cert.KernelIdeal.Val

open Idealize.ShloMosaic

/-- The maximum of a row's ten entries, from the word of minus infinity. -/
def C_rowTop (f : Fin 10 → EReal) : EReal := (Finset.univ : Finset (Fin 10)).fold max (Ideal.ofBits .f32 0xFF800000#32) f

/-- The row log-softmax of ten entries. -/
def C_lsmRow (f : Fin 10 → EReal) (q : Fin 10) : EReal :=
  (f q - C_rowTop f) - Ideal.log (∑ c : Fin 10, Ideal.exp (f c - C_rowTop f))

end Cert.KernelIdeal.Val

end
-- ==== Proof.Math.CK2.lean ====
/-
  What the smoothing kernel stores, read at an index: the block row of the support matrix it loads, the named
  constant two thirds, and the stored value as the row log-softmax of the smoothed row.
-/
import proofs.«113748_g69337952026834_cont_sun_c4_16_16_alg».proof.Proof.KI.SpecRef
import proofs.«113748_g69337952026834_cont_sun_c4_16_16_alg».proof.Proof.Math.CDot
import proofs.«113748_g69337952026834_cont_sun_c4_16_16_alg».proof.Proof.Math.CLsm

noncomputable section

open scoped BigOperators

namespace Cert.KernelIdeal.Val

open Idealize.ShloMosaic Idealize.ShloMosaic.ValueIdx
open Cert.ReferenceIdeal.HandRun

attribute [local instance] Cert.ReferenceIdeal.Gen.facts

/-- The rows a grid point loads start at a thousand times the point. -/
theorem C_off1_val : ∀ t : Fin Cert.KernelIdeal.grid1.N,
    Cert.KernelIdeal.k1_off1 (Cert.KernelIdeal.grid1.coords t) 0 = 1000 * t.val
      ∧ Cert.KernelIdeal.k1_off1 (Cert.KernelIdeal.grid1.coords t) 1 = 0 := by
  decide +kernel

/-- The loaded block of the support matrix is its rows from a thousand times the point. -/
theorem C_supRows_apply (t : Fin Cert.KernelIdeal.cfg1.N) (ht : t.val < 5) (S : Vec Ideal Cert.KernelIdeal.S5000x10 .f32)
    (p : Fin 1000) (q : Fin 10) :
    supRows (F := Ideal) (Cert.KernelIdeal.grid1.coords t) S (ix2 p q) = S (ix2 (row1 ⟨t.val, ht⟩ p) q) := by
  unfold supRows
  show S _ = S _
  refine congrArg S (funext fun ax => Fin.ext ?_)
  match ax with
  | ⟨0, _⟩ =>
    show Cert.KernelIdeal.k1_off1 (Cert.KernelIdeal.grid1.coords t) 0 + 1 * p.val = 1000 * t.val + p.val
    rw [(C_off1_val t).1, Nat.one_mul]
  | ⟨1, _⟩ =>
    show Cert.KernelIdeal.k1_off1 (Cert.KernelIdeal.grid1.coords t) 1 + 1 * q.val = q.val
    rw [(C_off1_val t).2, Nat.one_mul, Nat.zero_add]

/-- The named constant is two thirds. -/
theorem C_c23 : Named.named (F := Ideal) Cert.KernelIdeal.κ "c_2_3" (φ := .f32) 0x3F2AAAAB#32 = (((2 : ℝ) / 3 : ℝ) : EReal) :=
  IdealRules.named_const.ideal_named_scalar _ _ _ _ rfl

/-- The smoothed row the kernel forms at block row `p`: half the operator row's product with the support matrix, plus
    the support row, times the named constant. -/
def C_smK (v5 : Vec Ideal Cert.KernelIdeal.S1000x10 .f32) (v6 : Vec Ideal Cert.KernelIdeal.S1000x5000 .f32)
    (v7 : Vec Ideal Cert.KernelIdeal.S5000x10 .f32) (p : Fin 1000) (c : Fin 10) : EReal :=
  (Ideal.ofBits .f32 0x3F000000#32 * (∑ l : Fin 5000, v6 (ix2 p l) * v7 (ix2 l c)) + v5 (ix2 p c))
    * Named.named (F := Ideal) Cert.KernelIdeal.κ "c_2_3" (φ := .f32) 0x3F2AAAAB#32

/-- The stored value is the row log-softmax of that row. -/
theorem C_pay2_apply (v5 : Vec Ideal Cert.KernelIdeal.S1000x10 .f32) (v6 : Vec Ideal Cert.KernelIdeal.S1000x5000 .f32)
    (v7 : Vec Ideal Cert.KernelIdeal.S5000x10 .f32) (p : Fin 1000) (q : Fin 10) :
    Cert.KernelIdeal.Gen.k1_pay2 v5 v6 v7 (ix2 p q) = C_lsmRow (C_smK v5 v6 v7 p) q := by
  unfold Cert.KernelIdeal.Gen.k1_pay2
  simp only [subf_apply, C_bTo_col, C_cast_veccol, C_log_apply]
  rw [C_rowSum]
  simp only [C_exp_apply, subf_apply, C_bTo_col, C_cast_veccol]
  rw [C_rowMax]
  simp only [mulf_apply, addf_apply, broadcast_apply, C_kmatA]
  rfl

end Cert.KernelIdeal.Val

end
-- ==== Proof.Math.CR2.lean ====
/-
  The reference's tail read at an index: the smoothed support, the row maxima, the shifted rows and the row
  log-softmax, each as a function of one row's entries.
-/
import proofs.«113748_g69337952026834_cont_sun_c4_16_16_alg».proof.Proof.KI.SpecRef
import proofs.«113748_g69337952026834_cont_sun_c4_16_16_alg».proof.Proof.Math.CDot
import proofs.«113748_g69337952026834_cont_sun_c4_16_16_alg».proof.Proof.Math.CLsm

noncomputable section

open scoped BigOperators

namespace Cert.KernelIdeal.Val

open Idealize.ShloMosaic Idealize.ShloMosaic.ValueIdx
open Cert.ReferenceIdeal.HandRun

attribute [local instance] Cert.ReferenceIdeal.Gen.facts

/-- The smoothed support at an entry: half the operator row's product with the support matrix, plus the support entry,
    over one and a half. -/
theorem C_smooth_apply (adj : Arr Ideal Cert.ReferenceIdeal.S5000x5000) (s : Arr Ideal Cert.ReferenceIdeal.S5000x10)
    (r : Fin 5000) (q : Fin 10) :
    smooth adj s (ix2 r q)
      = Ideal.div (Ideal.ofBits .f32 0x3F000000#32 * (∑ l : Fin 5000, adj (ix2 r l) * s (ix2 l q)) + s (ix2 r q))
          (Ideal.ofBits .f32 0x3FC00000#32) := by
  unfold smooth
  rw [hostDivf_apply, addf_apply, mulf_apply, broadcastInDim_scalar_apply, broadcastInDim_scalar_apply, constant_apply,
    constant_apply, C_rdotA]

/-- A row's maximum in the reference: minus infinity joined with the fold of the maximum from minus infinity. -/
theorem C_rowMax10_apply (o : Arr Ideal Cert.ReferenceIdeal.S5000x10) (r : Fin 5000) :
    rowMax10 o (ix1 r) = C_rowTop (fun c => o (ix2 r c)) := by
  unfold rowMax10
  rw [maximumf_apply, broadcastInDim_scalar_apply, constant_apply, C_hostRowMax, constant_apply]
  exact max_eq_right (by rw [Finset.le_fold_max]; exact Or.inl le_rfl)

/-- The shifted array at an entry. -/
theorem C_shift10_apply (o : Arr Ideal Cert.ReferenceIdeal.S5000x10) (r : Fin 5000) (q : Fin 10) :
    shift10 o (ix2 r q) = o (ix2 r q) - C_rowTop (fun c => o (ix2 r c)) := by
  unfold shift10
  rw [subf_apply, C_bIn_col, C_bIn_veccol, C_rowMax10_apply]

/-- The reference's row log-softmax at an entry is the row log-softmax of that row's entries. -/
theorem C_logSoftmax10_apply (o : Arr Ideal Cert.ReferenceIdeal.S5000x10) (r : Fin 5000) (q : Fin 10) :
    logSoftmax10 o (ix2 r q) = C_lsmRow (fun c => o (ix2 r c)) q := by
  unfold logSoftmax10
  rw [subf_apply, C_bIn_col, C_hlog_apply, C_bIn_veccol, C_hostRowSum, constant_apply, Ideal.ofBits_zero_f32, zero_add]
  simp only [C_hexp_apply, C_shift10_apply]
  rfl

end Cert.KernelIdeal.Val

end
-- ==== Proof.Math.C2.lean ====
/-
  PART C2: what the smoothing kernel stores at a grid point is the reference's row log-softmax of the smoothed support at
  the block's array rows. Both sides are the same function of one row's ten smoothed entries; the entries agree because a
  product with two thirds is a quotient by one and a half on every extended real.
-/
import proofs.«113748_g69337952026834_cont_sun_c4_16_16_alg».proof.Proof.KI.SpecRef
import proofs.«113748_g69337952026834_cont_sun_c4_16_16_alg».proof.Proof.Math.CK2
import proofs.«113748_g69337952026834_cont_sun_c4_16_16_alg».proof.Proof.Math.CR2

noncomputable section

open scoped BigOperators

namespace Cert.KernelIdeal.Val

open Idealize.ShloMosaic Idealize.ShloMosaic.ValueIdx
open Cert.ReferenceIdeal.HandRun

attribute [local instance] Cert.ReferenceIdeal.Gen.facts

/-- The f32 pattern of 1.5 is the real three halves. -/
theorem C_ofBits_1p5 : Ideal.ofBits .f32 0x3FC00000#32 = (((3 : ℝ) / 2 : ℝ) : EReal) := by
  simp [Ideal.ofBits, Ideal.ieee, -EReal.coe_mul]; norm_num

/-- PART C2 (the smoothing block). What the smoothing kernel stores at grid point t, block row p, column q, is the reference's
    row log-softmax of the smoothed support at array row 1000 t + p. -/
theorem smOut_eq (t : Fin Cert.KernelIdeal.cfg1.N) (ht : t.val < 5) (adj : Arr Ideal Cert.ReferenceIdeal.S5000x5000) (adjb : Vec Ideal Cert.KernelIdeal.S1000x5000 .f32)
    (S : Vec Ideal Cert.KernelIdeal.S5000x10 .f32)
    (hadj : ∀ (p : Fin 1000) (q : Fin 5000), adjb (ix2 p q) = adj (ix2 (row1 ⟨t.val, ht⟩ p) q))
    (radj : AllReal adj) (rS : AllReal S) :
    ∀ (p : Fin 1000) (q : Fin 10),
      smOut (F := Ideal) (Cert.KernelIdeal.grid1.coords t) adjb S (ix2 p q) = logSoftmax10 (smooth adj S) (ix2 (row1 ⟨t.val, ht⟩ p) q) := by
  intro p q
  unfold smOut
  rw [C_pay2_apply, C_logSoftmax10_apply]
  refine congrArg (fun f => C_lsmRow f q) (funext fun c => ?_)
  unfold C_smK
  rw [C_smooth_apply, C_supRows_apply t ht, C_c23, C_ofBits_1p5, Ideal.div_coe (by norm_num)]
  simp only [hadj]
  rw [show ((1 : ℝ) / (3 / 2)) = 2 / 3 by norm_num]

end Cert.KernelIdeal.Val

end
-- ==== Proof.Math.C.lean ====
/-
  PART C of the bridge: the smoothing kernel's scratch (the support matrix) and its stored blocks (the row
  log-softmax of the smoothed support) against the reference's tail. The two theorems are in C1 and C2.
-/
import proofs.«113748_g69337952026834_cont_sun_c4_16_16_alg».proof.Proof.Math.C1
import proofs.«113748_g69337952026834_cont_sun_c4_16_16_alg».proof.Proof.Math.C2
-- ==== Proof.Math.F.lean ====
/-
  From the precondition "every float input is finite" to "every entry of each of the fourteen argument arrays is a real
  number", at the extended reals. The printed predicate tests each array entrywise, |x| < +∞, takes the conjunction over
  all of the array's indices, and then the conjunction of the fourteen results. A conjunction of bits is 1 only if each bit
  is 1; an entry with |x| < +∞ is neither infinity, hence a real number.
-/
import proofs.«113748_g69337952026834_cont_sun_c4_16_16_alg».proof.Proof.KI.Spec
import proofs.«113748_g69337952026834_cont_sun_c4_16_16_alg».proof.Pre_finite_inputs
import proofs.«113748_g69337952026834_cont_sun_c4_16_16_alg».proof.Proof.Gen.Pre_finite_inputs
import Idealize.ShloMosaic.Lib.ReduceAll
import Idealize.ShloMosaic.Lib.ValueIdx

noncomputable section

namespace Cert.KernelIdeal.Val

open Idealize.ShloMosaic
open Cert.Pre_finite_inputs (S_ S5000x256 S5000x5000 S4x256x32 S4x64x1 S256 S32 S128x10 S10)

/-- An extended real whose absolute value, max x (-x), lies strictly below +∞ is a real number: the absolute value of
    either infinity is +∞, and the f32 pattern 0x7F800000 (exponent all ones, fraction zero, sign clear) denotes +∞. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- The rank-0 shape has one index. -/
instance subsingleton_scalar_idx : Subsingleton S_.Idx := ⟨fun a b => funext fun d => d.elim0⟩

/-- One array. If the conjunction over all of its indices of the entrywise test |x| < +∞ (the reduction by "and" over every
    axis, started at 1) comes out 1, the test holds at every index, so every entry is a real number. -/
theorem allReal_of_reduce {S : Shape} {axes : List (Fin S.rank)} (a : FVec Ideal S .f32)
    (hb : S_.BroadcastsInDim S (![] : Fin 0 → Fin S.rank)) (hr : S.ReducesTo axes S_) (hu : 0 < S_.numel)
    (e : Host.reduce IntOp.andi (cmpf .olt (Host.absf a) (broadcastInDim S ![] hb (constant S_ .f32 0x7F800000#32)))
          (constantI S_ 1 1#1) hr hu ValueIdx.ix0 = 1#1) : AllReal a :=
  fun i => real_of_abs_lt_top (a i) (Host.reduce_andi_all _ _ hr hu ValueIdx.ix0 e i)

/-- The precondition "every float input is finite", read at the extended reals: the printed predicate is the conjunction,
    nested to the left, of the fourteen arrays' all-reductions; it is 1 only if each of them is 1, and then every entry
    of every argument array is a real number. -/
theorem allReal_of_pre [Cert.Pre_finite_inputs.Facts]
    (a0 : FVec Ideal S5000x256 .f32) (a1 a2 a3 a4 a5 : FVec Ideal S5000x5000 .f32)
    (a6 : FVec Ideal S4x256x32 .f32) (a7 : FVec Ideal S4x64x1 .f32)
    (a8 a9 : FVec Ideal S256 .f32) (a10 a11 : FVec Ideal S32 .f32)
    (a12 : FVec Ideal S128x10 .f32) (a13 : FVec Ideal S10 .f32)
    (h : Cert.Pre_finite_inputs.fn (F := Ideal) a0 a1 a2 a3 a4 a5 a6 a7 a8 a9 a10 a11 a12 a13 = fun _ => 1#1) :
    AllReal a0 ∧ AllReal a1 ∧ AllReal a2 ∧ AllReal a3 ∧ AllReal a4 ∧ AllReal a5 ∧ AllReal a6 ∧ AllReal a7
      ∧ AllReal a8 ∧ AllReal a9 ∧ AllReal a10 ∧ AllReal a11 ∧ AllReal a12 ∧ AllReal a13 := by
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨allReal_of_reduce a0 _ _ _ e0, allReal_of_reduce a1 _ _ _ e1, allReal_of_reduce a2 _ _ _ e2,
    allReal_of_reduce a3 _ _ _ e3, allReal_of_reduce a4 _ _ _ e4, allReal_of_reduce a5 _ _ _ e5,
    allReal_of_reduce a6 _ _ _ e6, allReal_of_reduce a7 _ _ _ e7, allReal_of_reduce a8 _ _ _ e8,
    allReal_of_reduce a9 _ _ _ e9, allReal_of_reduce a10 _ _ _ e10, allReal_of_reduce a11 _ _ _ e11,
    allReal_of_reduce a12 _ _ _ e12, allReal_of_reduce a13 _ _ _ e13⟩

end Cert.KernelIdeal.Val

end
-- ==== Proof.lean ====
/-
  Equivalence, over the extended reals, of a two-kernel TPU program with its array-level reference: a four-head
  scattering-attention graph layer followed by a residual-smoothed graph convolution and a row log-softmax, on 5000 nodes.

  The kernel program fuses the four heads: one 5000 x 128 matrix of projected features (the heads side by side on 128
  lanes), each of the four dense 5000 x 5000 operators applied to it once in blocks of 200 rows, the per-head attention
  scores taken by products with 0/1 matrices that sum or repeat over each group of 32 lanes; then batch norm, relu, the
  classifier and the smoothing in blocks of 1000 rows. The reference treats the heads one at a time. With every format
  change the identity and every operation exact, the two compute the same extended reals once every input is a real number:
  the sums are regrouped; x * rsqrt(v) is x / sqrt(v) for v > 0; w * (1/s) is w / s for s > 0; and the kernel's factor 2/3,
  named as that fraction, is the reference's division by 1.5.

  The claim's five parts: each program runs to the end without a fault and leaves its arguments as they were (the two
  kernel programs by the pipelines' frame rules over each kernel body's symbolic run, the scratch each kernel fills at its
  first grid point carried in the region invariant; the reference by its run, operation by operation); the idealized kernel
  program is the printed one's sanctioned idealization (one named constant); and the two idealized programs end with equal
  results (the value bridge).
-/
import proofs.«113748_g69337952026834_cont_sun_c4_16_16_alg».proof.Defs
import proofs.«113748_g69337952026834_cont_sun_c4_16_16_alg».proof.Proof.K.Frame
import proofs.«113748_g69337952026834_cont_sun_c4_16_16_alg».proof.Proof.KI.Algebraic
import proofs.«113748_g69337952026834_cont_sun_c4_16_16_alg».proof.Proof.Math.A
import proofs.«113748_g69337952026834_cont_sun_c4_16_16_alg».proof.Proof.Math.B
import proofs.«113748_g69337952026834_cont_sun_c4_16_16_alg».proof.Proof.Math.C
import proofs.«113748_g69337952026834_cont_sun_c4_16_16_alg».proof.Proof.Math.F
import proofs.«113748_g69337952026834_cont_sun_c4_16_16_alg».proof.Proof.Gen.Kernel
import proofs.«113748_g69337952026834_cont_sun_c4_16_16_alg».proof.Proof.Gen.KernelIdeal
import proofs.«113748_g69337952026834_cont_sun_c4_16_16_alg».proof.Proof.Gen.ReferenceIdeal
import proofs.«113748_g69337952026834_cont_sun_c4_16_16_alg».proof.Proof.Gen.Pre_finite_inputs

noncomputable section

namespace Cert.Proof

open Idealize.ShloMosaic Idealize.SL.Sem

/-- The printed kernel program runs, faults nowhere, and leaves its arguments unchanged. -/
theorem frame_K : Cert.frame_Kernel (hKernel := Cert.Kernel.Gen.facts) (hPre_finite_inputs := Cert.Pre_finite_inputs.Gen.facts) :=
  fun m ρ _ => Cert.Kernel.Hand.frame m ρ

/-- So does the idealized kernel program. -/
theorem frame_KI : Cert.frame_KernelIdeal (hKernelIdeal := Cert.KernelIdeal.Gen.facts) (hPre_finite_inputs := Cert.Pre_finite_inputs.Gen.facts) :=
  fun m ρ _ => Cert.KernelIdeal.Hand.frame m ρ

/-- So does the idealized reference: its run, with the result dropped. -/
theorem frame_RI : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.HandRun.run (F := Ideal) m ρ)

/-- The one rewrite of the idealization: the smoothing kernel's literal nearest 2/3 is named 2/3. -/
theorem preserves : Cert.preserves_Kernel_KernelIdeal :=
  IdealRules.named_const.statement Cert.KernelIdeal.κ "c_2_3" .f32 0x3F2AAAAB#32 ((2 / 3 : ℝ) : EReal) rfl

/-- The two idealized programs end with equal results. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) :=
  Cert.KernelIdeal.Hand.algebraic_of
    (fun x g0 b0 Wh hx hg hb hW => Cert.KernelIdeal.Val.feat_head x g0 b0 Wh hx hg hb hW)
    (fun t ht ah A s1 s2 s3 Ab s1b s2b s3b H h hAb h1 h2 h3 hH ra rA r1 r2 r3 rH =>
      Cert.KernelIdeal.Val.attOut_head t ht ah A s1 s2 s3 Ab s1b s2b s3b H h hAb h1 h2 h3 hH ra rA r1 r2 r3 rH)
    (fun mx mh g1 b1 gcW gcb hm rm rg rb rW rc => Cert.KernelIdeal.Val.supMat_eq mx mh g1 b1 gcW gcb hm rm rg rb rW rc)
    (fun t ht adj adjb S hadj radj rS => Cert.KernelIdeal.Val.smOut_eq t ht adj adjb S hadj radj rS)
    (fun a0 a1 a2 a3 a4 a5 a6 a7 a8 a9 a10 a11 a12 a13 h => Cert.KernelIdeal.Val.allReal_of_pre a0 a1 a2 a3 a4 a5 a6 a7 a8 a9 a10 a11 a12 a13 h)

theorem claim : Cert.Claim :=
  ⟨Cert.Kernel.Gen.facts, Cert.KernelIdeal.Gen.facts, Cert.ReferenceIdeal.Gen.facts, Cert.Pre_finite_inputs.Gen.facts,
    frame_K, frame_KI, frame_RI, preserves, algebraic⟩

end Cert.Proof

end
